-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S20000 : Shape := ⟨1, ![20000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg20 : FVec F S512 .f32) (main_arg21 : FVec F S512x64 .f32) (main_arg22 : FVec F S64 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg20
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x64 .f32 := Host.absf main_arg21
  let main_cst_36 : FVec F S_ .f32 := constant S_ .f32 0x7F800000#32
  let main_v95 : FVec F S512x64 .f32 := broadcastInDim S512x64 ![] bcast_S_S512x64 main_cst_36
  let main_v96 : IVec S512x64 1 := cmpf .olt main_v94 main_v95
  let main_c_37 : IVec S_ 1 := constantI S_ 1 1#1
  let main_v97 : IVec S_ 1 := (fun x v => Host.reduce IntOp.andi x v reducesTo_S512x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg16 : FVec F S512 .f32) (main_arg17 : FVec F S512x512 .f32) (main_arg18 : FVec F S512 .f32) (main_arg19 : FVec F S512 .f32) (main_arg20 : FVec F S512 .f32) (main_arg21 : FVec F S512x64 .f32) (main_arg22 : FVec F S64 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg17
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg18
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S256 .f32) (main_arg14 : FVec F S256 .f32) (main_arg15 : FVec F S256x512 .f32) (main_arg16 : FVec F S512 .f32) (main_arg17 : FVec F S512x512 .f32) (main_arg18 : FVec F S512 .f32) (main_arg19 : FVec F S512 .f32) (main_arg20 : FVec F S512 .f32) (main_arg21 : FVec F S512x64 .f32) (main_arg22 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x512 .f32 := Host.absf main_arg15
  let main_cst_24 : FVec F S_ .f32 := constant S_ .f32 0x7F800000#32
  let main_v65 : FVec F S256x512 .f32 := broadcastInDim S256x512 ![] bcast_S_S256x512 main_cst_24
  let main_v66 : IVec S256x512 1 := cmpf .olt main_v64 main_v65
  let main_c_25 : IVec S_ 1 := constantI S_ 1 1#1
  let main_v67 : IVec S_ 1 := (fun x v => Host.reduce IntOp.andi x v reducesTo_S256x512_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S128x256 .f32) (main_arg10 : FVec F S256 .f32) (main_arg11 : FVec F S256x256 .f32) (main_arg12 : FVec F S256 .f32) (main_arg13 : FVec F S256 .f32) (main_arg14 : FVec F S256 .f32) (main_arg15 : FVec F S256x512 .f32) (main_arg16 : FVec F S512 .f32) (main_arg17 : FVec F S512x512 .f32) (main_arg18 : FVec F S512 .f32) (main_arg19 : FVec F S512 .f32) (main_arg20 : FVec F S512 .f32) (main_arg21 : FVec F S512x64 .f32) (main_arg22 : FVec F S64 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128 .f32) (main_arg9 : FVec F S128x256 .f32) (main_arg10 : FVec F S256 .f32) (main_arg11 : FVec F S256x256 .f32) (main_arg12 : FVec F S256 .f32) (main_arg13 : FVec F S256 .f32) (main_arg14 : FVec F S256 .f32) (main_arg15 : FVec F S256x512 .f32) (main_arg16 : FVec F S512 .f32) (main_arg17 : FVec F S512x512 .f32) (main_arg18 : FVec F S512 .f32) (main_arg19 : FVec F S512 .f32) (main_arg20 : FVec F S512 .f32) (main_arg21 : FVec F S512x64 .f32) (main_arg22 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S20000x128 .f32) (main_arg1 : IVec S2x320000 32) (main_arg2 : IVec S20000 32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128x256 .f32) (main_arg10 : FVec F S256 .f32) (main_arg11 : FVec F S256x256 .f32) (main_arg12 : FVec F S256 .f32) (main_arg13 : FVec F S256 .f32) (main_arg14 : FVec F S256 .f32) (main_arg15 : FVec F S256x512 .f32) (main_arg16 : FVec F S512 .f32) (main_arg17 : FVec F S512x512 .f32) (main_arg18 : FVec F S512 .f32) (main_arg19 : FVec F S512 .f32) (main_arg20 : FVec F S512 .f32) (main_arg21 : FVec F S512x64 .f32) (main_arg22 : FVec F S64 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S20000x128 : Shape := ⟨2, ![20000, 128]⟩
abbrev S2x320000 : Shape := ⟨2, ![2, 320000]⟩
abbrev S20000 : Shape := ⟨1, ![20000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S1000x128 : Shape := ⟨2, ![1000, 128]⟩
abbrev S1x256 : Shape := ⟨2, ![1, 256]⟩
abbrev S20000x256 : Shape := ⟨2, ![20000, 256]⟩
abbrev S1000x256 : Shape := ⟨2, ![1000, 256]⟩
abbrev S320000x256 : Shape := ⟨2, ![320000, 256]⟩
abbrev S1x512 : Shape := ⟨2, ![1, 512]⟩
abbrev S20000x512 : Shape := ⟨2, ![20000, 512]⟩
abbrev S1000x512 : Shape := ⟨2, ![1000, 512]⟩
abbrev S64x512 : Shape := ⟨2, ![64, 512]⟩
abbrev S20000x1 : Shape := ⟨2, ![20000, 1]⟩
abbrev S64x1 : Shape := ⟨2, ![64, 1]⟩
abbrev S64x64 : Shape := ⟨2, ![64, 64]⟩
abbrev S1x64 : Shape := ⟨2, ![1, 64]⟩

abbrev nBuf : Space → Nat
  | .hbm => 161
  | .vmem => 60
  | .smem => 0
  | _ => 0

abbrev hbmTy0_0 (i : Nat) : BufTy := match i % 128 with
  | 0 => ⟨S20000x128, .f32⟩
  | 1 => ⟨S2x320000, .i32⟩
  | 2 => ⟨S20000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x256, .f32⟩
  | 10 => ⟨S256, .f32⟩
  | 11 => ⟨S256x256, .f32⟩
  | 12 => ⟨S256, .f32⟩
  | 13 => ⟨S256, .f32⟩
  | 14 => ⟨S256, .f32⟩
  | 15 => ⟨S256x512, .f32⟩
  | 16 => ⟨S512, .f32⟩
  | 17 => ⟨S512x512, .f32⟩
  | 18 => ⟨S512, .f32⟩
  | 19 => ⟨S512, .f32⟩
  | 20 => ⟨S512, .f32⟩
  | 21 => ⟨S512x64, .f32⟩
  | 22 => ⟨S64, .f32⟩
  | 23 => ⟨S1x320000, .i32⟩
  | 24 => ⟨S320000, .i32⟩
  | 25 => ⟨S1x320000, .i32⟩
  | 26 => ⟨S320000, .i32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x128, .f32⟩
  | 36 => ⟨S_, .f32⟩
  | 37 => ⟨S20000x128, .f32⟩
  | 38 => ⟨S320000x1, .i32⟩
  | 39 => ⟨S20000x128, .f32⟩
  | 40 => ⟨S1x128, .f32⟩
  | 41 => ⟨S1x128, .f32⟩
  | 42 => ⟨S20000x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S128, .f32⟩
  | 49 => ⟨S_, .f32⟩
  | 50 => ⟨S1x128, .f32⟩
  | 51 => ⟨S1x128, .f32⟩
  | 52 => ⟨S128, .f32⟩
  | 53 => ⟨S128, .f32⟩
  | 54 => ⟨S128, .f32⟩
  | 55 => ⟨S_, .f32⟩
  | 56 => ⟨S128, .f32⟩
  | 57 => ⟨S128, .f32⟩
  | 58 => ⟨S128, .f32⟩
  | 59 => ⟨S1x128, .f32⟩
  | 60 => ⟨S1x128, .f32⟩
  | 61 => ⟨S1x128, .f32⟩
  | 62 => ⟨S1x128, .f32⟩
  | 63 => ⟨S20000x128, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S320000x128, .f32⟩
  | 73 => ⟨S_, .f32⟩
  | 74 => ⟨S20000x128, .f32⟩
  | 75 => ⟨S320000x1, .i32⟩
  | 76 => ⟨S20000x128, .f32⟩
  | 77 => ⟨S1x256, .f32⟩
  | 78 => ⟨S1x256, .f32⟩
  | 79 => ⟨S20000x256, .f32⟩
  | 80 => ⟨S1x256, .f32⟩
  | 81 => ⟨S1x256, .f32⟩
  | 82 => ⟨S_, .f32⟩
  | 83 => ⟨S1x256, .f32⟩
  | 84 => ⟨S1x256, .f32⟩
  | 85 => ⟨S256, .f32⟩
  | 86 => ⟨S_, .f32⟩
  | 87 => ⟨S1x256, .f32⟩
  | 88 => ⟨S1x256, .f32⟩
  | 89 => ⟨S256, .f32⟩
  | 90 => ⟨S256, .f32⟩
  | 91 => ⟨S256, .f32⟩
  | 92 => ⟨S_, .f32⟩
  | 93 => ⟨S256, .f32⟩
  | 94 => ⟨S256, .f32⟩
  | 95 => ⟨S256, .f32⟩
  | 96 => ⟨S1x256, .f32⟩
  | 97 => ⟨S1x256, .f32⟩
  | 98 => ⟨S1x256, .f32⟩
  | 99 => ⟨S1x256, .f32⟩
  | 100 => ⟨S20000x256, .f32⟩
  | 101 => ⟨S_, .i32⟩
  | 102 => ⟨S320000, .i32⟩
  | 103 => ⟨S320000, .i1⟩
  | 104 => ⟨S_, .i32⟩
  | 105 => ⟨S320000, .i32⟩
  | 106 => ⟨S320000, .i32⟩
  | 107 => ⟨S320000, .i32⟩
  | 108 => ⟨S320000x1, .i32⟩
  | 109 => ⟨S320000x256, .f32⟩
  | 110 => ⟨S_, .f32⟩
  | 111 => ⟨S20000x256, .f32⟩
  | 112 => ⟨S320000x1, .i32⟩
  | 113 => ⟨S20000x256, .f32⟩
  | 114 => ⟨S1x512, .f32⟩
  | 115 => ⟨S1x512, .f32⟩
  | 116 => ⟨S20000x512, .f32⟩
  | 117 => ⟨S1x512, .f32⟩
  | 118 => ⟨S1x512, .f32⟩
  | 119 => ⟨S_, .f32⟩
  | 120 => ⟨S1x512, .f32⟩
  | 121 => ⟨S1x512, .f32⟩
  | 122 => ⟨S512, .f32⟩
  | 123 => ⟨S_, .f32⟩
  | 124 => ⟨S1x512, .f32⟩
  | 125 => ⟨S1x512, .f32⟩
  | 126 => ⟨S512, .f32⟩
  | 127 => ⟨S512, .f32⟩
  | _ => ⟨S20000x128, .f32⟩

abbrev hbmTy0_1 (i : Nat) : BufTy := match i % 128 with
  | 0 => ⟨S512, .f32⟩
  | 1 => ⟨S_, .f32⟩
  | 2 => ⟨S512, .f32⟩
  | 3 => ⟨S512, .f32⟩
  | 4 => ⟨S512, .f32⟩
  | 5 => ⟨S1x512, .f32⟩
  | 6 => ⟨S1x512, .f32⟩
  | 7 => ⟨S1x512, .f32⟩
  | 8 => ⟨S1x512, .f32⟩
  | 9 => ⟨S20000x512, .f32⟩
  | 10 => ⟨S_, .f32⟩
  | 11 => ⟨S64x512, .f32⟩
  | 12 => ⟨S20000x1, .i32⟩
  | 13 => ⟨S64x512, .f32⟩
  | 14 => ⟨S_, .f32⟩
  | 15 => ⟨S20000, .f32⟩
  | 16 => ⟨S_, .f32⟩
  | 17 => ⟨S64, .f32⟩
  | 18 => ⟨S20000x1, .i32⟩
  | 19 => ⟨S64, .f32⟩
  | 20 => ⟨S_, .f32⟩
  | 21 => ⟨S64, .f32⟩
  | 22 => ⟨S64, .f32⟩
  | 23 => ⟨S64x1, .f32⟩
  | 24 => ⟨S64x512, .f32⟩
  | 25 => ⟨S64x512, .f32⟩
  | 26 => ⟨S64x64, .f32⟩
  | 27 => ⟨S1x64, .f32⟩
  | 28 => ⟨S64x64, .f32⟩
  | 29 => ⟨S64x64, .f32⟩
  | 30 => ⟨S_, .f32⟩
  | 31 => ⟨S64x64, .f32⟩
  | 32 => ⟨S64x64, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1000x128, .f32⟩
  | .local _ .vmem, ⟨9, _⟩ => ⟨S1000x128, .f32⟩
  | .local _ .vmem, ⟨10, _⟩ => ⟨S1x128, .f32⟩
  | .local _ .vmem, ⟨11, _⟩ => ⟨S1x128, .f32⟩
  | .local _ .vmem, ⟨12, _⟩ => ⟨S1000x128, .f32⟩
  | .local _ .vmem, ⟨13, _⟩ => ⟨S1000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S128x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S1000x256, .f32⟩
  | .local _ .vmem, ⟨29, _⟩ => ⟨S1000x256, .f32⟩
  | .local _ .vmem, ⟨30, _⟩ => ⟨S1x256, .f32⟩
  | .local _ .vmem, ⟨31, _⟩ => ⟨S1x256, .f32⟩
  | .local _ .vmem, ⟨32, _⟩ => ⟨S1000x256, .f32⟩
  | .local _ .vmem, ⟨33, _⟩ => ⟨S1000x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1000x256, .f32⟩
  | .local _ .vmem, ⟨39, _⟩ => ⟨S1000x256, .f32⟩
  | .local _ .vmem, ⟨40, _⟩ => ⟨S1000x256, .f32⟩
  | .local _ .vmem, ⟨41, _⟩ => ⟨S1000x256, .f32⟩
  | .local _ .vmem, ⟨42, _⟩ => ⟨S1000x256, .f32⟩
  | .local _ .vmem, ⟨43, _⟩ => ⟨S1000x256, .f32⟩
  | .local _ .vmem, ⟨44, _⟩ => ⟨S256x512, .f32⟩
  | .local _ .vmem, ⟨45, _⟩ => ⟨S1x512, .f32⟩
  | .local _ .vmem, ⟨46, _⟩ => ⟨S512x512, .f32⟩
  | .local _ .vmem, ⟨47, _⟩ => ⟨S1x512, .f32⟩
  | .local _ .vmem, ⟨48, _⟩ => ⟨S1000x512, .f32⟩
  | .local _ .vmem, ⟨49, _⟩ => ⟨S1000x512, .f32⟩
  | .local _ .vmem, ⟨50, _⟩ => ⟨S1x512, .f32⟩
  | .local _ .vmem, ⟨51, _⟩ => ⟨S1x512, .f32⟩
  | .local _ .vmem, ⟨52, _⟩ => ⟨S1000x512, .f32⟩
  | .local _ .vmem, ⟨53, _⟩ => ⟨S1000x512, .f32⟩
  | .local _ .vmem, ⟨54, _⟩ => ⟨S1x512, .f32⟩
  | .local _ .vmem, ⟨55, _⟩ => ⟨S1x512, .f32⟩
  | .local _ .vmem, ⟨56, _⟩ => ⟨S1x512, .f32⟩
  | .local _ .vmem, ⟨57, _⟩ => ⟨S1x512, .f32⟩
  | .local _ .vmem, ⟨58, _⟩ => ⟨S1000x512, .f32⟩
  | .local _ .vmem, ⟨59, _⟩ => ⟨S1000x512, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16_0 : Ref sig .tc := ⟨.hbm, 42, rfl⟩
abbrev main_v16_1 : Ref sig .tc := ⟨.hbm, 43, rfl⟩
abbrev main_v16_2 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_4 : Ref sig .tc := ⟨.hbm, 64, rfl⟩
abbrev main_v33 : Ref sig .tc := ⟨.hbm, 65, rfl⟩
abbrev main_v34 : Ref sig .tc := ⟨.hbm, 66, rfl⟩
abbrev main_c_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45_0 : Ref sig .tc := ⟨.hbm, 79, rfl⟩
abbrev main_v45_1 : Ref sig .tc := ⟨.hbm, 80, rfl⟩
abbrev main_v45_2 : Ref sig .tc := ⟨.hbm, 81, rfl⟩
abbrev main_cst_7 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_8 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_9 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_10 : Ref sig .tc := ⟨.hbm, 101, rfl⟩
abbrev main_v62 : Ref sig .tc := ⟨.hbm, 102, rfl⟩
abbrev main_v63 : Ref sig .tc := ⟨.hbm, 103, rfl⟩
abbrev main_c_11 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_12 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74_0 : Ref sig .tc := ⟨.hbm, 116, rfl⟩
abbrev main_v74_1 : Ref sig .tc := ⟨.hbm, 117, rfl⟩
abbrev main_v74_2 : Ref sig .tc := ⟨.hbm, 118, rfl⟩
abbrev main_cst_13 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_14 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_15 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_16 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_17 : Ref sig .tc := ⟨.hbm, 142, rfl⟩
abbrev main_v94 : Ref sig .tc := ⟨.hbm, 143, rfl⟩
abbrev main_cst_18 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_19 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_20 : Ref sig .tc := ⟨.hbm, 158, rfl⟩
abbrev main_v107 : Ref sig .tc := ⟨.hbm, 159, rfl⟩
abbrev main_v108 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1000x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x512 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x128 : S_.BroadcastsInDim S20000x128 (![] : Fin 0 → Fin S20000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S1000x128 : S1x128.Broadcasts S1000x128
  reduces_S1000x128_S128 : S1000x128.Reduces [0] S128
  bcast_S_S1x128 : S_.BroadcastsInDim S1x128 (![] : Fin 0 → Fin S1x128.rank)
  shapeCasts_S1x128_S128 : S1x128.ShapeCasts S128
  bcast_S_S128 : S_.BroadcastsInDim S128 (![] : Fin 0 → Fin S128.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S128x256_S128x256_0_0 : ∀ a, (![0, 0] : Fin 2 → Nat) a + S128x256.size a ≤ S128x256.size a
  h_S128x256 : 0 < S128x256.numel
  shapeCasts_S1x256_S1x256 : S1x256.ShapeCasts S1x256
  broadcasts_S1x256_S1000x256 : S1x256.Broadcasts S1000x256
  inb_S256x256_S256x256_0_0 : ∀ a, (![0, 0] : Fin 2 → Nat) a + S256x256.size a ≤ S256x256.size a
  h_S256x256 : 0 < S256x256.numel
  inb_S1000x256_S1000x256_0_0 : ∀ a, (![0, 0] : Fin 2 → Nat) a + S1000x256.size a ≤ S1000x256.size a
  h_S1000x256 : 0 < S1000x256.numel
  reduces_S1000x256_S256 : S1000x256.Reduces [0] S256
  bcast_S_S1x256 : S_.BroadcastsInDim S1x256 (![] : Fin 0 → Fin S1x256.rank)
  shapeCasts_S1x256_S256 : S1x256.ShapeCasts S256
  bcast_S_S256 : S_.BroadcastsInDim S256 (![] : Fin 0 → Fin S256.rank)
  shapeCasts_S1000x256_S1000x256 : S1000x256.ShapeCasts S1000x256
  bcast_S_S20000x256 : S_.BroadcastsInDim S20000x256 (![] : Fin 0 → Fin S20000x256.rank)
  shapeCasts_S512_S1x512 : S512.ShapeCasts S1x512
  inb_S1x512_S1x512_0_0 : ∀ a, (![0, 0] : Fin 2 → Nat) a + S1x512.size a ≤ S1x512.size a
  h_S1x512 : 0 < S1x512.numel
  inb_S256x512_S256x512_0_0 : ∀ a, (![0, 0] : Fin 2 → Nat) a + S256x512.size a ≤ S256x512.size a
  h_S256x512 : 0 < S256x512.numel
  shapeCasts_S1x512_S1x512 : S1x512.ShapeCasts S1x512
  broadcasts_S1x512_S1000x512 : S1x512.Broadcasts S1000x512
  inb_S512x512_S512x512_0_0 : ∀ a, (![0, 0] : Fin 2 → Nat) a + S512x512.size a ≤ S512x512.size a
  h_S512x512 : 0 < S512x512.numel
  inb_S1000x512_S1000x512_0_0 : ∀ a, (![0, 0] : Fin 2 → Nat) a + S1000x512.size a ≤ S1000x512.size a
  h_S1000x512 : 0 < S1000x512.numel
  reduces_S1000x512_S512 : S1000x512.Reduces [0] S512
  bcast_S_S1x512 : S_.BroadcastsInDim S1x512 (![] : Fin 0 → Fin S1x512.rank)
  shapeCasts_S1x512_S512 : S1x512.ShapeCasts S512
  bcast_S_S512 : S_.BroadcastsInDim S512 (![] : Fin 0 → Fin S512.rank)
  shapeCasts_S1000x512_S1000x512 : S1000x512.ShapeCasts S1000x512
  bcast_S_S64x512 : S_.BroadcastsInDim S64x512 (![] : Fin 0 → Fin S64x512.rank)
  bcast_S20000_S20000x1_0 : S20000.BroadcastsInDim S20000x1 (![0] : Fin 1 → Fin S20000x1.rank)
  bcast_S_S20000 : S_.BroadcastsInDim S20000 (![] : Fin 0 → Fin S20000.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S1000x128_S128x128_S1000x128_1_0_0_1_n_n_wf : DotDims.WF S1000x128 S128x128 S1000x128 [1] [0] [0] [1] [] []
  dot_S1000x128_S128x256_S1000x256_1_0_0_1_n_n_wf : DotDims.WF S1000x128 S128x256 S1000x256 [1] [0] [0] [1] [] []
  dot_S1000x256_S256x256_S1000x256_1_0_0_1_n_n_wf : DotDims.WF S1000x256 S256x256 S1000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S1000x256_S256x512_S1000x512_1_0_0_1_n_n_wf : DotDims.WF S1000x256 S256x512 S1000x512 [1] [0] [0] [1] [] []
  dot_S1000x512_S512x512_S1000x512_1_0_0_1_n_n_wf : DotDims.WF S1000x512 S512x512 S1000x512 [1] [0] [0] [1] [] []
  scatter_S64x512_S20000x1_S20000x512_1_0_0_1_wf : ScatterDims.WF S64x512 S20000x1 S20000x512 [1] [0] [0] 1
  scatter_S64_S20000x1_S20000_n_0_0_1_wf : ScatterDims.WF S64 S20000x1 S20000 [] [0] [0] 1
  dot_S64x512_S512x64_S64x64_1_0_0_1_n_n_wf : DotDims.WF S64x512 S512x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S20000x128.size a
  hwx0_0 : ∀ i : grid0.Coords, EltTy.bits .f32 = 32 ∨ (Rect.block (s := S20000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S20000x128.size a
  hwx0_1 : ∀ i : grid0.Coords, EltTy.bits .f32 = 32 ∨ (Rect.block (s := S20000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S20000x128.size a
  hwx0_6 : ∀ i : grid0.Coords, EltTy.bits .f32 = 32 ∨ (Rect.block (s := S20000x128) S1000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S20000x128.size a
  hwx1_0 : ∀ i : grid1.Coords, EltTy.bits .f32 = 32 ∨ (Rect.block (s := S20000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S20000x128.size a
  hwx1_5 : ∀ i : grid1.Coords, EltTy.bits .f32 = 32 ∨ (Rect.block (s := S20000x128) S1000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S20000x128.size a
  hwx2_0 : ∀ i : grid2.Coords, EltTy.bits .f32 = 32 ∨ (Rect.block (s := S20000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S20000x128.size a
  hwx2_1 : ∀ i : grid2.Coords, EltTy.bits .f32 = 32 ∨ (Rect.block (s := S20000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x256.size a ≤ S20000x256.size a
  hwx2_6 : ∀ i : grid2.Coords, EltTy.bits .f32 = 32 ∨ (Rect.block (s := S20000x256) S1000x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S20000x256.size a
  hwx3_0 : ∀ i : grid3.Coords, EltTy.bits .f32 = 32 ∨ (Rect.block (s := S20000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x256.size a ≤ S20000x256.size a
  hwx3_5 : ∀ i : grid3.Coords, EltTy.bits .f32 = 32 ∨ (Rect.block (s := S20000x256) S1000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S20000x256.size a
  hwx4_0 : ∀ i : grid4.Coords, EltTy.bits .f32 = 32 ∨ (Rect.block (s := S20000x256) S1000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x256.size a ≤ S20000x256.size a
  hwx4_1 : ∀ i : grid4.Coords, EltTy.bits .f32 = 32 ∨ (Rect.block (s := S20000x256) S1000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x512.size a ≤ S256x512.size a
  hwx4_2 : ∀ i : grid4.Coords, EltTy.bits .f32 = 32 ∨ (Rect.block (s := S256x512) S256x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x512.size a ≤ S512x512.size a
  hwx4_4 : ∀ i : grid4.Coords, EltTy.bits .f32 = 32 ∨ (Rect.block (s := S512x512) S512x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x512.size a ≤ S1x512.size a
  hwx4_5 : ∀ i : grid4.Coords, EltTy.bits .f32 = 32 ∨ (Rect.block (s := S1x512) S1x512.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x512.size a ≤ S20000x512.size a
  hwx4_6 : ∀ i : grid4.Coords, EltTy.bits .f32 = 32 ∨ (Rect.block (s := S20000x512) S1000x512.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x512.size a ≤ S1x512.size a
  hwx4_7 : ∀ i : grid4.Coords, EltTy.bits .f32 = 32 ∨ (Rect.block (s := S1x512) S1x512.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x512.size a ≤ S1x512.size a
  hwx4_8 : ∀ i : grid4.Coords, EltTy.bits .f32 = 32 ∨ (Rect.block (s := S1x512) S1x512.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x512.size a ≤ S20000x512.size a
  hwx5_0 : ∀ i : grid5.Coords, EltTy.bits .f32 = 32 ∨ (Rect.block (s := S20000x512) S1000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x512.size a ≤ S1x512.size a
  hwx5_1 : ∀ i : grid5.Coords, EltTy.bits .f32 = 32 ∨ (Rect.block (s := S1x512) S1x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x512.size a ≤ S20000x512.size a
  hwx5_5 : ∀ i : grid5.Coords, EltTy.bits .f32 = 32 ∨ (Rect.block (s := S20000x512) S1000x512.size (cc5_transform_5 i) (hinb5_5 i)).WholeWords (EltTy.packing .f32)

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def scatter_S64x512_S20000x1_S20000x512_1_0_0_1 : ScatterDims S64x512 S20000x1 S20000x512 where
  updateWindowDims := [1]
  insertedWindowDims := [0]
  scatterDimsToOperandDims := [0]
  indexVectorDim := 1
  wf := scatter_S64x512_S20000x1_S20000x512_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S1000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v32) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45_0) S1000x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v45_1) S1x256.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v45_2) S1x256.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v45_0) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S1000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v61) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S256x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S512x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S1x512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v74_0) S1000x512.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v74_1) S1x512.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v74_2) S1x512.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v74_0) S1000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S1000x512.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S20000 : Shape := ⟨1, ![20000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S20000x256 : Shape := ⟨2, ![20000, 256]⟩
abbrev S1x256 : Shape := ⟨2, ![1, 256]⟩
abbrev S320000x256 : Shape := ⟨2, ![320000, 256]⟩
abbrev S20000x512 : Shape := ⟨2, ![20000, 512]⟩
abbrev S1x512 : Shape := ⟨2, ![1, 512]⟩
abbrev S64x512 : Shape := ⟨2, ![64, 512]⟩
abbrev S20000x1 : Shape := ⟨2, ![20000, 1]⟩
abbrev S64x1 : Shape := ⟨2, ![64, 1]⟩
abbrev S64x64 : Shape := ⟨2, ![64, 64]⟩
abbrev S1x64 : Shape := ⟨2, ![1, 64]⟩

abbrev nBuf : Space → Nat
  | .hbm => 266
  | .vmem => 0
  | .smem => 0
  | _ => 0

abbrev hbmTy0_0 (i : Nat) : BufTy := match i % 128 with
  | 0 => ⟨S20000x128, .f32⟩
  | 1 => ⟨S2x320000, .i32⟩
  | 2 => ⟨S20000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x256, .f32⟩
  | 10 => ⟨S256, .f32⟩
  | 11 => ⟨S256x256, .f32⟩
  | 12 => ⟨S256, .f32⟩
  | 13 => ⟨S256, .f32⟩
  | 14 => ⟨S256, .f32⟩
  | 15 => ⟨S256x512, .f32⟩
  | 16 => ⟨S512, .f32⟩
  | 17 => ⟨S512x512, .f32⟩
  | 18 => ⟨S512, .f32⟩
  | 19 => ⟨S512, .f32⟩
  | 20 => ⟨S512, .f32⟩
  | 21 => ⟨S512x64, .f32⟩
  | 22 => ⟨S64, .f32⟩
  | 23 => ⟨S1x320000, .i32⟩
  | 24 => ⟨S320000, .i32⟩
  | 25 => ⟨S1x320000, .i32⟩
  | 26 => ⟨S320000, .i32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x128, .f32⟩
  | 36 => ⟨S_, .f32⟩
  | 37 => ⟨S20000x128, .f32⟩
  | 38 => ⟨S320000x1, .i32⟩
  | 39 => ⟨S20000x128, .f32⟩
  | 40 => ⟨S20000x128, .f32⟩
  | 41 => ⟨S20000x128, .f32⟩
  | 42 => ⟨S1x128, .f32⟩
  | 43 => ⟨S20000x128, .f32⟩
  | 44 => ⟨S20000x128, .f32⟩
  | 45 => ⟨S_, .f32⟩
  | 46 => ⟨S20000x128, .f32⟩
  | 47 => ⟨S20000x128, .f32⟩
  | 48 => ⟨S20000x128, .f32⟩
  | 49 => ⟨S1x128, .f32⟩
  | 50 => ⟨S20000x128, .f32⟩
  | 51 => ⟨S20000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S20000x128, .f32⟩
  | 65 => ⟨S20000x128, .f32⟩
  | 66 => ⟨S20000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S20000x128, .f32⟩
  | 82 => ⟨S20000x128, .f32⟩
  | 83 => ⟨S_, .f32⟩
  | 84 => ⟨S128, .f32⟩
  | 85 => ⟨S128, .f32⟩
  | 86 => ⟨S128, .f32⟩
  | 87 => ⟨S1x128, .f32⟩
  | 88 => ⟨S20000x128, .f32⟩
  | 89 => ⟨S20000x128, .f32⟩
  | 90 => ⟨S1x128, .f32⟩
  | 91 => ⟨S20000x128, .f32⟩
  | 92 => ⟨S20000x128, .f32⟩
  | 93 => ⟨S1x128, .f32⟩
  | 94 => ⟨S20000x128, .f32⟩
  | 95 => ⟨S20000x128, .f32⟩
  | 96 => ⟨S_, .f32⟩
  | 97 => ⟨S20000x128, .f32⟩
  | 98 => ⟨S20000x128, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000x128, .f32⟩
  | 108 => ⟨S_, .f32⟩
  | 109 => ⟨S20000x128, .f32⟩
  | 110 => ⟨S320000x1, .i32⟩
  | 111 => ⟨S20000x128, .f32⟩
  | 112 => ⟨S20000x128, .f32⟩
  | 113 => ⟨S20000x256, .f32⟩
  | 114 => ⟨S1x256, .f32⟩
  | 115 => ⟨S20000x256, .f32⟩
  | 116 => ⟨S20000x256, .f32⟩
  | 117 => ⟨S_, .f32⟩
  | 118 => ⟨S20000x256, .f32⟩
  | 119 => ⟨S20000x256, .f32⟩
  | 120 => ⟨S20000x256, .f32⟩
  | 121 => ⟨S1x256, .f32⟩
  | 122 => ⟨S20000x256, .f32⟩
  | 123 => ⟨S20000x256, .f32⟩
  | 124 => ⟨S_, .f32⟩
  | 125 => ⟨S256, .f32⟩
  | 126 => ⟨S_, .f32⟩
  | 127 => ⟨S256, .f32⟩
  | _ => ⟨S20000x128, .f32⟩

abbrev hbmTy0_1 (i : Nat) : BufTy := match i % 128 with
  | 0 => ⟨S256, .f32⟩
  | 1 => ⟨S_, .i32⟩
  | 2 => ⟨S_, .f32⟩
  | 3 => ⟨S256, .f32⟩
  | 4 => ⟨S1x256, .f32⟩
  | 5 => ⟨S_, .f32⟩
  | 6 => ⟨S1x256, .f32⟩
  | 7 => ⟨S1x256, .f32⟩
  | 8 => ⟨S20000x256, .f32⟩
  | 9 => ⟨S20000x256, .f32⟩
  | 10 => ⟨S20000x256, .f32⟩
  | 11 => ⟨S_, .f32⟩
  | 12 => ⟨S_, .f32⟩
  | 13 => ⟨S_, .f32⟩
  | 14 => ⟨S_, .f32⟩
  | 15 => ⟨S256, .f32⟩
  | 16 => ⟨S256, .f32⟩
  | 17 => ⟨S256, .f32⟩
  | 18 => ⟨S_, .f32⟩
  | 19 => ⟨S_, .i1⟩
  | 20 => ⟨S_, .f32⟩
  | 21 => ⟨S_, .f32⟩
  | 22 => ⟨S256, .f32⟩
  | 23 => ⟨S256, .f32⟩
  | 24 => ⟨S1x256, .f32⟩
  | 25 => ⟨S20000x256, .f32⟩
  | 26 => ⟨S20000x256, .f32⟩
  | 27 => ⟨S_, .f32⟩
  | 28 => ⟨S256, .f32⟩
  | 29 => ⟨S256, .f32⟩
  | 30 => ⟨S256, .f32⟩
  | 31 => ⟨S1x256, .f32⟩
  | 32 => ⟨S20000x256, .f32⟩
  | 33 => ⟨S20000x256, .f32⟩
  | 34 => ⟨S1x256, .f32⟩
  | 35 => ⟨S20000x256, .f32⟩
  | 36 => ⟨S20000x256, .f32⟩
  | 37 => ⟨S1x256, .f32⟩
  | 38 => ⟨S20000x256, .f32⟩
  | 39 => ⟨S20000x256, .f32⟩
  | 40 => ⟨S_, .f32⟩
  | 41 => ⟨S20000x256, .f32⟩
  | 42 => ⟨S20000x256, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000x256, .f32⟩
  | 52 => ⟨S_, .f32⟩
  | 53 => ⟨S20000x256, .f32⟩
  | 54 => ⟨S320000x1, .i32⟩
  | 55 => ⟨S20000x256, .f32⟩
  | 56 => ⟨S20000x256, .f32⟩
  | 57 => ⟨S20000x512, .f32⟩
  | 58 => ⟨S1x512, .f32⟩
  | 59 => ⟨S20000x512, .f32⟩
  | 60 => ⟨S20000x512, .f32⟩
  | 61 => ⟨S_, .f32⟩
  | 62 => ⟨S20000x512, .f32⟩
  | 63 => ⟨S20000x512, .f32⟩
  | 64 => ⟨S20000x512, .f32⟩
  | 65 => ⟨S1x512, .f32⟩
  | 66 => ⟨S20000x512, .f32⟩
  | 67 => ⟨S20000x512, .f32⟩
  | 68 => ⟨S_, .f32⟩
  | 69 => ⟨S512, .f32⟩
  | 70 => ⟨S_, .f32⟩
  | 71 => ⟨S512, .f32⟩
  | 72 => ⟨S512, .f32⟩
  | 73 => ⟨S_, .i32⟩
  | 74 => ⟨S_, .f32⟩
  | 75 => ⟨S512, .f32⟩
  | 76 => ⟨S1x512, .f32⟩
  | 77 => ⟨S_, .f32⟩
  | 78 => ⟨S1x512, .f32⟩
  | 79 => ⟨S1x512, .f32⟩
  | 80 => ⟨S20000x512, .f32⟩
  | 81 => ⟨S20000x512, .f32⟩
  | 82 => ⟨S20000x512, .f32⟩
  | 83 => ⟨S_, .f32⟩
  | 84 => ⟨S_, .f32⟩
  | 85 => ⟨S_, .f32⟩
  | 86 => ⟨S_, .f32⟩
  | 87 => ⟨S512, .f32⟩
  | 88 => ⟨S512, .f32⟩
  | 89 => ⟨S512, .f32⟩
  | 90 => ⟨S_, .f32⟩
  | 91 => ⟨S_, .i1⟩
  | 92 => ⟨S_, .f32⟩
  | 93 => ⟨S_, .f32⟩
  | 94 => ⟨S512, .f32⟩
  | 95 => ⟨S512, .f32⟩
  | 96 => ⟨S1x512, .f32⟩
  | 97 => ⟨S20000x512, .f32⟩
  | 98 => ⟨S20000x512, .f32⟩
  | 99 => ⟨S_, .f32⟩
  | 100 => ⟨S512, .f32⟩
  | 101 => ⟨S512, .f32⟩
  | 102 => ⟨S512, .f32⟩
  | 103 => ⟨S1x512, .f32⟩
  | 104 => ⟨S20000x512, .f32⟩
  | 105 => ⟨S20000x512, .f32⟩
  | 106 => ⟨S1x512, .f32⟩
  | 107 => ⟨S20000x512, .f32⟩
  | 108 => ⟨S20000x512, .f32⟩
  | 109 => ⟨S1x512, .f32⟩
  | 110 => ⟨S20000x512, .f32⟩
  | 111 => ⟨S20000x512, .f32⟩
  | 112 => ⟨S_, .f32⟩
  | 113 => ⟨S20000x512, .f32⟩
  | 114 => ⟨S20000x512, .f32⟩
  | 115 => ⟨S_, .f32⟩
  | 116 => ⟨S64x512, .f32⟩
  | 117 => ⟨S20000x1, .i32⟩
  | 118 => ⟨S64x512, .f32⟩
  | 119 => ⟨S_, .f32⟩
  | 120 => ⟨S20000, .f32⟩
  | 121 => ⟨S_, .f32⟩
  | 122 => ⟨S64, .f32⟩
  | 123 => ⟨S20000x1, .i32⟩
  | 124 => ⟨S64, .f32⟩
  | 125 => ⟨S_, .f32⟩
  | 126 => ⟨S64, .f32⟩
  | 127 => ⟨S64, .f32⟩
  | _ => ⟨S20000x128, .f32⟩

abbrev hbmTy0_2 (i : Nat) : BufTy := match i % 128 with
  | 0 => ⟨S64x1, .f32⟩
  | 1 => ⟨S64x512, .f32⟩
  | 2 => ⟨S64x512, .f32⟩
  | 3 => ⟨S64x64, .f32⟩
  | 4 => ⟨S1x64, .f32⟩
  | 5 => ⟨S64x64, .f32⟩
  | 6 => ⟨S64x64, .f32⟩
  | 7 => ⟨S_, .f32⟩
  | 8 => ⟨S64x64, .f32⟩
  | 9 => ⟨S64x64, .f32⟩
  | _ => ⟨S20000x128, .f32⟩

abbrev hbmTy (i : Nat) : BufTy := match i / 128 with
  | 0 => hbmTy0_0 i
  | 1 => hbmTy0_1 i
  | 2 => hbmTy0_2 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_c_4 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_5 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_cst_6 : Ref sig .tc := ⟨.hbm, 96, rfl⟩
abbrev main_v44 : Ref sig .tc := ⟨.hbm, 97, rfl⟩
abbrev main_v45 : Ref sig .tc := ⟨.hbm, 98, rfl⟩
abbrev main_c_7 : Ref sig .tc := ⟨.hbm, 99, rfl⟩
abbrev main_v46 : Ref sig .tc := ⟨.hbm, 100, rfl⟩
abbrev main_v47 : Ref sig .tc := ⟨.hbm, 101, rfl⟩
abbrev main_c_8 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_9 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_cst_10 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_11 : Ref sig .tc := ⟨.hbm, 124, rfl⟩
abbrev main_v67 : Ref sig .tc := ⟨.hbm, 125, rfl⟩
abbrev main_cst_12 : Ref sig .tc := ⟨.hbm, 126, rfl⟩
abbrev main_v68 : Ref sig .tc := ⟨.hbm, 127, rfl⟩
abbrev main_v69 : Ref sig .tc := ⟨.hbm, 128, rfl⟩
abbrev main_c_13 : Ref sig .tc := ⟨.hbm, 129, rfl⟩
abbrev main_call1_cst : Ref sig .tc := ⟨.hbm, 130, rfl⟩
abbrev main_call1_v0 : Ref sig .tc := ⟨.hbm, 131, rfl⟩
abbrev main_call1_v1 : Ref sig .tc := ⟨.hbm, 132, rfl⟩
abbrev main_call1_cst_0 : Ref sig .tc := ⟨.hbm, 133, rfl⟩
abbrev main_call1_v2 : Ref sig .tc := ⟨.hbm, 134, rfl⟩
abbrev main_call1_v3 : Ref sig .tc := ⟨.hbm, 135, rfl⟩
abbrev main_call1_v4 : Ref sig .tc := ⟨.hbm, 136, rfl⟩
abbrev main_call1_v5 : Ref sig .tc := ⟨.hbm, 137, rfl⟩
abbrev main_call1_v6 : Ref sig .tc := ⟨.hbm, 138, rfl⟩
abbrev main_call1_v7 : Ref sig .tc := ⟨.hbm, 139, rfl⟩
abbrev main_call1_cst_1 : Ref sig .tc := ⟨.hbm, 140, rfl⟩
abbrev main_call1_v8 : Ref sig .tc := ⟨.hbm, 141, rfl⟩
abbrev main_call1_cst_2 : Ref sig .tc := ⟨.hbm, 142, rfl⟩
abbrev main_call1_v9 : Ref sig .tc := ⟨.hbm, 143, rfl⟩
abbrev main_call1_v10 : Ref sig .tc := ⟨.hbm, 144, rfl⟩
abbrev main_call1_v11 : Ref sig .tc := ⟨.hbm, 145, rfl⟩
abbrev main_call1_cst_3 : Ref sig .tc := ⟨.hbm, 146, rfl⟩
abbrev main_call1_v12 : Ref sig .tc := ⟨.hbm, 147, rfl⟩
abbrev main_call1_cst_4 : Ref sig .tc := ⟨.hbm, 148, rfl⟩
abbrev main_call1_call0_v0 : Ref sig .tc := ⟨.hbm, 149, rfl⟩
abbrev main_call1_call0_v1 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_cst_14 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_cst_15 : Ref sig .tc := ⟨.hbm, 168, rfl⟩
abbrev main_v86 : Ref sig .tc := ⟨.hbm, 169, rfl⟩
abbrev main_v87 : Ref sig .tc := ⟨.hbm, 170, rfl⟩
abbrev main_c_16 : Ref sig .tc := ⟨.hbm, 171, rfl⟩
abbrev main_v88 : Ref sig .tc := ⟨.hbm, 172, rfl⟩
abbrev main_v89 : Ref sig .tc := ⟨.hbm, 173, rfl⟩
abbrev main_c_17 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_cst_18 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_cst_19 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_cst_20 : Ref sig .tc := ⟨.hbm, 196, rfl⟩
abbrev main_v109 : Ref sig .tc := ⟨.hbm, 197, rfl⟩
abbrev main_cst_21 : Ref sig .tc := ⟨.hbm, 198, rfl⟩
abbrev main_v110 : Ref sig .tc := ⟨.hbm, 199, rfl⟩
abbrev main_v111 : Ref sig .tc := ⟨.hbm, 200, rfl⟩
abbrev main_c_22 : Ref sig .tc := ⟨.hbm, 201, rfl⟩
abbrev main_call2_cst : Ref sig .tc := ⟨.hbm, 202, rfl⟩
abbrev main_call2_v0 : Ref sig .tc := ⟨.hbm, 203, rfl⟩
abbrev main_call2_v1 : Ref sig .tc := ⟨.hbm, 204, rfl⟩
abbrev main_call2_cst_0 : Ref sig .tc := ⟨.hbm, 205, rfl⟩
abbrev main_call2_v2 : Ref sig .tc := ⟨.hbm, 206, rfl⟩
abbrev main_call2_v3 : Ref sig .tc := ⟨.hbm, 207, rfl⟩
abbrev main_call2_v4 : Ref sig .tc := ⟨.hbm, 208, rfl⟩
abbrev main_call2_v5 : Ref sig .tc := ⟨.hbm, 209, rfl⟩
abbrev main_call2_v6 : Ref sig .tc := ⟨.hbm, 210, rfl⟩
abbrev main_call2_v7 : Ref sig .tc := ⟨.hbm, 211, rfl⟩
abbrev main_call2_cst_1 : Ref sig .tc := ⟨.hbm, 212, rfl⟩
abbrev main_call2_v8 : Ref sig .tc := ⟨.hbm, 213, rfl⟩
abbrev main_call2_cst_2 : Ref sig .tc := ⟨.hbm, 214, rfl⟩
abbrev main_call2_v9 : Ref sig .tc := ⟨.hbm, 215, rfl⟩
abbrev main_call2_v10 : Ref sig .tc := ⟨.hbm, 216, rfl⟩
abbrev main_call2_v11 : Ref sig .tc := ⟨.hbm, 217, rfl⟩
abbrev main_call2_cst_3 : Ref sig .tc := ⟨.hbm, 218, rfl⟩
abbrev main_call2_v12 : Ref sig .tc := ⟨.hbm, 219, rfl⟩
abbrev main_call2_cst_4 : Ref sig .tc := ⟨.hbm, 220, rfl⟩
abbrev main_call2_call0_v0 : Ref sig .tc := ⟨.hbm, 221, rfl⟩
abbrev main_call2_call0_v1 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_cst_23 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_cst_24 : Ref sig .tc := ⟨.hbm, 240, rfl⟩
abbrev main_v128 : Ref sig .tc := ⟨.hbm, 241, rfl⟩
abbrev main_v129 : Ref sig .tc := ⟨.hbm, 242, rfl⟩
abbrev main_cst_25 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_cst_26 : Ref sig .tc := ⟨.hbm, 247, rfl⟩
abbrev main_v133 : Ref sig .tc := ⟨.hbm, 248, rfl⟩
abbrev main_cst_27 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_cst_28 : Ref sig .tc := ⟨.hbm, 253, rfl⟩
abbrev main_v137 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_v144 : Ref sig .tc := ⟨.hbm, 261, rfl⟩
abbrev main_v145 : Ref sig .tc := ⟨.hbm, 262, rfl⟩
abbrev main_cst_29 : Ref sig .tc := ⟨.hbm, 263, rfl⟩
abbrev main_v146 : Ref sig .tc := ⟨.hbm, 264, rfl⟩
abbrev main_v147 : Ref sig .tc := ⟨.hbm, 265, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  reducesTo_S20000x128_S128_d0 : S20000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  reducesTo_S20000x256_S256_d0 : S20000x256.ReducesTo [0] S256
  bcast_S_S256 : S_.BroadcastsInDim S256 (![] : Fin 0 → Fin S256.rank)
  bcast_S_S1x256 : S_.BroadcastsInDim S1x256 (![] : Fin 0 → Fin S1x256.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  reducesTo_S20000x512_S512_d0 : S20000x512.ReducesTo [0] S512
  bcast_S_S512 : S_.BroadcastsInDim S512 (![] : Fin 0 → Fin S512.rank)
  bcast_S_S1x512 : S_.BroadcastsInDim S1x512 (![] : Fin 0 → Fin S1x512.rank)
  bcast_S_S64x512 : S_.BroadcastsInDim S64x512 (![] : Fin 0 → Fin S64x512.rank)
  bcast_S20000_S20000x1_0 : S20000.BroadcastsInDim S20000x1 (![0] : Fin 1 → Fin S20000x1.rank)
  bcast_S_S20000 : S_.BroadcastsInDim S20000 (![] : Fin 0 → Fin S20000.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S20000x128_S128x128_S20000x128_1_0_0_1_n_n_wf : DotDims.WF S20000x128 S128x128 S20000x128 [1] [0] [0] [1] [] []
  dot_S20000x128_S128x256_S20000x256_1_0_0_1_n_n_wf : DotDims.WF S20000x128 S128x256 S20000x256 [1] [0] [0] [1] [] []
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x512_S20000x512_1_0_0_1_n_n_wf : DotDims.WF S20000x256 S256x512 S20000x512 [1] [0] [0] [1] [] []
  dot_S20000x512_S512x512_S20000x512_1_0_0_1_n_n_wf : DotDims.WF S20000x512 S512x512 S20000x512 [1] [0] [0] [1] [] []
  scatter_S64x512_S20000x1_S20000x512_1_0_0_1_wf : ScatterDims.WF S64x512 S20000x1 S20000x512 [1] [0] [0] 1
  scatter_S64_S20000x1_S20000_n_0_0_1_wf : ScatterDims.WF S64 S20000x1 S20000 [] [0] [0] 1
  dot_S64x512_S512x64_S64x64_1_0_0_1_n_n_wf : DotDims.WF S64x512 S512x64 S64x64 [1] [0] [0] [1] [] []

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x512_S20000x512_1_0_0_1_n_n : DotDims S20000x256 S256x512 S20000x512 where
  lhsContracting := [1]
  rhsContracting := [0]
  lhsNonContracting := [0]
  rhsNonContracting := [1]
  lhsBatch := []
  rhsBatch := []
  wf := dot_S20000x256_S256x512_S20000x512_1_0_0_1_n_n_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S64x512_S20000x1_S20000x512_1_0_0_1 : ScatterDims S64x512 S20000x1 S20000x512 where
  updateWindowDims := [1]
  insertedWindowDims := [0]
  scatterDimsToOperandDims := [0]
  indexVectorDim := 1
  wf := scatter_S64x512_S20000x1_S20000x512_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf

class Facts : Prop extends Facts₀ where

variable [Facts]
-- ==== Proof.KRun.lean ====
import proofs.«137780_j52690658787578_1_alg».proof.Proof.Gen.KernelIdeal.Frame
import Idealize.ShloMosaic.PureOps.Ideal

/-! The idealized kernel program's run with its result named: every weakly fair execution of the program from a
    launch memory `m` with zero counters terminates, nothing faulting, and ends with the result buffer holding
    the last boundary's contents (the fold of the seven stretches of host operations and the six regions' written-back
    arrays from `m`), and every argument array as launched. -/

set_option maxRecDepth 16384

noncomputable section

namespace Cert.KernelIdeal.HostValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run with its result named: the result buffer ends at the last boundary's contents `W13`, the
    arguments end as launched. -/
theorem run_named : θ_run (defs (F := Ideal)) (onTc (τ := τ) (main (F := Ideal))) ⟨m, fun _ => 0, ρ⟩ (fun r => ∀ c : Dev nD,
      r.2.mem ((c.tc : Thread nD τ).loc main_v108) = W13 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v108 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c)⟩)

end Cert.KernelIdeal.HostValue

end
-- ==== Proof.RefStages.lean ====
/-
  The reference network as named functions of arrays, at the extended reals.

  The reference is a three-layer graph network followed by a pooled read-out. With X the node features (20000 rows),
  s and d the source and destination node of each of the 320000 edges, a layer computes

    A    = the sum, over the edges into each node, of the source node's row of X        (agg)
    P    = max ((X + A) · W1 + b1, 0) · W2 + b2                                          (pre)
    mu   = the column means of P,  v = the column variances of P                         (mean, var)
    X'   = max ((P − mu) · rsqrt (v + ε) · g + b, 0)                                     (h)

  and the read-out sums the rows of the last X' per graph, divides by the number of nodes of the graph (at least 1),
  multiplies by Wo, adds bo and clips at zero (out). Each definition below is exactly the chain of array operations
  the reference applies, nested in the order it applies them, so that it unfolds to that chain by definition;
  `result` composes them over the twenty-three argument arrays.
-/
import proofs.«137780_j52690658787578_1_alg».proof.ReferenceIdeal
import proofs.«137780_j52690658787578_1_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The source node of each edge: row 0 of the edge table. -/
def src (e : IVec S2x320000 32) : IVec S320000 32 :=
  (shapeCast S320000 (extractStridedSlice S1x320000 ![0, 0] e slices_S2x320000_S1x320000_0_0) shapeCasts_S1x320000_S320000)

/-- The destination node of each edge: row 1 of the edge table. -/
def dst (e : IVec S2x320000 32) : IVec S320000 32 :=
  (shapeCast S320000 (extractStridedSlice S1x320000 ![1, 0] e slices_S2x320000_S1x320000_1_0) shapeCasts_S1x320000_S320000)

/-- Layer 1, the neighbourhood sums: the rows of x gathered at each edge's source (a negative index counted from the end) and added up at the edge's destination, from zero. -/
def agg1 (x : FVec Ideal S20000x128 .f32) (s : IVec S320000 32) (d : IVec S320000 32) : FVec Ideal S20000x128 .f32 :=
  (Host.scatterAdd scatter_S20000x128_S320000x1_S320000x128_1_0_0_1 (broadcastInDim S20000x128 ![] bcast_S_S20000x128 (constant (F := Ideal) S_ .f32 0x00000000#32)) (broadcastInDim S320000x1 ![0] bcast_S320000_S320000x1_0 d) (Host.gather gather_S20000x128_S320000x1_S320000x128_1_0_n_n_0_1_1128 x (broadcastInDim S320000x1 ![0] bcast_S320000_S320000x1_0 (select (cmpi .slt s (broadcastInDim S320000 ![] bcast_S_S320000 (constantI S_ 32 0#32))) (addi s (broadcastInDim S320000 ![] bcast_S_S320000 (constantI S_ 32 20000#32))) s))))

/-- Layer 1, the two-layer perceptron on x + a: (max ((x + a) · w1 + b1, 0)) · w2 + b2, the biases broadcast along the rows. -/
def pre1 (x : FVec Ideal S20000x128 .f32) (a : FVec Ideal S20000x128 .f32) (w1 : FVec Ideal S128x128 .f32) (b1 : FVec Ideal S128 .f32) (w2 : FVec Ideal S128x128 .f32) (b2 : FVec Ideal S128 .f32) : FVec Ideal S20000x128 .f32 :=
  (addf (Host.dotGeneral dot_S20000x128_S128x128_S20000x128_1_0_0_1_n_n none (maximumf (addf (Host.dotGeneral dot_S20000x128_S128x128_S20000x128_1_0_0_1_n_n none (addf x a) w1) (broadcastInDim S20000x128 ![0, 1] bcast_S1x128_S20000x128_0_1 (broadcastInDim S1x128 ![1] bcast_S128_S1x128_1 b1))) (broadcastInDim S20000x128 ![] bcast_S_S20000x128 (constant (F := Ideal) S_ .f32 0x00000000#32))) w2) (broadcastInDim S20000x128 ![0, 1] bcast_S1x128_S20000x128_0_1 (broadcastInDim S1x128 ![1] bcast_S128_S1x128_1 b2)))

/-- Layer 1, the column means of p: the column sums over the 20000 rows, from zero, divided by 20000. -/
def mean1 (p : FVec Ideal S20000x128 .f32) : FVec Ideal S128 .f32 :=
  (Host.divf (Host.reduceAdd p (constant (F := Ideal) S_ .f32 0x00000000#32) reducesTo_S20000x128_S128_d0 h_S_) (broadcastInDim S128 ![] bcast_S_S128 (constant (F := Ideal) S_ .f32 0x469C4000#32)))

/-- Layer 1, the column variances of p with zero degrees of freedom removed: the column sums of the squared deviations of p from its column means (each mean the column sum divided by 20000), divided by 20000 − 0; the quotient is kept where 20000 − 0 > 0 and is the value of the word 0x7FC00000 elsewhere. -/
def var1 (p : FVec Ideal S20000x128 .f32) : FVec Ideal S128 .f32 :=
  (select (broadcastInDim S128 ![] bcast_S_S128 (cmpf .ogt (subf (constant (F := Ideal) S_ .f32 0x469C4000#32) (sitofp (F := Ideal) .f32 (constantI S_ 32 0#32))) (constant (F := Ideal) S_ .f32 0x00000000#32))) (Host.divf (Host.reduceAdd (mulf (subf p (broadcastInDim S20000x128 ![0, 1] bcast_S1x128_S20000x128_0_1 (Host.divf (broadcastInDim S1x128 ![1] bcast_S128_S1x128_1 (Host.reduceAdd p (constant (F := Ideal) S_ .f32 0x00000000#32) reducesTo_S20000x128_S128_d0 h_S_)) (broadcastInDim S1x128 ![] bcast_S_S1x128 (constant (F := Ideal) S_ .f32 0x469C4000#32))))) (subf p (broadcastInDim S20000x128 ![0, 1] bcast_S1x128_S20000x128_0_1 (Host.divf (broadcastInDim S1x128 ![1] bcast_S128_S1x128_1 (Host.reduceAdd p (constant (F := Ideal) S_ .f32 0x00000000#32) reducesTo_S20000x128_S128_d0 h_S_)) (broadcastInDim S1x128 ![] bcast_S_S1x128 (constant (F := Ideal) S_ .f32 0x469C4000#32)))))) (constant (F := Ideal) S_ .f32 0x00000000#32) reducesTo_S20000x128_S128_d0 h_S_) (broadcastInDim S128 ![] bcast_S_S128 (subf (constant (F := Ideal) S_ .f32 0x469C4000#32) (sitofp (F := Ideal) .f32 (constantI S_ 32 0#32))))) (broadcastInDim S128 ![] bcast_S_S128 (id (constant (F := Ideal) S_ .f32 0x7FC00000#32))))

/-- Layer 1, normalise, scale, shift and clip: max ((p − mu) · rsqrt (v + ε) · g + b, 0), where ε is the value of the word 0x3727C5AC and every row vector is repeated along the rows. -/
def h1 (p : FVec Ideal S20000x128 .f32) (mu : FVec Ideal S128 .f32) (v : FVec Ideal S128 .f32) (g : FVec Ideal S128 .f32) (b : FVec Ideal S128 .f32) : FVec Ideal S20000x128 .f32 :=
  (maximumf (addf (mulf (mulf (subf p (broadcastInDim S20000x128 ![0, 1] bcast_S1x128_S20000x128_0_1 (broadcastInDim S1x128 ![1] bcast_S128_S1x128_1 mu))) (broadcastInDim S20000x128 ![0, 1] bcast_S1x128_S20000x128_0_1 (broadcastInDim S1x128 ![1] bcast_S128_S1x128_1 (Host.rsqrt (addf v (broadcastInDim S128 ![] bcast_S_S128 (constant (F := Ideal) S_ .f32 0x3727C5AC#32))))))) (broadcastInDim S20000x128 ![0, 1] bcast_S1x128_S20000x128_0_1 (broadcastInDim S1x128 ![1] bcast_S128_S1x128_1 g))) (broadcastInDim S20000x128 ![0, 1] bcast_S1x128_S20000x128_0_1 (broadcastInDim S1x128 ![1] bcast_S128_S1x128_1 b))) (broadcastInDim S20000x128 ![] bcast_S_S20000x128 (constant (F := Ideal) S_ .f32 0x00000000#32)))

/-- Layer 2, the neighbourhood sums: the rows of x gathered at each edge's source (a negative index counted from the end) and added up at the edge's destination, from zero. -/
def agg2 (x : FVec Ideal S20000x128 .f32) (s : IVec S320000 32) (d : IVec S320000 32) : FVec Ideal S20000x128 .f32 :=
  (Host.scatterAdd scatter_S20000x128_S320000x1_S320000x128_1_0_0_1 (broadcastInDim S20000x128 ![] bcast_S_S20000x128 (constant (F := Ideal) S_ .f32 0x00000000#32)) (broadcastInDim S320000x1 ![0] bcast_S320000_S320000x1_0 d) (Host.gather gather_S20000x128_S320000x1_S320000x128_1_0_n_n_0_1_1128 x (broadcastInDim S320000x1 ![0] bcast_S320000_S320000x1_0 (select (cmpi .slt s (broadcastInDim S320000 ![] bcast_S_S320000 (constantI S_ 32 0#32))) (addi s (broadcastInDim S320000 ![] bcast_S_S320000 (constantI S_ 32 20000#32))) s))))

/-- Layer 2, the two-layer perceptron on x + a: (max ((x + a) · w1 + b1, 0)) · w2 + b2, the biases broadcast along the rows. -/
def pre2 (x : FVec Ideal S20000x128 .f32) (a : FVec Ideal S20000x128 .f32) (w1 : FVec Ideal S128x256 .f32) (b1 : FVec Ideal S256 .f32) (w2 : FVec Ideal S256x256 .f32) (b2 : FVec Ideal S256 .f32) : FVec Ideal S20000x256 .f32 :=
  (addf (Host.dotGeneral dot_S20000x256_S256x256_S20000x256_1_0_0_1_n_n none (maximumf (addf (Host.dotGeneral dot_S20000x128_S128x256_S20000x256_1_0_0_1_n_n none (addf x a) w1) (broadcastInDim S20000x256 ![0, 1] bcast_S1x256_S20000x256_0_1 (broadcastInDim S1x256 ![1] bcast_S256_S1x256_1 b1))) (broadcastInDim S20000x256 ![] bcast_S_S20000x256 (constant (F := Ideal) S_ .f32 0x00000000#32))) w2) (broadcastInDim S20000x256 ![0, 1] bcast_S1x256_S20000x256_0_1 (broadcastInDim S1x256 ![1] bcast_S256_S1x256_1 b2)))

/-- Layer 2, the column means of p: the column sums over the 20000 rows, from zero, divided by 20000. -/
def mean2 (p : FVec Ideal S20000x256 .f32) : FVec Ideal S256 .f32 :=
  (Host.divf (Host.reduceAdd p (constant (F := Ideal) S_ .f32 0x00000000#32) reducesTo_S20000x256_S256_d0 h_S_) (broadcastInDim S256 ![] bcast_S_S256 (constant (F := Ideal) S_ .f32 0x469C4000#32)))

/-- Layer 2, the column variances of p with zero degrees of freedom removed: the column sums of the squared deviations of p from its column means (each mean the column sum divided by 20000), divided by 20000 − 0; the quotient is kept where 20000 − 0 > 0 and is the value of the word 0x7FC00000 elsewhere. -/
def var2 (p : FVec Ideal S20000x256 .f32) : FVec Ideal S256 .f32 :=
  (select (broadcastInDim S256 ![] bcast_S_S256 (cmpf .ogt (subf (constant (F := Ideal) S_ .f32 0x469C4000#32) (sitofp (F := Ideal) .f32 (constantI S_ 32 0#32))) (constant (F := Ideal) S_ .f32 0x00000000#32))) (Host.divf (Host.reduceAdd (mulf (subf p (broadcastInDim S20000x256 ![0, 1] bcast_S1x256_S20000x256_0_1 (Host.divf (broadcastInDim S1x256 ![1] bcast_S256_S1x256_1 (Host.reduceAdd p (constant (F := Ideal) S_ .f32 0x00000000#32) reducesTo_S20000x256_S256_d0 h_S_)) (broadcastInDim S1x256 ![] bcast_S_S1x256 (constant (F := Ideal) S_ .f32 0x469C4000#32))))) (subf p (broadcastInDim S20000x256 ![0, 1] bcast_S1x256_S20000x256_0_1 (Host.divf (broadcastInDim S1x256 ![1] bcast_S256_S1x256_1 (Host.reduceAdd p (constant (F := Ideal) S_ .f32 0x00000000#32) reducesTo_S20000x256_S256_d0 h_S_)) (broadcastInDim S1x256 ![] bcast_S_S1x256 (constant (F := Ideal) S_ .f32 0x469C4000#32)))))) (constant (F := Ideal) S_ .f32 0x00000000#32) reducesTo_S20000x256_S256_d0 h_S_) (broadcastInDim S256 ![] bcast_S_S256 (subf (constant (F := Ideal) S_ .f32 0x469C4000#32) (sitofp (F := Ideal) .f32 (constantI S_ 32 0#32))))) (broadcastInDim S256 ![] bcast_S_S256 (id (constant (F := Ideal) S_ .f32 0x7FC00000#32))))

/-- Layer 2, normalise, scale, shift and clip: max ((p − mu) · rsqrt (v + ε) · g + b, 0), where ε is the value of the word 0x3727C5AC and every row vector is repeated along the rows. -/
def h2 (p : FVec Ideal S20000x256 .f32) (mu : FVec Ideal S256 .f32) (v : FVec Ideal S256 .f32) (g : FVec Ideal S256 .f32) (b : FVec Ideal S256 .f32) : FVec Ideal S20000x256 .f32 :=
  (maximumf (addf (mulf (mulf (subf p (broadcastInDim S20000x256 ![0, 1] bcast_S1x256_S20000x256_0_1 (broadcastInDim S1x256 ![1] bcast_S256_S1x256_1 mu))) (broadcastInDim S20000x256 ![0, 1] bcast_S1x256_S20000x256_0_1 (broadcastInDim S1x256 ![1] bcast_S256_S1x256_1 (Host.rsqrt (addf v (broadcastInDim S256 ![] bcast_S_S256 (constant (F := Ideal) S_ .f32 0x3727C5AC#32))))))) (broadcastInDim S20000x256 ![0, 1] bcast_S1x256_S20000x256_0_1 (broadcastInDim S1x256 ![1] bcast_S256_S1x256_1 g))) (broadcastInDim S20000x256 ![0, 1] bcast_S1x256_S20000x256_0_1 (broadcastInDim S1x256 ![1] bcast_S256_S1x256_1 b))) (broadcastInDim S20000x256 ![] bcast_S_S20000x256 (constant (F := Ideal) S_ .f32 0x00000000#32)))

/-- Layer 3, the neighbourhood sums: the rows of x gathered at each edge's source (a negative index counted from the end) and added up at the edge's destination, from zero. -/
def agg3 (x : FVec Ideal S20000x256 .f32) (s : IVec S320000 32) (d : IVec S320000 32) : FVec Ideal S20000x256 .f32 :=
  (Host.scatterAdd scatter_S20000x256_S320000x1_S320000x256_1_0_0_1 (broadcastInDim S20000x256 ![] bcast_S_S20000x256 (constant (F := Ideal) S_ .f32 0x00000000#32)) (broadcastInDim S320000x1 ![0] bcast_S320000_S320000x1_0 d) (Host.gather gather_S20000x256_S320000x1_S320000x256_1_0_n_n_0_1_1256 x (broadcastInDim S320000x1 ![0] bcast_S320000_S320000x1_0 (select (cmpi .slt s (broadcastInDim S320000 ![] bcast_S_S320000 (constantI S_ 32 0#32))) (addi s (broadcastInDim S320000 ![] bcast_S_S320000 (constantI S_ 32 20000#32))) s))))

/-- Layer 3, the two-layer perceptron on x + a: (max ((x + a) · w1 + b1, 0)) · w2 + b2, the biases broadcast along the rows. -/
def pre3 (x : FVec Ideal S20000x256 .f32) (a : FVec Ideal S20000x256 .f32) (w1 : FVec Ideal S256x512 .f32) (b1 : FVec Ideal S512 .f32) (w2 : FVec Ideal S512x512 .f32) (b2 : FVec Ideal S512 .f32) : FVec Ideal S20000x512 .f32 :=
  (addf (Host.dotGeneral dot_S20000x512_S512x512_S20000x512_1_0_0_1_n_n none (maximumf (addf (Host.dotGeneral dot_S20000x256_S256x512_S20000x512_1_0_0_1_n_n none (addf x a) w1) (broadcastInDim S20000x512 ![0, 1] bcast_S1x512_S20000x512_0_1 (broadcastInDim S1x512 ![1] bcast_S512_S1x512_1 b1))) (broadcastInDim S20000x512 ![] bcast_S_S20000x512 (constant (F := Ideal) S_ .f32 0x00000000#32))) w2) (broadcastInDim S20000x512 ![0, 1] bcast_S1x512_S20000x512_0_1 (broadcastInDim S1x512 ![1] bcast_S512_S1x512_1 b2)))

/-- Layer 3, the column means of p: the column sums over the 20000 rows, from zero, divided by 20000. -/
def mean3 (p : FVec Ideal S20000x512 .f32) : FVec Ideal S512 .f32 :=
  (Host.divf (Host.reduceAdd p (constant (F := Ideal) S_ .f32 0x00000000#32) reducesTo_S20000x512_S512_d0 h_S_) (broadcastInDim S512 ![] bcast_S_S512 (constant (F := Ideal) S_ .f32 0x469C4000#32)))

/-- Layer 3, the column variances of p with zero degrees of freedom removed: the column sums of the squared deviations of p from its column means (each mean the column sum divided by 20000), divided by 20000 − 0; the quotient is kept where 20000 − 0 > 0 and is the value of the word 0x7FC00000 elsewhere. -/
def var3 (p : FVec Ideal S20000x512 .f32) : FVec Ideal S512 .f32 :=
  (select (broadcastInDim S512 ![] bcast_S_S512 (cmpf .ogt (subf (constant (F := Ideal) S_ .f32 0x469C4000#32) (sitofp (F := Ideal) .f32 (constantI S_ 32 0#32))) (constant (F := Ideal) S_ .f32 0x00000000#32))) (Host.divf (Host.reduceAdd (mulf (subf p (broadcastInDim S20000x512 ![0, 1] bcast_S1x512_S20000x512_0_1 (Host.divf (broadcastInDim S1x512 ![1] bcast_S512_S1x512_1 (Host.reduceAdd p (constant (F := Ideal) S_ .f32 0x00000000#32) reducesTo_S20000x512_S512_d0 h_S_)) (broadcastInDim S1x512 ![] bcast_S_S1x512 (constant (F := Ideal) S_ .f32 0x469C4000#32))))) (subf p (broadcastInDim S20000x512 ![0, 1] bcast_S1x512_S20000x512_0_1 (Host.divf (broadcastInDim S1x512 ![1] bcast_S512_S1x512_1 (Host.reduceAdd p (constant (F := Ideal) S_ .f32 0x00000000#32) reducesTo_S20000x512_S512_d0 h_S_)) (broadcastInDim S1x512 ![] bcast_S_S1x512 (constant (F := Ideal) S_ .f32 0x469C4000#32)))))) (constant (F := Ideal) S_ .f32 0x00000000#32) reducesTo_S20000x512_S512_d0 h_S_) (broadcastInDim S512 ![] bcast_S_S512 (subf (constant (F := Ideal) S_ .f32 0x469C4000#32) (sitofp (F := Ideal) .f32 (constantI S_ 32 0#32))))) (broadcastInDim S512 ![] bcast_S_S512 (id (constant (F := Ideal) S_ .f32 0x7FC00000#32))))

/-- Layer 3, normalise, scale, shift and clip: max ((p − mu) · rsqrt (v + ε) · g + b, 0), where ε is the value of the word 0x3727C5AC and every row vector is repeated along the rows. -/
def h3 (p : FVec Ideal S20000x512 .f32) (mu : FVec Ideal S512 .f32) (v : FVec Ideal S512 .f32) (g : FVec Ideal S512 .f32) (b : FVec Ideal S512 .f32) : FVec Ideal S20000x512 .f32 :=
  (maximumf (addf (mulf (mulf (subf p (broadcastInDim S20000x512 ![0, 1] bcast_S1x512_S20000x512_0_1 (broadcastInDim S1x512 ![1] bcast_S512_S1x512_1 mu))) (broadcastInDim S20000x512 ![0, 1] bcast_S1x512_S20000x512_0_1 (broadcastInDim S1x512 ![1] bcast_S512_S1x512_1 (Host.rsqrt (addf v (broadcastInDim S512 ![] bcast_S_S512 (constant (F := Ideal) S_ .f32 0x3727C5AC#32))))))) (broadcastInDim S20000x512 ![0, 1] bcast_S1x512_S20000x512_0_1 (broadcastInDim S1x512 ![1] bcast_S512_S1x512_1 g))) (broadcastInDim S20000x512 ![0, 1] bcast_S1x512_S20000x512_0_1 (broadcastInDim S1x512 ![1] bcast_S512_S1x512_1 b))) (broadcastInDim S20000x512 ![] bcast_S_S20000x512 (constant (F := Ideal) S_ .f32 0x00000000#32)))

/-- The pooled tail: the rows of x summed per graph (at the graph index of each node), divided by the clipped node count of the graph (at least 1), times wo, plus bo, clipped at zero. -/
def out (x : FVec Ideal S20000x512 .f32) (bi : IVec S20000 32) (wo : FVec Ideal S512x64 .f32) (bo : FVec Ideal S64 .f32) : FVec Ideal S64x64 .f32 :=
  (maximumf (addf (Host.dotGeneral dot_S64x512_S512x64_S64x64_1_0_0_1_n_n none (Host.divf (Host.scatterAdd scatter_S64x512_S20000x1_S20000x512_1_0_0_1 (broadcastInDim S64x512 ![] bcast_S_S64x512 (constant (F := Ideal) S_ .f32 0x00000000#32)) (broadcastInDim S20000x1 ![0] bcast_S20000_S20000x1_0 bi) x) (broadcastInDim S64x512 ![0, 1] bcast_S64x1_S64x512_0_1 (broadcastInDim S64x1 ![0] bcast_S64_S64x1_0 (maximumf (Host.scatterAdd scatter_S64_S20000x1_S20000_n_0_0_1 (broadcastInDim S64 ![] bcast_S_S64 (constant (F := Ideal) S_ .f32 0x00000000#32)) (broadcastInDim S20000x1 ![0] bcast_S20000_S20000x1_0 bi) (broadcastInDim S20000 ![] bcast_S_S20000 (constant (F := Ideal) S_ .f32 0x3F800000#32))) (broadcastInDim S64 ![] bcast_S_S64 (constant (F := Ideal) S_ .f32 0x3F800000#32)))))) wo) (broadcastInDim S64x64 ![0, 1] bcast_S1x64_S64x64_0_1 (broadcastInDim S1x64 ![1] bcast_S64_S1x64_1 bo))) (broadcastInDim S64x64 ![] bcast_S_S64x64 (constant (F := Ideal) S_ .f32 0x00000000#32)))

/-- Layer 1 whole: the perceptron on x plus its neighbourhood sums, then normalised by its own column means and variances, scaled, shifted and clipped. -/
def layer1 (x : FVec Ideal S20000x128 .f32) (s : IVec S320000 32) (d : IVec S320000 32) (w1 : FVec Ideal S128x128 .f32) (b1 : FVec Ideal S128 .f32) (w2 : FVec Ideal S128x128 .f32) (b2 : FVec Ideal S128 .f32) (g : FVec Ideal S128 .f32) (b : FVec Ideal S128 .f32) : FVec Ideal S20000x128 .f32 :=
  h1 (pre1 x (agg1 x s d) w1 b1 w2 b2) (mean1 (pre1 x (agg1 x s d) w1 b1 w2 b2)) (var1 (pre1 x (agg1 x s d) w1 b1 w2 b2)) g b

/-- Layer 2 whole: the perceptron on x plus its neighbourhood sums, then normalised by its own column means and variances, scaled, shifted and clipped. -/
def layer2 (x : FVec Ideal S20000x128 .f32) (s : IVec S320000 32) (d : IVec S320000 32) (w1 : FVec Ideal S128x256 .f32) (b1 : FVec Ideal S256 .f32) (w2 : FVec Ideal S256x256 .f32) (b2 : FVec Ideal S256 .f32) (g : FVec Ideal S256 .f32) (b : FVec Ideal S256 .f32) : FVec Ideal S20000x256 .f32 :=
  h2 (pre2 x (agg2 x s d) w1 b1 w2 b2) (mean2 (pre2 x (agg2 x s d) w1 b1 w2 b2)) (var2 (pre2 x (agg2 x s d) w1 b1 w2 b2)) g b

/-- Layer 3 whole: the perceptron on x plus its neighbourhood sums, then normalised by its own column means and variances, scaled, shifted and clipped. -/
def layer3 (x : FVec Ideal S20000x256 .f32) (s : IVec S320000 32) (d : IVec S320000 32) (w1 : FVec Ideal S256x512 .f32) (b1 : FVec Ideal S512 .f32) (w2 : FVec Ideal S512x512 .f32) (b2 : FVec Ideal S512 .f32) (g : FVec Ideal S512 .f32) (b : FVec Ideal S512 .f32) : FVec Ideal S20000x512 .f32 :=
  h3 (pre3 x (agg3 x s d) w1 b1 w2 b2) (mean3 (pre3 x (agg3 x s d) w1 b1 w2 b2)) (var3 (pre3 x (agg3 x s d) w1 b1 w2 b2)) g b

/-- The reference's result as one function of its twenty-three argument arrays: three layers over the same edge table, then the pooled tail. -/
def result (a0 : FVec Ideal S20000x128 .f32) (a1 : IVec S2x320000 32) (a2 : IVec S20000 32) (a3 : FVec Ideal S128x128 .f32) (a4 : FVec Ideal S128 .f32) (a5 : FVec Ideal S128x128 .f32) (a6 : FVec Ideal S128 .f32) (a7 : FVec Ideal S128 .f32) (a8 : FVec Ideal S128 .f32) (a9 : FVec Ideal S128x256 .f32) (a10 : FVec Ideal S256 .f32) (a11 : FVec Ideal S256x256 .f32) (a12 : FVec Ideal S256 .f32) (a13 : FVec Ideal S256 .f32) (a14 : FVec Ideal S256 .f32) (a15 : FVec Ideal S256x512 .f32) (a16 : FVec Ideal S512 .f32) (a17 : FVec Ideal S512x512 .f32) (a18 : FVec Ideal S512 .f32) (a19 : FVec Ideal S512 .f32) (a20 : FVec Ideal S512 .f32) (a21 : FVec Ideal S512x64 .f32) (a22 : FVec Ideal S64 .f32) : FVec Ideal S64x64 .f32 :=
  out (layer3 (layer2 (layer1 a0 (src a1) (dst a1) a3 a4 a5 a6 a7 a8) (src a1) (dst a1) a9 a10 a11 a12 a13 a14) (src a1) (dst a1) a15 a16 a17 a18 a19 a20) a2 a21 a22

end Cert.ReferenceIdeal.RefRun

end
-- ==== Proof.LibAllFinite.lean ====
/-
  Finiteness read back from an "all entries finite" test.

  A single-precision array x is tested for finiteness by comparing |x| with +∞, entry by entry, and
  folding the resulting truth values with "and" from the value true. Over the extended reals |x| is
  max x (-x), the word 0x7F800000 denotes +∞, and the comparison is the strict order. If the fold
  comes out true, every comparison was true, so every entry x i has max (x i) (-(x i)) < +∞; neither
  +∞ nor -∞ satisfies that, so x i is a real number.
-/
import Idealize.ShloMosaic.Lib.ReduceAll
import Idealize.ShloMosaic.PureOps
import Idealize.ShloMosaic.PureOps.Ideal

namespace Cert.LibAllFinite

open Idealize.ShloMosaic

/-- The single-precision word 0x7F800000 (sign 0, exponent all ones, fraction 0) denotes +∞. -/
theorem ofBits_inf_f32 : Ideal.ofBits .f32 0x7F800000#32 = (⊤ : EReal) := by
  simp [Ideal.ofBits, Ideal.ieee]

/-- An extended real x with max x (-x) < +∞ is a real number: at x = +∞ the maximum is +∞, and at
    x = -∞ it is -(-∞) = +∞ as well. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The strict comparison of two extended reals, as a one-bit word, is 1 exactly when x < y. -/
theorem cmp_olt_eq_one (x y : EReal) : Ideal.cmp .olt x y = 1#1 ↔ x < y := by
  unfold Ideal.cmp
  by_cases hxy : x < y <;> simp [hxy]

/-- One entry: if the test |x| < +∞ (against the word 0x7F800000) is true at an entry, that entry is real. -/
theorem real_of_entry_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32, cmp_olt_eq_one] at h'
  exact real_of_abs_lt_top x h'

/-- ALL ENTRIES FINITE. For an array x of any shape s: if the "and"-fold (a reduction over all axes,
    into a result with a single index) of the entrywise tests |x i| < +∞ is the bit 1, then every
    entry of x is a real number. The constant +∞ may be broadcast from any shape c along any axes,
    and the fold may start from any initial array. -/
theorem real_of_allFinite {s t u c : Shape} {axes : List (Fin s.rank)} [Subsingleton t.Idx]
    (x : FVec Ideal s .f32) (dims : Fin c.rank → Fin s.rank) (hb : c.BroadcastsInDim s dims)
    (init : IVec u 1) (hr : s.ReducesTo axes t) (hu : 0 < u.numel) (j : t.Idx)
    (h : Host.reduce IntOp.andi
          (cmpf .olt (Host.absf x) (broadcastInDim s dims hb (constant (F := Ideal) c .f32 0x7F800000#32)))
          init hr hu j = 1#1) :
    ∀ i, ∃ r : ℝ, x i = (r : EReal) := fun i =>
  real_of_entry_test (x i) (Host.reduce_andi_all _ init hr hu j h i)

end Cert.LibAllFinite
-- ==== Proof.PreReal.lean ====
/-
  The precondition decoded: every floating-point input is an array of real numbers.

  The precondition is one bit: for each of the 21 single-precision arguments x it forms the bit
  "every entry of x satisfies |x| < +∞" (an "and" over all entries, started from true) and takes the
  "and" of the 21 bits, grouped to the left: ((b0 ∧ b3) ∧ b4) ∧ … ∧ b22. The two integer arguments
  are not tested. If the whole bit is 1 then each of the 21 bits is 1, and a bit "all |x| < +∞"
  equal to 1 says every entry of x is an extended real other than ±∞, that is, a real number.
-/
import proofs.«137780_j52690658787578_1_alg».proof.Pre_finite_inputs
import proofs.«137780_j52690658787578_1_alg».proof.Proof.LibAllFinite
import Idealize.ShloMosaic.Lib.ReduceAll
import Idealize.ShloMosaic.Lib.ValueIdx
import Idealize.ShloMosaic.PureOps.Ideal

namespace Cert.Pre_finite_inputs.Decode

open Idealize.ShloMosaic Cert Cert.Pre_finite_inputs

/-- The scalar shape has exactly one index. -/
instance : Subsingleton S_.Idx := ⟨fun a b => funext fun d => d.elim0⟩

/-- If the precondition's bit is 1, every entry of every floating-point argument is a real number
    (21 conjuncts, in argument order; the integer arguments a1 and a2 carry no condition). -/
theorem real_of_pre [Facts] (a0 : FVec Ideal S20000x128 .f32) (a1 : IVec S2x320000 32) (a2 : IVec S20000 32) (a3 : FVec Ideal S128x128 .f32) (a4 : FVec Ideal S128 .f32) (a5 : FVec Ideal S128x128 .f32) (a6 : FVec Ideal S128 .f32) (a7 : FVec Ideal S128 .f32) (a8 : FVec Ideal S128 .f32) (a9 : FVec Ideal S128x256 .f32) (a10 : FVec Ideal S256 .f32) (a11 : FVec Ideal S256x256 .f32) (a12 : FVec Ideal S256 .f32) (a13 : FVec Ideal S256 .f32) (a14 : FVec Ideal S256 .f32) (a15 : FVec Ideal S256x512 .f32) (a16 : FVec Ideal S512 .f32) (a17 : FVec Ideal S512x512 .f32) (a18 : FVec Ideal S512 .f32) (a19 : FVec Ideal S512 .f32) (a20 : FVec Ideal S512 .f32) (a21 : FVec Ideal S512x64 .f32) (a22 : FVec Ideal S64 .f32)
    (h : fn (F := Ideal) a0 a1 a2 a3 a4 a5 a6 a7 a8 a9 a10 a11 a12 a13 a14 a15 a16 a17 a18 a19 a20 a21 a22 = fun _ => 1#1) :
      (∀ i, ∃ r : ℝ, a0 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) ∧
      (∀ i, ∃ r : ℝ, a18 i = (r : EReal)) ∧
      (∀ i, ∃ r : ℝ, a19 i = (r : EReal)) ∧
      (∀ i, ∃ r : ℝ, a20 i = (r : EReal)) ∧
      (∀ i, ∃ r : ℝ, a21 i = (r : EReal)) ∧
      (∀ i, ∃ r : ℝ, a22 i = (r : EReal)) := by
  have e := congrFun h ValueIdx.ix0
  dsimp only [fn, fn_part1, fn_part2, fn_part3, fn_part4, fn_part5, fn_part6] at e
  simp only [andi, IntOp.andi_eq_one] at e
  obtain ⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, h21⟩, h22⟩ := e
  exact ⟨LibAllFinite.real_of_allFinite a0 _ _ _ _ _ _ h0,
    LibAllFinite.real_of_allFinite a3 _ _ _ _ _ _ h3,
    LibAllFinite.real_of_allFinite a4 _ _ _ _ _ _ h4,
    LibAllFinite.real_of_allFinite a5 _ _ _ _ _ _ h5,
    LibAllFinite.real_of_allFinite a6 _ _ _ _ _ _ h6,
    LibAllFinite.real_of_allFinite a7 _ _ _ _ _ _ h7,
    LibAllFinite.real_of_allFinite a8 _ _ _ _ _ _ h8,
    LibAllFinite.real_of_allFinite a9 _ _ _ _ _ _ h9,
    LibAllFinite.real_of_allFinite a10 _ _ _ _ _ _ h10,
    LibAllFinite.real_of_allFinite a11 _ _ _ _ _ _ h11,
    LibAllFinite.real_of_allFinite a12 _ _ _ _ _ _ h12,
    LibAllFinite.real_of_allFinite a13 _ _ _ _ _ _ h13,
    LibAllFinite.real_of_allFinite a14 _ _ _ _ _ _ h14,
    LibAllFinite.real_of_allFinite a15 _ _ _ _ _ _ h15,
    LibAllFinite.real_of_allFinite a16 _ _ _ _ _ _ h16,
    LibAllFinite.real_of_allFinite a17 _ _ _ _ _ _ h17,
    LibAllFinite.real_of_allFinite a18 _ _ _ _ _ _ h18,
    LibAllFinite.real_of_allFinite a19 _ _ _ _ _ _ h19,
    LibAllFinite.real_of_allFinite a20 _ _ _ _ _ _ h20,
    LibAllFinite.real_of_allFinite a21 _ _ _ _ _ _ h21,
    LibAllFinite.real_of_allFinite a22 _ _ _ _ _ _ h22⟩

end Cert.Pre_finite_inputs.Decode
-- ==== Proof.RefOps.lean ====
/-
  The reference program as a list of array operations, stage by stage.

  Each list below holds, in program order, the operations that compute one stage of the network (RefStages): the two
  rows of the edge table; per layer the neighbourhood sums, the perceptron, the column means, the column variances (the
  variance function's operations written out at its call, over that call's own buffers) and the normalised output; and the
  pooled read-out. Two stages straddle a boundary between the program's consecutive pieces and are cut there (`agg2a` /
  `agg2b`, `pre3a` / `pre3b`). The program is the concatenation of the lists: piece by piece by unfolding, then glued.
-/
import proofs.«137780_j52690658787578_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

/-- The operations of stage `idx`, in order. -/
abbrev W_idx : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000 ]

/-- The operations of stage `agg1`, in order. -/
abbrev W_agg1 : List (HloOp τ sig (Elt F)) :=
  [ nullary main_c (constantI S_ 32 0#32),
    unary main_c main_v4 (broadcastInDim S320000 ![] bcast_S_S320000 : (⟨S_, .i32⟩ : BufTy).Contents (Elt F) → (⟨S320000, .i32⟩ : BufTy).Contents (Elt F)),
    binary main_v1 main_v4 main_v5 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v6 (broadcastInDim S320000 ![] bcast_S_S320000 : (⟨S_, .i32⟩ : BufTy).Contents (Elt F) → (⟨S320000, .i32⟩ : BufTy).Contents (Elt F)),
    binary main_v1 main_v6 main_v7 (addi : (⟨S320000, .i32⟩ : BufTy).Contents (Elt F) → (⟨S320000, .i32⟩ : BufTy).Contents (Elt F) → (⟨S320000, .i32⟩ : BufTy).Contents (Elt F)),
    ternary main_v5 main_v7 main_v1 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v8 main_v9 (broadcastInDim S320000x1 ![0] bcast_S320000_S320000x1_0 : (⟨S320000, .i32⟩ : BufTy).Contents (Elt F) → (⟨S320000x1, .i32⟩ : BufTy).Contents (Elt F)),
    binary main_arg0 main_v9 main_v10 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_cst (constant S_ .f32 0x00000000#32),
    unary main_cst main_v11 (broadcastInDim S20000x128 ![] bcast_S_S20000x128 : (⟨S_, .f32⟩ : BufTy).Contents (Elt F) → (⟨S20000x128, .f32⟩ : BufTy).Contents (Elt F)),
    unary main_v3 main_v12 (broadcastInDim S320000x1 ![0] bcast_S320000_S320000x1_0 : (⟨S320000, .i32⟩ : BufTy).Contents (Elt F) → (⟨S320000x1, .i32⟩ : BufTy).Contents (Elt F)),
    ternary main_v11 main_v12 main_v10 main_v13 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

/-- The operations of stage `pre1`, in order. -/
abbrev W_pre1 : List (HloOp τ sig (Elt F)) :=
  [ binary main_arg0 main_v13 main_v14 (addf : (⟨S20000x128, .f32⟩ : BufTy).Contents (Elt F) → (⟨S20000x128, .f32⟩ : BufTy).Contents (Elt F) → (⟨S20000x128, .f32⟩ : BufTy).Contents (Elt F)),
    binary main_v14 main_arg3 main_v15 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg4 main_v16 (broadcastInDim S1x128 ![1] bcast_S128_S1x128_1 : (⟨S128, .f32⟩ : BufTy).Contents (Elt F) → (⟨S1x128, .f32⟩ : BufTy).Contents (Elt F)),
    unary main_v16 main_v17 (broadcastInDim S20000x128 ![0, 1] bcast_S1x128_S20000x128_0_1 : (⟨S1x128, .f32⟩ : BufTy).Contents (Elt F) → (⟨S20000x128, .f32⟩ : BufTy).Contents (Elt F)),
    binary main_v15 main_v17 main_v18 (addf : (⟨S20000x128, .f32⟩ : BufTy).Contents (Elt F) → (⟨S20000x128, .f32⟩ : BufTy).Contents (Elt F) → (⟨S20000x128, .f32⟩ : BufTy).Contents (Elt F)),
    nullary main_cst_1 (constant S_ .f32 0x00000000#32),
    unary main_cst_1 main_v19 (broadcastInDim S20000x128 ![] bcast_S_S20000x128 : (⟨S_, .f32⟩ : BufTy).Contents (Elt F) → (⟨S20000x128, .f32⟩ : BufTy).Contents (Elt F)),
    binary main_v18 main_v19 main_v20 (maximumf : (⟨S20000x128, .f32⟩ : BufTy).Contents (Elt F) → (⟨S20000x128, .f32⟩ : BufTy).Contents (Elt F) → (⟨S20000x128, .f32⟩ : BufTy).Contents (Elt F)),
    binary main_v20 main_arg5 main_v21 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg6 main_v22 (broadcastInDim S1x128 ![1] bcast_S128_S1x128_1 : (⟨S128, .f32⟩ : BufTy).Contents (Elt F) → (⟨S1x128, .f32⟩ : BufTy).Contents (Elt F)),
    unary main_v22 main_v23 (broadcastInDim S20000x128 ![0, 1] bcast_S1x128_S20000x128_0_1 : (⟨S1x128, .f32⟩ : BufTy).Contents (Elt F) → (⟨S20000x128, .f32⟩ : BufTy).Contents (Elt F)),
    binary main_v21 main_v23 main_v24 (addf : (⟨S20000x128, .f32⟩ : BufTy).Contents (Elt F) → (⟨S20000x128, .f32⟩ : BufTy).Contents (Elt F) → (⟨S20000x128, .f32⟩ : BufTy).Contents (Elt F)) ]

/-- The operations of stage `mean1`, in order. -/
abbrev W_mean1 : List (HloOp τ sig (Elt F)) :=
  [ nullary main_cst_2 (constant S_ .f32 0x00000000#32),
    binary main_v24 main_cst_2 main_v25 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_3 (constant S_ .f32 0x469C4000#32),
    unary main_cst_3 main_v26 (broadcastInDim S128 ![] bcast_S_S128 : (⟨S_, .f32⟩ : BufTy).Contents (Elt F) → (⟨S128, .f32⟩ : BufTy).Contents (Elt F)),
    binary main_v25 main_v26 main_v27 (Host.divf : (⟨S128, .f32⟩ : BufTy).Contents (Elt F) → (⟨S128, .f32⟩ : BufTy).Contents (Elt F) → (⟨S128, .f32⟩ : BufTy).Contents (Elt F)) ]

/-- The operations of stage `var1`, in order. -/
abbrev W_var1 : List (HloOp τ sig (Elt F)) :=
  [ nullary main_c_4 (constantI S_ 32 0#32),
    TRef.nullary main_call0.cst (constant S_ .f32 0x00000000#32),
    TRef.binary (.of main_v24) main_call0.cst main_call0.v0 (fun x v => Host.reduceAdd x v reducesTo_S20000x128_S128_d0 h_S_),
    TRef.unary main_call0.v0 main_call0.v1 (broadcastInDim S1x128 ![1] bcast_S128_S1x128_1),
    TRef.nullary main_call0.cst_0 (constant S_ .f32 0x469C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S20000x128 ![0, 1] bcast_S1x128_S20000x128_0_1),
    TRef.binary (.of main_v24) main_call0.v4 main_call0.v5 subf,
    TRef.binary main_call0.v5 main_call0.v5 main_call0.v6 mulf,
    TRef.unary (.of main_c_4) main_call0.v7 (sitofp .f32),
    TRef.nullary main_call0.cst_1 (constant S_ .f32 0x469C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S20000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The operations of stage `h1`, in order. -/
abbrev W_h1 : List (HloOp τ sig (Elt F)) :=
  [ unary main_v27 main_v29 (broadcastInDim S1x128 ![1] bcast_S128_S1x128_1 : (⟨S128, .f32⟩ : BufTy).Contents (Elt F) → (⟨S1x128, .f32⟩ : BufTy).Contents (Elt F)),
    unary main_v29 main_v30 (broadcastInDim S20000x128 ![0, 1] bcast_S1x128_S20000x128_0_1 : (⟨S1x128, .f32⟩ : BufTy).Contents (Elt F) → (⟨S20000x128, .f32⟩ : BufTy).Contents (Elt F)),
    binary main_v24 main_v30 main_v31 (subf : (⟨S20000x128, .f32⟩ : BufTy).Contents (Elt F) → (⟨S20000x128, .f32⟩ : BufTy).Contents (Elt F) → (⟨S20000x128, .f32⟩ : BufTy).Contents (Elt F)),
    nullary main_cst_5 (constant S_ .f32 0x3727C5AC#32),
    unary main_cst_5 main_v32 (broadcastInDim S128 ![] bcast_S_S128 : (⟨S_, .f32⟩ : BufTy).Contents (Elt F) → (⟨S128, .f32⟩ : BufTy).Contents (Elt F)),
    binary main_v28 main_v32 main_v33 (addf : (⟨S128, .f32⟩ : BufTy).Contents (Elt F) → (⟨S128, .f32⟩ : BufTy).Contents (Elt F) → (⟨S128, .f32⟩ : BufTy).Contents (Elt F)),
    unary main_v33 main_v34 (Host.rsqrt : (⟨S128, .f32⟩ : BufTy).Contents (Elt F) → (⟨S128, .f32⟩ : BufTy).Contents (Elt F)),
    unary main_v34 main_v35 (broadcastInDim S1x128 ![1] bcast_S128_S1x128_1 : (⟨S128, .f32⟩ : BufTy).Contents (Elt F) → (⟨S1x128, .f32⟩ : BufTy).Contents (Elt F)),
    unary main_v35 main_v36 (broadcastInDim S20000x128 ![0, 1] bcast_S1x128_S20000x128_0_1 : (⟨S1x128, .f32⟩ : BufTy).Contents (Elt F) → (⟨S20000x128, .f32⟩ : BufTy).Contents (Elt F)),
    binary main_v31 main_v36 main_v37 (mulf : (⟨S20000x128, .f32⟩ : BufTy).Contents (Elt F) → (⟨S20000x128, .f32⟩ : BufTy).Contents (Elt F) → (⟨S20000x128, .f32⟩ : BufTy).Contents (Elt F)),
    unary main_arg7 main_v38 (broadcastInDim S1x128 ![1] bcast_S128_S1x128_1 : (⟨S128, .f32⟩ : BufTy).Contents (Elt F) → (⟨S1x128, .f32⟩ : BufTy).Contents (Elt F)),
    unary main_v38 main_v39 (broadcastInDim S20000x128 ![0, 1] bcast_S1x128_S20000x128_0_1 : (⟨S1x128, .f32⟩ : BufTy).Contents (Elt F) → (⟨S20000x128, .f32⟩ : BufTy).Contents (Elt F)),
    binary main_v37 main_v39 main_v40 (mulf : (⟨S20000x128, .f32⟩ : BufTy).Contents (Elt F) → (⟨S20000x128, .f32⟩ : BufTy).Contents (Elt F) → (⟨S20000x128, .f32⟩ : BufTy).Contents (Elt F)),
    unary main_arg8 main_v41 (broadcastInDim S1x128 ![1] bcast_S128_S1x128_1 : (⟨S128, .f32⟩ : BufTy).Contents (Elt F) → (⟨S1x128, .f32⟩ : BufTy).Contents (Elt F)),
    unary main_v41 main_v42 (broadcastInDim S20000x128 ![0, 1] bcast_S1x128_S20000x128_0_1 : (⟨S1x128, .f32⟩ : BufTy).Contents (Elt F) → (⟨S20000x128, .f32⟩ : BufTy).Contents (Elt F)),
    binary main_v40 main_v42 main_v43 (addf : (⟨S20000x128, .f32⟩ : BufTy).Contents (Elt F) → (⟨S20000x128, .f32⟩ : BufTy).Contents (Elt F) → (⟨S20000x128, .f32⟩ : BufTy).Contents (Elt F)),
    nullary main_cst_6 (constant S_ .f32 0x00000000#32),
    unary main_cst_6 main_v44 (broadcastInDim S20000x128 ![] bcast_S_S20000x128 : (⟨S_, .f32⟩ : BufTy).Contents (Elt F) → (⟨S20000x128, .f32⟩ : BufTy).Contents (Elt F)),
    binary main_v43 main_v44 main_v45 (maximumf : (⟨S20000x128, .f32⟩ : BufTy).Contents (Elt F) → (⟨S20000x128, .f32⟩ : BufTy).Contents (Elt F) → (⟨S20000x128, .f32⟩ : BufTy).Contents (Elt F)) ]

/-- The operations of stage `agg2a`, in order. -/
abbrev W_agg2a : List (HloOp τ sig (Elt F)) :=
  [ nullary main_c_7 (constantI S_ 32 0#32),
    unary main_c_7 main_v46 (broadcastInDim S320000 ![] bcast_S_S320000 : (⟨S_, .i32⟩ : BufTy).Contents (Elt F) → (⟨S320000, .i32⟩ : BufTy).Contents (Elt F)),
    binary main_v1 main_v46 main_v47 (cmpi .slt : (⟨S320000, .i32⟩ : BufTy).Contents (Elt F) → (⟨S320000, .i32⟩ : BufTy).Contents (Elt F) → (⟨S320000, .i1⟩ : BufTy).Contents (Elt F)),
    nullary main_c_8 (constantI S_ 32 20000#32),
    unary main_c_8 main_v48 (broadcastInDim S320000 ![] bcast_S_S320000 : (⟨S_, .i32⟩ : BufTy).Contents (Elt F) → (⟨S320000, .i32⟩ : BufTy).Contents (Elt F)) ]

/-- The operations of stage `agg2b`, in order. -/
abbrev W_agg2b : List (HloOp τ sig (Elt F)) :=
  [ binary main_v1 main_v48 main_v49 (addi : (⟨S320000, .i32⟩ : BufTy).Contents (Elt F) → (⟨S320000, .i32⟩ : BufTy).Contents (Elt F) → (⟨S320000, .i32⟩ : BufTy).Contents (Elt F)),
    ternary main_v47 main_v49 main_v1 main_v50 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v50 main_v51 (broadcastInDim S320000x1 ![0] bcast_S320000_S320000x1_0 : (⟨S320000, .i32⟩ : BufTy).Contents (Elt F) → (⟨S320000x1, .i32⟩ : BufTy).Contents (Elt F)),
    binary main_v45 main_v51 main_v52 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_cst_9 (constant S_ .f32 0x00000000#32),
    unary main_cst_9 main_v53 (broadcastInDim S20000x128 ![] bcast_S_S20000x128 : (⟨S_, .f32⟩ : BufTy).Contents (Elt F) → (⟨S20000x128, .f32⟩ : BufTy).Contents (Elt F)),
    unary main_v3 main_v54 (broadcastInDim S320000x1 ![0] bcast_S320000_S320000x1_0 : (⟨S320000, .i32⟩ : BufTy).Contents (Elt F) → (⟨S320000x1, .i32⟩ : BufTy).Contents (Elt F)),
    ternary main_v53 main_v54 main_v52 main_v55 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

/-- The operations of stage `pre2`, in order. -/
abbrev W_pre2 : List (HloOp τ sig (Elt F)) :=
  [ binary main_v45 main_v55 main_v56 (addf : (⟨S20000x128, .f32⟩ : BufTy).Contents (Elt F) → (⟨S20000x128, .f32⟩ : BufTy).Contents (Elt F) → (⟨S20000x128, .f32⟩ : BufTy).Contents (Elt F)),
    binary main_v56 main_arg9 main_v57 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    unary main_arg10 main_v58 (broadcastInDim S1x256 ![1] bcast_S256_S1x256_1 : (⟨S256, .f32⟩ : BufTy).Contents (Elt F) → (⟨S1x256, .f32⟩ : BufTy).Contents (Elt F)),
    unary main_v58 main_v59 (broadcastInDim S20000x256 ![0, 1] bcast_S1x256_S20000x256_0_1 : (⟨S1x256, .f32⟩ : BufTy).Contents (Elt F) → (⟨S20000x256, .f32⟩ : BufTy).Contents (Elt F)),
    binary main_v57 main_v59 main_v60 (addf : (⟨S20000x256, .f32⟩ : BufTy).Contents (Elt F) → (⟨S20000x256, .f32⟩ : BufTy).Contents (Elt F) → (⟨S20000x256, .f32⟩ : BufTy).Contents (Elt F)),
    nullary main_cst_10 (constant S_ .f32 0x00000000#32),
    unary main_cst_10 main_v61 (broadcastInDim S20000x256 ![] bcast_S_S20000x256 : (⟨S_, .f32⟩ : BufTy).Contents (Elt F) → (⟨S20000x256, .f32⟩ : BufTy).Contents (Elt F)),
    binary main_v60 main_v61 main_v62 (maximumf : (⟨S20000x256, .f32⟩ : BufTy).Contents (Elt F) → (⟨S20000x256, .f32⟩ : BufTy).Contents (Elt F) → (⟨S20000x256, .f32⟩ : BufTy).Contents (Elt F)),
    binary main_v62 main_arg11 main_v63 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg12 main_v64 (broadcastInDim S1x256 ![1] bcast_S256_S1x256_1 : (⟨S256, .f32⟩ : BufTy).Contents (Elt F) → (⟨S1x256, .f32⟩ : BufTy).Contents (Elt F)),
    unary main_v64 main_v65 (broadcastInDim S20000x256 ![0, 1] bcast_S1x256_S20000x256_0_1 : (⟨S1x256, .f32⟩ : BufTy).Contents (Elt F) → (⟨S20000x256, .f32⟩ : BufTy).Contents (Elt F)),
    binary main_v63 main_v65 main_v66 (addf : (⟨S20000x256, .f32⟩ : BufTy).Contents (Elt F) → (⟨S20000x256, .f32⟩ : BufTy).Contents (Elt F) → (⟨S20000x256, .f32⟩ : BufTy).Contents (Elt F)) ]

/-- The operations of stage `mean2`, in order. -/
abbrev W_mean2 : List (HloOp τ sig (Elt F)) :=
  [ nullary main_cst_11 (constant S_ .f32 0x00000000#32),
    binary main_v66 main_cst_11 main_v67 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_12 (constant S_ .f32 0x469C4000#32),
    unary main_cst_12 main_v68 (broadcastInDim S256 ![] bcast_S_S256 : (⟨S_, .f32⟩ : BufTy).Contents (Elt F) → (⟨S256, .f32⟩ : BufTy).Contents (Elt F)),
    binary main_v67 main_v68 main_v69 (Host.divf : (⟨S256, .f32⟩ : BufTy).Contents (Elt F) → (⟨S256, .f32⟩ : BufTy).Contents (Elt F) → (⟨S256, .f32⟩ : BufTy).Contents (Elt F)) ]

/-- The operations of stage `var2`, in order. -/
abbrev W_var2 : List (HloOp τ sig (Elt F)) :=
  [ nullary main_c_13 (constantI S_ 32 0#32),
    TRef.nullary main_call1.cst (constant S_ .f32 0x00000000#32),
    TRef.binary (.of main_v66) main_call1.cst main_call1.v0 (fun x v => Host.reduceAdd x v reducesTo_S20000x256_S256_d0 h_S_),
    TRef.unary main_call1.v0 main_call1.v1 (broadcastInDim S1x256 ![1] bcast_S256_S1x256_1),
    TRef.nullary main_call1.cst_0 (constant S_ .f32 0x469C4000#32),
    TRef.unary main_call1.cst_0 main_call1.v2 (broadcastInDim S1x256 ![] bcast_S_S1x256),
    TRef.binary main_call1.v1 main_call1.v2 main_call1.v3 Host.divf,
    TRef.unary main_call1.v3 main_call1.v4 (broadcastInDim S20000x256 ![0, 1] bcast_S1x256_S20000x256_0_1),
    TRef.binary (.of main_v66) main_call1.v4 main_call1.v5 subf,
    TRef.binary main_call1.v5 main_call1.v5 main_call1.v6 mulf,
    TRef.unary (.of main_c_13) main_call1.v7 (sitofp .f32),
    TRef.nullary main_call1.cst_1 (constant S_ .f32 0x469C4000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S20000x256_S256_d0 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b) ]

/-- The operations of stage `h2`, in order. -/
abbrev W_h2 : List (HloOp τ sig (Elt F)) :=
  [ unary main_v69 main_v71 (broadcastInDim S1x256 ![1] bcast_S256_S1x256_1 : (⟨S256, .f32⟩ : BufTy).Contents (Elt F) → (⟨S1x256, .f32⟩ : BufTy).Contents (Elt F)),
    unary main_v71 main_v72 (broadcastInDim S20000x256 ![0, 1] bcast_S1x256_S20000x256_0_1 : (⟨S1x256, .f32⟩ : BufTy).Contents (Elt F) → (⟨S20000x256, .f32⟩ : BufTy).Contents (Elt F)),
    binary main_v66 main_v72 main_v73 (subf : (⟨S20000x256, .f32⟩ : BufTy).Contents (Elt F) → (⟨S20000x256, .f32⟩ : BufTy).Contents (Elt F) → (⟨S20000x256, .f32⟩ : BufTy).Contents (Elt F)),
    nullary main_cst_14 (constant S_ .f32 0x3727C5AC#32),
    unary main_cst_14 main_v74 (broadcastInDim S256 ![] bcast_S_S256 : (⟨S_, .f32⟩ : BufTy).Contents (Elt F) → (⟨S256, .f32⟩ : BufTy).Contents (Elt F)),
    binary main_v70 main_v74 main_v75 (addf : (⟨S256, .f32⟩ : BufTy).Contents (Elt F) → (⟨S256, .f32⟩ : BufTy).Contents (Elt F) → (⟨S256, .f32⟩ : BufTy).Contents (Elt F)),
    unary main_v75 main_v76 (Host.rsqrt : (⟨S256, .f32⟩ : BufTy).Contents (Elt F) → (⟨S256, .f32⟩ : BufTy).Contents (Elt F)),
    unary main_v76 main_v77 (broadcastInDim S1x256 ![1] bcast_S256_S1x256_1 : (⟨S256, .f32⟩ : BufTy).Contents (Elt F) → (⟨S1x256, .f32⟩ : BufTy).Contents (Elt F)),
    unary main_v77 main_v78 (broadcastInDim S20000x256 ![0, 1] bcast_S1x256_S20000x256_0_1 : (⟨S1x256, .f32⟩ : BufTy).Contents (Elt F) → (⟨S20000x256, .f32⟩ : BufTy).Contents (Elt F)),
    binary main_v73 main_v78 main_v79 (mulf : (⟨S20000x256, .f32⟩ : BufTy).Contents (Elt F) → (⟨S20000x256, .f32⟩ : BufTy).Contents (Elt F) → (⟨S20000x256, .f32⟩ : BufTy).Contents (Elt F)),
    unary main_arg13 main_v80 (broadcastInDim S1x256 ![1] bcast_S256_S1x256_1 : (⟨S256, .f32⟩ : BufTy).Contents (Elt F) → (⟨S1x256, .f32⟩ : BufTy).Contents (Elt F)),
    unary main_v80 main_v81 (broadcastInDim S20000x256 ![0, 1] bcast_S1x256_S20000x256_0_1 : (⟨S1x256, .f32⟩ : BufTy).Contents (Elt F) → (⟨S20000x256, .f32⟩ : BufTy).Contents (Elt F)),
    binary main_v79 main_v81 main_v82 (mulf : (⟨S20000x256, .f32⟩ : BufTy).Contents (Elt F) → (⟨S20000x256, .f32⟩ : BufTy).Contents (Elt F) → (⟨S20000x256, .f32⟩ : BufTy).Contents (Elt F)),
    unary main_arg14 main_v83 (broadcastInDim S1x256 ![1] bcast_S256_S1x256_1 : (⟨S256, .f32⟩ : BufTy).Contents (Elt F) → (⟨S1x256, .f32⟩ : BufTy).Contents (Elt F)),
    unary main_v83 main_v84 (broadcastInDim S20000x256 ![0, 1] bcast_S1x256_S20000x256_0_1 : (⟨S1x256, .f32⟩ : BufTy).Contents (Elt F) → (⟨S20000x256, .f32⟩ : BufTy).Contents (Elt F)),
    binary main_v82 main_v84 main_v85 (addf : (⟨S20000x256, .f32⟩ : BufTy).Contents (Elt F) → (⟨S20000x256, .f32⟩ : BufTy).Contents (Elt F) → (⟨S20000x256, .f32⟩ : BufTy).Contents (Elt F)),
    nullary main_cst_15 (constant S_ .f32 0x00000000#32),
    unary main_cst_15 main_v86 (broadcastInDim S20000x256 ![] bcast_S_S20000x256 : (⟨S_, .f32⟩ : BufTy).Contents (Elt F) → (⟨S20000x256, .f32⟩ : BufTy).Contents (Elt F)),
    binary main_v85 main_v86 main_v87 (maximumf : (⟨S20000x256, .f32⟩ : BufTy).Contents (Elt F) → (⟨S20000x256, .f32⟩ : BufTy).Contents (Elt F) → (⟨S20000x256, .f32⟩ : BufTy).Contents (Elt F)) ]

/-- The operations of stage `agg3`, in order. -/
abbrev W_agg3 : List (HloOp τ sig (Elt F)) :=
  [ nullary main_c_16 (constantI S_ 32 0#32),
    unary main_c_16 main_v88 (broadcastInDim S320000 ![] bcast_S_S320000 : (⟨S_, .i32⟩ : BufTy).Contents (Elt F) → (⟨S320000, .i32⟩ : BufTy).Contents (Elt F)),
    binary main_v1 main_v88 main_v89 (cmpi .slt : (⟨S320000, .i32⟩ : BufTy).Contents (Elt F) → (⟨S320000, .i32⟩ : BufTy).Contents (Elt F) → (⟨S320000, .i1⟩ : BufTy).Contents (Elt F)),
    nullary main_c_17 (constantI S_ 32 20000#32),
    unary main_c_17 main_v90 (broadcastInDim S320000 ![] bcast_S_S320000 : (⟨S_, .i32⟩ : BufTy).Contents (Elt F) → (⟨S320000, .i32⟩ : BufTy).Contents (Elt F)),
    binary main_v1 main_v90 main_v91 (addi : (⟨S320000, .i32⟩ : BufTy).Contents (Elt F) → (⟨S320000, .i32⟩ : BufTy).Contents (Elt F) → (⟨S320000, .i32⟩ : BufTy).Contents (Elt F)),
    ternary main_v89 main_v91 main_v1 main_v92 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v92 main_v93 (broadcastInDim S320000x1 ![0] bcast_S320000_S320000x1_0 : (⟨S320000, .i32⟩ : BufTy).Contents (Elt F) → (⟨S320000x1, .i32⟩ : BufTy).Contents (Elt F)),
    binary main_v87 main_v93 main_v94 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    nullary main_cst_18 (constant S_ .f32 0x00000000#32),
    unary main_cst_18 main_v95 (broadcastInDim S20000x256 ![] bcast_S_S20000x256 : (⟨S_, .f32⟩ : BufTy).Contents (Elt F) → (⟨S20000x256, .f32⟩ : BufTy).Contents (Elt F)),
    unary main_v3 main_v96 (broadcastInDim S320000x1 ![0] bcast_S320000_S320000x1_0 : (⟨S320000, .i32⟩ : BufTy).Contents (Elt F) → (⟨S320000x1, .i32⟩ : BufTy).Contents (Elt F)),
    ternary main_v95 main_v96 main_v94 main_v97 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]

/-- The operations of stage `pre3a`, in order. -/
abbrev W_pre3a : List (HloOp τ sig (Elt F)) :=
  [ binary main_v87 main_v97 main_v98 (addf : (⟨S20000x256, .f32⟩ : BufTy).Contents (Elt F) → (⟨S20000x256, .f32⟩ : BufTy).Contents (Elt F) → (⟨S20000x256, .f32⟩ : BufTy).Contents (Elt F)) ]

/-- The operations of stage `pre3b`, in order. -/
abbrev W_pre3b : List (HloOp τ sig (Elt F)) :=
  [ binary main_v98 main_arg15 main_v99 ((fun l r => Host.dotGeneral dot_S20000x256_S256x512_S20000x512_1_0_0_1_n_n none l r) : (⟨S20000x256, .f32⟩ : BufTy).Contents (Elt F) → (⟨S256x512, .f32⟩ : BufTy).Contents (Elt F) → (⟨S20000x512, .f32⟩ : BufTy).Contents (Elt F)),
    unary main_arg16 main_v100 (broadcastInDim S1x512 ![1] bcast_S512_S1x512_1 : (⟨S512, .f32⟩ : BufTy).Contents (Elt F) → (⟨S1x512, .f32⟩ : BufTy).Contents (Elt F)),
    unary main_v100 main_v101 (broadcastInDim S20000x512 ![0, 1] bcast_S1x512_S20000x512_0_1 : (⟨S1x512, .f32⟩ : BufTy).Contents (Elt F) → (⟨S20000x512, .f32⟩ : BufTy).Contents (Elt F)),
    binary main_v99 main_v101 main_v102 (addf : (⟨S20000x512, .f32⟩ : BufTy).Contents (Elt F) → (⟨S20000x512, .f32⟩ : BufTy).Contents (Elt F) → (⟨S20000x512, .f32⟩ : BufTy).Contents (Elt F)),
    nullary main_cst_19 (constant S_ .f32 0x00000000#32),
    unary main_cst_19 main_v103 (broadcastInDim S20000x512 ![] bcast_S_S20000x512 : (⟨S_, .f32⟩ : BufTy).Contents (Elt F) → (⟨S20000x512, .f32⟩ : BufTy).Contents (Elt F)),
    binary main_v102 main_v103 main_v104 (maximumf : (⟨S20000x512, .f32⟩ : BufTy).Contents (Elt F) → (⟨S20000x512, .f32⟩ : BufTy).Contents (Elt F) → (⟨S20000x512, .f32⟩ : BufTy).Contents (Elt F)),
    binary main_v104 main_arg17 main_v105 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg18 main_v106 (broadcastInDim S1x512 ![1] bcast_S512_S1x512_1 : (⟨S512, .f32⟩ : BufTy).Contents (Elt F) → (⟨S1x512, .f32⟩ : BufTy).Contents (Elt F)),
    unary main_v106 main_v107 (broadcastInDim S20000x512 ![0, 1] bcast_S1x512_S20000x512_0_1 : (⟨S1x512, .f32⟩ : BufTy).Contents (Elt F) → (⟨S20000x512, .f32⟩ : BufTy).Contents (Elt F)),
    binary main_v105 main_v107 main_v108 (addf : (⟨S20000x512, .f32⟩ : BufTy).Contents (Elt F) → (⟨S20000x512, .f32⟩ : BufTy).Contents (Elt F) → (⟨S20000x512, .f32⟩ : BufTy).Contents (Elt F)) ]

/-- The operations of stage `mean3`, in order. -/
abbrev W_mean3 : List (HloOp τ sig (Elt F)) :=
  [ nullary main_cst_20 (constant S_ .f32 0x00000000#32),
    binary main_v108 main_cst_20 main_v109 ((fun x v => Host.reduceAdd x v reducesTo_S20000x512_S512_d0 h_S_) : (⟨S20000x512, .f32⟩ : BufTy).Contents (Elt F) → (⟨S_, .f32⟩ : BufTy).Contents (Elt F) → (⟨S512, .f32⟩ : BufTy).Contents (Elt F)),
    nullary main_cst_21 (constant S_ .f32 0x469C4000#32),
    unary main_cst_21 main_v110 (broadcastInDim S512 ![] bcast_S_S512 : (⟨S_, .f32⟩ : BufTy).Contents (Elt F) → (⟨S512, .f32⟩ : BufTy).Contents (Elt F)),
    binary main_v109 main_v110 main_v111 (Host.divf : (⟨S512, .f32⟩ : BufTy).Contents (Elt F) → (⟨S512, .f32⟩ : BufTy).Contents (Elt F) → (⟨S512, .f32⟩ : BufTy).Contents (Elt F)) ]

/-- The operations of stage `var3`, in order. -/
abbrev W_var3 : List (HloOp τ sig (Elt F)) :=
  [ nullary main_c_22 (constantI S_ 32 0#32),
    TRef.nullary main_call2.cst (constant S_ .f32 0x00000000#32),
    TRef.binary (.of main_v108) main_call2.cst main_call2.v0 (fun x v => Host.reduceAdd x v reducesTo_S20000x512_S512_d0 h_S_),
    TRef.unary main_call2.v0 main_call2.v1 (broadcastInDim S1x512 ![1] bcast_S512_S1x512_1),
    TRef.nullary main_call2.cst_0 (constant S_ .f32 0x469C4000#32),
    TRef.unary main_call2.cst_0 main_call2.v2 (broadcastInDim S1x512 ![] bcast_S_S1x512),
    TRef.binary main_call2.v1 main_call2.v2 main_call2.v3 Host.divf,
    TRef.unary main_call2.v3 main_call2.v4 (broadcastInDim S20000x512 ![0, 1] bcast_S1x512_S20000x512_0_1),
    TRef.binary (.of main_v108) main_call2.v4 main_call2.v5 subf,
    TRef.binary main_call2.v5 main_call2.v5 main_call2.v6 mulf,
    TRef.unary (.of main_c_22) main_call2.v7 (sitofp .f32),
    TRef.nullary main_call2.cst_1 (constant S_ .f32 0x469C4000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S20000x512_S512_d0 h_S_),
    TRef.unary main_call2.v8 main_call2.v10 (broadcastInDim S512 ![] bcast_S_S512),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S512 ![] bcast_S_S512),
    TRef.ternary main_call2.v12 main_call2.v11 main_call2.call0.v1 main_call2.call0.v2 (fun p a b => select (broadcastInDim S512 ![] bcast_S_S512 p) a b) ]

/-- The operations of stage `h3`, in order. -/
abbrev W_h3 : List (HloOp τ sig (Elt F)) :=
  [ unary main_v111 main_v113 (broadcastInDim S1x512 ![1] bcast_S512_S1x512_1 : (⟨S512, .f32⟩ : BufTy).Contents (Elt F) → (⟨S1x512, .f32⟩ : BufTy).Contents (Elt F)),
    unary main_v113 main_v114 (broadcastInDim S20000x512 ![0, 1] bcast_S1x512_S20000x512_0_1 : (⟨S1x512, .f32⟩ : BufTy).Contents (Elt F) → (⟨S20000x512, .f32⟩ : BufTy).Contents (Elt F)),
    binary main_v108 main_v114 main_v115 (subf : (⟨S20000x512, .f32⟩ : BufTy).Contents (Elt F) → (⟨S20000x512, .f32⟩ : BufTy).Contents (Elt F) → (⟨S20000x512, .f32⟩ : BufTy).Contents (Elt F)),
    nullary main_cst_23 (constant S_ .f32 0x3727C5AC#32),
    unary main_cst_23 main_v116 (broadcastInDim S512 ![] bcast_S_S512 : (⟨S_, .f32⟩ : BufTy).Contents (Elt F) → (⟨S512, .f32⟩ : BufTy).Contents (Elt F)),
    binary main_v112 main_v116 main_v117 (addf : (⟨S512, .f32⟩ : BufTy).Contents (Elt F) → (⟨S512, .f32⟩ : BufTy).Contents (Elt F) → (⟨S512, .f32⟩ : BufTy).Contents (Elt F)),
    unary main_v117 main_v118 (Host.rsqrt : (⟨S512, .f32⟩ : BufTy).Contents (Elt F) → (⟨S512, .f32⟩ : BufTy).Contents (Elt F)),
    unary main_v118 main_v119 (broadcastInDim S1x512 ![1] bcast_S512_S1x512_1 : (⟨S512, .f32⟩ : BufTy).Contents (Elt F) → (⟨S1x512, .f32⟩ : BufTy).Contents (Elt F)),
    unary main_v119 main_v120 (broadcastInDim S20000x512 ![0, 1] bcast_S1x512_S20000x512_0_1 : (⟨S1x512, .f32⟩ : BufTy).Contents (Elt F) → (⟨S20000x512, .f32⟩ : BufTy).Contents (Elt F)),
    binary main_v115 main_v120 main_v121 (mulf : (⟨S20000x512, .f32⟩ : BufTy).Contents (Elt F) → (⟨S20000x512, .f32⟩ : BufTy).Contents (Elt F) → (⟨S20000x512, .f32⟩ : BufTy).Contents (Elt F)),
    unary main_arg19 main_v122 (broadcastInDim S1x512 ![1] bcast_S512_S1x512_1 : (⟨S512, .f32⟩ : BufTy).Contents (Elt F) → (⟨S1x512, .f32⟩ : BufTy).Contents (Elt F)),
    unary main_v122 main_v123 (broadcastInDim S20000x512 ![0, 1] bcast_S1x512_S20000x512_0_1 : (⟨S1x512, .f32⟩ : BufTy).Contents (Elt F) → (⟨S20000x512, .f32⟩ : BufTy).Contents (Elt F)),
    binary main_v121 main_v123 main_v124 (mulf : (⟨S20000x512, .f32⟩ : BufTy).Contents (Elt F) → (⟨S20000x512, .f32⟩ : BufTy).Contents (Elt F) → (⟨S20000x512, .f32⟩ : BufTy).Contents (Elt F)),
    unary main_arg20 main_v125 (broadcastInDim S1x512 ![1] bcast_S512_S1x512_1 : (⟨S512, .f32⟩ : BufTy).Contents (Elt F) → (⟨S1x512, .f32⟩ : BufTy).Contents (Elt F)),
    unary main_v125 main_v126 (broadcastInDim S20000x512 ![0, 1] bcast_S1x512_S20000x512_0_1 : (⟨S1x512, .f32⟩ : BufTy).Contents (Elt F) → (⟨S20000x512, .f32⟩ : BufTy).Contents (Elt F)),
    binary main_v124 main_v126 main_v127 (addf : (⟨S20000x512, .f32⟩ : BufTy).Contents (Elt F) → (⟨S20000x512, .f32⟩ : BufTy).Contents (Elt F) → (⟨S20000x512, .f32⟩ : BufTy).Contents (Elt F)),
    nullary main_cst_24 (constant S_ .f32 0x00000000#32),
    unary main_cst_24 main_v128 (broadcastInDim S20000x512 ![] bcast_S_S20000x512 : (⟨S_, .f32⟩ : BufTy).Contents (Elt F) → (⟨S20000x512, .f32⟩ : BufTy).Contents (Elt F)),
    binary main_v127 main_v128 main_v129 (maximumf : (⟨S20000x512, .f32⟩ : BufTy).Contents (Elt F) → (⟨S20000x512, .f32⟩ : BufTy).Contents (Elt F) → (⟨S20000x512, .f32⟩ : BufTy).Contents (Elt F)) ]

/-- The operations of stage `out`, in order. -/
abbrev W_out : List (HloOp τ sig (Elt F)) :=
  [ nullary main_cst_25 (constant S_ .f32 0x00000000#32),
    unary main_cst_25 main_v130 (broadcastInDim S64x512 ![] bcast_S_S64x512 : (⟨S_, .f32⟩ : BufTy).Contents (Elt F) → (⟨S64x512, .f32⟩ : BufTy).Contents (Elt F)),
    unary main_arg2 main_v131 (broadcastInDim S20000x1 ![0] bcast_S20000_S20000x1_0 : (⟨S20000, .i32⟩ : BufTy).Contents (Elt F) → (⟨S20000x1, .i32⟩ : BufTy).Contents (Elt F)),
    ternary main_v130 main_v131 main_v129 main_v132 ((fun x i u => Host.scatterAdd scatter_S64x512_S20000x1_S20000x512_1_0_0_1 x i u) : (⟨S64x512, .f32⟩ : BufTy).Contents (Elt F) → (⟨S20000x1, .i32⟩ : BufTy).Contents (Elt F) → (⟨S20000x512, .f32⟩ : BufTy).Contents (Elt F) → (⟨S64x512, .f32⟩ : BufTy).Contents (Elt F)),
    nullary main_cst_26 (constant S_ .f32 0x3F800000#32),
    unary main_cst_26 main_v133 (broadcastInDim S20000 ![] bcast_S_S20000 : (⟨S_, .f32⟩ : BufTy).Contents (Elt F) → (⟨S20000, .f32⟩ : BufTy).Contents (Elt F)),
    nullary main_cst_27 (constant S_ .f32 0x00000000#32),
    unary main_cst_27 main_v134 (broadcastInDim S64 ![] bcast_S_S64 : (⟨S_, .f32⟩ : BufTy).Contents (Elt F) → (⟨S64, .f32⟩ : BufTy).Contents (Elt F)),
    unary main_arg2 main_v135 (broadcastInDim S20000x1 ![0] bcast_S20000_S20000x1_0 : (⟨S20000, .i32⟩ : BufTy).Contents (Elt F) → (⟨S20000x1, .i32⟩ : BufTy).Contents (Elt F)),
    ternary main_v134 main_v135 main_v133 main_v136 ((fun x i u => Host.scatterAdd scatter_S64_S20000x1_S20000_n_0_0_1 x i u) : (⟨S64, .f32⟩ : BufTy).Contents (Elt F) → (⟨S20000x1, .i32⟩ : BufTy).Contents (Elt F) → (⟨S20000, .f32⟩ : BufTy).Contents (Elt F) → (⟨S64, .f32⟩ : BufTy).Contents (Elt F)),
    nullary main_cst_28 (constant S_ .f32 0x3F800000#32),
    unary main_cst_28 main_v137 (broadcastInDim S64 ![] bcast_S_S64 : (⟨S_, .f32⟩ : BufTy).Contents (Elt F) → (⟨S64, .f32⟩ : BufTy).Contents (Elt F)),
    binary main_v136 main_v137 main_v138 (maximumf : (⟨S64, .f32⟩ : BufTy).Contents (Elt F) → (⟨S64, .f32⟩ : BufTy).Contents (Elt F) → (⟨S64, .f32⟩ : BufTy).Contents (Elt F)),
    unary main_v138 main_v139 (broadcastInDim S64x1 ![0] bcast_S64_S64x1_0 : (⟨S64, .f32⟩ : BufTy).Contents (Elt F) → (⟨S64x1, .f32⟩ : BufTy).Contents (Elt F)),
    unary main_v139 main_v140 (broadcastInDim S64x512 ![0, 1] bcast_S64x1_S64x512_0_1 : (⟨S64x1, .f32⟩ : BufTy).Contents (Elt F) → (⟨S64x512, .f32⟩ : BufTy).Contents (Elt F)),
    binary main_v132 main_v140 main_v141 (Host.divf : (⟨S64x512, .f32⟩ : BufTy).Contents (Elt F) → (⟨S64x512, .f32⟩ : BufTy).Contents (Elt F) → (⟨S64x512, .f32⟩ : BufTy).Contents (Elt F)),
    binary main_v141 main_arg21 main_v142 ((fun l r => Host.dotGeneral dot_S64x512_S512x64_S64x64_1_0_0_1_n_n none l r) : (⟨S64x512, .f32⟩ : BufTy).Contents (Elt F) → (⟨S512x64, .f32⟩ : BufTy).Contents (Elt F) → (⟨S64x64, .f32⟩ : BufTy).Contents (Elt F)),
    unary main_arg22 main_v143 (broadcastInDim S1x64 ![1] bcast_S64_S1x64_1 : (⟨S64, .f32⟩ : BufTy).Contents (Elt F) → (⟨S1x64, .f32⟩ : BufTy).Contents (Elt F)),
    unary main_v143 main_v144 (broadcastInDim S64x64 ![0, 1] bcast_S1x64_S64x64_0_1 : (⟨S1x64, .f32⟩ : BufTy).Contents (Elt F) → (⟨S64x64, .f32⟩ : BufTy).Contents (Elt F)),
    binary main_v142 main_v144 main_v145 (addf : (⟨S64x64, .f32⟩ : BufTy).Contents (Elt F) → (⟨S64x64, .f32⟩ : BufTy).Contents (Elt F) → (⟨S64x64, .f32⟩ : BufTy).Contents (Elt F)),
    nullary main_cst_29 (constant S_ .f32 0x00000000#32),
    unary main_cst_29 main_v146 (broadcastInDim S64x64 ![] bcast_S_S64x64 : (⟨S_, .f32⟩ : BufTy).Contents (Elt F) → (⟨S64x64, .f32⟩ : BufTy).Contents (Elt F)),
    binary main_v145 main_v146 main_v147 (maximumf : (⟨S64x64, .f32⟩ : BufTy).Contents (Elt F) → (⟨S64x64, .f32⟩ : BufTy).Contents (Elt F) → (⟨S64x64, .f32⟩ : BufTy).Contents (Elt F)) ]

/-! Every operation touches buffers of the one core only, and determines its result. -/

theorem W_idx_sub : (W_idx : List (HloOp τ sig (Elt F))).Forall fun op => op.bufs ⊆ tcRefs τ sig :=
  ⟨unary_bufs_sub .., reshape_bufs_sub .., unary_bufs_sub .., reshape_bufs_sub ..⟩
theorem W_agg1_sub : (W_agg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem W_pre1_sub : (W_pre1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem W_mean1_sub : (W_mean1 : List (HloOp τ sig (Elt F))).Forall fun op => op.bufs ⊆ tcRefs τ sig :=
  ⟨nullary_bufs_sub .., binary_bufs_sub .., nullary_bufs_sub .., unary_bufs_sub .., binary_bufs_sub ..⟩
theorem W_var1_sub : (W_var1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem W_h1_sub : (W_h1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem W_agg2a_sub : (W_agg2a : List (HloOp τ sig (Elt F))).Forall fun op => op.bufs ⊆ tcRefs τ sig :=
  ⟨nullary_bufs_sub .., unary_bufs_sub .., binary_bufs_sub .., nullary_bufs_sub .., unary_bufs_sub ..⟩
theorem W_agg2b_sub : (W_agg2b : List (HloOp τ sig (Elt F))).Forall fun op => op.bufs ⊆ tcRefs τ sig :=
  ⟨binary_bufs_sub .., ternary_bufs_sub .., unary_bufs_sub .., binary_bufs_sub .., nullary_bufs_sub .., unary_bufs_sub .., unary_bufs_sub .., ternary_bufs_sub ..⟩
theorem W_pre2_sub : (W_pre2 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem W_mean2_sub : (W_mean2 : List (HloOp τ sig (Elt F))).Forall fun op => op.bufs ⊆ tcRefs τ sig :=
  ⟨nullary_bufs_sub .., binary_bufs_sub .., nullary_bufs_sub .., unary_bufs_sub .., binary_bufs_sub ..⟩
theorem W_var2_sub : (W_var2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem W_h2_sub : (W_h2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem W_agg3_sub : (W_agg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem W_pre3a_sub : (W_pre3a : List (HloOp τ sig (Elt F))).Forall fun op => op.bufs ⊆ tcRefs τ sig :=
  binary_bufs_sub ..
theorem W_pre3b_sub : (W_pre3b : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem W_mean3_sub : (W_mean3 : List (HloOp τ sig (Elt F))).Forall fun op => op.bufs ⊆ tcRefs τ sig :=
  ⟨nullary_bufs_sub .., binary_bufs_sub .., nullary_bufs_sub .., unary_bufs_sub .., binary_bufs_sub ..⟩
theorem W_var3_sub : (W_var3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem W_h3_sub : (W_h3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem W_out_sub : (W_out : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

theorem W_idx_fresh : (W_idx : List (HloOp τ sig (Elt F))).Forall fun op => op.fresh = ∅ :=
  ⟨rfl, rfl, rfl, rfl⟩
theorem W_agg1_fresh : (W_agg1 : List (HloOp τ sig (Elt F))).Forall fun op => op.fresh = ∅ :=
  ⟨rfl, rfl, rfl, rfl, rfl, rfl, rfl, rfl, rfl, rfl, rfl, rfl, rfl⟩
theorem W_pre1_fresh : (W_pre1 : List (HloOp τ sig (Elt F))).Forall fun op => op.fresh = ∅ :=
  ⟨rfl, rfl, rfl, rfl, rfl, rfl, rfl, rfl, rfl, rfl, rfl, rfl⟩
theorem W_mean1_fresh : (W_mean1 : List (HloOp τ sig (Elt F))).Forall fun op => op.fresh = ∅ :=
  ⟨rfl, rfl, rfl, rfl, rfl⟩
theorem W_var1_fresh : (W_var1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem W_h1_fresh : (W_h1 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem W_agg2a_fresh : (W_agg2a : List (HloOp τ sig (Elt F))).Forall fun op => op.fresh = ∅ :=
  ⟨rfl, rfl, rfl, rfl, rfl⟩
theorem W_agg2b_fresh : (W_agg2b : List (HloOp τ sig (Elt F))).Forall fun op => op.fresh = ∅ :=
  ⟨rfl, rfl, rfl, rfl, rfl, rfl, rfl, rfl⟩
theorem W_pre2_fresh : (W_pre2 : List (HloOp τ sig (Elt F))).Forall fun op => op.fresh = ∅ :=
  ⟨rfl, rfl, rfl, rfl, rfl, rfl, rfl, rfl, rfl, rfl, rfl, rfl⟩
theorem W_mean2_fresh : (W_mean2 : List (HloOp τ sig (Elt F))).Forall fun op => op.fresh = ∅ :=
  ⟨rfl, rfl, rfl, rfl, rfl⟩
theorem W_var2_fresh : (W_var2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem W_h2_fresh : (W_h2 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem W_agg3_fresh : (W_agg3 : List (HloOp τ sig (Elt F))).Forall fun op => op.fresh = ∅ :=
  ⟨rfl, rfl, rfl, rfl, rfl, rfl, rfl, rfl, rfl, rfl, rfl, rfl, rfl⟩
theorem W_pre3a_fresh : (W_pre3a : List (HloOp τ sig (Elt F))).Forall fun op => op.fresh = ∅ :=
  rfl
theorem W_pre3b_fresh : (W_pre3b : List (HloOp τ sig (Elt F))).Forall fun op => op.fresh = ∅ :=
  ⟨rfl, rfl, rfl, rfl, rfl, rfl, rfl, rfl, rfl, rfl, rfl⟩
theorem W_mean3_fresh : (W_mean3 : List (HloOp τ sig (Elt F))).Forall fun op => op.fresh = ∅ :=
  ⟨rfl, rfl, rfl, rfl, rfl⟩
theorem W_var3_fresh : (W_var3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem W_h3_fresh : (W_h3 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem W_out_fresh : (W_out : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-! The program's consecutive pieces, and the whole. -/

/-- The operations of the program's piece 0. -/
abbrev P0 : List (HloOp τ sig (Elt F)) := W_idx ++ W_agg1 ++ W_pre1 ++ W_mean1 ++ W_var1 ++ W_h1 ++ W_agg2a
/-- The operations of the program's piece 1. -/
abbrev P1 : List (HloOp τ sig (Elt F)) := W_agg2b ++ W_pre2 ++ W_mean2 ++ W_var2 ++ W_h2 ++ W_agg3 ++ W_pre3a
/-- The operations of the program's piece 2. -/
abbrev P2 : List (HloOp τ sig (Elt F)) := W_pre3b ++ W_mean3 ++ W_var3 ++ W_h3 ++ W_out
/-- The last piece only returns. -/
abbrev P3 : List (HloOp τ sig (Elt F)) := []

/-- All the operations, in order. -/
abbrev ops : List (HloOp τ sig (Elt F)) := P0 ++ P1 ++ P2 ++ P3

theorem part0_eq (c : Dev nD) : main_part0 (F := F) c = seq P0 := rfl
theorem part1_eq (c : Dev nD) : main_part1 (F := F) c = seq P1 := rfl
theorem part2_eq (c : Dev nD) : main_part2 (F := F) c = seq P2 := rfl
theorem part3_eq (c : Dev nD) : main_part3 (F := F) c = seq P3 := rfl

/-- The program is its operations run in order. -/
theorem main_eq (c : Dev nD) : main (F := F) c = seq ops := by
  simp only [main, ops, seq_append, ← part0_eq c, ← part1_eq c, ← part2_eq c, ← part3_eq c, bind_assoc]

theorem ops_sub : (ops : List (HloOp τ sig (Elt F))).Forall fun op => op.bufs ⊆ tcRefs τ sig :=
  forall_app (forall_app (forall_app
    (forall_app (forall_app (forall_app (forall_app (forall_app (forall_app W_idx_sub W_agg1_sub) W_pre1_sub) W_mean1_sub) W_var1_sub) W_h1_sub) W_agg2a_sub)
    (forall_app (forall_app (forall_app (forall_app (forall_app (forall_app W_agg2b_sub W_pre2_sub) W_mean2_sub) W_var2_sub) W_h2_sub) W_agg3_sub) W_pre3a_sub))
    (forall_app (forall_app (forall_app (forall_app W_pre3b_sub W_mean3_sub) W_var3_sub) W_h3_sub) W_out_sub)) trivial

theorem ops_fresh : ∀ op ∈ (ops : List (HloOp τ sig (Elt F))), op.fresh = ∅ :=
  List.forall_iff_forall_mem.mp (forall_app (forall_app (forall_app
    (forall_app (forall_app (forall_app (forall_app (forall_app (forall_app W_idx_fresh W_agg1_fresh) W_pre1_fresh) W_mean1_fresh) W_var1_fresh) W_h1_fresh) W_agg2a_fresh)
    (forall_app (forall_app (forall_app (forall_app (forall_app (forall_app W_agg2b_fresh W_pre2_fresh) W_mean2_fresh) W_var2_fresh) W_h2_fresh) W_agg3_fresh) W_pre3a_fresh))
    (forall_app (forall_app (forall_app (forall_app W_pre3b_fresh W_mean3_fresh) W_var3_fresh) W_h3_fresh) W_out_fresh)) trivial)

theorem scopedRefs_eq : (Finset.univ.filter fun b : Ref sig .tc => b.isScoped) = ∅ := by decide
theorem scopedSems_eq : (Finset.univ.filter fun sm : SemLoc sig => sm.isScoped .tc) = ∅ := by decide

/-- What the run of the whole list leaves in every buffer of the core: the operations' results folded over the contents at launch. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefKeep.lean ====
/-
  Which buffers each stage's operations write, and that a buffer a stage does not write keeps its contents through it.
-/
import proofs.«137780_j52690658787578_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One operation writes its result buffer, which is in the stage's list. -/
macro "wr_one" : tactic =>
  `(tactic| (simp only [nullary_writes, unary_writes, binary_writes, ternary_writes, reshape_writes, Finset.singleton_subset_iff, List.mem_toFinset]; exact List.mem_map_of_mem (by decide)))

/-- The buffers the operations of stage `idx` write. -/
abbrev W_idx_W : List (Ref sig .tc) := [main_v0, main_v1, main_v2, main_v3]
theorem W_idx_writes : (W_idx : List (HloOp τ sig (Elt F))).Forall fun op => op.writes ⊆ (W_idx_W.map (Proc.devRef (τ := τ) .tc)).toFinset := by
  simp only [List.Forall]
  exact ⟨by wr_one,
    by wr_one,
    by wr_one,
    by wr_one⟩
/-- A buffer the stage does not write keeps its contents through it. -/
theorem W_idx_keep (V : Valuation τ sig (Elt F)) (r : Ref sig .tc) (h : r ∉ W_idx_W) :
    after W_idx V (Proc.devRef .tc r) = V (Proc.devRef .tc r) :=
  after_of_writes_sub W_idx _ W_idx_writes h

/-- The buffers the operations of stage `agg1` write. -/
abbrev W_agg1_W : List (Ref sig .tc) := [main_c, main_v4, main_v5, main_c_0, main_v6, main_v7, main_v8, main_v9, main_v10, main_cst, main_v11, main_v12, main_v13]
theorem W_agg1_writes : (W_agg1 : List (HloOp τ sig (Elt F))).Forall fun op => op.writes ⊆ (W_agg1_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one,
    by wr_one,
    by wr_one⟩
/-- A buffer the stage does not write keeps its contents through it. -/
theorem W_agg1_keep (V : Valuation τ sig (Elt F)) (r : Ref sig .tc) (h : r ∉ W_agg1_W) :
    after W_agg1 V (Proc.devRef .tc r) = V (Proc.devRef .tc r) :=
  after_of_writes_sub W_agg1 _ W_agg1_writes h

/-- The buffers the operations of stage `pre1` write. -/
abbrev W_pre1_W : List (Ref sig .tc) := [main_v14, main_v15, main_v16, main_v17, main_v18, main_cst_1, main_v19, main_v20, main_v21, main_v22, main_v23, main_v24]
theorem W_pre1_writes : (W_pre1 : List (HloOp τ sig (Elt F))).Forall fun op => op.writes ⊆ (W_pre1_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one,
    by wr_one⟩
/-- A buffer the stage does not write keeps its contents through it. -/
theorem W_pre1_keep (V : Valuation τ sig (Elt F)) (r : Ref sig .tc) (h : r ∉ W_pre1_W) :
    after W_pre1 V (Proc.devRef .tc r) = V (Proc.devRef .tc r) :=
  after_of_writes_sub W_pre1 _ W_pre1_writes h

/-- The buffers the operations of stage `mean1` write. -/
abbrev W_mean1_W : List (Ref sig .tc) := [main_cst_2, main_v25, main_cst_3, main_v26, main_v27]
theorem W_mean1_writes : (W_mean1 : List (HloOp τ sig (Elt F))).Forall fun op => op.writes ⊆ (W_mean1_W.map (Proc.devRef (τ := τ) .tc)).toFinset := by
  simp only [List.Forall]
  exact ⟨by wr_one,
    by wr_one,
    by wr_one,
    by wr_one,
    by wr_one⟩
/-- A buffer the stage does not write keeps its contents through it. -/
theorem W_mean1_keep (V : Valuation τ sig (Elt F)) (r : Ref sig .tc) (h : r ∉ W_mean1_W) :
    after W_mean1 V (Proc.devRef .tc r) = V (Proc.devRef .tc r) :=
  after_of_writes_sub W_mean1 _ W_mean1_writes h

/-- The buffers the operations of stage `var1` write. -/
abbrev W_var1_W : List (Ref sig .tc) := [main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v28]
theorem W_var1_writes : (W_var1 : List (HloOp τ sig (Elt F))).Forall fun op => op.writes ⊆ (W_var1_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one⟩
/-- A buffer the stage does not write keeps its contents through it. -/
theorem W_var1_keep (V : Valuation τ sig (Elt F)) (r : Ref sig .tc) (h : r ∉ W_var1_W) :
    after W_var1 V (Proc.devRef .tc r) = V (Proc.devRef .tc r) :=
  after_of_writes_sub W_var1 _ W_var1_writes h

/-- The buffers the operations of stage `h1` write. -/
abbrev W_h1_W : List (Ref sig .tc) := [main_v29, main_v30, main_v31, main_cst_5, main_v32, main_v33, main_v34, main_v35, main_v36, main_v37, main_v38, main_v39, main_v40, main_v41, main_v42, main_v43, main_cst_6, main_v44, main_v45]
theorem W_h1_writes : (W_h1 : List (HloOp τ sig (Elt F))).Forall fun op => op.writes ⊆ (W_h1_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one⟩
/-- A buffer the stage does not write keeps its contents through it. -/
theorem W_h1_keep (V : Valuation τ sig (Elt F)) (r : Ref sig .tc) (h : r ∉ W_h1_W) :
    after W_h1 V (Proc.devRef .tc r) = V (Proc.devRef .tc r) :=
  after_of_writes_sub W_h1 _ W_h1_writes h

/-- The buffers the operations of stage `agg2a` write. -/
abbrev W_agg2a_W : List (Ref sig .tc) := [main_c_7, main_v46, main_v47, main_c_8, main_v48]
theorem W_agg2a_writes : (W_agg2a : List (HloOp τ sig (Elt F))).Forall fun op => op.writes ⊆ (W_agg2a_W.map (Proc.devRef (τ := τ) .tc)).toFinset := by
  simp only [List.Forall]
  exact ⟨by wr_one,
    by wr_one,
    by wr_one,
    by wr_one,
    by wr_one⟩
/-- A buffer the stage does not write keeps its contents through it. -/
theorem W_agg2a_keep (V : Valuation τ sig (Elt F)) (r : Ref sig .tc) (h : r ∉ W_agg2a_W) :
    after W_agg2a V (Proc.devRef .tc r) = V (Proc.devRef .tc r) :=
  after_of_writes_sub W_agg2a _ W_agg2a_writes h

/-- The buffers the operations of stage `agg2b` write. -/
abbrev W_agg2b_W : List (Ref sig .tc) := [main_v49, main_v50, main_v51, main_v52, main_cst_9, main_v53, main_v54, main_v55]
theorem W_agg2b_writes : (W_agg2b : List (HloOp τ sig (Elt F))).Forall fun op => op.writes ⊆ (W_agg2b_W.map (Proc.devRef (τ := τ) .tc)).toFinset := by
  simp only [List.Forall]
  exact ⟨by wr_one,
    by wr_one,
    by wr_one,
    by wr_one,
    by wr_one,
    by wr_one,
    by wr_one,
    by wr_one⟩
/-- A buffer the stage does not write keeps its contents through it. -/
theorem W_agg2b_keep (V : Valuation τ sig (Elt F)) (r : Ref sig .tc) (h : r ∉ W_agg2b_W) :
    after W_agg2b V (Proc.devRef .tc r) = V (Proc.devRef .tc r) :=
  after_of_writes_sub W_agg2b _ W_agg2b_writes h

/-- The buffers the operations of stage `pre2` write. -/
abbrev W_pre2_W : List (Ref sig .tc) := [main_v56, main_v57, main_v58, main_v59, main_v60, main_cst_10, main_v61, main_v62, main_v63, main_v64, main_v65, main_v66]
theorem W_pre2_writes : (W_pre2 : List (HloOp τ sig (Elt F))).Forall fun op => op.writes ⊆ (W_pre2_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one,
    by wr_one⟩
/-- A buffer the stage does not write keeps its contents through it. -/
theorem W_pre2_keep (V : Valuation τ sig (Elt F)) (r : Ref sig .tc) (h : r ∉ W_pre2_W) :
    after W_pre2 V (Proc.devRef .tc r) = V (Proc.devRef .tc r) :=
  after_of_writes_sub W_pre2 _ W_pre2_writes h

/-- The buffers the operations of stage `mean2` write. -/
abbrev W_mean2_W : List (Ref sig .tc) := [main_cst_11, main_v67, main_cst_12, main_v68, main_v69]
theorem W_mean2_writes : (W_mean2 : List (HloOp τ sig (Elt F))).Forall fun op => op.writes ⊆ (W_mean2_W.map (Proc.devRef (τ := τ) .tc)).toFinset := by
  simp only [List.Forall]
  exact ⟨by wr_one,
    by wr_one,
    by wr_one,
    by wr_one,
    by wr_one⟩
/-- A buffer the stage does not write keeps its contents through it. -/
theorem W_mean2_keep (V : Valuation τ sig (Elt F)) (r : Ref sig .tc) (h : r ∉ W_mean2_W) :
    after W_mean2 V (Proc.devRef .tc r) = V (Proc.devRef .tc r) :=
  after_of_writes_sub W_mean2 _ W_mean2_writes h

/-- The buffers the operations of stage `var2` write. -/
abbrev W_var2_W : List (Ref sig .tc) := [main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v70]
theorem W_var2_writes : (W_var2 : List (HloOp τ sig (Elt F))).Forall fun op => op.writes ⊆ (W_var2_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one⟩
/-- A buffer the stage does not write keeps its contents through it. -/
theorem W_var2_keep (V : Valuation τ sig (Elt F)) (r : Ref sig .tc) (h : r ∉ W_var2_W) :
    after W_var2 V (Proc.devRef .tc r) = V (Proc.devRef .tc r) :=
  after_of_writes_sub W_var2 _ W_var2_writes h

/-- The buffers the operations of stage `h2` write. -/
abbrev W_h2_W : List (Ref sig .tc) := [main_v71, main_v72, main_v73, main_cst_14, main_v74, main_v75, main_v76, main_v77, main_v78, main_v79, main_v80, main_v81, main_v82, main_v83, main_v84, main_v85, main_cst_15, main_v86, main_v87]
theorem W_h2_writes : (W_h2 : List (HloOp τ sig (Elt F))).Forall fun op => op.writes ⊆ (W_h2_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one⟩
/-- A buffer the stage does not write keeps its contents through it. -/
theorem W_h2_keep (V : Valuation τ sig (Elt F)) (r : Ref sig .tc) (h : r ∉ W_h2_W) :
    after W_h2 V (Proc.devRef .tc r) = V (Proc.devRef .tc r) :=
  after_of_writes_sub W_h2 _ W_h2_writes h

/-- The buffers the operations of stage `agg3` write. -/
abbrev W_agg3_W : List (Ref sig .tc) := [main_c_16, main_v88, main_v89, main_c_17, main_v90, main_v91, main_v92, main_v93, main_v94, main_cst_18, main_v95, main_v96, main_v97]
theorem W_agg3_writes : (W_agg3 : List (HloOp τ sig (Elt F))).Forall fun op => op.writes ⊆ (W_agg3_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one,
    by wr_one,
    by wr_one⟩
/-- A buffer the stage does not write keeps its contents through it. -/
theorem W_agg3_keep (V : Valuation τ sig (Elt F)) (r : Ref sig .tc) (h : r ∉ W_agg3_W) :
    after W_agg3 V (Proc.devRef .tc r) = V (Proc.devRef .tc r) :=
  after_of_writes_sub W_agg3 _ W_agg3_writes h

/-- The buffers the operations of stage `pre3a` write. -/
abbrev W_pre3a_W : List (Ref sig .tc) := [main_v98]
theorem W_pre3a_writes : (W_pre3a : List (HloOp τ sig (Elt F))).Forall fun op => op.writes ⊆ (W_pre3a_W.map (Proc.devRef (τ := τ) .tc)).toFinset := by
  simp only [List.Forall]
  exact (by wr_one)
/-- A buffer the stage does not write keeps its contents through it. -/
theorem W_pre3a_keep (V : Valuation τ sig (Elt F)) (r : Ref sig .tc) (h : r ∉ W_pre3a_W) :
    after W_pre3a V (Proc.devRef .tc r) = V (Proc.devRef .tc r) :=
  after_of_writes_sub W_pre3a _ W_pre3a_writes h

/-- The buffers the operations of stage `pre3b` write. -/
abbrev W_pre3b_W : List (Ref sig .tc) := [main_v99, main_v100, main_v101, main_v102, main_cst_19, main_v103, main_v104, main_v105, main_v106, main_v107, main_v108]
theorem W_pre3b_writes : (W_pre3b : List (HloOp τ sig (Elt F))).Forall fun op => op.writes ⊆ (W_pre3b_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one⟩
/-- A buffer the stage does not write keeps its contents through it. -/
theorem W_pre3b_keep (V : Valuation τ sig (Elt F)) (r : Ref sig .tc) (h : r ∉ W_pre3b_W) :
    after W_pre3b V (Proc.devRef .tc r) = V (Proc.devRef .tc r) :=
  after_of_writes_sub W_pre3b _ W_pre3b_writes h

/-- The buffers the operations of stage `mean3` write. -/
abbrev W_mean3_W : List (Ref sig .tc) := [main_cst_20, main_v109, main_cst_21, main_v110, main_v111]
theorem W_mean3_writes : (W_mean3 : List (HloOp τ sig (Elt F))).Forall fun op => op.writes ⊆ (W_mean3_W.map (Proc.devRef (τ := τ) .tc)).toFinset := by
  simp only [List.Forall]
  exact ⟨by wr_one,
    by wr_one,
    by wr_one,
    by wr_one,
    by wr_one⟩
/-- A buffer the stage does not write keeps its contents through it. -/
theorem W_mean3_keep (V : Valuation τ sig (Elt F)) (r : Ref sig .tc) (h : r ∉ W_mean3_W) :
    after W_mean3 V (Proc.devRef .tc r) = V (Proc.devRef .tc r) :=
  after_of_writes_sub W_mean3 _ W_mean3_writes h

/-- The buffers the operations of stage `var3` write. -/
abbrev W_var3_W : List (Ref sig .tc) := [main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v112]
theorem W_var3_writes : (W_var3 : List (HloOp τ sig (Elt F))).Forall fun op => op.writes ⊆ (W_var3_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one⟩
/-- A buffer the stage does not write keeps its contents through it. -/
theorem W_var3_keep (V : Valuation τ sig (Elt F)) (r : Ref sig .tc) (h : r ∉ W_var3_W) :
    after W_var3 V (Proc.devRef .tc r) = V (Proc.devRef .tc r) :=
  after_of_writes_sub W_var3 _ W_var3_writes h

/-- The buffers the operations of stage `h3` write. -/
abbrev W_h3_W : List (Ref sig .tc) := [main_v113, main_v114, main_v115, main_cst_23, main_v116, main_v117, main_v118, main_v119, main_v120, main_v121, main_v122, main_v123, main_v124, main_v125, main_v126, main_v127, main_cst_24, main_v128, main_v129]
theorem W_h3_writes : (W_h3 : List (HloOp τ sig (Elt F))).Forall fun op => op.writes ⊆ (W_h3_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one⟩
/-- A buffer the stage does not write keeps its contents through it. -/
theorem W_h3_keep (V : Valuation τ sig (Elt F)) (r : Ref sig .tc) (h : r ∉ W_h3_W) :
    after W_h3 V (Proc.devRef .tc r) = V (Proc.devRef .tc r) :=
  after_of_writes_sub W_h3 _ W_h3_writes h

/-- The buffers the operations of stage `out` write. -/
abbrev W_out_W : List (Ref sig .tc) := [main_cst_25, main_v130, main_v131, main_v132, main_cst_26, main_v133, main_cst_27, main_v134, main_v135, main_v136, main_cst_28, main_v137, main_v138, main_v139, main_v140, main_v141, main_v142, main_v143, main_v144, main_v145, main_cst_29, main_v146, main_v147]
theorem W_out_writes : (W_out : List (HloOp τ sig (Elt F))).Forall fun op => op.writes ⊆ (W_out_W.map (Proc.devRef (τ := τ) .tc)).toFinset := by
  simp only [List.Forall]
  exact ⟨by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one,
    by wr_one⟩
/-- A buffer the stage does not write keeps its contents through it. -/
theorem W_out_keep (V : Valuation τ sig (Elt F)) (r : Ref sig .tc) (h : r ∉ W_out_W) :
    after W_out V (Proc.devRef .tc r) = V (Proc.devRef .tc r) :=
  after_of_writes_sub W_out _ W_out_writes h

end Cert.ReferenceIdeal.RefRun

end
-- ==== Proof.RefWin1.lean ====
/-
  What the edge-table stage and the stages of layer 1 leave in their result buffers: each stage's operations, run from any contents, leave in the stage's
  result buffer the stage's function (RefStages) of the contents of the buffers the stage reads.
-/
import proofs.«137780_j52690658787578_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

theorem W_idx_main_v1 (V : Valuation τ sig (Elt Ideal)) :
    after W_idx V (no_index (Proc.devRef .tc main_v1)) = src (V (Proc.devRef .tc main_arg1)) := by
  simp only [W_idx]
  after_results_simp
  rfl

theorem W_idx_main_v3 (V : Valuation τ sig (Elt Ideal)) :
    after W_idx V (no_index (Proc.devRef .tc main_v3)) = dst (V (Proc.devRef .tc main_arg1)) := by
  simp only [W_idx]
  after_results_simp
  rfl

theorem W_agg1_main_v13 (V : Valuation τ sig (Elt Ideal)) :
    after W_agg1 V (no_index (Proc.devRef .tc main_v13)) = agg1 (V (Proc.devRef .tc main_arg0)) (V (Proc.devRef .tc main_v1)) (V (Proc.devRef .tc main_v3)) := by
  simp only [W_agg1]
  after_results_simp
  rfl

theorem W_pre1_main_v24 (V : Valuation τ sig (Elt Ideal)) :
    after W_pre1 V (no_index (Proc.devRef .tc main_v24)) = pre1 (V (Proc.devRef .tc main_arg0)) (V (Proc.devRef .tc main_v13)) (V (Proc.devRef .tc main_arg3)) (V (Proc.devRef .tc main_arg4)) (V (Proc.devRef .tc main_arg5)) (V (Proc.devRef .tc main_arg6)) := by
  simp only [W_pre1]
  after_results_simp
  rfl

theorem W_mean1_main_v27 (V : Valuation τ sig (Elt Ideal)) :
    after W_mean1 V (no_index (Proc.devRef .tc main_v27)) = mean1 (V (Proc.devRef .tc main_v24)) := by
  simp only [W_mean1]
  after_results_simp
  rfl

theorem W_var1_main_v28 (V : Valuation τ sig (Elt Ideal)) :
    after W_var1 V (no_index (Proc.devRef .tc main_v28)) = var1 (V (Proc.devRef .tc main_v24)) := by
  simp only [W_var1]
  after_results_simp
  rfl

theorem W_h1_main_v45 (V : Valuation τ sig (Elt Ideal)) :
    after W_h1 V (no_index (Proc.devRef .tc main_v45)) = h1 (V (Proc.devRef .tc main_v24)) (V (Proc.devRef .tc main_v27)) (V (Proc.devRef .tc main_v28)) (V (Proc.devRef .tc main_arg7)) (V (Proc.devRef .tc main_arg8)) := by
  simp only [W_h1]
  after_results_simp
  rfl

end Cert.ReferenceIdeal.RefRun

end
-- ==== Proof.RefWin2.lean ====
/-
  What the stages of layer 2 leave in their result buffers: each stage's operations, run from any contents, leave in the stage's
  result buffer the stage's function (RefStages) of the contents of the buffers the stage reads.
-/
import proofs.«137780_j52690658787578_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

theorem W_agg2b_main_v55 (V : Valuation τ sig (Elt Ideal)) :
    after W_agg2b (after W_agg2a V) (no_index (Proc.devRef .tc main_v55)) = agg2 (V (Proc.devRef .tc main_v45)) (V (Proc.devRef .tc main_v1)) (V (Proc.devRef .tc main_v3)) := by
  rw [← after_app]
  simp only [W_agg2a, W_agg2b, List.cons_append, List.nil_append]
  after_results_simp
  rfl

theorem W_pre2_main_v66 (V : Valuation τ sig (Elt Ideal)) :
    after W_pre2 V (no_index (Proc.devRef .tc main_v66)) = pre2 (V (Proc.devRef .tc main_v45)) (V (Proc.devRef .tc main_v55)) (V (Proc.devRef .tc main_arg9)) (V (Proc.devRef .tc main_arg10)) (V (Proc.devRef .tc main_arg11)) (V (Proc.devRef .tc main_arg12)) := by
  simp only [W_pre2]
  after_results_simp
  rfl

theorem W_mean2_main_v69 (V : Valuation τ sig (Elt Ideal)) :
    after W_mean2 V (no_index (Proc.devRef .tc main_v69)) = mean2 (V (Proc.devRef .tc main_v66)) := by
  simp only [W_mean2]
  after_results_simp
  rfl

theorem W_var2_main_v70 (V : Valuation τ sig (Elt Ideal)) :
    after W_var2 V (no_index (Proc.devRef .tc main_v70)) = var2 (V (Proc.devRef .tc main_v66)) := by
  simp only [W_var2]
  after_results_simp
  rfl

theorem W_h2_main_v87 (V : Valuation τ sig (Elt Ideal)) :
    after W_h2 V (no_index (Proc.devRef .tc main_v87)) = h2 (V (Proc.devRef .tc main_v66)) (V (Proc.devRef .tc main_v69)) (V (Proc.devRef .tc main_v70)) (V (Proc.devRef .tc main_arg13)) (V (Proc.devRef .tc main_arg14)) := by
  simp only [W_h2]
  after_results_simp
  rfl

end Cert.ReferenceIdeal.RefRun

end
-- ==== Proof.RefWin3.lean ====
/-
  What the stages of layer 3 leave in their result buffers: each stage's operations, run from any contents, leave in the stage's
  result buffer the stage's function (RefStages) of the contents of the buffers the stage reads.
-/
import proofs.«137780_j52690658787578_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

theorem W_agg3_main_v97 (V : Valuation τ sig (Elt Ideal)) :
    after W_agg3 V (no_index (Proc.devRef .tc main_v97)) = agg3 (V (Proc.devRef .tc main_v87)) (V (Proc.devRef .tc main_v1)) (V (Proc.devRef .tc main_v3)) := by
  simp only [W_agg3]
  after_results_simp
  rfl

theorem W_pre3b_main_v108 (V : Valuation τ sig (Elt Ideal)) :
    after W_pre3b (after W_pre3a V) (no_index (Proc.devRef .tc main_v108)) = pre3 (V (Proc.devRef .tc main_v87)) (V (Proc.devRef .tc main_v97)) (V (Proc.devRef .tc main_arg15)) (V (Proc.devRef .tc main_arg16)) (V (Proc.devRef .tc main_arg17)) (V (Proc.devRef .tc main_arg18)) := by
  rw [← after_app]
  simp only [W_pre3a, W_pre3b, List.cons_append, List.nil_append]
  after_results_simp
  rfl

theorem W_mean3_main_v111 (V : Valuation τ sig (Elt Ideal)) :
    after W_mean3 V (no_index (Proc.devRef .tc main_v111)) = mean3 (V (Proc.devRef .tc main_v108)) := by
  simp only [W_mean3]
  after_results_simp
  rfl

theorem W_var3_main_v112 (V : Valuation τ sig (Elt Ideal)) :
    after W_var3 V (no_index (Proc.devRef .tc main_v112)) = var3 (V (Proc.devRef .tc main_v108)) := by
  simp only [W_var3]
  after_results_simp
  rfl

theorem W_h3_main_v129 (V : Valuation τ sig (Elt Ideal)) :
    after W_h3 V (no_index (Proc.devRef .tc main_v129)) = h3 (V (Proc.devRef .tc main_v108)) (V (Proc.devRef .tc main_v111)) (V (Proc.devRef .tc main_v112)) (V (Proc.devRef .tc main_arg19)) (V (Proc.devRef .tc main_arg20)) := by
  simp only [W_h3]
  after_results_simp
  rfl

end Cert.ReferenceIdeal.RefRun

end
-- ==== Proof.RefWinT.lean ====
/-
  What the operations of the pooled read-out leave in their result buffers: each stage's operations, run from any contents, leave in the stage's
  result buffer the stage's function (RefStages) of the contents of the buffers the stage reads.
-/
import proofs.«137780_j52690658787578_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

theorem W_out_main_v147 (V : Valuation τ sig (Elt Ideal)) :
    after W_out V (no_index (Proc.devRef .tc main_v147)) = out (V (Proc.devRef .tc main_v129)) (V (Proc.devRef .tc main_arg2)) (V (Proc.devRef .tc main_arg21)) (V (Proc.devRef .tc main_arg22)) := by
  simp only [W_out]
  after_results_simp
  rfl

end Cert.ReferenceIdeal.RefRun

end
-- ==== Proof.RefVal.lean ====
/-
  The contents of the core's buffers after each stage, followed from the contents at launch.

  `val_‹stage› V0` is what the buffers hold once the stages up to that one have run from contents `V0`. For every buffer
  that a later stage reads, its contents then are the composition of the stage functions (RefStages) over the argument
  arrays of `V0`: a buffer the stage writes, by the stage's own equation (RefWin1 … RefWinT) with its reads rewritten by
  the equations of the stage before; a buffer it does not write, carried over (RefKeep). A buffer no stage has written
  so far (every argument array, to the end) still holds what it held at launch. At the end of a layer the three
  statistics and the normalisation fold into `layerL`, and at the end of all into `result`.
-/
import proofs.«137780_j52690658787578_1_alg».proof.Proof.RefKeep
import proofs.«137780_j52690658787578_1_alg».proof.Proof.RefWin1
import proofs.«137780_j52690658787578_1_alg».proof.Proof.RefWin2
import proofs.«137780_j52690658787578_1_alg».proof.Proof.RefWin3
import proofs.«137780_j52690658787578_1_alg».proof.Proof.RefWinT

noncomputable section

namespace Cert.ReferenceIdeal.RefRun

open Cert.ReferenceIdeal Cert.ReferenceIdeal.Gen Idealize.ShloMosaic Idealize.ShloMosaic.TcCoe Idealize.SL.Sem Idealize.ShloMosaic.StableHlo

variable (V0 : Valuation τ sig (Elt Ideal))

/-- The contents before the first stage. -/
def val0 : Valuation τ sig (Elt Ideal) := V0

/-- The contents after the stages up to `idx`. -/
def val_idx : Valuation τ sig (Elt Ideal) := after W_idx (val0 V0)
/-- The buffers written by then. -/
abbrev C_idx : List (Ref sig .tc) := W_idx_W
/-- A buffer not written by then still holds what it held at launch. -/
theorem val_idx_keep (r : Ref sig .tc) (h : r ∉ C_idx) : val_idx V0 (Proc.devRef .tc r) = V0 (Proc.devRef .tc r) :=
  W_idx_keep _ r h
theorem val_idx_main_v1 : val_idx V0 (Proc.devRef .tc main_v1) = (src (V0 (Proc.devRef .tc main_arg1))) :=
  (W_idx_main_v1 (val0 V0)).trans (by unfold val0; try rfl)
theorem val_idx_main_v3 : val_idx V0 (Proc.devRef .tc main_v3) = (dst (V0 (Proc.devRef .tc main_arg1))) :=
  (W_idx_main_v3 (val0 V0)).trans (by unfold val0; try rfl)

/-- The contents after the stages up to `agg1`. -/
def val_agg1 : Valuation τ sig (Elt Ideal) := after W_agg1 (val_idx V0)
/-- The buffers written by then. -/
abbrev C_agg1 : List (Ref sig .tc) := C_idx ++ W_agg1_W
/-- A buffer not written by then still holds what it held at launch. -/
theorem val_agg1_keep (r : Ref sig .tc) (h : r ∉ C_agg1) : val_agg1 V0 (Proc.devRef .tc r) = V0 (Proc.devRef .tc r) :=
  (W_agg1_keep _ r (fun hm => h (List.mem_append_right _ hm))).trans (val_idx_keep V0 r (fun hm => h (List.mem_append_left _ hm)))
theorem val_agg1_main_v1 : val_agg1 V0 (Proc.devRef .tc main_v1) = (src (V0 (Proc.devRef .tc main_arg1))) :=
  (W_agg1_keep _ main_v1 (by decide)).trans (val_idx_main_v1 V0)
theorem val_agg1_main_v3 : val_agg1 V0 (Proc.devRef .tc main_v3) = (dst (V0 (Proc.devRef .tc main_arg1))) :=
  (W_agg1_keep _ main_v3 (by decide)).trans (val_idx_main_v3 V0)
theorem val_agg1_main_v13 : val_agg1 V0 (Proc.devRef .tc main_v13) = (agg1 (V0 (Proc.devRef .tc main_arg0)) (src (V0 (Proc.devRef .tc main_arg1))) (dst (V0 (Proc.devRef .tc main_arg1)))) :=
  (W_agg1_main_v13 (val_idx V0)).trans (by rw [val_idx_keep V0 main_arg0 (by decide), val_idx_main_v1 V0, val_idx_main_v3 V0]; try rfl)

/-- The contents after the stages up to `pre1`. -/
def val_pre1 : Valuation τ sig (Elt Ideal) := after W_pre1 (val_agg1 V0)
/-- The buffers written by then. -/
abbrev C_pre1 : List (Ref sig .tc) := C_agg1 ++ W_pre1_W
/-- A buffer not written by then still holds what it held at launch. -/
theorem val_pre1_keep (r : Ref sig .tc) (h : r ∉ C_pre1) : val_pre1 V0 (Proc.devRef .tc r) = V0 (Proc.devRef .tc r) :=
  (W_pre1_keep _ r (fun hm => h (List.mem_append_right _ hm))).trans (val_agg1_keep V0 r (fun hm => h (List.mem_append_left _ hm)))
theorem val_pre1_main_v1 : val_pre1 V0 (Proc.devRef .tc main_v1) = (src (V0 (Proc.devRef .tc main_arg1))) :=
  (W_pre1_keep _ main_v1 (by decide)).trans (val_agg1_main_v1 V0)
theorem val_pre1_main_v3 : val_pre1 V0 (Proc.devRef .tc main_v3) = (dst (V0 (Proc.devRef .tc main_arg1))) :=
  (W_pre1_keep _ main_v3 (by decide)).trans (val_agg1_main_v3 V0)
theorem val_pre1_main_v24 : val_pre1 V0 (Proc.devRef .tc main_v24) = (pre1 (V0 (Proc.devRef .tc main_arg0)) (agg1 (V0 (Proc.devRef .tc main_arg0)) (src (V0 (Proc.devRef .tc main_arg1))) (dst (V0 (Proc.devRef .tc main_arg1)))) (V0 (Proc.devRef .tc main_arg3)) (V0 (Proc.devRef .tc main_arg4)) (V0 (Proc.devRef .tc main_arg5)) (V0 (Proc.devRef .tc main_arg6))) :=
  (W_pre1_main_v24 (val_agg1 V0)).trans (by rw [val_agg1_keep V0 main_arg0 (by decide), val_agg1_main_v13 V0, val_agg1_keep V0 main_arg3 (by decide), val_agg1_keep V0 main_arg4 (by decide), val_agg1_keep V0 main_arg5 (by decide), val_agg1_keep V0 main_arg6 (by decide)]; try rfl)

/-- The contents after the stages up to `mean1`. -/
def val_mean1 : Valuation τ sig (Elt Ideal) := after W_mean1 (val_pre1 V0)
/-- The buffers written by then. -/
abbrev C_mean1 : List (Ref sig .tc) := C_pre1 ++ W_mean1_W
/-- A buffer not written by then still holds what it held at launch. -/
theorem val_mean1_keep (r : Ref sig .tc) (h : r ∉ C_mean1) : val_mean1 V0 (Proc.devRef .tc r) = V0 (Proc.devRef .tc r) :=
  (W_mean1_keep _ r (fun hm => h (List.mem_append_right _ hm))).trans (val_pre1_keep V0 r (fun hm => h (List.mem_append_left _ hm)))
theorem val_mean1_main_v1 : val_mean1 V0 (Proc.devRef .tc main_v1) = (src (V0 (Proc.devRef .tc main_arg1))) :=
  (W_mean1_keep _ main_v1 (by decide)).trans (val_pre1_main_v1 V0)
theorem val_mean1_main_v3 : val_mean1 V0 (Proc.devRef .tc main_v3) = (dst (V0 (Proc.devRef .tc main_arg1))) :=
  (W_mean1_keep _ main_v3 (by decide)).trans (val_pre1_main_v3 V0)
theorem val_mean1_main_v24 : val_mean1 V0 (Proc.devRef .tc main_v24) = (pre1 (V0 (Proc.devRef .tc main_arg0)) (agg1 (V0 (Proc.devRef .tc main_arg0)) (src (V0 (Proc.devRef .tc main_arg1))) (dst (V0 (Proc.devRef .tc main_arg1)))) (V0 (Proc.devRef .tc main_arg3)) (V0 (Proc.devRef .tc main_arg4)) (V0 (Proc.devRef .tc main_arg5)) (V0 (Proc.devRef .tc main_arg6))) :=
  (W_mean1_keep _ main_v24 (by decide)).trans (val_pre1_main_v24 V0)
theorem val_mean1_main_v27 : val_mean1 V0 (Proc.devRef .tc main_v27) = (mean1 (pre1 (V0 (Proc.devRef .tc main_arg0)) (agg1 (V0 (Proc.devRef .tc main_arg0)) (src (V0 (Proc.devRef .tc main_arg1))) (dst (V0 (Proc.devRef .tc main_arg1)))) (V0 (Proc.devRef .tc main_arg3)) (V0 (Proc.devRef .tc main_arg4)) (V0 (Proc.devRef .tc main_arg5)) (V0 (Proc.devRef .tc main_arg6)))) :=
  (W_mean1_main_v27 (val_pre1 V0)).trans (by rw [val_pre1_main_v24 V0]; try rfl)

/-- The contents after the stages up to `var1`. -/
def val_var1 : Valuation τ sig (Elt Ideal) := after W_var1 (val_mean1 V0)
/-- The buffers written by then. -/
abbrev C_var1 : List (Ref sig .tc) := C_mean1 ++ W_var1_W
/-- A buffer not written by then still holds what it held at launch. -/
theorem val_var1_keep (r : Ref sig .tc) (h : r ∉ C_var1) : val_var1 V0 (Proc.devRef .tc r) = V0 (Proc.devRef .tc r) :=
  (W_var1_keep _ r (fun hm => h (List.mem_append_right _ hm))).trans (val_mean1_keep V0 r (fun hm => h (List.mem_append_left _ hm)))
theorem val_var1_main_v1 : val_var1 V0 (Proc.devRef .tc main_v1) = (src (V0 (Proc.devRef .tc main_arg1))) :=
  (W_var1_keep _ main_v1 (by decide)).trans (val_mean1_main_v1 V0)
theorem val_var1_main_v3 : val_var1 V0 (Proc.devRef .tc main_v3) = (dst (V0 (Proc.devRef .tc main_arg1))) :=
  (W_var1_keep _ main_v3 (by decide)).trans (val_mean1_main_v3 V0)
theorem val_var1_main_v24 : val_var1 V0 (Proc.devRef .tc main_v24) = (pre1 (V0 (Proc.devRef .tc main_arg0)) (agg1 (V0 (Proc.devRef .tc main_arg0)) (src (V0 (Proc.devRef .tc main_arg1))) (dst (V0 (Proc.devRef .tc main_arg1)))) (V0 (Proc.devRef .tc main_arg3)) (V0 (Proc.devRef .tc main_arg4)) (V0 (Proc.devRef .tc main_arg5)) (V0 (Proc.devRef .tc main_arg6))) :=
  (W_var1_keep _ main_v24 (by decide)).trans (val_mean1_main_v24 V0)
theorem val_var1_main_v27 : val_var1 V0 (Proc.devRef .tc main_v27) = (mean1 (pre1 (V0 (Proc.devRef .tc main_arg0)) (agg1 (V0 (Proc.devRef .tc main_arg0)) (src (V0 (Proc.devRef .tc main_arg1))) (dst (V0 (Proc.devRef .tc main_arg1)))) (V0 (Proc.devRef .tc main_arg3)) (V0 (Proc.devRef .tc main_arg4)) (V0 (Proc.devRef .tc main_arg5)) (V0 (Proc.devRef .tc main_arg6)))) :=
  (W_var1_keep _ main_v27 (by decide)).trans (val_mean1_main_v27 V0)
theorem val_var1_main_v28 : val_var1 V0 (Proc.devRef .tc main_v28) = (var1 (pre1 (V0 (Proc.devRef .tc main_arg0)) (agg1 (V0 (Proc.devRef .tc main_arg0)) (src (V0 (Proc.devRef .tc main_arg1))) (dst (V0 (Proc.devRef .tc main_arg1)))) (V0 (Proc.devRef .tc main_arg3)) (V0 (Proc.devRef .tc main_arg4)) (V0 (Proc.devRef .tc main_arg5)) (V0 (Proc.devRef .tc main_arg6)))) :=
  (W_var1_main_v28 (val_mean1 V0)).trans (by rw [val_mean1_main_v24 V0]; try rfl)

/-- The contents after the stages up to `h1`. -/
def val_h1 : Valuation τ sig (Elt Ideal) := after W_h1 (val_var1 V0)
/-- The buffers written by then. -/
abbrev C_h1 : List (Ref sig .tc) := C_var1 ++ W_h1_W
/-- A buffer not written by then still holds what it held at launch. -/
theorem val_h1_keep (r : Ref sig .tc) (h : r ∉ C_h1) : val_h1 V0 (Proc.devRef .tc r) = V0 (Proc.devRef .tc r) :=
  (W_h1_keep _ r (fun hm => h (List.mem_append_right _ hm))).trans (val_var1_keep V0 r (fun hm => h (List.mem_append_left _ hm)))
theorem val_h1_main_v1 : val_h1 V0 (Proc.devRef .tc main_v1) = (src (V0 (Proc.devRef .tc main_arg1))) :=
  (W_h1_keep _ main_v1 (by decide)).trans (val_var1_main_v1 V0)
theorem val_h1_main_v3 : val_h1 V0 (Proc.devRef .tc main_v3) = (dst (V0 (Proc.devRef .tc main_arg1))) :=
  (W_h1_keep _ main_v3 (by decide)).trans (val_var1_main_v3 V0)
theorem val_h1_main_v45 : val_h1 V0 (Proc.devRef .tc main_v45) = (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) :=
  (W_h1_main_v45 (val_var1 V0)).trans (by rw [val_var1_main_v24 V0, val_var1_main_v27 V0, val_var1_main_v28 V0, val_var1_keep V0 main_arg7 (by decide), val_var1_keep V0 main_arg8 (by decide)]; try rfl)

/-- The contents after the stages up to `agg2a`. -/
def val_agg2a : Valuation τ sig (Elt Ideal) := after W_agg2a (val_h1 V0)
/-- The buffers written by then. -/
abbrev C_agg2a : List (Ref sig .tc) := C_h1 ++ W_agg2a_W
/-- A buffer not written by then still holds what it held at launch. -/
theorem val_agg2a_keep (r : Ref sig .tc) (h : r ∉ C_agg2a) : val_agg2a V0 (Proc.devRef .tc r) = V0 (Proc.devRef .tc r) :=
  (W_agg2a_keep _ r (fun hm => h (List.mem_append_right _ hm))).trans (val_h1_keep V0 r (fun hm => h (List.mem_append_left _ hm)))
theorem val_agg2a_main_v1 : val_agg2a V0 (Proc.devRef .tc main_v1) = (src (V0 (Proc.devRef .tc main_arg1))) :=
  (W_agg2a_keep _ main_v1 (by decide)).trans (val_h1_main_v1 V0)
theorem val_agg2a_main_v3 : val_agg2a V0 (Proc.devRef .tc main_v3) = (dst (V0 (Proc.devRef .tc main_arg1))) :=
  (W_agg2a_keep _ main_v3 (by decide)).trans (val_h1_main_v3 V0)
theorem val_agg2a_main_v45 : val_agg2a V0 (Proc.devRef .tc main_v45) = (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) :=
  (W_agg2a_keep _ main_v45 (by decide)).trans (val_h1_main_v45 V0)

/-- The contents after the stages up to `agg2b`. -/
def val_agg2b : Valuation τ sig (Elt Ideal) := after W_agg2b (val_agg2a V0)
/-- The buffers written by then. -/
abbrev C_agg2b : List (Ref sig .tc) := C_agg2a ++ W_agg2b_W
/-- A buffer not written by then still holds what it held at launch. -/
theorem val_agg2b_keep (r : Ref sig .tc) (h : r ∉ C_agg2b) : val_agg2b V0 (Proc.devRef .tc r) = V0 (Proc.devRef .tc r) :=
  (W_agg2b_keep _ r (fun hm => h (List.mem_append_right _ hm))).trans (val_agg2a_keep V0 r (fun hm => h (List.mem_append_left _ hm)))
theorem val_agg2b_main_v1 : val_agg2b V0 (Proc.devRef .tc main_v1) = (src (V0 (Proc.devRef .tc main_arg1))) :=
  (W_agg2b_keep _ main_v1 (by decide)).trans (val_agg2a_main_v1 V0)
theorem val_agg2b_main_v3 : val_agg2b V0 (Proc.devRef .tc main_v3) = (dst (V0 (Proc.devRef .tc main_arg1))) :=
  (W_agg2b_keep _ main_v3 (by decide)).trans (val_agg2a_main_v3 V0)
theorem val_agg2b_main_v45 : val_agg2b V0 (Proc.devRef .tc main_v45) = (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) :=
  (W_agg2b_keep _ main_v45 (by decide)).trans (val_agg2a_main_v45 V0)
theorem val_agg2b_main_v55 : val_agg2b V0 (Proc.devRef .tc main_v55) = (agg2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1)))) :=
  (W_agg2b_main_v55 (val_h1 V0)).trans (by rw [val_h1_main_v45 V0, val_h1_main_v1 V0, val_h1_main_v3 V0]; try rfl)

/-- The contents after the stages up to `pre2`. -/
def val_pre2 : Valuation τ sig (Elt Ideal) := after W_pre2 (val_agg2b V0)
/-- The buffers written by then. -/
abbrev C_pre2 : List (Ref sig .tc) := C_agg2b ++ W_pre2_W
/-- A buffer not written by then still holds what it held at launch. -/
theorem val_pre2_keep (r : Ref sig .tc) (h : r ∉ C_pre2) : val_pre2 V0 (Proc.devRef .tc r) = V0 (Proc.devRef .tc r) :=
  (W_pre2_keep _ r (fun hm => h (List.mem_append_right _ hm))).trans (val_agg2b_keep V0 r (fun hm => h (List.mem_append_left _ hm)))
theorem val_pre2_main_v1 : val_pre2 V0 (Proc.devRef .tc main_v1) = (src (V0 (Proc.devRef .tc main_arg1))) :=
  (W_pre2_keep _ main_v1 (by decide)).trans (val_agg2b_main_v1 V0)
theorem val_pre2_main_v3 : val_pre2 V0 (Proc.devRef .tc main_v3) = (dst (V0 (Proc.devRef .tc main_arg1))) :=
  (W_pre2_keep _ main_v3 (by decide)).trans (val_agg2b_main_v3 V0)
theorem val_pre2_main_v66 : val_pre2 V0 (Proc.devRef .tc main_v66) = (pre2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (agg2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1)))) (V0 (Proc.devRef .tc main_arg9)) (V0 (Proc.devRef .tc main_arg10)) (V0 (Proc.devRef .tc main_arg11)) (V0 (Proc.devRef .tc main_arg12))) :=
  (W_pre2_main_v66 (val_agg2b V0)).trans (by rw [val_agg2b_main_v45 V0, val_agg2b_main_v55 V0, val_agg2b_keep V0 main_arg9 (by decide), val_agg2b_keep V0 main_arg10 (by decide), val_agg2b_keep V0 main_arg11 (by decide), val_agg2b_keep V0 main_arg12 (by decide)]; try rfl)

/-- The contents after the stages up to `mean2`. -/
def val_mean2 : Valuation τ sig (Elt Ideal) := after W_mean2 (val_pre2 V0)
/-- The buffers written by then. -/
abbrev C_mean2 : List (Ref sig .tc) := C_pre2 ++ W_mean2_W
/-- A buffer not written by then still holds what it held at launch. -/
theorem val_mean2_keep (r : Ref sig .tc) (h : r ∉ C_mean2) : val_mean2 V0 (Proc.devRef .tc r) = V0 (Proc.devRef .tc r) :=
  (W_mean2_keep _ r (fun hm => h (List.mem_append_right _ hm))).trans (val_pre2_keep V0 r (fun hm => h (List.mem_append_left _ hm)))
theorem val_mean2_main_v1 : val_mean2 V0 (Proc.devRef .tc main_v1) = (src (V0 (Proc.devRef .tc main_arg1))) :=
  (W_mean2_keep _ main_v1 (by decide)).trans (val_pre2_main_v1 V0)
theorem val_mean2_main_v3 : val_mean2 V0 (Proc.devRef .tc main_v3) = (dst (V0 (Proc.devRef .tc main_arg1))) :=
  (W_mean2_keep _ main_v3 (by decide)).trans (val_pre2_main_v3 V0)
theorem val_mean2_main_v66 : val_mean2 V0 (Proc.devRef .tc main_v66) = (pre2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (agg2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1)))) (V0 (Proc.devRef .tc main_arg9)) (V0 (Proc.devRef .tc main_arg10)) (V0 (Proc.devRef .tc main_arg11)) (V0 (Proc.devRef .tc main_arg12))) :=
  (W_mean2_keep _ main_v66 (by decide)).trans (val_pre2_main_v66 V0)
theorem val_mean2_main_v69 : val_mean2 V0 (Proc.devRef .tc main_v69) = (mean2 (pre2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (agg2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1)))) (V0 (Proc.devRef .tc main_arg9)) (V0 (Proc.devRef .tc main_arg10)) (V0 (Proc.devRef .tc main_arg11)) (V0 (Proc.devRef .tc main_arg12)))) :=
  (W_mean2_main_v69 (val_pre2 V0)).trans (by rw [val_pre2_main_v66 V0]; try rfl)

/-- The contents after the stages up to `var2`. -/
def val_var2 : Valuation τ sig (Elt Ideal) := after W_var2 (val_mean2 V0)
/-- The buffers written by then. -/
abbrev C_var2 : List (Ref sig .tc) := C_mean2 ++ W_var2_W
/-- A buffer not written by then still holds what it held at launch. -/
theorem val_var2_keep (r : Ref sig .tc) (h : r ∉ C_var2) : val_var2 V0 (Proc.devRef .tc r) = V0 (Proc.devRef .tc r) :=
  (W_var2_keep _ r (fun hm => h (List.mem_append_right _ hm))).trans (val_mean2_keep V0 r (fun hm => h (List.mem_append_left _ hm)))
theorem val_var2_main_v1 : val_var2 V0 (Proc.devRef .tc main_v1) = (src (V0 (Proc.devRef .tc main_arg1))) :=
  (W_var2_keep _ main_v1 (by decide)).trans (val_mean2_main_v1 V0)
theorem val_var2_main_v3 : val_var2 V0 (Proc.devRef .tc main_v3) = (dst (V0 (Proc.devRef .tc main_arg1))) :=
  (W_var2_keep _ main_v3 (by decide)).trans (val_mean2_main_v3 V0)
theorem val_var2_main_v66 : val_var2 V0 (Proc.devRef .tc main_v66) = (pre2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (agg2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1)))) (V0 (Proc.devRef .tc main_arg9)) (V0 (Proc.devRef .tc main_arg10)) (V0 (Proc.devRef .tc main_arg11)) (V0 (Proc.devRef .tc main_arg12))) :=
  (W_var2_keep _ main_v66 (by decide)).trans (val_mean2_main_v66 V0)
theorem val_var2_main_v69 : val_var2 V0 (Proc.devRef .tc main_v69) = (mean2 (pre2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (agg2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1)))) (V0 (Proc.devRef .tc main_arg9)) (V0 (Proc.devRef .tc main_arg10)) (V0 (Proc.devRef .tc main_arg11)) (V0 (Proc.devRef .tc main_arg12)))) :=
  (W_var2_keep _ main_v69 (by decide)).trans (val_mean2_main_v69 V0)
theorem val_var2_main_v70 : val_var2 V0 (Proc.devRef .tc main_v70) = (var2 (pre2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (agg2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1)))) (V0 (Proc.devRef .tc main_arg9)) (V0 (Proc.devRef .tc main_arg10)) (V0 (Proc.devRef .tc main_arg11)) (V0 (Proc.devRef .tc main_arg12)))) :=
  (W_var2_main_v70 (val_mean2 V0)).trans (by rw [val_mean2_main_v66 V0]; try rfl)

/-- The contents after the stages up to `h2`. -/
def val_h2 : Valuation τ sig (Elt Ideal) := after W_h2 (val_var2 V0)
/-- The buffers written by then. -/
abbrev C_h2 : List (Ref sig .tc) := C_var2 ++ W_h2_W
/-- A buffer not written by then still holds what it held at launch. -/
theorem val_h2_keep (r : Ref sig .tc) (h : r ∉ C_h2) : val_h2 V0 (Proc.devRef .tc r) = V0 (Proc.devRef .tc r) :=
  (W_h2_keep _ r (fun hm => h (List.mem_append_right _ hm))).trans (val_var2_keep V0 r (fun hm => h (List.mem_append_left _ hm)))
theorem val_h2_main_v1 : val_h2 V0 (Proc.devRef .tc main_v1) = (src (V0 (Proc.devRef .tc main_arg1))) :=
  (W_h2_keep _ main_v1 (by decide)).trans (val_var2_main_v1 V0)
theorem val_h2_main_v3 : val_h2 V0 (Proc.devRef .tc main_v3) = (dst (V0 (Proc.devRef .tc main_arg1))) :=
  (W_h2_keep _ main_v3 (by decide)).trans (val_var2_main_v3 V0)
theorem val_h2_main_v87 : val_h2 V0 (Proc.devRef .tc main_v87) = (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) :=
  (W_h2_main_v87 (val_var2 V0)).trans (by rw [val_var2_main_v66 V0, val_var2_main_v69 V0, val_var2_main_v70 V0, val_var2_keep V0 main_arg13 (by decide), val_var2_keep V0 main_arg14 (by decide)]; try rfl)

/-- The contents after the stages up to `agg3`. -/
def val_agg3 : Valuation τ sig (Elt Ideal) := after W_agg3 (val_h2 V0)
/-- The buffers written by then. -/
abbrev C_agg3 : List (Ref sig .tc) := C_h2 ++ W_agg3_W
/-- A buffer not written by then still holds what it held at launch. -/
theorem val_agg3_keep (r : Ref sig .tc) (h : r ∉ C_agg3) : val_agg3 V0 (Proc.devRef .tc r) = V0 (Proc.devRef .tc r) :=
  (W_agg3_keep _ r (fun hm => h (List.mem_append_right _ hm))).trans (val_h2_keep V0 r (fun hm => h (List.mem_append_left _ hm)))
theorem val_agg3_main_v87 : val_agg3 V0 (Proc.devRef .tc main_v87) = (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) :=
  (W_agg3_keep _ main_v87 (by decide)).trans (val_h2_main_v87 V0)
theorem val_agg3_main_v97 : val_agg3 V0 (Proc.devRef .tc main_v97) = (agg3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (src (V0 (Proc.devRef .tc main_arg1))) (dst (V0 (Proc.devRef .tc main_arg1)))) :=
  (W_agg3_main_v97 (val_h2 V0)).trans (by rw [val_h2_main_v87 V0, val_h2_main_v1 V0, val_h2_main_v3 V0]; try rfl)

/-- The contents after the stages up to `pre3a`. -/
def val_pre3a : Valuation τ sig (Elt Ideal) := after W_pre3a (val_agg3 V0)
/-- The buffers written by then. -/
abbrev C_pre3a : List (Ref sig .tc) := C_agg3 ++ W_pre3a_W
/-- A buffer not written by then still holds what it held at launch. -/
theorem val_pre3a_keep (r : Ref sig .tc) (h : r ∉ C_pre3a) : val_pre3a V0 (Proc.devRef .tc r) = V0 (Proc.devRef .tc r) :=
  (W_pre3a_keep _ r (fun hm => h (List.mem_append_right _ hm))).trans (val_agg3_keep V0 r (fun hm => h (List.mem_append_left _ hm)))

/-- The contents after the stages up to `pre3b`. -/
def val_pre3b : Valuation τ sig (Elt Ideal) := after W_pre3b (val_pre3a V0)
/-- The buffers written by then. -/
abbrev C_pre3b : List (Ref sig .tc) := C_pre3a ++ W_pre3b_W
/-- A buffer not written by then still holds what it held at launch. -/
theorem val_pre3b_keep (r : Ref sig .tc) (h : r ∉ C_pre3b) : val_pre3b V0 (Proc.devRef .tc r) = V0 (Proc.devRef .tc r) :=
  (W_pre3b_keep _ r (fun hm => h (List.mem_append_right _ hm))).trans (val_pre3a_keep V0 r (fun hm => h (List.mem_append_left _ hm)))
theorem val_pre3b_main_v108 : val_pre3b V0 (Proc.devRef .tc main_v108) = (pre3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (agg3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (src (V0 (Proc.devRef .tc main_arg1))) (dst (V0 (Proc.devRef .tc main_arg1)))) (V0 (Proc.devRef .tc main_arg15)) (V0 (Proc.devRef .tc main_arg16)) (V0 (Proc.devRef .tc main_arg17)) (V0 (Proc.devRef .tc main_arg18))) :=
  (W_pre3b_main_v108 (val_agg3 V0)).trans (by rw [val_agg3_main_v87 V0, val_agg3_main_v97 V0, val_agg3_keep V0 main_arg15 (by decide), val_agg3_keep V0 main_arg16 (by decide), val_agg3_keep V0 main_arg17 (by decide), val_agg3_keep V0 main_arg18 (by decide)]; try rfl)

/-- The contents after the stages up to `mean3`. -/
def val_mean3 : Valuation τ sig (Elt Ideal) := after W_mean3 (val_pre3b V0)
/-- The buffers written by then. -/
abbrev C_mean3 : List (Ref sig .tc) := C_pre3b ++ W_mean3_W
/-- A buffer not written by then still holds what it held at launch. -/
theorem val_mean3_keep (r : Ref sig .tc) (h : r ∉ C_mean3) : val_mean3 V0 (Proc.devRef .tc r) = V0 (Proc.devRef .tc r) :=
  (W_mean3_keep _ r (fun hm => h (List.mem_append_right _ hm))).trans (val_pre3b_keep V0 r (fun hm => h (List.mem_append_left _ hm)))
theorem val_mean3_main_v108 : val_mean3 V0 (Proc.devRef .tc main_v108) = (pre3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (agg3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (src (V0 (Proc.devRef .tc main_arg1))) (dst (V0 (Proc.devRef .tc main_arg1)))) (V0 (Proc.devRef .tc main_arg15)) (V0 (Proc.devRef .tc main_arg16)) (V0 (Proc.devRef .tc main_arg17)) (V0 (Proc.devRef .tc main_arg18))) :=
  (W_mean3_keep _ main_v108 (by decide)).trans (val_pre3b_main_v108 V0)
theorem val_mean3_main_v111 : val_mean3 V0 (Proc.devRef .tc main_v111) = (mean3 (pre3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (agg3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (src (V0 (Proc.devRef .tc main_arg1))) (dst (V0 (Proc.devRef .tc main_arg1)))) (V0 (Proc.devRef .tc main_arg15)) (V0 (Proc.devRef .tc main_arg16)) (V0 (Proc.devRef .tc main_arg17)) (V0 (Proc.devRef .tc main_arg18)))) :=
  (W_mean3_main_v111 (val_pre3b V0)).trans (by rw [val_pre3b_main_v108 V0]; try rfl)

/-- The contents after the stages up to `var3`. -/
def val_var3 : Valuation τ sig (Elt Ideal) := after W_var3 (val_mean3 V0)
/-- The buffers written by then. -/
abbrev C_var3 : List (Ref sig .tc) := C_mean3 ++ W_var3_W
/-- A buffer not written by then still holds what it held at launch. -/
theorem val_var3_keep (r : Ref sig .tc) (h : r ∉ C_var3) : val_var3 V0 (Proc.devRef .tc r) = V0 (Proc.devRef .tc r) :=
  (W_var3_keep _ r (fun hm => h (List.mem_append_right _ hm))).trans (val_mean3_keep V0 r (fun hm => h (List.mem_append_left _ hm)))
theorem val_var3_main_v108 : val_var3 V0 (Proc.devRef .tc main_v108) = (pre3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (agg3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (src (V0 (Proc.devRef .tc main_arg1))) (dst (V0 (Proc.devRef .tc main_arg1)))) (V0 (Proc.devRef .tc main_arg15)) (V0 (Proc.devRef .tc main_arg16)) (V0 (Proc.devRef .tc main_arg17)) (V0 (Proc.devRef .tc main_arg18))) :=
  (W_var3_keep _ main_v108 (by decide)).trans (val_mean3_main_v108 V0)
theorem val_var3_main_v111 : val_var3 V0 (Proc.devRef .tc main_v111) = (mean3 (pre3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (agg3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (src (V0 (Proc.devRef .tc main_arg1))) (dst (V0 (Proc.devRef .tc main_arg1)))) (V0 (Proc.devRef .tc main_arg15)) (V0 (Proc.devRef .tc main_arg16)) (V0 (Proc.devRef .tc main_arg17)) (V0 (Proc.devRef .tc main_arg18)))) :=
  (W_var3_keep _ main_v111 (by decide)).trans (val_mean3_main_v111 V0)
theorem val_var3_main_v112 : val_var3 V0 (Proc.devRef .tc main_v112) = (var3 (pre3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (agg3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (src (V0 (Proc.devRef .tc main_arg1))) (dst (V0 (Proc.devRef .tc main_arg1)))) (V0 (Proc.devRef .tc main_arg15)) (V0 (Proc.devRef .tc main_arg16)) (V0 (Proc.devRef .tc main_arg17)) (V0 (Proc.devRef .tc main_arg18)))) :=
  (W_var3_main_v112 (val_mean3 V0)).trans (by rw [val_mean3_main_v108 V0]; try rfl)

/-- The contents after the stages up to `h3`. -/
def val_h3 : Valuation τ sig (Elt Ideal) := after W_h3 (val_var3 V0)
/-- The buffers written by then. -/
abbrev C_h3 : List (Ref sig .tc) := C_var3 ++ W_h3_W
/-- A buffer not written by then still holds what it held at launch. -/
theorem val_h3_keep (r : Ref sig .tc) (h : r ∉ C_h3) : val_h3 V0 (Proc.devRef .tc r) = V0 (Proc.devRef .tc r) :=
  (W_h3_keep _ r (fun hm => h (List.mem_append_right _ hm))).trans (val_var3_keep V0 r (fun hm => h (List.mem_append_left _ hm)))
theorem val_h3_main_v129 : val_h3 V0 (Proc.devRef .tc main_v129) = (layer3 (layer2 (layer1 (V0 (Proc.devRef .tc main_arg0)) (src (V0 (Proc.devRef .tc main_arg1))) (dst (V0 (Proc.devRef .tc main_arg1))) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (src (V0 (Proc.devRef .tc main_arg1))) (dst (V0 (Proc.devRef .tc main_arg1))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) (src (V0 (Proc.devRef .tc main_arg1))) (dst (V0 (Proc.devRef .tc main_arg1))) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))) :=
  (W_h3_main_v129 (val_var3 V0)).trans (by rw [val_var3_main_v108 V0, val_var3_main_v111 V0, val_var3_main_v112 V0, val_var3_keep V0 main_arg19 (by decide), val_var3_keep V0 main_arg20 (by decide)]; try rfl)

/-- The contents after the stages up to `out`. -/
def val_out : Valuation τ sig (Elt Ideal) := after W_out (val_h3 V0)
/-- The buffers written by then. -/
abbrev C_out : List (Ref sig .tc) := C_h3 ++ W_out_W
/-- A buffer not written by then still holds what it held at launch. -/
theorem val_out_keep (r : Ref sig .tc) (h : r ∉ C_out) : val_out V0 (Proc.devRef .tc r) = V0 (Proc.devRef .tc r) :=
  (W_out_keep _ r (fun hm => h (List.mem_append_right _ hm))).trans (val_h3_keep V0 r (fun hm => h (List.mem_append_left _ hm)))
theorem val_out_main_v147 : val_out V0 (Proc.devRef .tc main_v147) = (result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22))) :=
  (W_out_main_v147 (val_h3 V0)).trans (by rw [val_h3_main_v129 V0, val_h3_keep V0 main_arg2 (by decide), val_h3_keep V0 main_arg21 (by decide), val_h3_keep V0 main_arg22 (by decide)]; try rfl)

end Cert.ReferenceIdeal.RefRun

end
-- ==== Proof.RefRun.lean ====
/-
  The reference's run, read back: every weakly fair execution of the reference program terminates, leaves the network's
  result (RefStages.result of the argument arrays at launch) in its result buffer, and leaves every argument array as it was.

  The result buffer's final contents are the operations' results folded over the contents at launch (RefOps.run_ops).
  Stage by stage, from the last one back, each stage's result buffer holds the stage's function of the buffers it reads
  (RefWin1 … RefWinT), and a buffer read later than it was written is carried unchanged through the stages in between
  (RefKeep); what remains is the composition of the stages, which is `result` unfolded.
-/
import proofs.«137780_j52690658787578_1_alg».proof.Proof.RefVal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- Running all the operations is running the stages one after the other. -/
theorem after_ops_eq (V0 : Valuation τ sig (Elt Ideal)) : after (ops (F := Ideal)) V0 = val_out V0 := by
  simp only [ops, P0, P1, P2, P3, after_app, after_nil, val_out, val_h3, val_var3, val_mean3, val_pre3b, val_pre3a, val_agg3, val_h2, val_var2, val_mean2, val_pre2, val_agg2b, val_agg2a, val_h1, val_var1, val_mean1, val_pre1, val_agg1, val_idx, val0]

/-- After all the operations the result buffer holds the network's result of the argument arrays. -/
theorem ops_result (V0 : Valuation τ sig (Elt Ideal)) :
    after (ops (F := Ideal)) V0 (Proc.devRef .tc main_v147)
      = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) := by
  rw [after_ops_eq]; exact val_out_main_v147 V0

/-- After all the operations a buffer none of them writes holds what it held at launch. -/
theorem ops_keep (V0 : Valuation τ sig (Elt Ideal)) (r : Ref sig .tc) (h : r ∉ C_out) :
    after (ops (F := Ideal)) V0 (Proc.devRef .tc r) = V0 (Proc.devRef .tc r) := by
  rw [after_ops_eq]; exact val_out_keep V0 r h

/-- On the one device, from any memory with zero counters: every weakly fair execution of the reference terminates with its
    result buffer at `result` of the argument arrays at launch, and every argument array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v147) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(h c main_v147).trans (ops_result _),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide)),
      (h c main_arg15).trans (ops_keep _ main_arg15 (by decide)),
      (h c main_arg16).trans (ops_keep _ main_arg16 (by decide)),
      (h c main_arg17).trans (ops_keep _ main_arg17 (by decide)),
      (h c main_arg18).trans (ops_keep _ main_arg18 (by decide)),
      (h c main_arg19).trans (ops_keep _ main_arg19 (by decide)),
      (h c main_arg20).trans (ops_keep _ main_arg20 (by decide)),
      (h c main_arg21).trans (ops_keep _ main_arg21 (by decide)),
      (h c main_arg22).trans (ops_keep _ main_arg22 (by decide))⟩)
    (run_ops (F := Ideal) m ρ)

end Cert.ReferenceIdeal.RefRun

end
-- ==== Proof.KHostDefs.lean ====
import proofs.«137780_j52690658787578_1_alg».proof.Proof.Gen.KernelIdeal

/-! The host side of the kernel program, as pure functions of its operands: the neighbourhood aggregation
    (a gather of rows along the edge list's source row followed by a scatter-add along its target row), the column
    means and inverse standard deviations taken from a row of column sums and a row of column sums of squares, and
    the closing stretch (a segment mean over the nodes' graph ids followed by a linear layer and a clip at zero).
    Each definition is the composition of the program's own host operations, in their order, over their operands. -/

noncomputable section

namespace Cert.KernelIdeal.HostValue

open Idealize.ShloMosaic Idealize.ShloMosaic.TcCoe
open Cert.KernelIdeal.Gen

variable {F : FTy → Type} [FloatOps F]

/-- The edge list's first row (the sources), as a flat vector of the 320000 edges. -/
def srcRow (e : (⟨S2x320000, .i32⟩ : BufTy).Contents (Elt F)) : (⟨S320000, .i32⟩ : BufTy).Contents (Elt F) :=
  (shapeCast S320000 (((extractStridedSlice S1x320000 ![0, 0] · slices_S2x320000_S1x320000_0_0) : (⟨S2x320000, .i32⟩ : BufTy).Contents (Elt F) → (⟨S1x320000, .i32⟩ : BufTy).Contents (Elt F)) e) shapeCasts_S1x320000_S320000)

/-- The edge list's second row (the targets), as a flat vector of the 320000 edges. -/
def dstRow (e : (⟨S2x320000, .i32⟩ : BufTy).Contents (Elt F)) : (⟨S320000, .i32⟩ : BufTy).Contents (Elt F) :=
  (shapeCast S320000 (((extractStridedSlice S1x320000 ![1, 0] · slices_S2x320000_S1x320000_1_0) : (⟨S2x320000, .i32⟩ : BufTy).Contents (Elt F) → (⟨S1x320000, .i32⟩ : BufTy).Contents (Elt F)) e) shapeCasts_S1x320000_S320000)

/-- The aggregation at width 128 over a source vector `s` and a target vector `d`: row `k` of the gathered
    array is the row of `x` at source `s k` (a negative source is first moved up by 20000), and the rows are then
    added, from zero, into the rows named by `d`. -/
def AggCore128 (x : (⟨S20000x128, .f32⟩ : BufTy).Contents (Elt F)) (s d : (⟨S320000, .i32⟩ : BufTy).Contents (Elt F)) : (⟨S20000x128, .f32⟩ : BufTy).Contents (Elt F) :=
  (((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ((broadcastInDim S20000x128 ![] bcast_S_S20000x128 : (⟨S_, .f32⟩ : BufTy).Contents (Elt F) → (⟨S20000x128, .f32⟩ : BufTy).Contents (Elt F)) (constant S_ .f32 0x00000000#32 : (⟨S_, .f32⟩ : BufTy).Contents (Elt F))) ((broadcastInDim S320000x1 ![0] bcast_S320000_S320000x1_0 : (⟨S320000, .i32⟩ : BufTy).Contents (Elt F) → (⟨S320000x1, .i32⟩ : BufTy).Contents (Elt F)) d) (((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) x ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) s ((broadcastInDim S320000 ![] bcast_S_S320000 : (⟨S_, .i32⟩ : BufTy).Contents (Elt F) → (⟨S320000, .i32⟩ : BufTy).Contents (Elt F)) (constantI S_ 32 0#32 : (⟨S_, .i32⟩ : BufTy).Contents (Elt F)))) ((addi : (⟨S320000, .i32⟩ : BufTy).Contents (Elt F) → (⟨S320000, .i32⟩ : BufTy).Contents (Elt F) → (⟨S320000, .i32⟩ : BufTy).Contents (Elt F)) s ((broadcastInDim S320000 ![] bcast_S_S320000 : (⟨S_, .i32⟩ : BufTy).Contents (Elt F) → (⟨S320000, .i32⟩ : BufTy).Contents (Elt F)) (constantI S_ 32 20000#32 : (⟨S_, .i32⟩ : BufTy).Contents (Elt F)))) s))))

/-- The same aggregation at width 256. -/
def AggCore256 (x : (⟨S20000x256, .f32⟩ : BufTy).Contents (Elt F)) (s d : (⟨S320000, .i32⟩ : BufTy).Contents (Elt F)) : (⟨S20000x256, .f32⟩ : BufTy).Contents (Elt F) :=
  (((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ((broadcastInDim S20000x256 ![] bcast_S_S20000x256 : (⟨S_, .f32⟩ : BufTy).Contents (Elt F) → (⟨S20000x256, .f32⟩ : BufTy).Contents (Elt F)) (constant S_ .f32 0x00000000#32 : (⟨S_, .f32⟩ : BufTy).Contents (Elt F))) ((broadcastInDim S320000x1 ![0] bcast_S320000_S320000x1_0 : (⟨S320000, .i32⟩ : BufTy).Contents (Elt F) → (⟨S320000x1, .i32⟩ : BufTy).Contents (Elt F)) d) (((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)) x ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) s ((broadcastInDim S320000 ![] bcast_S_S320000 : (⟨S_, .i32⟩ : BufTy).Contents (Elt F) → (⟨S320000, .i32⟩ : BufTy).Contents (Elt F)) (constantI S_ 32 0#32 : (⟨S_, .i32⟩ : BufTy).Contents (Elt F)))) ((addi : (⟨S320000, .i32⟩ : BufTy).Contents (Elt F) → (⟨S320000, .i32⟩ : BufTy).Contents (Elt F) → (⟨S320000, .i32⟩ : BufTy).Contents (Elt F)) s ((broadcastInDim S320000 ![] bcast_S_S320000 : (⟨S_, .i32⟩ : BufTy).Contents (Elt F) → (⟨S320000, .i32⟩ : BufTy).Contents (Elt F)) (constantI S_ 32 20000#32 : (⟨S_, .i32⟩ : BufTy).Contents (Elt F)))) s))))

/-- The aggregation of `x` (width 128) over the edge list `e`. -/
def Agg128 (x : (⟨S20000x128, .f32⟩ : BufTy).Contents (Elt F)) (e : (⟨S2x320000, .i32⟩ : BufTy).Contents (Elt F)) : (⟨S20000x128, .f32⟩ : BufTy).Contents (Elt F) :=
  AggCore128 x (srcRow e) (dstRow e)

/-- The aggregation of `x` (width 256) over the edge list `e`. -/
def Agg256 (x : (⟨S20000x256, .f32⟩ : BufTy).Contents (Elt F)) (e : (⟨S2x320000, .i32⟩ : BufTy).Contents (Elt F)) : (⟨S20000x256, .f32⟩ : BufTy).Contents (Elt F) :=
  AggCore256 x (srcRow e) (dstRow e)

/-- The column means as a flat row of width 128: the row of column sums `S` divided entry by entry by the
    number of rows (20000, the word `0x469C4000`). -/
def meanFlat128 (S : (⟨S1x128, .f32⟩ : BufTy).Contents (Elt F)) : (⟨S128, .f32⟩ : BufTy).Contents (Elt F) :=
  (shapeCast S128 ((Host.divf : (⟨S1x128, .f32⟩ : BufTy).Contents (Elt F) → (⟨S1x128, .f32⟩ : BufTy).Contents (Elt F) → (⟨S1x128, .f32⟩ : BufTy).Contents (Elt F)) S ((broadcastInDim S1x128 ![] bcast_S_S1x128 : (⟨S_, .f32⟩ : BufTy).Contents (Elt F) → (⟨S1x128, .f32⟩ : BufTy).Contents (Elt F)) (constant S_ .f32 0x469C4000#32 : (⟨S_, .f32⟩ : BufTy).Contents (Elt F)))) shapeCasts_S1x128_S128)

/-- The column means as a [1, 128] row. -/
def meanRow128 (S : (⟨S1x128, .f32⟩ : BufTy).Contents (Elt F)) : (⟨S1x128, .f32⟩ : BufTy).Contents (Elt F) :=
  (shapeCast S1x128 (meanFlat128 S) shapeCasts_S128_S1x128)

/-- The inverse standard deviations as a [1, 128] row: with `mean = S / 20000`, the reciprocal square root of
    `SS / 20000 − mean · mean + ε` (ε the word `0x3727C5AC`), entry by entry. -/
def invRow128 (S SS : (⟨S1x128, .f32⟩ : BufTy).Contents (Elt F)) : (⟨S1x128, .f32⟩ : BufTy).Contents (Elt F) :=
  (shapeCast S1x128 ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) ((subf : (⟨S128, .f32⟩ : BufTy).Contents (Elt F) → (⟨S128, .f32⟩ : BufTy).Contents (Elt F) → (⟨S128, .f32⟩ : BufTy).Contents (Elt F)) (shapeCast S128 ((Host.divf : (⟨S1x128, .f32⟩ : BufTy).Contents (Elt F) → (⟨S1x128, .f32⟩ : BufTy).Contents (Elt F) → (⟨S1x128, .f32⟩ : BufTy).Contents (Elt F)) SS ((broadcastInDim S1x128 ![] bcast_S_S1x128 : (⟨S_, .f32⟩ : BufTy).Contents (Elt F) → (⟨S1x128, .f32⟩ : BufTy).Contents (Elt F)) (constant S_ .f32 0x469C4000#32 : (⟨S_, .f32⟩ : BufTy).Contents (Elt F)))) shapeCasts_S1x128_S128) ((mulf : (⟨S128, .f32⟩ : BufTy).Contents (Elt F) → (⟨S128, .f32⟩ : BufTy).Contents (Elt F) → (⟨S128, .f32⟩ : BufTy).Contents (Elt F)) (meanFlat128 S) (meanFlat128 S))) ((broadcastInDim S128 ![] bcast_S_S128 : (⟨S_, .f32⟩ : BufTy).Contents (Elt F) → (⟨S128, .f32⟩ : BufTy).Contents (Elt F)) (constant S_ .f32 0x3727C5AC#32 : (⟨S_, .f32⟩ : BufTy).Contents (Elt F))))) shapeCasts_S128_S1x128)

/-- The column means as a flat row of width 256: the row of column sums `S` divided entry by entry by the
    number of rows (20000, the word `0x469C4000`). -/
def meanFlat256 (S : (⟨S1x256, .f32⟩ : BufTy).Contents (Elt F)) : (⟨S256, .f32⟩ : BufTy).Contents (Elt F) :=
  (shapeCast S256 ((Host.divf : (⟨S1x256, .f32⟩ : BufTy).Contents (Elt F) → (⟨S1x256, .f32⟩ : BufTy).Contents (Elt F) → (⟨S1x256, .f32⟩ : BufTy).Contents (Elt F)) S ((broadcastInDim S1x256 ![] bcast_S_S1x256 : (⟨S_, .f32⟩ : BufTy).Contents (Elt F) → (⟨S1x256, .f32⟩ : BufTy).Contents (Elt F)) (constant S_ .f32 0x469C4000#32 : (⟨S_, .f32⟩ : BufTy).Contents (Elt F)))) shapeCasts_S1x256_S256)

/-- The column means as a [1, 256] row. -/
def meanRow256 (S : (⟨S1x256, .f32⟩ : BufTy).Contents (Elt F)) : (⟨S1x256, .f32⟩ : BufTy).Contents (Elt F) :=
  (shapeCast S1x256 (meanFlat256 S) shapeCasts_S256_S1x256)

/-- The inverse standard deviations as a [1, 256] row: with `mean = S / 20000`, the reciprocal square root of
    `SS / 20000 − mean · mean + ε` (ε the word `0x3727C5AC`), entry by entry. -/
def invRow256 (S SS : (⟨S1x256, .f32⟩ : BufTy).Contents (Elt F)) : (⟨S1x256, .f32⟩ : BufTy).Contents (Elt F) :=
  (shapeCast S1x256 ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) ((subf : (⟨S256, .f32⟩ : BufTy).Contents (Elt F) → (⟨S256, .f32⟩ : BufTy).Contents (Elt F) → (⟨S256, .f32⟩ : BufTy).Contents (Elt F)) (shapeCast S256 ((Host.divf : (⟨S1x256, .f32⟩ : BufTy).Contents (Elt F) → (⟨S1x256, .f32⟩ : BufTy).Contents (Elt F) → (⟨S1x256, .f32⟩ : BufTy).Contents (Elt F)) SS ((broadcastInDim S1x256 ![] bcast_S_S1x256 : (⟨S_, .f32⟩ : BufTy).Contents (Elt F) → (⟨S1x256, .f32⟩ : BufTy).Contents (Elt F)) (constant S_ .f32 0x469C4000#32 : (⟨S_, .f32⟩ : BufTy).Contents (Elt F)))) shapeCasts_S1x256_S256) ((mulf : (⟨S256, .f32⟩ : BufTy).Contents (Elt F) → (⟨S256, .f32⟩ : BufTy).Contents (Elt F) → (⟨S256, .f32⟩ : BufTy).Contents (Elt F)) (meanFlat256 S) (meanFlat256 S))) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F))))) shapeCasts_S256_S1x256)

/-- The column means as a flat row of width 512: the row of column sums `S` divided entry by entry by the
    number of rows (20000, the word `0x469C4000`). -/
def meanFlat512 (S : (⟨S1x512, .f32⟩ : BufTy).Contents (Elt F)) : (⟨S512, .f32⟩ : BufTy).Contents (Elt F) :=
  (shapeCast S512 ((Host.divf : (⟨S1x512, .f32⟩ : BufTy).Contents (Elt F) → (⟨S1x512, .f32⟩ : BufTy).Contents (Elt F) → (⟨S1x512, .f32⟩ : BufTy).Contents (Elt F)) S ((broadcastInDim S1x512 ![] bcast_S_S1x512 : (⟨S_, .f32⟩ : BufTy).Contents (Elt F) → (⟨S1x512, .f32⟩ : BufTy).Contents (Elt F)) (constant S_ .f32 0x469C4000#32 : (⟨S_, .f32⟩ : BufTy).Contents (Elt F)))) shapeCasts_S1x512_S512)

/-- The column means as a [1, 512] row. -/
def meanRow512 (S : (⟨S1x512, .f32⟩ : BufTy).Contents (Elt F)) : (⟨S1x512, .f32⟩ : BufTy).Contents (Elt F) :=
  (shapeCast S1x512 (meanFlat512 S) shapeCasts_S512_S1x512)

/-- The inverse standard deviations as a [1, 512] row: with `mean = S / 20000`, the reciprocal square root of
    `SS / 20000 − mean · mean + ε` (ε the word `0x3727C5AC`), entry by entry. -/
def invRow512 (S SS : (⟨S1x512, .f32⟩ : BufTy).Contents (Elt F)) : (⟨S1x512, .f32⟩ : BufTy).Contents (Elt F) :=
  (shapeCast S1x512 ((Host.rsqrt : (⟨S512, .f32⟩ : BufTy).Contents (Elt F) → (⟨S512, .f32⟩ : BufTy).Contents (Elt F)) ((addf : (⟨S512, .f32⟩ : BufTy).Contents (Elt F) → (⟨S512, .f32⟩ : BufTy).Contents (Elt F) → (⟨S512, .f32⟩ : BufTy).Contents (Elt F)) ((subf : (⟨S512, .f32⟩ : BufTy).Contents (Elt F) → (⟨S512, .f32⟩ : BufTy).Contents (Elt F) → (⟨S512, .f32⟩ : BufTy).Contents (Elt F)) (shapeCast S512 ((Host.divf : (⟨S1x512, .f32⟩ : BufTy).Contents (Elt F) → (⟨S1x512, .f32⟩ : BufTy).Contents (Elt F) → (⟨S1x512, .f32⟩ : BufTy).Contents (Elt F)) SS ((broadcastInDim S1x512 ![] bcast_S_S1x512 : (⟨S_, .f32⟩ : BufTy).Contents (Elt F) → (⟨S1x512, .f32⟩ : BufTy).Contents (Elt F)) (constant S_ .f32 0x469C4000#32 : (⟨S_, .f32⟩ : BufTy).Contents (Elt F)))) shapeCasts_S1x512_S512) ((mulf : (⟨S512, .f32⟩ : BufTy).Contents (Elt F) → (⟨S512, .f32⟩ : BufTy).Contents (Elt F) → (⟨S512, .f32⟩ : BufTy).Contents (Elt F)) (meanFlat512 S) (meanFlat512 S))) ((broadcastInDim S512 ![] bcast_S_S512 : (⟨S_, .f32⟩ : BufTy).Contents (Elt F) → (⟨S512, .f32⟩ : BufTy).Contents (Elt F)) (constant S_ .f32 0x3727C5AC#32 : (⟨S_, .f32⟩ : BufTy).Contents (Elt F))))) shapeCasts_S512_S1x512)

/-- The closing stretch: the rows of `h` (width 512) are added, from zero, into the 64 rows named by the graph ids
    `seg`; ones are added the same way into 64 counts; each sum is divided by its count clipped below at one; the
    [64, 512] result is multiplied by `W` ([512, 64]), the row `b` is added to every row, and the result is clipped below at zero. -/
def Tail (h : (⟨S20000x512, .f32⟩ : BufTy).Contents (Elt F)) (seg : (⟨S20000, .i32⟩ : BufTy).Contents (Elt F)) (W : (⟨S512x64, .f32⟩ : BufTy).Contents (Elt F)) (b : (⟨S64, .f32⟩ : BufTy).Contents (Elt F)) : (⟨S64x64, .f32⟩ : BufTy).Contents (Elt F) :=
  ((maximumf : (⟨S64x64, .f32⟩ : BufTy).Contents (Elt F) → (⟨S64x64, .f32⟩ : BufTy).Contents (Elt F) → (⟨S64x64, .f32⟩ : BufTy).Contents (Elt F)) ((addf : (⟨S64x64, .f32⟩ : BufTy).Contents (Elt F) → (⟨S64x64, .f32⟩ : BufTy).Contents (Elt F) → (⟨S64x64, .f32⟩ : BufTy).Contents (Elt F)) (((fun l r => Host.dotGeneral dot_S64x512_S512x64_S64x64_1_0_0_1_n_n none l r) : (⟨S64x512, .f32⟩ : BufTy).Contents (Elt F) → (⟨S512x64, .f32⟩ : BufTy).Contents (Elt F) → (⟨S64x64, .f32⟩ : BufTy).Contents (Elt F)) ((Host.divf : (⟨S64x512, .f32⟩ : BufTy).Contents (Elt F) → (⟨S64x512, .f32⟩ : BufTy).Contents (Elt F) → (⟨S64x512, .f32⟩ : BufTy).Contents (Elt F)) (((fun x i u => Host.scatterAdd scatter_S64x512_S20000x1_S20000x512_1_0_0_1 x i u) : (⟨S64x512, .f32⟩ : BufTy).Contents (Elt F) → (⟨S20000x1, .i32⟩ : BufTy).Contents (Elt F) → (⟨S20000x512, .f32⟩ : BufTy).Contents (Elt F) → (⟨S64x512, .f32⟩ : BufTy).Contents (Elt F)) ((broadcastInDim S64x512 ![] bcast_S_S64x512 : (⟨S_, .f32⟩ : BufTy).Contents (Elt F) → (⟨S64x512, .f32⟩ : BufTy).Contents (Elt F)) (constant S_ .f32 0x00000000#32 : (⟨S_, .f32⟩ : BufTy).Contents (Elt F))) ((broadcastInDim S20000x1 ![0] bcast_S20000_S20000x1_0 : (⟨S20000, .i32⟩ : BufTy).Contents (Elt F) → (⟨S20000x1, .i32⟩ : BufTy).Contents (Elt F)) seg) h) ((broadcastInDim S64x512 ![0, 1] bcast_S64x1_S64x512_0_1 : (⟨S64x1, .f32⟩ : BufTy).Contents (Elt F) → (⟨S64x512, .f32⟩ : BufTy).Contents (Elt F)) ((broadcastInDim S64x1 ![0] bcast_S64_S64x1_0 : (⟨S64, .f32⟩ : BufTy).Contents (Elt F) → (⟨S64x1, .f32⟩ : BufTy).Contents (Elt F)) ((maximumf : (⟨S64, .f32⟩ : BufTy).Contents (Elt F) → (⟨S64, .f32⟩ : BufTy).Contents (Elt F) → (⟨S64, .f32⟩ : BufTy).Contents (Elt F)) (((fun x i u => Host.scatterAdd scatter_S64_S20000x1_S20000_n_0_0_1 x i u) : (⟨S64, .f32⟩ : BufTy).Contents (Elt F) → (⟨S20000x1, .i32⟩ : BufTy).Contents (Elt F) → (⟨S20000, .f32⟩ : BufTy).Contents (Elt F) → (⟨S64, .f32⟩ : BufTy).Contents (Elt F)) ((broadcastInDim S64 ![] bcast_S_S64 : (⟨S_, .f32⟩ : BufTy).Contents (Elt F) → (⟨S64, .f32⟩ : BufTy).Contents (Elt F)) (constant S_ .f32 0x00000000#32 : (⟨S_, .f32⟩ : BufTy).Contents (Elt F))) ((broadcastInDim S20000x1 ![0] bcast_S20000_S20000x1_0 : (⟨S20000, .i32⟩ : BufTy).Contents (Elt F) → (⟨S20000x1, .i32⟩ : BufTy).Contents (Elt F)) seg) ((broadcastInDim S20000 ![] bcast_S_S20000 : (⟨S_, .f32⟩ : BufTy).Contents (Elt F) → (⟨S20000, .f32⟩ : BufTy).Contents (Elt F)) (constant S_ .f32 0x3F800000#32 : (⟨S_, .f32⟩ : BufTy).Contents (Elt F)))) ((broadcastInDim S64 ![] bcast_S_S64 : (⟨S_, .f32⟩ : BufTy).Contents (Elt F) → (⟨S64, .f32⟩ : BufTy).Contents (Elt F)) (constant S_ .f32 0x3F800000#32 : (⟨S_, .f32⟩ : BufTy).Contents (Elt F))))))) W) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) b))) ((broadcastInDim S64x64 ![] bcast_S_S64x64 : (⟨S_, .f32⟩ : BufTy).Contents (Elt F) → (⟨S64x64, .f32⟩ : BufTy).Contents (Elt F)) (constant S_ .f32 0x00000000#32 : (⟨S_, .f32⟩ : BufTy).Contents (Elt F))))

end Cert.KernelIdeal.HostValue

end
-- ==== Proof.KHostKeep.lean ====
import proofs.«137780_j52690658787578_1_alg».proof.Proof.Gen.KernelIdeal.Launch
import proofs.«137780_j52690658787578_1_alg».proof.Proof.KHostDefs

/-! What the stretches of host operations leave alone: each stretch writes a literal list of buffers, and any buffer
    outside that list holds after the stretch what it held before. Also the two flat index vectors the first stretch
    cuts out of the edge list, which the later aggregations read again. -/

set_option maxRecDepth 16384

noncomputable section

namespace Cert.KernelIdeal.HostValue

open Idealize.ShloMosaic Idealize.ShloMosaic.TcCoe
open Cert.KernelIdeal.Gen

variable {F : FTy → Type} [FloatOps F]

/-- The references stretch 0's operations write. -/
abbrev written0 : List (Ref sig .tc) := [main_v0, main_v1, main_v2, main_v3, main_c, main_v4, main_v5, main_c_0, main_v6, main_v7, main_v8, main_v9, main_v10, main_cst, main_v11, main_v12, main_v13, main_v14, main_v15]
theorem written0_covers : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 0 does not write holds after it what it held before. -/
theorem keep0 (V : Valuation τ sig (Elt F)) (r : Ref sig .tc) (h : r ∉ written0) :
    StableHlo.after (hostOps0 (F := F)) V (Proc.devRef .tc r) = V (Proc.devRef .tc r) :=
  StableHlo.after_of_writes_sub hostOps0 V written0_covers h

/-- The references stretch 1's operations write. -/
abbrev written1 : List (Ref sig .tc) := [main_cst_1, main_v17, main_v18, main_v19, main_cst_2, main_v20, main_v21, main_v22, main_v23, main_v24, main_cst_3, main_v25, main_v26, main_v27, main_v28, main_v29, main_v30, main_v31]
theorem written1_covers : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 1 does not write holds after it what it held before. -/
theorem keep1 (V : Valuation τ sig (Elt F)) (r : Ref sig .tc) (h : r ∉ written1) :
    StableHlo.after (hostOps1 (F := F)) V (Proc.devRef .tc r) = V (Proc.devRef .tc r) :=
  StableHlo.after_of_writes_sub hostOps1 V written1_covers h

/-- The references stretch 2's operations write. -/
abbrev written2 : List (Ref sig .tc) := [main_c_4, main_v33, main_v34, main_c_5, main_v35, main_v36, main_v37, main_v38, main_v39, main_cst_6, main_v40, main_v41, main_v42, main_v43, main_v44]
theorem written2_covers : (hostOps2 : List (HloOp τ sig (Elt F))).Forall fun op => op.writes ⊆ (written2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 2 does not write holds after it what it held before. -/
theorem keep2 (V : Valuation τ sig (Elt F)) (r : Ref sig .tc) (h : r ∉ written2) :
    StableHlo.after (hostOps2 (F := F)) V (Proc.devRef .tc r) = V (Proc.devRef .tc r) :=
  StableHlo.after_of_writes_sub hostOps2 V written2_covers h

/-- The references stretch 3's operations write. -/
abbrev written3 : List (Ref sig .tc) := [main_cst_7, main_v46, main_v47, main_v48, main_cst_8, main_v49, main_v50, main_v51, main_v52, main_v53, main_cst_9, main_v54, main_v55, main_v56, main_v57, main_v58, main_v59, main_v60]
theorem written3_covers : (hostOps3 : List (HloOp τ sig (Elt F))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 3 does not write holds after it what it held before. -/
theorem keep3 (V : Valuation τ sig (Elt F)) (r : Ref sig .tc) (h : r ∉ written3) :
    StableHlo.after (hostOps3 (F := F)) V (Proc.devRef .tc r) = V (Proc.devRef .tc r) :=
  StableHlo.after_of_writes_sub hostOps3 V written3_covers h

/-- The references stretch 4's operations write. -/
abbrev written4 : List (Ref sig .tc) := [main_c_10, main_v62, main_v63, main_c_11, main_v64, main_v65, main_v66, main_v67, main_v68, main_cst_12, main_v69, main_v70, main_v71, main_v72, main_v73]
theorem written4_covers : (hostOps4 : List (HloOp τ sig (Elt F))).Forall fun op => op.writes ⊆ (written4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 4 does not write holds after it what it held before. -/
theorem keep4 (V : Valuation τ sig (Elt F)) (r : Ref sig .tc) (h : r ∉ written4) :
    StableHlo.after (hostOps4 (F := F)) V (Proc.devRef .tc r) = V (Proc.devRef .tc r) :=
  StableHlo.after_of_writes_sub hostOps4 V written4_covers h

/-- The references stretch 5's operations write. -/
abbrev written5 : List (Ref sig .tc) := [main_cst_13, main_v75, main_v76, main_v77, main_cst_14, main_v78, main_v79, main_v80, main_v81, main_v82, main_cst_15, main_v83, main_v84, main_v85, main_v86, main_v87, main_v88, main_v89]
theorem written5_covers : (hostOps5 : List (HloOp τ sig (Elt F))).Forall fun op => op.writes ⊆ (written5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 5 does not write holds after it what it held before. -/
theorem keep5 (V : Valuation τ sig (Elt F)) (r : Ref sig .tc) (h : r ∉ written5) :
    StableHlo.after (hostOps5 (F := F)) V (Proc.devRef .tc r) = V (Proc.devRef .tc r) :=
  StableHlo.after_of_writes_sub hostOps5 V written5_covers h

/-- After the first stretch the source vector is the edge list's first row. -/
theorem after0_src (V : Valuation τ sig (Elt F)) :
    StableHlo.after (hostOps0 (F := F)) V (Proc.devRef .tc main_v1) = srcRow (V (Proc.devRef .tc main_arg1)) := by
  after_results_simp
  rfl

/-- After the first stretch the target vector is the edge list's second row. -/
theorem after0_dst (V : Valuation τ sig (Elt F)) :
    StableHlo.after (hostOps0 (F := F)) V (Proc.devRef .tc main_v3) = dstRow (V (Proc.devRef .tc main_arg1)) := by
  after_results_simp
  rfl

end Cert.KernelIdeal.HostValue

end
-- ==== Proof.KHost0.lean ====
import proofs.«137780_j52690658787578_1_alg».proof.Proof.Gen.KernelIdeal.Frame
import proofs.«137780_j52690658787578_1_alg».proof.Proof.KHostKeep
import Idealize.ShloMosaic.PureOps.Ideal

/-! The first stretch of host operations, read at the buffers the first region's input windows are staged from:
    the node features and the two weight matrices are the launch arrays themselves, the neighbourhood sums are the
    aggregation of the features over the edge list, and the two bias rows are the bias vectors recast to one row. -/

set_option maxRecDepth 16384

noncomputable section

namespace Cert.KernelIdeal.HostValue

open Idealize.ShloMosaic Idealize.ShloMosaic.TcCoe
open Cert.KernelIdeal.Gen

/-- After the first stretch the aggregation buffer holds the aggregation of the features over the edge list. -/
theorem after0_agg {F : FTy → Type} [FloatOps F] (V : Valuation τ sig (Elt F)) :
    StableHlo.after (hostOps0 (F := F)) V (Proc.devRef .tc main_v13) = Agg128 (V (Proc.devRef .tc main_arg0)) (V (Proc.devRef .tc main_arg1)) := by
  after_results_simp
  rfl
/-- The first bias, recast to a [1, 128] row. -/
theorem after0_b1 {F : FTy → Type} [FloatOps F] (V : Valuation τ sig (Elt F)) :
    StableHlo.after (hostOps0 (F := F)) V (Proc.devRef .tc main_v14) = shapeCast S1x128 (V (Proc.devRef .tc main_arg4)) shapeCasts_S128_S1x128 := by
  after_results_simp
  rfl
/-- The second bias, recast to a [1, 128] row. -/
theorem after0_b2 {F : FTy → Type} [FloatOps F] (V : Valuation τ sig (Elt F)) :
    StableHlo.after (hostOps0 (F := F)) V (Proc.devRef .tc main_v15) = shapeCast S1x128 (V (Proc.devRef .tc main_arg6)) shapeCasts_S128_S1x128 := by
  after_results_simp
  rfl

variable (m : (ℓ : Loc nD τ sig) → Buf (Elt Ideal) ℓ) (ρ : Dev nD → PrngReg) (c : Dev nD)

/-- Region 0, window 0 (the node features): the launch array. -/
theorem V1_win0 : V1 m ρ c (Pipeline.arrRef spec0 0) = (m ((c : Thread nD τ).loc main_arg0)) :=
  keep0 (W0 m ρ c) main_arg0 (by decide)
/-- Region 0, window 1 (the neighbourhood sums): the aggregation of the features over the edge list. -/
theorem V1_win1 : V1 m ρ c (Pipeline.arrRef spec0 1) = Agg128 (F := Ideal) (m ((c : Thread nD τ).loc main_arg0)) (m ((c : Thread nD τ).loc main_arg1)) :=
  after0_agg (W0 m ρ c)
/-- Region 0, window 2 (the first weight matrix): the launch array. -/
theorem V1_win2 : V1 m ρ c (Pipeline.arrRef spec0 2) = (m ((c : Thread nD τ).loc main_arg3)) :=
  keep0 (W0 m ρ c) main_arg3 (by decide)
/-- Region 0, window 3 (the first bias row). -/
theorem V1_win3 : V1 m ρ c (Pipeline.arrRef spec0 3) = shapeCast S1x128 (m ((c : Thread nD τ).loc main_arg4)) shapeCasts_S128_S1x128 :=
  after0_b1 (W0 m ρ c)
/-- Region 0, window 4 (the second weight matrix): the launch array. -/
theorem V1_win4 : V1 m ρ c (Pipeline.arrRef spec0 4) = (m ((c : Thread nD τ).loc main_arg5)) :=
  keep0 (W0 m ρ c) main_arg5 (by decide)
/-- Region 0, window 5 (the second bias row). -/
theorem V1_win5 : V1 m ρ c (Pipeline.arrRef spec0 5) = shapeCast S1x128 (m ((c : Thread nD τ).loc main_arg6)) shapeCasts_S128_S1x128 :=
  after0_b2 (W0 m ρ c)

end Cert.KernelIdeal.HostValue

end
-- ==== Proof.KHost1.lean ====
import proofs.«137780_j52690658787578_1_alg».proof.Proof.Gen.KernelIdeal.Frame
import proofs.«137780_j52690658787578_1_alg».proof.Proof.KHostKeep
import Idealize.ShloMosaic.PureOps.Ideal

/-! Stretch 1 of host operations (between region 0 and region 1), read at the buffers region 1's input windows are
    staged from: the perceptron's output array is region 0's own output, untouched; the mean row and the
    inverse-deviation row are computed from region 0's row of column sums and row of column sums of squares; the
    scale and the shift are the launch vectors recast to one row. -/

set_option maxRecDepth 16384

noncomputable section

namespace Cert.KernelIdeal.HostValue

open Idealize.ShloMosaic Idealize.ShloMosaic.TcCoe
open Cert.KernelIdeal.Gen

/-- The mean row, from the row of column sums. -/
theorem after1_mean {F : FTy → Type} [FloatOps F] (V : Valuation τ sig (Elt F)) :
    StableHlo.after (hostOps1 (F := F)) V (Proc.devRef .tc main_v28) = meanRow128 (V (Proc.devRef .tc main_v16_1)) := by
  after_results_simp
  rfl
/-- The inverse-deviation row, from the row of column sums and the row of column sums of squares. -/
theorem after1_inv {F : FTy → Type} [FloatOps F] (V : Valuation τ sig (Elt F)) :
    StableHlo.after (hostOps1 (F := F)) V (Proc.devRef .tc main_v29) = invRow128 (V (Proc.devRef .tc main_v16_1)) (V (Proc.devRef .tc main_v16_2)) := by
  after_results_simp
  rfl
/-- The scale, recast to one row. -/
theorem after1_scale {F : FTy → Type} [FloatOps F] (V : Valuation τ sig (Elt F)) :
    StableHlo.after (hostOps1 (F := F)) V (Proc.devRef .tc main_v30) = shapeCast S1x128 (V (Proc.devRef .tc main_arg7)) shapeCasts_S128_S1x128 := by
  after_results_simp
  rfl
/-- The shift, recast to one row. -/
theorem after1_shift {F : FTy → Type} [FloatOps F] (V : Valuation τ sig (Elt F)) :
    StableHlo.after (hostOps1 (F := F)) V (Proc.devRef .tc main_v31) = shapeCast S1x128 (V (Proc.devRef .tc main_arg8)) shapeCasts_S128_S1x128 := by
  after_results_simp
  rfl

variable (m : (ℓ : Loc nD τ sig) → Buf (Elt Ideal) ℓ) (ρ : Dev nD → PrngReg) (c : Dev nD)

/-- At boundary 2 the argument buffer `main_arg7` still holds its launch contents: no stretch and no region before it writes it. -/
theorem W2_main_arg7 : W2 m ρ c (Proc.devRef .tc main_arg7) = (m ((c : Thread nD τ).loc main_arg7)) :=
  calc W2 m ρ c (Proc.devRef .tc main_arg7)
    _ = W1 m ρ c (Proc.devRef .tc main_arg7) := W2_of_ne m ρ c main_arg7 (by decide)
    _ = W0 m ρ c (Proc.devRef .tc main_arg7) := keep0 (W0 m ρ c) main_arg7 (by decide)
    _ = (m ((c : Thread nD τ).loc main_arg7)) := rfl
/-- At boundary 2 the argument buffer `main_arg8` still holds its launch contents: no stretch and no region before it writes it. -/
theorem W2_main_arg8 : W2 m ρ c (Proc.devRef .tc main_arg8) = (m ((c : Thread nD τ).loc main_arg8)) :=
  calc W2 m ρ c (Proc.devRef .tc main_arg8)
    _ = W1 m ρ c (Proc.devRef .tc main_arg8) := W2_of_ne m ρ c main_arg8 (by decide)
    _ = W0 m ρ c (Proc.devRef .tc main_arg8) := keep0 (W0 m ρ c) main_arg8 (by decide)
    _ = (m ((c : Thread nD τ).loc main_arg8)) := rfl

/-- Region 1, window 0 (the array to normalise): region 0's output array, which this stretch does not write. -/
theorem V3_win0 : V3 m ρ c (Pipeline.arrRef spec1 0) = V2 m ρ c (Pipeline.arrRef spec0 6) :=
  keep1 (W2 m ρ c) main_v16_0 (by decide)
/-- Region 1, window 1 (the mean row). -/
theorem V3_win1 : V3 m ρ c (Pipeline.arrRef spec1 1) = meanRow128 (F := Ideal) (V2 m ρ c (Pipeline.arrRef spec0 7)) :=
  after1_mean (W2 m ρ c)
/-- Region 1, window 2 (the inverse-deviation row). -/
theorem V3_win2 : V3 m ρ c (Pipeline.arrRef spec1 2)
    = invRow128 (F := Ideal) (V2 m ρ c (Pipeline.arrRef spec0 7)) (V2 m ρ c (Pipeline.arrRef spec0 8)) :=
  after1_inv (W2 m ρ c)
/-- Region 1, window 3 (the scale row). -/
theorem V3_win3 : V3 m ρ c (Pipeline.arrRef spec1 3) = shapeCast S1x128 (m ((c : Thread nD τ).loc main_arg7)) shapeCasts_S128_S1x128 :=
  (after1_scale (W2 m ρ c)).trans (congrArg (fun v => shapeCast S1x128 v shapeCasts_S128_S1x128) (W2_main_arg7 m ρ c))
/-- Region 1, window 4 (the shift row). -/
theorem V3_win4 : V3 m ρ c (Pipeline.arrRef spec1 4) = shapeCast S1x128 (m ((c : Thread nD τ).loc main_arg8)) shapeCasts_S128_S1x128 :=
  (after1_shift (W2 m ρ c)).trans (congrArg (fun v => shapeCast S1x128 v shapeCasts_S128_S1x128) (W2_main_arg8 m ρ c))

end Cert.KernelIdeal.HostValue

end
-- ==== Proof.GinSpec.lean ====
/-
  The layer of the network, entry by entry, on the extended reals.

  A layer takes node features X (n rows of width di), the neighbourhood sums A of the same shape, two weight matrices
  with their bias rows, and a scale and a shift per output column. Its first half is the two-layer perceptron
  applied to each row of X + A:

    pre (r, j) = Σ_k max (Σ_c (X (r, c) + A (r, c)) · W1 (c, k) + b1 k, 0) · W2 (k, j) + b2 j.

  Its second half normalises each column of `pre` by a mean and an inverse standard deviation taken over the n rows,
  scales, shifts and clips at zero:

    bnrelu h mean inv g b = max ((h − mean) · inv · g + b, 0).
-/
import Idealize.ShloMosaic.PureOps.Ideal
import Idealize.ShloMosaic.Lib.ValueIdx

noncomputable section

namespace Cert.Gin

open Idealize.ShloMosaic Idealize.ShloMosaic.ValueIdx

/-- Entry (r, j) of the perceptron applied to row r of X + A. -/
def pre {n di dk : Nat} (X A : (⟨2, ![n, di]⟩ : Shape).Idx → EReal) (W1 : (⟨2, ![di, dk]⟩ : Shape).Idx → EReal)
    (b1 : Fin dk → EReal) (W2 : (⟨2, ![dk, dk]⟩ : Shape).Idx → EReal) (b2 : Fin dk → EReal)
    (r : Fin n) (j : Fin dk) : EReal :=
  (∑ k : Fin dk, max ((∑ c : Fin di, (X (ix2 r c) + A (ix2 r c)) * W1 (ix2 c k)) + b1 k) 0 * W2 (ix2 k j)) + b2 j

/-- One normalised, scaled, shifted and clipped entry. -/
def bnrelu (h mean inv g b : EReal) : EReal := max ((h - mean) * inv * g + b) 0

end Cert.Gin

end
-- ==== Proof.Stats0Pieces.lean ====
/-
  Region 0 of the program (the perceptron-with-statistics kernel at widths 128 → 128): what one run of the body leaves
  in each of its three output blocks, as the body's arithmetic of the blocks it loaded.

  At the first grid point the two running rows are first set to zero and then read back, so the value added to is the
  zero row; at every later point it is what the point before left.  In both cases the block of h is the perceptron of
  the loaded blocks, the first running row grows by that block's column sums and the second by the column sums of its
  squares.  Stated for every float instance.
-/
import proofs.«137780_j52690658787578_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.StatsValue

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

theorem hz0 : (![0, 0] : Fin 2 → Nat) = fun _ => 0 := funext fun a => by fin_cases a <;> rfl

/-- A later point: the block of h is the perceptron of the loaded blocks. -/
theorem piece0_B_6 (c : Dev nD) (i : grid0.Coords) (a1 : Memref sig .tc .vmem S1000x128 .f32) (h1 : a1.IsWhole) (a2 : Memref sig .tc .vmem S1000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S1000x128 .f32) (x2 : Vec F S128x128 .f32) (x3 : Vec F S1x128 .f32) (x4 : Vec F S128x128 .f32) (x5 : Vec F S1x128 .f32) (xo7 xo8 : Vec F S1x128 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  rw [View.canon_unit_zero hz0]
  simp only [View.readAt_eq_ld, h1.read_unread, h2.read_unread, h3.read_unread, h4.read_unread, h5.read_unread, h6.read_unread, h8.read_unread, h9.read_unread, View.ld_unit_zero (S := S1000x128) hz0, View.ld_unit_zero (S := S128x128) hz0, View.ld_unit_zero (S := S1x128) hz0]

/-- A later point: the first running row is what it held plus the block's column sums. -/
theorem piece0_B_7 (c : Dev nD) (i : grid0.Coords) (a1 : Memref sig .tc .vmem S1000x128 .f32) (h1 : a1.IsWhole) (a2 : Memref sig .tc .vmem S1000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S1000x128 .f32) (x2 : Vec F S128x128 .f32) (x3 : Vec F S1x128 .f32) (x4 : Vec F S128x128 .f32) (x5 : Vec F S1x128 .f32) (xo7 xo8 : Vec F S1x128 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  rw [View.canon_unit_zero hz0]
  simp only [View.readAt_eq_ld, h1.read_unread, h2.read_unread, h3.read_unread, h4.read_unread, h5.read_unread, h6.read_unread, h8.read_unread, h9.read_unread, View.ld_unit_zero (S := S1000x128) hz0, View.ld_unit_zero (S := S128x128) hz0, View.ld_unit_zero (S := S1x128) hz0]

/-- A later point: the second running row is what it held plus the column sums of the block's squares. -/
theorem piece0_B_8 (c : Dev nD) (i : grid0.Coords) (a1 : Memref sig .tc .vmem S1000x128 .f32) (h1 : a1.IsWhole) (a2 : Memref sig .tc .vmem S1000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S1000x128 .f32) (x2 : Vec F S128x128 .f32) (x3 : Vec F S1x128 .f32) (x4 : Vec F S128x128 .f32) (x5 : Vec F S1x128 .f32) (xo7 xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz0]
  simp only [View.readAt_eq_ld, h1.read_unread, h2.read_unread, h3.read_unread, h4.read_unread, h5.read_unread, h6.read_unread, h8.read_unread, h9.read_unread, View.ld_unit_zero (S := S1000x128) hz0, View.ld_unit_zero (S := S128x128) hz0, View.ld_unit_zero (S := S1x128) hz0]

/-- The first point: the block of h is the perceptron of the loaded blocks. -/
theorem piece0_A_6 (c : Dev nD) (i : grid0.Coords) (a1 : Memref sig .tc .vmem S1000x128 .f32) (h1 : a1.IsWhole) (a2 : Memref sig .tc .vmem S1000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S1000x128 .f32) (x2 : Vec F S128x128 .f32) (x3 : Vec F S1x128 .f32) (x4 : Vec F S128x128 .f32) (x5 : Vec F S1x128 .f32) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  rw [View.canon_unit_zero hz0]
  simp only [View.readAt_eq_ld, h1.read_unread, h2.read_unread, h3.read_unread, h4.read_unread, h5.read_unread, h6.read_unread, View.ld_unit_zero (S := S1000x128) hz0, View.ld_unit_zero (S := S128x128) hz0, View.ld_unit_zero (S := S1x128) hz0]

/-- The first point: the first running row is the zero row plus the block's column sums. -/
theorem piece0_A_7 (c : Dev nD) (i : grid0.Coords) (a1 : Memref sig .tc .vmem S1000x128 .f32) (h1 : a1.IsWhole) (a2 : Memref sig .tc .vmem S1000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S1000x128 .f32) (x2 : Vec F S128x128 .f32) (x3 : Vec F S1x128 .f32) (x4 : Vec F S128x128 .f32) (x5 : Vec F S1x128 .f32) :
    out0_A_7 c i a1 h1 a2 h2 a3 h3 a4 h4 a5 h5 a6 h6 a7 h7 a8 h8 a9 h9 hc x0 x1 x2 x3 x4 x5 = k0_pay5 x0 x1 x2 x3 x4 x5 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz0, View.readCov_unit_zero (S := S1x128) _ hz0]
  simp only [View.readAt_eq_ld, h1.read_unread, h2.read_unread, h3.read_unread, h4.read_unread, h5.read_unread, h6.read_unread, View.ld_unit_zero (S := S1000x128) hz0, View.ld_unit_zero (S := S128x128) hz0, View.ld_unit_zero (S := S1x128) hz0]

/-- The first point: the second running row is the zero row plus the column sums of the block's squares. -/
theorem piece0_A_8 (c : Dev nD) (i : grid0.Coords) (a1 : Memref sig .tc .vmem S1000x128 .f32) (h1 : a1.IsWhole) (a2 : Memref sig .tc .vmem S1000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S1000x128 .f32) (x2 : Vec F S128x128 .f32) (x3 : Vec F S1x128 .f32) (x4 : Vec F S128x128 .f32) (x5 : Vec F S1x128 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) k0_pay3 := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz0, View.readCov_unit_zero (S := S1x128) _ hz0]
  simp only [View.readAt_eq_ld, h1.read_unread, h2.read_unread, h3.read_unread, h4.read_unread, h5.read_unread, h6.read_unread, View.ld_unit_zero (S := S1000x128) hz0, View.ld_unit_zero (S := S128x128) hz0, View.ld_unit_zero (S := S1x128) hz0]

end Cert.KernelIdeal.StatsValue

end
-- ==== Proof.LibMlpStats.lean ====
/-
  A two-layer perceptron applied to a block of rows, and column sums added to a running row, read entry by entry on
  the extended reals.

  For a block of n rows: x and a are n×di, w1 is di×dk with bias row b1, w2 is dk×dk with bias row b2.  The block's
  perceptron is the n×dk array whose entry (p, q) is

      Σ_k max (Σ_c (x (p, c) + a (p, c)) · w1 (c, k) + b1 k, 0) · w2 (k, q) + b2 q

  (a change of float format is the identity on the extended reals, and a matrix product into the zero block is the
  plain sum of products).  A running row acc of width dk to which the column sums of an n×dk array v are added has
  entry q equal to  acc q + Σ_p v (p, q).  Last, a sum over T·B rows taken block by block is the one sum.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlpStats

open Idealize.ShloMosaic Idealize.ShloMosaic.ValueIdx

variable {n di dk : Nat}

/-- A matrix product of an m×k by a k×n block into the zero block, at (a, b), is Σ_c A (a, c) · B (c, b). -/
theorem matmulZero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The block's perceptron as the chain of vector operations a kernel body spells it with: the sum x + a, the product
    by w1 into the zero block, the bias row broadcast down the rows and added, the clip at zero, the product by w2 into
    the zero block, the second bias row added; every change of float format written where the body has it. -/
def mlp (wf1 : DotDims.WF ⟨2, ![n, di]⟩ ⟨2, ![di, dk]⟩ ⟨2, ![n, dk]⟩ [1] [0] [0] [1] [] [])
    (wf2 : DotDims.WF ⟨2, ![n, dk]⟩ ⟨2, ![dk, dk]⟩ ⟨2, ![n, dk]⟩ [1] [0] [0] [1] [] [])
    (hb : FTy.bits .bf16 < FTy.bits .f32)
    (hx : (⟨2, ![n, di]⟩ : Shape).ShapeCasts ⟨2, ![n, di]⟩)
    (hr : (⟨2, ![1, dk]⟩ : Shape).ShapeCasts ⟨2, ![1, dk]⟩)
    (hbc : (⟨2, ![1, dk]⟩ : Shape).Broadcasts ⟨2, ![n, dk]⟩)
    (x a : Vec Ideal ⟨2, ![n, di]⟩ .f32) (w1 : Vec Ideal ⟨2, ![di, dk]⟩ .f32) (b1 : Vec Ideal ⟨2, ![1, dk]⟩ .f32)
    (w2 : Vec Ideal ⟨2, ![dk, dk]⟩ .f32) (b2 : Vec Ideal ⟨2, ![1, dk]⟩ .f32) : FVec Ideal ⟨2, ![n, dk]⟩ .f32 :=
  addf (matmul (⟨[1], [0], [0], [1], [], [], wf2⟩ : DotDims ⟨2, ![n, dk]⟩ ⟨2, ![dk, dk]⟩ ⟨2, ![n, dk]⟩) none
      (truncf .bf16 (maximumf (addf (matmul (⟨[1], [0], [0], [1], [], [], wf1⟩ : DotDims ⟨2, ![n, di]⟩ ⟨2, ![di, dk]⟩ ⟨2, ![n, dk]⟩) none
            (truncf .bf16 (addf x (shapeCast ⟨2, ![n, di]⟩ a hx)) hb) (truncf .bf16 w1 hb)
            (constant ⟨2, ![n, dk]⟩ .f32 0x00000000#32))
          (broadcastTo ⟨2, ![n, dk]⟩ (shapeCast ⟨2, ![1, dk]⟩ b1 hr) hbc))
        (broadcast ⟨2, ![n, dk]⟩ (Scalar.ofBits .f32 0x00000000#32))) hb)
      (truncf .bf16 w2 hb) (constant ⟨2, ![n, dk]⟩ .f32 0x00000000#32))
    (broadcastTo ⟨2, ![n, dk]⟩ (shapeCast ⟨2, ![1, dk]⟩ b2 hr) hbc)

/-- Entry (p, q) of the block's perceptron. -/
theorem mlp_apply (wf1 : DotDims.WF ⟨2, ![n, di]⟩ ⟨2, ![di, dk]⟩ ⟨2, ![n, dk]⟩ [1] [0] [0] [1] [] [])
    (wf2 : DotDims.WF ⟨2, ![n, dk]⟩ ⟨2, ![dk, dk]⟩ ⟨2, ![n, dk]⟩ [1] [0] [0] [1] [] [])
    (hb : FTy.bits .bf16 < FTy.bits .f32)
    (hx : (⟨2, ![n, di]⟩ : Shape).ShapeCasts ⟨2, ![n, di]⟩)
    (hr : (⟨2, ![1, dk]⟩ : Shape).ShapeCasts ⟨2, ![1, dk]⟩)
    (hbc : (⟨2, ![1, dk]⟩ : Shape).Broadcasts ⟨2, ![n, dk]⟩)
    (x a : Vec Ideal ⟨2, ![n, di]⟩ .f32) (w1 : Vec Ideal ⟨2, ![di, dk]⟩ .f32) (b1 : Vec Ideal ⟨2, ![1, dk]⟩ .f32)
    (w2 : Vec Ideal ⟨2, ![dk, dk]⟩ .f32) (b2 : Vec Ideal ⟨2, ![1, dk]⟩ .f32) (p : Fin n) (q : Fin dk) :
    mlp wf1 wf2 hb hx hr hbc x a w1 b1 w2 b2 (ix2 p q)
      = (∑ k : Fin dk, max ((∑ c : Fin di, (x (ix2 p c) + a (ix2 p c)) * w1 (ix2 c k)) + b1 (ix2 (0 : Fin 1) k)) 0
            * w2 (ix2 k q)) + b2 (ix2 (0 : Fin 1) q) := by
  unfold mlp
  simp only [shapeCast_self]
  rw [addf_apply, matmulZero_apply, broadcastTo_1b_ab_apply]
  refine congrArg (· + b2 (ix2 (0 : Fin 1) q)) (Finset.sum_congr rfl fun k _ => ?_)
  rw [truncf_apply, truncf_apply, maximumf_apply, addf_apply, matmulZero_apply, broadcastTo_1b_ab_apply,
    broadcast_apply]
  have hz : (Scalar.ofBits (F := Ideal) .f32 0x00000000#32 : Ideal .f32) = 0 := Ideal.ofBits_zero_f32
  rw [hz]
  refine congrArg (fun s => max (s + b1 (ix2 (0 : Fin 1) k)) 0 * w2 (ix2 k q)) (Finset.sum_congr rfl fun c _ => ?_)
  rw [truncf_apply, truncf_apply, addf_apply]

/-- A running row to which the column sums of a block are added, as a kernel body spells it: the lane-direction
    reduction over the rows, recast to one row, added to the recast running row. -/
def accCols (hred : (⟨2, ![n, dk]⟩ : Shape).Reduces [0] ⟨1, ![dk]⟩) (hφ : FKind.Formats .f32)
    (hacc : (0x00000000#32 : BitVec (FTy.bits .f32)) = FKind.add.neutral .f32 hφ)
    (hr : (⟨2, ![1, dk]⟩ : Shape).ShapeCasts ⟨2, ![1, dk]⟩)
    (hc : (⟨1, ![dk]⟩ : Shape).ShapeCasts ⟨2, ![1, dk]⟩)
    (v : FVec Ideal ⟨2, ![n, dk]⟩ .f32) (acc : Vec Ideal ⟨2, ![1, dk]⟩ .f32) : FVec Ideal ⟨2, ![1, dk]⟩ .f32 :=
  addf (shapeCast ⟨2, ![1, dk]⟩ acc hr)
    (shapeCast ⟨2, ![1, dk]⟩ (multiReduction .add [0] ⟨1, ![dk]⟩ v 0x00000000#32 hred hφ hacc) hc)

/-- Entry q of the running row after the addition: what it held plus the block's column sum. -/
theorem accCols_apply (hred : (⟨2, ![n, dk]⟩ : Shape).Reduces [0] ⟨1, ![dk]⟩) (hφ : FKind.Formats .f32)
    (hacc : (0x00000000#32 : BitVec (FTy.bits .f32)) = FKind.add.neutral .f32 hφ)
    (hr : (⟨2, ![1, dk]⟩ : Shape).ShapeCasts ⟨2, ![1, dk]⟩)
    (hc : (⟨1, ![dk]⟩ : Shape).ShapeCasts ⟨2, ![1, dk]⟩)
    (v : FVec Ideal ⟨2, ![n, dk]⟩ .f32) (acc : Vec Ideal ⟨2, ![1, dk]⟩ .f32) (u : Fin 1) (q : Fin dk) :
    accCols hred hφ hacc hr hc v acc (ix2 u q) = acc (ix2 u q) + ∑ p : Fin n, v (ix2 p q) := by
  unfold accCols
  rw [addf_apply, shapeCast_self, shapeCast_a_1a_apply]
  refine congrArg (acc (ix2 u q) + ·) ?_
  refine (Ideal.multiReduction_add_single v 0x00000000#32 hred hφ hacc (ix1 q)).trans ?_
  show ∑ p : Fin n, v (hred.lift (ix1 q) p) = _
  refine Finset.sum_congr rfl fun p _ => congrArg v ?_
  funext ax; apply Fin.ext
  match ax with
  | ⟨0, _⟩ => rfl
  | ⟨1, _⟩ => rfl

end Cert.LibMlpStats

end
-- ==== Proof.Stats0Block.lean ====
/-
  Region 0 (widths 128 → 128): the blocks the body loads at a grid point, and the body's arithmetic of them, entry by entry.

  The grid has 20 points; at point t the windows of x and of the neighbourhood sums hold rows 1000·t … 1000·t + 999 of
  their arrays, the weights and bias rows are whole arrays, and so the block of h the body computes holds the rows
  1000·t + p of the perceptron  pre (r, j) = Σ_k max (Σ_c (X (r, c) + A (r, c)) · W1 (c, k) + b1 k, 0) · W2 (k, j) + b2 j.
  The two running rows grow by that block's column sums and by the column sums of its squares.
-/
import proofs.«137780_j52690658787578_1_alg».proof.Proof.Gen.KernelIdeal.Frame
import proofs.«137780_j52690658787578_1_alg».proof.Proof.GinSpec
import proofs.«137780_j52690658787578_1_alg».proof.Proof.LibMlpStats
import Idealize.ShloMosaic.Lib.Pipeline.Value
import Idealize.ShloMosaic.Lib.ValueIdx

set_option maxRecDepth 16384

noncomputable section

namespace Cert.KernelIdeal.StatsValue

open Idealize.ShloMosaic Idealize.ShloMosaic.TcCoe Idealize.ShloMosaic.ValueIdx Idealize.SL.Sem
open Idealize.ShloMosaic.Pipeline (Dat)
open Cert.KernelIdeal Cert.KernelIdeal.Gen
open Cert.LibMlpStats

variable (V : (c : Dev nD) → (b : Ref sig .tc) → Buf (Elt Ideal) ((c : Thread nD τ).loc b))

/-- Entry (r, j) of the perceptron of region 0, over the arrays the region finds on entry. -/
abbrev P0 (c : Dev nD) (r : Fin 20000) (j : Fin 128) : EReal :=
  Cert.Gin.pre (V c (Pipeline.arrRef spec0 0)) (V c (Pipeline.arrRef spec0 1)) (V c (Pipeline.arrRef spec0 2))
    (fun k => V c (Pipeline.arrRef spec0 3) (ix2 (0 : Fin 1) k)) (V c (Pipeline.arrRef spec0 4))
    (fun k => V c (Pipeline.arrRef spec0 5) (ix2 (0 : Fin 1) k)) r j

/-- The body's h block is the block perceptron of the library lemma, term for term. -/
theorem pay4_eq0 (x0 x1 : Vec Ideal S1000x128 .f32) (x2 : Vec Ideal S128x128 .f32) (x3 : Vec Ideal S1x128 .f32) (x4 : Vec Ideal S128x128 .f32) (x5 : Vec Ideal S1x128 .f32) :
    k0_pay4 (F := Ideal) x0 x1 x2 x3 x4 x5
      = mlp dot_S1000x128_S128x128_S1000x128_1_0_0_1_n_n_wf dot_S1000x128_S128x128_S1000x128_1_0_0_1_n_n_wf bitsLt_bf16_f32
          shapeCasts_S1000x128_S1000x128 shapeCasts_S1x128_S1x128 broadcasts_S1x128_S1000x128 x0 x1 x2 x3 x4 x5 := rfl

/-- The first running row's update is the library's column-sum update of the h block. -/
theorem pay5_eq0 (x0 x1 : Vec Ideal S1000x128 .f32) (x2 : Vec Ideal S128x128 .f32) (x3 : Vec Ideal S1x128 .f32) (x4 : Vec Ideal S128x128 .f32) (x5 : Vec Ideal S1x128 .f32) (acc : Vec Ideal S1x128 .f32) :
    k0_pay5 (F := Ideal) x0 x1 x2 x3 x4 x5 acc
      = accCols reduces_S1000x128_S128 (.inl rfl) rfl shapeCasts_S1x128_S1x128 shapeCasts_S128_S1x128 (k0_pay4 (F := Ideal) x0 x1 x2 x3 x4 x5) acc := rfl

/-- The second running row's update is the column-sum update of the squares. -/
theorem pay1_eq0 (v : FVec Ideal S1000x128 .f32) (acc : Vec Ideal S1x128 .f32) :
    k0_pay1 (F := Ideal) v acc
      = accCols reduces_S1000x128_S128 (.inl rfl) rfl shapeCasts_S1x128_S1x128 shapeCasts_S128_S1x128 (mulf v v) acc := rfl

/-- Row p of the block of point t, as a row of the whole array. -/
def row0 (t : Fin cfg0.N) (p : Fin 1000) : Fin 20000 :=
  ⟨1000 * t.val + p.val, by have hN : t.val < 20 := lt_of_lt_of_eq t.isLt (show cfg0.N = 20 from N_0); have := p.isLt; omega⟩

/-- The printed index maps, decided over the grid: the row-tiled windows sit at block (t, 0), the others at (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Entry (p, q) of window 0's block at point t of an array G is the array's entry at row 1000·t + p. -/
theorem rd0_0 (t : Fin cfg0.N) (G : S20000x128.Idx → EReal) (p : Fin 1000) (q : Fin 128) :
    (((cfg0.win 0).blk t).view.read (Elt Ideal) G : Vec Ideal S1000x128 .f32) (ix2 p q) = G (ix2 (row0 t p) q) := by
  rw [View.read_apply]
  show G _ = G _
  congr 1
  funext a
  apply Fin.ext
  obtain ⟨e0, e1, -⟩ := idx_facts0 t
  match a with
  | ⟨0, _⟩ => show win0_0.index t (0 : Fin 2) * 1000 + 1 * p.val = 1000 * t.val + p.val; rw [e0]; omega
  | ⟨1, _⟩ => show win0_0.index t (1 : Fin 2) * 128 + 1 * q.val = q.val; rw [e1]; omega

/-- Entry (p, q) of window 2's block at point t of an array G is the array's own entry (p, q): the block is the whole array. -/
theorem rd0_2 (t : Fin cfg0.N) (G : S128x128.Idx → EReal) (p : Fin 128) (q : Fin 128) :
    (((cfg0.win 2).blk t).view.read (Elt Ideal) G : Vec Ideal S128x128 .f32) (ix2 p q) = G (ix2 p q) := by
  rw [View.read_apply]
  show G _ = G _
  congr 1
  funext a
  apply Fin.ext
  obtain ⟨-, -, -, -, e0, e1, -⟩ := idx_facts0 t
  match a with
  | ⟨0, _⟩ => show win0_2.index t (0 : Fin 2) * 128 + 1 * p.val = p.val; rw [e0]; omega
  | ⟨1, _⟩ => show win0_2.index t (1 : Fin 2) * 128 + 1 * q.val = q.val; rw [e1]; omega

/-- Entry (p, q) of window 3's block at point t of an array G is the array's own entry (p, q): the block is the whole array. -/
theorem rd0_3 (t : Fin cfg0.N) (G : S1x128.Idx → EReal) (p : Fin 1) (q : Fin 128) :
    (((cfg0.win 3).blk t).view.read (Elt Ideal) G : Vec Ideal S1x128 .f32) (ix2 p q) = G (ix2 p q) := by
  rw [View.read_apply]
  show G _ = G _
  congr 1
  funext a
  apply Fin.ext
  obtain ⟨-, -, -, -, -, -, e0, e1, -⟩ := idx_facts0 t
  match a with
  | ⟨0, _⟩ => show win0_3.index t (0 : Fin 2) * 1 + 1 * p.val = p.val; rw [e0]; omega
  | ⟨1, _⟩ => show win0_3.index t (1 : Fin 2) * 128 + 1 * q.val = q.val; rw [e1]; omega

/-- Entry (p, q) of window 4's block at point t of an array G is the array's own entry (p, q): the block is the whole array. -/
theorem rd0_4 (t : Fin cfg0.N) (G : S128x128.Idx → EReal) (p : Fin 128) (q : Fin 128) :
    (((cfg0.win 4).blk t).view.read (Elt Ideal) G : Vec Ideal S128x128 .f32) (ix2 p q) = G (ix2 p q) := by
  rw [View.read_apply]
  show G _ = G _
  congr 1
  funext a
  apply Fin.ext
  obtain ⟨-, -, -, -, -, -, -, -, e0, e1, -⟩ := idx_facts0 t
  match a with
  | ⟨0, _⟩ => show win0_4.index t (0 : Fin 2) * 128 + 1 * p.val = p.val; rw [e0]; omega
  | ⟨1, _⟩ => show win0_4.index t (1 : Fin 2) * 128 + 1 * q.val = q.val; rw [e1]; omega

/-- Entry (p, q) of window 6's block at point t of an array G is the array's entry at row 1000·t + p. -/
theorem rd0_6 (t : Fin cfg0.N) (G : S20000x128.Idx → EReal) (p : Fin 1000) (q : Fin 128) :
    (((cfg0.win 6).blk t).view.read (Elt Ideal) G : Vec Ideal S1000x128 .f32) (ix2 p q) = G (ix2 (row0 t p) q) := by
  rw [View.read_apply]
  show G _ = G _
  congr 1
  funext a
  apply Fin.ext
  obtain ⟨-, -, -, -, -, -, -, -, -, -, -, -, e0, e1, -⟩ := idx_facts0 t
  match a with
  | ⟨0, _⟩ => show win0_6.index t (0 : Fin 2) * 1000 + 1 * p.val = 1000 * t.val + p.val; rw [e0]; omega
  | ⟨1, _⟩ => show win0_6.index t (1 : Fin 2) * 128 + 1 * q.val = q.val; rw [e1]; omega

/-- Entry (p, q) of window 7's block at point t of an array G is the array's own entry (p, q): the block is the whole array. -/
theorem rd0_7 (t : Fin cfg0.N) (G : S1x128.Idx → EReal) (p : Fin 1) (q : Fin 128) :
    (((cfg0.win 7).blk t).view.read (Elt Ideal) G : Vec Ideal S1x128 .f32) (ix2 p q) = G (ix2 p q) := by
  rw [View.read_apply]
  show G _ = G _
  congr 1
  funext a
  apply Fin.ext
  obtain ⟨-, -, -, -, -, -, -, -, -, -, -, -, -, -, e0, e1, -⟩ := idx_facts0 t
  match a with
  | ⟨0, _⟩ => show win0_7.index t (0 : Fin 2) * 1 + 1 * p.val = p.val; rw [e0]; omega
  | ⟨1, _⟩ => show win0_7.index t (1 : Fin 2) * 128 + 1 * q.val = q.val; rw [e1]; omega

/-- Entry (p, q) of window 1's block at point t of an array G is the array's entry at row 1000·t + p. -/
theorem rd0_1 (t : Fin cfg0.N) (G : S20000x128.Idx → EReal) (p : Fin 1000) (q : Fin 128) :
    (((cfg0.win 1).blk t).view.read (Elt Ideal) G : Vec Ideal S1000x128 .f32) (ix2 p q) = G (ix2 (row0 t p) q) := by
  rw [View.read_apply]
  show G _ = G _
  congr 1
  funext a
  apply Fin.ext
  obtain ⟨-, -, e0, e1, -⟩ := idx_facts0 t
  match a with
  | ⟨0, _⟩ => show win0_1.index t (0 : Fin 2) * 1000 + 1 * p.val = 1000 * t.val + p.val; rw [e0]; omega
  | ⟨1, _⟩ => show win0_1.index t (1 : Fin 2) * 128 + 1 * q.val = q.val; rw [e1]; omega

/-- Entry (p, q) of window 5's block at point t of an array G is the array's own entry (p, q): the block is the whole array. -/
theorem rd0_5 (t : Fin cfg0.N) (G : S1x128.Idx → EReal) (p : Fin 1) (q : Fin 128) :
    (((cfg0.win 5).blk t).view.read (Elt Ideal) G : Vec Ideal S1x128 .f32) (ix2 p q) = G (ix2 p q) := by
  rw [View.read_apply]
  show G _ = G _
  congr 1
  funext a
  apply Fin.ext
  obtain ⟨-, -, -, -, -, -, -, -, -, -, e0, e1, -⟩ := idx_facts0 t
  match a with
  | ⟨0, _⟩ => show win0_5.index t (0 : Fin 2) * 1 + 1 * p.val = p.val; rw [e0]; omega
  | ⟨1, _⟩ => show win0_5.index t (1 : Fin 2) * 128 + 1 * q.val = q.val; rw [e1]; omega

/-- Entry (p, q) of window 8's block at point t of an array G is the array's own entry (p, q): the block is the whole array. -/
theorem rd0_8 (t : Fin cfg0.N) (G : S1x128.Idx → EReal) (p : Fin 1) (q : Fin 128) :
    (((cfg0.win 8).blk t).view.read (Elt Ideal) G : Vec Ideal S1x128 .f32) (ix2 p q) = G (ix2 p q) := by
  rw [View.read_apply]
  show G _ = G _
  congr 1
  funext a
  apply Fin.ext
  obtain ⟨-, -, -, -, -, -, -, -, -, -, -, -, -, -, -, -, e0, e1⟩ := idx_facts0 t
  match a with
  | ⟨0, _⟩ => show win0_8.index t (0 : Fin 2) * 1 + 1 * p.val = p.val; rw [e0]; omega
  | ⟨1, _⟩ => show win0_8.index t (1 : Fin 2) * 128 + 1 * q.val = q.val; rw [e1]; omega

theorem blk0_0 (c : Dev nD) (t : Fin cfg0.N) (p : Fin 1000) (q : Fin 128) :
    (iblk0 V c 0 t : Vec Ideal S1000x128 .f32) (ix2 p q) = V c (Pipeline.arrRef spec0 0) (ix2 (row0 t p) q) :=
  rd0_0 t (V c (Pipeline.arrRef spec0 0)) p q

theorem blk0_1 (c : Dev nD) (t : Fin cfg0.N) (p : Fin 1000) (q : Fin 128) :
    (iblk0 V c 1 t : Vec Ideal S1000x128 .f32) (ix2 p q) = V c (Pipeline.arrRef spec0 1) (ix2 (row0 t p) q) :=
  rd0_1 t (V c (Pipeline.arrRef spec0 1)) p q

theorem blk0_2 (c : Dev nD) (t : Fin cfg0.N) (p : Fin 128) (q : Fin 128) :
    (iblk0 V c 2 t : Vec Ideal S128x128 .f32) (ix2 p q) = V c (Pipeline.arrRef spec0 2) (ix2 p q) :=
  rd0_2 t (V c (Pipeline.arrRef spec0 2)) p q

theorem blk0_3 (c : Dev nD) (t : Fin cfg0.N) (p : Fin 1) (q : Fin 128) :
    (iblk0 V c 3 t : Vec Ideal S1x128 .f32) (ix2 p q) = V c (Pipeline.arrRef spec0 3) (ix2 p q) :=
  rd0_3 t (V c (Pipeline.arrRef spec0 3)) p q

theorem blk0_4 (c : Dev nD) (t : Fin cfg0.N) (p : Fin 128) (q : Fin 128) :
    (iblk0 V c 4 t : Vec Ideal S128x128 .f32) (ix2 p q) = V c (Pipeline.arrRef spec0 4) (ix2 p q) :=
  rd0_4 t (V c (Pipeline.arrRef spec0 4)) p q

theorem blk0_5 (c : Dev nD) (t : Fin cfg0.N) (p : Fin 1) (q : Fin 128) :
    (iblk0 V c 5 t : Vec Ideal S1x128 .f32) (ix2 p q) = V c (Pipeline.arrRef spec0 5) (ix2 p q) :=
  rd0_5 t (V c (Pipeline.arrRef spec0 5)) p q

/-- The block of h the body computes at point t. -/
def Pblk0 (c : Dev nD) (t : Fin cfg0.N) : FVec Ideal S1000x128 .f32 :=
  k0_pay4 (F := Ideal) (iblk0 V c 0 t) (iblk0 V c 1 t) (iblk0 V c 2 t) (iblk0 V c 3 t) (iblk0 V c 4 t) (iblk0 V c 5 t)

/-- Its entry (p, q) is entry (1000·t + p, q) of the perceptron over the whole arrays. -/
theorem Pblk0_apply (c : Dev nD) (t : Fin cfg0.N) (p : Fin 1000) (q : Fin 128) :
    Pblk0 V c t (ix2 p q) = P0 V c (row0 t p) q := by
  refine (congrFun (pay4_eq0 (iblk0 V c 0 t) (iblk0 V c 1 t) (iblk0 V c 2 t) (iblk0 V c 3 t) (iblk0 V c 4 t) (iblk0 V c 5 t)) (ix2 p q)).trans ?_
  refine (mlp_apply _ _ _ _ _ _ (iblk0 V c 0 t) (iblk0 V c 1 t) (iblk0 V c 2 t) (iblk0 V c 3 t) (iblk0 V c 4 t) (iblk0 V c 5 t) p q).trans ?_
  show _ = Cert.Gin.pre _ _ _ _ _ _ _ _
  unfold Cert.Gin.pre
  simp only [blk0_0 V c t, blk0_1 V c t, blk0_2 V c t, blk0_3 V c t, blk0_4 V c t, blk0_5 V c t]

/-- The first running row after point t, entry q: what it held plus Σ_p pre (1000·t + p, q). -/
theorem pay5_apply0 (c : Dev nD) (t : Fin cfg0.N) (acc : Vec Ideal S1x128 .f32) (u : Fin 1) (q : Fin 128) :
    k0_pay5 (F := Ideal) (iblk0 V c 0 t) (iblk0 V c 1 t) (iblk0 V c 2 t) (iblk0 V c 3 t) (iblk0 V c 4 t) (iblk0 V c 5 t) acc (ix2 u q)
      = acc (ix2 u q) + ∑ p : Fin 1000, P0 V c (row0 t p) q := by
  refine (congrFun (pay5_eq0 (iblk0 V c 0 t) (iblk0 V c 1 t) (iblk0 V c 2 t) (iblk0 V c 3 t) (iblk0 V c 4 t) (iblk0 V c 5 t) acc) (ix2 u q)).trans ?_
  refine (accCols_apply _ _ _ _ _ (Pblk0 V c t) acc u q).trans ?_
  exact congrArg (acc (ix2 u q) + ·) (Finset.sum_congr rfl fun p _ => Pblk0_apply V c t p q)

/-- The second running row after point t, entry q: what it held plus Σ_p pre (1000·t + p, q)². -/
theorem pay1_apply0 (c : Dev nD) (t : Fin cfg0.N) (acc : Vec Ideal S1x128 .f32) (u : Fin 1) (q : Fin 128) :
    k0_pay1 (F := Ideal) (Pblk0 V c t) acc (ix2 u q)
      = acc (ix2 u q) + ∑ p : Fin 1000, P0 V c (row0 t p) q * P0 V c (row0 t p) q := by
  refine (congrFun (pay1_eq0 (Pblk0 V c t) acc) (ix2 u q)).trans ?_
  refine (accCols_apply _ _ _ _ _ (mulf (Pblk0 V c t) (Pblk0 V c t)) acc u q).trans ?_
  refine congrArg (acc (ix2 u q) + ·) (Finset.sum_congr rfl fun p _ => ?_)
  rw [mulf_apply, Pblk0_apply]

/-- The zero rows the first point stores read 0 at every entry. -/
theorem zero7_0 (u : Fin 1) (q : Fin 128) : k0_pay2 (F := Ideal) (ix2 u q) = 0 := Ideal.ofBits_zero_f32
theorem zero8_0 (u : Fin 1) (q : Fin 128) : k0_pay3 (F := Ideal) (ix2 u q) = 0 := Ideal.ofBits_zero_f32

end Cert.KernelIdeal.StatsValue

end
-- ==== Proof.LibBlockSum.lean ====
/-
  A sum over T·B consecutive indices taken block by block.

  The indices below T·B are the numbers B·k + p with k < T and p < B, each once; so a sum over them is the sum over the
  blocks k of the sums over the positions p inside the block.  Stated with the blocks ranging over the natural numbers
  below T (a term past the last block counts zero), the form a running total that grows once per block ends in.
-/
import Mathlib.Algebra.BigOperators.Fin
import Mathlib.Data.Fintype.BigOperators
import Mathlib.Logic.Equiv.Fin.Basic

namespace Cert.LibBlockSum

/-- Σ over r < T·B of f r  =  Σ over k < T of Σ over p < B of f (B·k + p). -/
theorem sum_blocks {M : Type*} [AddCommMonoid M] (T B : ℕ) (f : Fin (T * B) → M) :
    ∑ r, f r = ∑ k ∈ Finset.range T, if hk : k < T then ∑ p : Fin B,
      f ⟨B * k + p.val, Nat.lt_of_lt_of_le (Nat.add_lt_add_left p.isLt _)
        (by rw [← Nat.mul_succ, Nat.mul_comm T B]; exact Nat.mul_le_mul_left _ hk)⟩ else 0 := by
  rw [← Fin.sum_univ_eq_sum_range (fun k => if hk : k < T then ∑ p : Fin B,
      f ⟨B * k + p.val, Nat.lt_of_lt_of_le (Nat.add_lt_add_left p.isLt _)
        (by rw [← Nat.mul_succ, Nat.mul_comm T B]; exact Nat.mul_le_mul_left _ hk)⟩ else 0) T]
  rw [← Equiv.sum_comp finProdFinEquiv f, Fintype.sum_prod_type]
  refine Finset.sum_congr rfl fun t _ => ?_
  rw [dif_pos t.isLt]
  refine Finset.sum_congr rfl fun p _ => congrArg f (Fin.ext ?_)
  show p.val + B * t.val = B * t.val + p.val
  omega

end Cert.LibBlockSum
-- ==== Proof.Stats0.lean ====
/-
  Region 0 (widths 128 → 128) as whole arrays: after the 20 grid points the array of h holds the perceptron
  pre (r, j) at every row r < 20000, and the two one-row arrays hold, at column j,  Σ_r pre (r, j)  and  Σ_r pre (r, j)².

  The running rows start from zero at the first point and grow at point t by the sums over the rows 1000·t … 1000·t + 999;
  after point n they hold the sums over the rows below 1000·(n + 1) (induction on the point), and the sum over the
  20000 rows taken 1000 at a time is the one sum: on the extended reals addition is associative and commutative with
  unit 0, so no finiteness is needed.  The array of h is written back block by block and the blocks tile it; each
  running row is written back once, after the last point.
-/
import proofs.«137780_j52690658787578_1_alg».proof.Proof.Stats0Pieces
import proofs.«137780_j52690658787578_1_alg».proof.Proof.Stats0Block
import proofs.«137780_j52690658787578_1_alg».proof.Proof.LibBlockSum

set_option maxRecDepth 16384

noncomputable section

namespace Cert.KernelIdeal.StatsValue

open Idealize.ShloMosaic Idealize.ShloMosaic.TcCoe Idealize.ShloMosaic.ValueIdx Idealize.SL.Sem
open Idealize.ShloMosaic.Pipeline (Dat)
open Cert.KernelIdeal Cert.KernelIdeal.Gen
open Cert.LibMlpStats

variable (V : (c : Dev nD) → (b : Ref sig .tc) → Buf (Elt Ideal) ((c : Thread nD τ).loc b))

/-- What the three output blocks hold after the first point. -/
theorem step0_A (c : Dev nD) (t : Fin cfg0.N) (h0 : t.val % 20 = 0) :
    outsAt0 V c t.val t.isLt = (Pblk0 V c t, k0_pay5 (F := Ideal) (iblk0 V c 0 t) (iblk0 V c 1 t) (iblk0 V c 2 t) (iblk0 V c 3 t) (iblk0 V c 4 t) (iblk0 V c 5 t) (k0_pay2 (F := Ideal)),
      k0_pay1 (F := Ideal) (Pblk0 V c t) (k0_pay3 (F := Ideal))) := by
  rw [outsAt0_A V c t h0]
  exact congrArg₂ Prod.mk (piece0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t))
    (congrArg₂ Prod.mk (piece0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t))
      (piece0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)))

/-- What they hold after a later point, over what the point before left in the two running rows. -/
theorem step0_B (c : Dev nD) (t : Fin cfg0.N) (h0 : ¬t.val % 20 = 0) :
    outsAt0 V c t.val t.isLt = (Pblk0 V c t, k0_pay5 (F := Ideal) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1,
      k0_pay1 (F := Ideal) (Pblk0 V c t) (outsAt0 V c (t.val - 1) (Nat.lt_of_le_of_lt (Nat.sub_le _ _) t.isLt)).2.2) := by
  rw [outsAt0_B V c t h0]
  exact congrArg₂ Prod.mk (piece0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk (piece0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2)
      (piece0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2))

/-- The block of h after point n is block n of the perceptron. -/
theorem outs6_0 (c : Dev nD) (t : Fin cfg0.N) : (outsAt0 V c t.val t.isLt).1 = Pblk0 V c t := by
  by_cases h0 : t.val % 20 = 0
  · rw [step0_A V c t h0]
  · rw [step0_B V c t h0]

/-- Column q's sum over the rows of block k (zero past the grid). -/
def S0 (c : Dev nD) (q : Fin 128) (k : ℕ) : EReal :=
  if hk : k < 20 then ∑ p : Fin 1000, P0 V c ⟨1000 * k + p.val, by have := p.isLt; omega⟩ q else 0

/-- Column q's sum of squares over the rows of block k (zero past the grid). -/
def Q0 (c : Dev nD) (q : Fin 128) (k : ℕ) : EReal :=
  if hk : k < 20 then ∑ p : Fin 1000, P0 V c ⟨1000 * k + p.val, by have := p.isLt; omega⟩ q * P0 V c ⟨1000 * k + p.val, by have := p.isLt; omega⟩ q else 0

theorem S0_eq (c : Dev nD) (q : Fin 128) (t : Fin cfg0.N) :
    S0 V c q t.val = ∑ p : Fin 1000, P0 V c (row0 t p) q := by
  have hN : t.val < 20 := lt_of_lt_of_eq t.isLt (show cfg0.N = 20 from N_0)
  unfold S0; rw [dif_pos hN]; rfl

theorem Q0_eq (c : Dev nD) (q : Fin 128) (t : Fin cfg0.N) :
    Q0 V c q t.val = ∑ p : Fin 1000, P0 V c (row0 t p) q * P0 V c (row0 t p) q := by
  have hN : t.val < 20 := lt_of_lt_of_eq t.isLt (show cfg0.N = 20 from N_0)
  unfold Q0; rw [dif_pos hN]; rfl

/-- After point n the running rows hold the sums over the blocks 0 … n. -/
theorem inv0 (c : Dev nD) : ∀ (n : ℕ) (h : n < cfg0.N) (u : Fin 1) (q : Fin 128),
    (outsAt0 V c n h).2.1 (ix2 u q) = ∑ k ∈ Finset.range (n + 1), S0 V c q k
    ∧ (outsAt0 V c n h).2.2 (ix2 u q) = ∑ k ∈ Finset.range (n + 1), Q0 V c q k
  | 0, h, u, q => by
    have e : outsAt0 V c 0 h = _ := step0_A V c ⟨0, h⟩ rfl
    rw [e]
    refine ⟨?_, ?_⟩
    · refine (pay5_apply0 V c ⟨0, h⟩ _ u q).trans ?_
      rw [zero7_0, zero_add, Finset.sum_range_succ, Finset.sum_range_zero, zero_add]
      exact (S0_eq V c q ⟨0, h⟩).symm
    · refine (pay1_apply0 V c ⟨0, h⟩ _ u q).trans ?_
      rw [zero8_0, zero_add, Finset.sum_range_succ, Finset.sum_range_zero, zero_add]
      exact (Q0_eq V c q ⟨0, h⟩).symm
  | n + 1, h, u, q => by
    have hN : cfg0.N = 20 := N_0
    have hB : ¬(⟨n + 1, h⟩ : Fin cfg0.N).val % 20 = 0 := by dsimp only; omega
    have e : outsAt0 V c (n + 1) h = _ := step0_B V c ⟨n + 1, h⟩ hB
    obtain ⟨i1, i2⟩ := inv0 c n (Nat.lt_of_succ_lt h) u q
    rw [e]
    refine ⟨?_, ?_⟩
    · refine (pay5_apply0 V c ⟨n + 1, h⟩ _ u q).trans ?_
      rw [Finset.sum_range_succ _ (n + 1)]
      exact congrArg₂ (· + ·) i1 (S0_eq V c q ⟨n + 1, h⟩).symm
    · refine (pay1_apply0 V c ⟨n + 1, h⟩ _ u q).trans ?_
      rw [Finset.sum_range_succ _ (n + 1)]
      exact congrArg₂ (· + ·) i2 (Q0_eq V c q ⟨n + 1, h⟩).symm

/-- The sums over the 20 blocks are the sums over the 20000 rows. -/
theorem total0 (c : Dev nD) (q : Fin 128) :
    ∑ k ∈ Finset.range (19 + 1), S0 V c q k = ∑ r : Fin 20000, P0 V c r q :=
  (Cert.LibBlockSum.sum_blocks 20 1000 (fun r : Fin 20000 => P0 V c r q)).symm

theorem totalsq0 (c : Dev nD) (q : Fin 128) :
    ∑ k ∈ Finset.range (19 + 1), Q0 V c q k = ∑ r : Fin 20000, P0 V c r q * P0 V c r q :=
  (Cert.LibBlockSum.sum_blocks 20 1000 (fun r : Fin 20000 => P0 V c r q * P0 V c r q)).symm

/-! ## The array of h -/

/-- The perceptron as contents of the array of h. -/
def H0 (c : Dev nD) : S20000x128.Idx → EReal := fun i => P0 V c (i 0) (i 1)

/-- An index of output 6's array is in point t's block iff each coordinate is in the block's range on its axis. -/
theorem mem_blk0_6 (t : Fin cfg0.N) (i : S20000x128.Idx) :
    i ∈ ((cfg0.win 6).blk t).view.set ↔ ∀ a : Fin 2, win0_6.index t a * S1000x128.size a ≤ (i a).val ∧ (i a).val < win0_6.index t a * S1000x128.size a + S1000x128.size a := by
  show i ∈ ((View.whole main_v16_0).slice (win0_6.rect t)).set ↔ _
  rw [View.set_slice_whole, Rect.mem_set_unit]
  exact Iff.rfl

/-- What point t writes back is block t of the perceptron. -/
theorem flushed0_6 (c : Dev nD) (t : Fin cfg0.N) :
    (dat0 V c).flushed 6 t = ((cfg0.win 6).blk t).view.read (Elt Ideal) (H0 V c) := by
  show (cfg0.win 6).cut (grid0.coords t) ((dat0 V c).after 6 t) = _
  rw [after0_6, outs6_0]
  have key : ∀ (p : Fin 1000) (q : Fin 128), Pblk0 V c t (ix2 p q)
      = (((cfg0.win 6).blk t).view.read (Elt Ideal) (H0 V c) : Vec Ideal S1000x128 .f32) (ix2 p q) := fun p q => by
    rw [rd0_6 t (H0 V c) p q, Pblk0_apply]; rfl
  refine funext fun (y : S1000x128.Idx) => ?_
  obtain ⟨p, q, rfl⟩ : ∃ (p : Fin 1000) (q : Fin 128), y = ix2 p q := ⟨y 0, y 1, eq_ix2 y⟩
  exact key p q

/-- Every row r lies in the block of point r / 1000. -/
theorem covered0_6 (i : S20000x128.Idx) : ∃ t : Fin cfg0.N, (cfg0.win 6).flush t = true ∧ i ∈ ((cfg0.win 6).blk t).view.set := by
  have hi0 : (i 0).val < 20000 := (i 0).isLt
  have hi1 : (i 1).val < 128 := (i 1).isLt
  have hN : cfg0.N = 20 := N_0
  obtain ⟨t, ht⟩ : ∃ t : Fin cfg0.N, t.val = (i 0).val / 1000 := ⟨⟨(i 0).val / 1000, by rw [hN]; omega⟩, rfl⟩
  obtain ⟨-, -, -, -, -, -, -, -, -, -, -, -, e0, e1, -⟩ := idx_facts0 t
  refine ⟨t, flush0_6 t, ?_⟩
  rw [mem_blk0_6]
  intro a
  match a with
  | ⟨0, _⟩ => show win0_6.index t (0 : Fin 2) * 1000 ≤ (i 0).val ∧ (i 0).val < win0_6.index t (0 : Fin 2) * 1000 + 1000; rw [e0, ht]; omega
  | ⟨1, _⟩ => show win0_6.index t (1 : Fin 2) * 128 ≤ (i 1).val ∧ (i 1).val < win0_6.index t (1 : Fin 2) * 128 + 128; rw [e1]; omega

/-- So the array of h ends holding the perceptron. -/
theorem arr0_6 (c : Dev nD) : (dat0 V c).arrAt 6 cfg0.N = H0 V c :=
  (dat0 V c).arrAt_eq_of_cover 6 (H0 V c) (fun t _ => flushed0_6 V c t) covered0_6

/-! ## The two running rows -/

/-- The column sums, and the column sums of squares, as contents of the one-row arrays. -/
def Sum0 (c : Dev nD) : S1x128.Idx → EReal := fun i => ∑ r : Fin 20000, P0 V c r (i 1)
def SumSq0 (c : Dev nD) : S1x128.Idx → EReal := fun i => ∑ r : Fin 20000, P0 V c r (i 1) * P0 V c r (i 1)

/-- An index of output 7's array is in point t's block iff each coordinate is in the block's range on its axis. -/
theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v16_1).slice (win0_7.rect t)).set ↔ _
  rw [View.set_slice_whole, Rect.mem_set_unit]
  exact Iff.rfl

/-- An index of output 8's array is in point t's block iff each coordinate is in the block's range on its axis. -/
theorem mem_blk0_8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v16_2).slice (win0_8.rect t)).set ↔ _
  rw [View.set_slice_whole, Rect.mem_set_unit]
  exact Iff.rfl

/-- The one write-back of running row 7, at the last point, writes the column sums over all 20000 rows. -/
theorem flushed0_7 (c : Dev nD) (t : Fin cfg0.N) (hf : (cfg0.win 7).flush t = true) :
    (dat0 V c).flushed 7 t = ((cfg0.win 7).blk t).view.read (Elt Ideal) (Sum0 V c) := by
  have hN : cfg0.N = 20 := N_0
  have h19 : t.val = 19 := by have := (flush0_7 t).mp hf; have := t.isLt; omega
  show (cfg0.win 7).cut (grid0.coords t) ((dat0 V c).after 7 t) = _
  rw [after0_7]
  have key : ∀ (u : Fin 1) (q : Fin 128), ((outsAt0 V c t.val t.isLt).2.1 : Vec Ideal S1x128 .f32) (ix2 u q)
      = (((cfg0.win 7).blk t).view.read (Elt Ideal) (Sum0 V c) : Vec Ideal S1x128 .f32) (ix2 u q) := fun u q => by
    rw [rd0_7 t (Sum0 V c) u q, (inv0 V c t.val t.isLt u q).1]
    show _ = ∑ r : Fin 20000, P0 V c r q
    rw [h19]
    exact total0 V c q
  refine funext fun (y : S1x128.Idx) => ?_
  obtain ⟨p, q, rfl⟩ : ∃ (p : Fin 1) (q : Fin 128), y = ix2 p q := ⟨y 0, y 1, eq_ix2 y⟩
  exact key p q

/-- Every entry of running row 7's array is in the last point's block. -/
theorem covered0_7 (i : S1x128.Idx) : ∃ t : Fin cfg0.N, (cfg0.win 7).flush t = true ∧ i ∈ ((cfg0.win 7).blk t).view.set := by
  have hi0 : (i 0).val < 1 := (i 0).isLt
  have hi1 : (i 1).val < 128 := (i 1).isLt
  have hN : cfg0.N = 20 := N_0
  obtain ⟨t, ht⟩ : ∃ t : Fin cfg0.N, t.val = 19 := ⟨⟨19, by rw [hN]; omega⟩, rfl⟩
  obtain ⟨-, -, -, -, -, -, -, -, -, -, -, -, -, -, e0, e1, -⟩ := idx_facts0 t
  refine ⟨t, (flush0_7 t).mpr (by rw [ht]), ?_⟩
  rw [mem_blk0_7]
  intro a
  match a with
  | ⟨0, _⟩ => show win0_7.index t (0 : Fin 2) * 1 ≤ (i 0).val ∧ (i 0).val < win0_7.index t (0 : Fin 2) * 1 + 1; rw [e0]; omega
  | ⟨1, _⟩ => show win0_7.index t (1 : Fin 2) * 128 ≤ (i 1).val ∧ (i 1).val < win0_7.index t (1 : Fin 2) * 128 + 128; rw [e1]; omega

/-- So running row 7's array ends holding the column sums. -/
theorem arr0_7 (c : Dev nD) : (dat0 V c).arrAt 7 cfg0.N = Sum0 V c :=
  (dat0 V c).arrAt_eq_of_cover 7 (Sum0 V c) (flushed0_7 V c) covered0_7

/-- The one write-back of running row 8, at the last point, writes the column sums of squares over all 20000 rows. -/
theorem flushed0_8 (c : Dev nD) (t : Fin cfg0.N) (hf : (cfg0.win 8).flush t = true) :
    (dat0 V c).flushed 8 t = ((cfg0.win 8).blk t).view.read (Elt Ideal) (SumSq0 V c) := by
  have hN : cfg0.N = 20 := N_0
  have h19 : t.val = 19 := by have := (flush0_8 t).mp hf; have := t.isLt; omega
  show (cfg0.win 8).cut (grid0.coords t) ((dat0 V c).after 8 t) = _
  rw [after0_8]
  have key : ∀ (u : Fin 1) (q : Fin 128), ((outsAt0 V c t.val t.isLt).2.2 : Vec Ideal S1x128 .f32) (ix2 u q)
      = (((cfg0.win 8).blk t).view.read (Elt Ideal) (SumSq0 V c) : Vec Ideal S1x128 .f32) (ix2 u q) := fun u q => by
    rw [rd0_8 t (SumSq0 V c) u q, (inv0 V c t.val t.isLt u q).2]
    show _ = ∑ r : Fin 20000, P0 V c r q * P0 V c r q
    rw [h19]
    exact totalsq0 V c q
  refine funext fun (y : S1x128.Idx) => ?_
  obtain ⟨p, q, rfl⟩ : ∃ (p : Fin 1) (q : Fin 128), y = ix2 p q := ⟨y 0, y 1, eq_ix2 y⟩
  exact key p q

/-- Every entry of running row 8's array is in the last point's block. -/
theorem covered0_8 (i : S1x128.Idx) : ∃ t : Fin cfg0.N, (cfg0.win 8).flush t = true ∧ i ∈ ((cfg0.win 8).blk t).view.set := by
  have hi0 : (i 0).val < 1 := (i 0).isLt
  have hi1 : (i 1).val < 128 := (i 1).isLt
  have hN : cfg0.N = 20 := N_0
  obtain ⟨t, ht⟩ : ∃ t : Fin cfg0.N, t.val = 19 := ⟨⟨19, by rw [hN]; omega⟩, rfl⟩
  obtain ⟨-, -, -, -, -, -, -, -, -, -, -, -, -, -, -, -, e0, e1⟩ := idx_facts0 t
  refine ⟨t, (flush0_8 t).mpr (by rw [ht]), ?_⟩
  rw [mem_blk0_8]
  intro a
  match a with
  | ⟨0, _⟩ => show win0_8.index t (0 : Fin 2) * 1 ≤ (i 0).val ∧ (i 0).val < win0_8.index t (0 : Fin 2) * 1 + 1; rw [e0]; omega
  | ⟨1, _⟩ => show win0_8.index t (1 : Fin 2) * 128 ≤ (i 1).val ∧ (i 1).val < win0_8.index t (1 : Fin 2) * 128 + 128; rw [e1]; omega

/-- So running row 8's array ends holding the column sums of squares. -/
theorem arr0_8 (c : Dev nD) : (dat0 V c).arrAt 8 cfg0.N = SumSq0 V c :=
  (dat0 V c).arrAt_eq_of_cover 8 (SumSq0 V c) (flushed0_8 V c) covered0_8

/-! ## The three arrays, entry by entry -/

theorem h0 (c : Dev nD) (r : Fin 20000) (j : Fin 128) :
    (Gen.dat0 (F := Ideal) V c).arrAt 6 cfg0.N (ix2 r j) = P0 V c r j :=
  congrFun (arr0_6 V c) (ix2 r j)

theorem sum0 (c : Dev nD) (j : Fin 128) :
    (Gen.dat0 (F := Ideal) V c).arrAt 7 cfg0.N (ix2 (0 : Fin 1) j) = ∑ r : Fin 20000, P0 V c r j :=
  congrFun (arr0_7 V c) (ix2 (0 : Fin 1) j)

theorem sumsq0 (c : Dev nD) (j : Fin 128) :
    (Gen.dat0 (F := Ideal) V c).arrAt 8 cfg0.N (ix2 (0 : Fin 1) j) = ∑ r : Fin 20000, P0 V c r j * P0 V c r j :=
  congrFun (arr0_8 V c) (ix2 (0 : Fin 1) j)

end Cert.KernelIdeal.StatsValue

end
-- ==== Proof.Norm1.lean ====
/-
  The value of the normalise, scale, shift and clip kernel at column width 128, as a whole array.

  The kernel walks 20 blocks of 1000 rows. At block t it reads rows 1000·t … 1000·t + 999 of its first operand H and
  the whole of the four row vectors mean, inv, gamma, beta, and writes to the same rows of its output
      max ((H (r, j) − mean j) · inv j · gamma j + beta j, 0).
  The 20 blocks tile the 20000 rows, so the output array ends holding this function of the five operands at every
  entry (r, j), whatever the operands hold when the kernel is entered.
-/
import proofs.«137780_j52690658787578_1_alg».proof.Proof.Gen.KernelIdeal.Frame
import proofs.«137780_j52690658787578_1_alg».proof.Proof.GinSpec
import Idealize.ShloMosaic.Lib.ValueIdx
import Idealize.ShloMosaic.Lib.Pipeline.Value
import Idealize.ShloMosaic.PureOps.Ideal.Laws

set_option maxRecDepth 16384

noncomputable section

namespace Cert.KernelIdeal.NormValue

open Cert.KernelIdeal Cert.KernelIdeal.Gen Idealize.ShloMosaic Idealize.ShloMosaic.TcCoe Idealize.ShloMosaic.ValueIdx
open Idealize.ShloMosaic.Pipeline (Dat)

/-! ## One entry of the block the body computes -/

/-- A row vector repeated down 1000 rows reads, at row p and column q, its entry in column q. -/
theorem bcast_row128 (x : S1x128.Idx → EReal) (h : S1x128.Broadcasts S1000x128) (p : Fin 1000) (q : Fin 128) :
    broadcastTo S1000x128 x h (ix2 p q) = x (ix2 0 q) :=
  broadcastTo_apply x h (ix2 p q) (ix2 0 q) (fun a => by
    match a with
    | ⟨0, _⟩ => rfl
    | ⟨1, _⟩ => rfl)

/-- Entry (p, q) of the computed block: subtract the mean of column q, multiply by the inverse deviation and the scale
    of column q, add its shift, clip at zero. -/
theorem pay1_apply (x0 : Vec Ideal S1000x128 .f32) (x1 x2 x3 x4 : Vec Ideal S1x128 .f32) (p : Fin 1000) (q : Fin 128) :
    Gen.k1_pay1 (F := Ideal) x0 x1 x2 x3 x4 (ix2 p q)
      = Cert.Gin.bnrelu (x0 (ix2 p q)) (x1 (ix2 0 q)) (x2 (ix2 0 q)) (x3 (ix2 0 q)) (x4 (ix2 0 q)) := by
  unfold Gen.k1_pay1 Cert.Gin.bnrelu
  simp only [maximumf_apply, addf_apply, mulf_apply, subf_apply, broadcast_apply, shapeCast_self, bcast_row128]
  exact congrArg (max _) Ideal.ofBits_zero_f32

/-- The same at an index of the block not yet split into its coordinates. -/
theorem pay1_at (x0 : Vec Ideal S1000x128 .f32) (x1 x2 x3 x4 : Vec Ideal S1x128 .f32) (y : S1000x128.Idx) :
    Gen.k1_pay1 (F := Ideal) x0 x1 x2 x3 x4 y
      = Cert.Gin.bnrelu (x0 y) (x1 (ix2 0 (y 1))) (x2 (ix2 0 (y 1))) (x3 (ix2 0 (y 1))) (x4 (ix2 0 (y 1))) := by
  obtain ⟨p, q, rfl⟩ : ∃ (p : Fin 1000) (q : Fin 128), y = ix2 p q := ⟨y 0, y 1, eq_ix2 y⟩
  exact pay1_apply x0 x1 x2 x3 x4 p q

/-- Equal arguments give equal entries. -/
theorem bnrelu_congr1 {a a' b b' c c' d d' e e' : EReal} (h0 : a = a') (h1 : b = b') (h2 : c = c') (h3 : d = d')
    (h4 : e = e') : Cert.Gin.bnrelu a b c d e = Cert.Gin.bnrelu a' b' c' d' e' := by
  subst h0 h1 h2 h3 h4; rfl

/-! ## Where the blocks sit -/

/-- The output as one function of the five operands: entry (r, j) normalises H (r, j) with column j's entries of the
    four row vectors. -/
def G1 (H : S20000x128.Idx → EReal) (M I G B : S1x128.Idx → EReal) : S20000x128.Idx → EReal := fun i =>
  Cert.Gin.bnrelu (H i) (M (ix2 0 (i 1))) (I (ix2 0 (i 1))) (G (ix2 0 (i 1))) (B (ix2 0 (i 1)))

theorem hz1 : (![0, 0] : Fin 2 → Nat) = fun _ => 0 := funext fun a => by fin_cases a <;> rfl

/-- Where each operand's block sits at point t: the first operand's and the output's block is the t-th block of 1000
    rows; each row vector's block is the whole vector. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry y of the first operand's block and entry y of the output's block are the same entry of their arrays. -/
theorem emb1_0 (t : Fin cfg1.N) (y : S1000x128.Idx) :
    ((cfg1.win 0).blk t).view.emb y = ((cfg1.win 5).blk t).view.emb y := by
  obtain ⟨e00, e01, -, -, -, -, -, -, -, -, e50, e51⟩ := idx_facts1 t
  funext a; apply Fin.ext
  match a with
  | ⟨0, _⟩ => show win1_0.index t (0 : Fin 2) * 1000 + 1 * (y 0).val = win1_5.index t (0 : Fin 2) * 1000 + 1 * (y 0).val; omega
  | ⟨1, _⟩ => show win1_0.index t (1 : Fin 2) * 128 + 1 * (y 1).val = win1_5.index t (1 : Fin 2) * 128 + 1 * (y 1).val; omega

/-! Column (y 1) of each row vector's block is, in its array, the column of the output entry under y. -/

theorem emb1_1 (t : Fin cfg1.N) (y : S1000x128.Idx) :
    ((cfg1.win 1).blk t).view.emb (ix2 0 (y 1)) = ix2 0 ((((cfg1.win 5).blk t).view.emb y) 1) := by
  obtain ⟨-, -, e10, e11, e20, e21, e30, e31, e40, e41, -, e51⟩ := idx_facts1 t
  funext a; apply Fin.ext
  match a with
  | ⟨0, _⟩ => show win1_1.index t (0 : Fin 2) * 1 + 1 * 0 = 0; omega
  | ⟨1, _⟩ => show win1_1.index t (1 : Fin 2) * 128 + 1 * (y 1).val = win1_5.index t (1 : Fin 2) * 128 + 1 * (y 1).val; omega

theorem emb1_2 (t : Fin cfg1.N) (y : S1000x128.Idx) :
    ((cfg1.win 2).blk t).view.emb (ix2 0 (y 1)) = ix2 0 ((((cfg1.win 5).blk t).view.emb y) 1) := by
  obtain ⟨-, -, e10, e11, e20, e21, e30, e31, e40, e41, -, e51⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * (y 1).val = win1_5.index t (1 : Fin 2) * 128 + 1 * (y 1).val; omega

theorem emb1_3 (t : Fin cfg1.N) (y : S1000x128.Idx) :
    ((cfg1.win 3).blk t).view.emb (ix2 0 (y 1)) = ix2 0 ((((cfg1.win 5).blk t).view.emb y) 1) := by
  obtain ⟨-, -, e10, e11, e20, e21, e30, e31, e40, e41, -, e51⟩ := idx_facts1 t
  funext a; apply Fin.ext
  match a with
  | ⟨0, _⟩ => show win1_3.index t (0 : Fin 2) * 1 + 1 * 0 = 0; omega
  | ⟨1, _⟩ => show win1_3.index t (1 : Fin 2) * 128 + 1 * (y 1).val = win1_5.index t (1 : Fin 2) * 128 + 1 * (y 1).val; omega

theorem emb1_4 (t : Fin cfg1.N) (y : S1000x128.Idx) :
    ((cfg1.win 4).blk t).view.emb (ix2 0 (y 1)) = ix2 0 ((((cfg1.win 5).blk t).view.emb y) 1) := by
  obtain ⟨-, -, e10, e11, e20, e21, e30, e31, e40, e41, -, e51⟩ := idx_facts1 t
  funext a; apply Fin.ext
  match a with
  | ⟨0, _⟩ => show win1_4.index t (0 : Fin 2) * 1 + 1 * 0 = 0; omega
  | ⟨1, _⟩ => show win1_4.index t (1 : Fin 2) * 128 + 1 * (y 1).val = win1_5.index t (1 : Fin 2) * 128 + 1 * (y 1).val; omega

/-- An entry of the array lies in point t's block exactly when each of its coordinates lies in the block's range. -/
theorem mem_blk1 (t : Fin cfg1.N) (i : S20000x128.Idx) :
    i ∈ ((cfg1.win 5).blk t).view.set ↔ ∀ a : Fin 2, win1_5.index t a * S1000x128.size a ≤ (i a).val
      ∧ (i a).val < win1_5.index t a * S1000x128.size a + S1000x128.size a := by
  show i ∈ ((View.whole main_v32).slice (win1_5.rect t)).set ↔ _
  rw [View.set_slice_whole, Rect.mem_set_unit]
  exact Iff.rfl

/-- Every entry is written: row r lies in the block of point r / 1000. -/
theorem cover1 (i : S20000x128.Idx) :
    ∃ t : Fin cfg1.N, (cfg1.win 5).flush t = true ∧ i ∈ ((cfg1.win 5).blk t).view.set := by
  have hi0 : (i 0).val < 20000 := (i 0).isLt
  have hi1 : (i 1).val < 128 := (i 1).isLt
  obtain ⟨t, ht⟩ : ∃ t : Fin cfg1.N, t.val = (i 0).val / 1000 :=
    ⟨⟨(i 0).val / 1000, Nat.lt_of_lt_of_eq (by omega : (i 0).val / 1000 < 20) N_1.symm⟩, rfl⟩
  obtain ⟨-, -, -, -, -, -, -, -, -, -, e50, e51⟩ := idx_facts1 t
  refine ⟨t, flush1_5 t, ?_⟩
  rw [mem_blk1]
  intro a
  match a with
  | ⟨0, _⟩ =>
    show win1_5.index t (0 : Fin 2) * 1000 ≤ (i 0).val ∧ (i 0).val < win1_5.index t (0 : Fin 2) * 1000 + 1000
    omega
  | ⟨1, _⟩ =>
    show win1_5.index t (1 : Fin 2) * 128 ≤ (i 1).val ∧ (i 1).val < win1_5.index t (1 : Fin 2) * 128 + 128
    omega

/-! ## The whole array -/

variable (V : (c : Dev nD) → (b : Ref sig .tc) → Buf (Elt Ideal) ((c : Thread nD τ).loc b))

/-- An operand's block at point t, read at z, is the operand's array at the image of z. -/
theorem iblk1_apply0 (c : Dev nD) (t : Fin cfg1.N) (z : S1000x128.Idx) :
    iblk1 V c 0 t z = V c (Pipeline.arrRef spec1 0) (((cfg1.win 0).blk t).view.emb z) := rfl
theorem iblk1_apply1 (c : Dev nD) (t : Fin cfg1.N) (z : S1x128.Idx) :
    iblk1 V c 1 t z = V c (Pipeline.arrRef spec1 1) (((cfg1.win 1).blk t).view.emb z) := rfl
theorem iblk1_apply2 (c : Dev nD) (t : Fin cfg1.N) (z : S1x128.Idx) :
    iblk1 V c 2 t z = V c (Pipeline.arrRef spec1 2) (((cfg1.win 2).blk t).view.emb z) := rfl
theorem iblk1_apply3 (c : Dev nD) (t : Fin cfg1.N) (z : S1x128.Idx) :
    iblk1 V c 3 t z = V c (Pipeline.arrRef spec1 3) (((cfg1.win 3).blk t).view.emb z) := rfl
theorem iblk1_apply4 (c : Dev nD) (t : Fin cfg1.N) (z : S1x128.Idx) :
    iblk1 V c 4 t z = V c (Pipeline.arrRef spec1 4) (((cfg1.win 4).blk t).view.emb z) := rfl

/-- The t-th block of rows of `G1`, read at y, is `G1` at the image of y. -/
theorem read1_apply (c : Dev nD) (t : Fin cfg1.N) (y : S1000x128.Idx) :
    View.read (Elt Ideal) ((cfg1.win 5).blk t).view (G1 (V c (Pipeline.arrRef spec1 0)) (V c (Pipeline.arrRef spec1 1)) (V c (Pipeline.arrRef spec1 2)) (V c (Pipeline.arrRef spec1 3)) (V c (Pipeline.arrRef spec1 4))) y
      = G1 (V c (Pipeline.arrRef spec1 0)) (V c (Pipeline.arrRef spec1 1)) (V c (Pipeline.arrRef spec1 2)) (V c (Pipeline.arrRef spec1 3)) (V c (Pipeline.arrRef spec1 4)) (((cfg1.win 5).blk t).view.emb y) := rfl

/-- What point t writes back is the t-th block of rows of `G1` of the operands as the kernel finds them. -/
theorem flushed1_eq (c : Dev nD) (t : Fin cfg1.N) :
    (dat1 (F := Ideal) V c).flushed 5 t = ((cfg1.win 5).blk t).view.read (Elt Ideal)
      (G1 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz1]
  simp only [View.ld_unit_zero (S := S1000x128) hz1, View.ld_unit_zero (S := S1x128) hz1]
  funext y
  refine (pay1_at _ _ _ _ _ y).trans ?_
  exact (bnrelu_congr1
    ((iblk1_apply0 V c t y).trans (congrArg (V c (Pipeline.arrRef spec1 0)) (emb1_0 t y)))
    ((iblk1_apply1 V c t (ix2 0 (y 1))).trans (congrArg (V c (Pipeline.arrRef spec1 1)) (emb1_1 t y)))
    ((iblk1_apply2 V c t (ix2 0 (y 1))).trans (congrArg (V c (Pipeline.arrRef spec1 2)) (emb1_2 t y)))
    ((iblk1_apply3 V c t (ix2 0 (y 1))).trans (congrArg (V c (Pipeline.arrRef spec1 3)) (emb1_3 t y)))
    ((iblk1_apply4 V c t (ix2 0 (y 1))).trans (congrArg (V c (Pipeline.arrRef spec1 4)) (emb1_4 t y)))).trans (read1_apply V c t y).symm

/-- The output array after the kernel: `G1` of the operands as the kernel finds them. -/
theorem final1 (c : Dev nD) :
    (dat1 (F := Ideal) V c).arrAt 5 cfg1.N = G1 (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed1_eq V c t) cover1

/-- Entry (r, j) of the output array after the kernel. -/
theorem out1 (c : Dev nD) (r : Fin 20000) (j : Fin 128) :
    (dat1 (F := Ideal) V c).arrAt 5 cfg1.N (ix2 r j)
      = Cert.Gin.bnrelu (V c (Pipeline.arrRef spec1 0) (ix2 r j)) (V c (Pipeline.arrRef spec1 1) (ix2 0 j))
          (V c (Pipeline.arrRef spec1 2) (ix2 0 j)) (V c (Pipeline.arrRef spec1 3) (ix2 0 j))
          (V c (Pipeline.arrRef spec1 4) (ix2 0 j)) := by
  rw [final1 V c]
  rfl

end Cert.KernelIdeal.NormValue

end
-- ==== Proof.GinConsts.lean ====
/-
  The float words the two programs spell, as the extended reals they denote: 20000.0 is the real 20000; the count
  "20000.0 minus the integer 0" is again 20000 and is greater than zero; the small word added to a variance is a
  positive real.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- The word 0x469C4000 denotes 20000. -/
theorem ofBits_20000 : Ideal.ofBits .f32 0x469C4000#32 = ((20000 : ℝ) : EReal) := by
  simp [Ideal.ofBits, Ideal.ieee, -EReal.coe_mul]; norm_num

/-- The word 0x3727C5AC denotes a positive real. -/
theorem ofBits_eps : ∃ e : ℝ, 0 < e ∧ Ideal.ofBits .f32 0x3727C5AC#32 = (e : EReal) := by
  refine ⟨10995116 / 1099511627776, by norm_num, ?_⟩
  simp [Ideal.ofBits, Ideal.ieee, -EReal.coe_mul]; norm_num

/-- 20000.0 minus the integer zero converted to a float is 20000. -/
theorem count_20000 {t : Shape} (h : (⟨0, ![]⟩ : Shape).BroadcastsInDim t ![]) :
    (subf (constant (F := Ideal) (⟨0, ![]⟩ : Shape) .f32 0x469C4000#32) (sitofp (F := Ideal) .f32 (constantI (⟨0, ![]⟩ : Shape) 32 0#32))) ix0
      = ((20000 : ℝ) : EReal) := by
  show Ideal.ofBits .f32 0x469C4000#32 - (((0#32 : BitVec 32).toInt : ℝ) : EReal) = _
  rw [ofBits_20000]; simp

/-- … and it is greater than zero. -/
theorem guard_20000 :
    (cmpf (F := Ideal) .ogt (subf (constant (F := Ideal) (⟨0, ![]⟩ : Shape) .f32 0x469C4000#32) (sitofp (F := Ideal) .f32 (constantI (⟨0, ![]⟩ : Shape) 32 0#32)))
      (constant (F := Ideal) (⟨0, ![]⟩ : Shape) .f32 0x00000000#32)) ix0 = 1#1 := by
  show Ideal.cmp .ogt (Ideal.ofBits .f32 0x469C4000#32 - (((0#32 : BitVec 32).toInt : ℝ) : EReal)) (Ideal.ofBits .f32 0x00000000#32) = 1#1
  rw [ofBits_20000, Ideal.ofBits_zero_f32]
  simp [Ideal.cmp]

end Cert.Gin

end
-- ==== Proof.LibRowBroadcast.lean ====
/-
  Broadcasts of a row vector and of a scalar, read at an index.

  A vector b of K entries broadcast to one row [1, K] and then down M rows reads b j at (n, j); a [1, K] row broadcast
  down M rows reads its entry (0, j) at (n, j); a vector broadcast to one row reads b j at (0, j); a scalar broadcast
  to any shape reads the scalar everywhere.
-/
import Idealize.ShloMosaic.Lib.ValueIdx
import Idealize.ShloMosaic.Lib.Pipeline.Value

noncomputable section

namespace Cert.LibRowBroadcast

open Idealize.ShloMosaic Idealize.ShloMosaic.ValueIdx

variable {α : Type}

/-- A vector broadcast to one row, read at (u, j), is its entry j. -/
theorem vec_to_row_apply {K : Nat} (hb1 : (⟨1, ![K]⟩ : Shape).BroadcastsInDim ⟨2, ![1, K]⟩ ![1])
    (b : (⟨1, ![K]⟩ : Shape).Idx → α) (u : Fin 1) (j : Fin K) :
    broadcastInDim (⟨2, ![1, K]⟩ : Shape) ![1] hb1 b (ix2 u j) = b (ix1 j) :=
  broadcastInDim_apply ![1] hb1 b (ix2 u j) (ix1 j)
    (fun a => by
      match a with
      | ⟨0, _⟩ =>
        show j.val = if K = 1 then 0 else j.val
        split
        · have := j.isLt; omega
        · rfl)

/-- A [1, K] row broadcast down M rows, read at (n, j), is its entry (0, j). -/
theorem row_down_apply {M K : Nat} (hb2 : (⟨2, ![1, K]⟩ : Shape).BroadcastsInDim ⟨2, ![M, K]⟩ ![0, 1])
    (v : (⟨2, ![1, K]⟩ : Shape).Idx → α) (n : Fin M) (j : Fin K) :
    broadcastInDim (⟨2, ![M, K]⟩ : Shape) ![0, 1] hb2 v (ix2 n j) = v (ix2 (0 : Fin 1) j) :=
  broadcastInDim_apply ![0, 1] hb2 v (ix2 n j) (ix2 (0 : Fin 1) j)
    (fun a => by
      match a with
      | ⟨0, _⟩ => rfl
      | ⟨1, _⟩ =>
        show j.val = if K = 1 then 0 else j.val
        split
        · have := j.isLt; omega
        · rfl)

/-- A vector broadcast to one row and then down M rows, read at (n, j), is its entry j. -/
theorem vec_down_apply {M K : Nat} (hb1 : (⟨1, ![K]⟩ : Shape).BroadcastsInDim ⟨2, ![1, K]⟩ ![1])
    (hb2 : (⟨2, ![1, K]⟩ : Shape).BroadcastsInDim ⟨2, ![M, K]⟩ ![0, 1]) (b : (⟨1, ![K]⟩ : Shape).Idx → α)
    (n : Fin M) (j : Fin K) :
    broadcastInDim (⟨2, ![M, K]⟩ : Shape) ![0, 1] hb2 (broadcastInDim (⟨2, ![1, K]⟩ : Shape) ![1] hb1 b) (ix2 n j)
      = b (ix1 j) := by
  rw [row_down_apply, vec_to_row_apply]

/-- A scalar broadcast to any shape reads the scalar at every index. -/
theorem scalar_apply {t : Shape} (h : (⟨0, ![]⟩ : Shape).BroadcastsInDim t ![]) (x : (⟨0, ![]⟩ : Shape).Idx → α) (i : t.Idx) :
    broadcastInDim t ![] h x i = x ix0 :=
  broadcastInDim_apply ![] h x i ix0 (fun a => a.elim0)

end Cert.LibRowBroadcast

end
-- ==== Proof.KRead128.lean ====
/-
  The kernel program's rows of column means and inverse standard deviations at width 128, read entry by entry: the
  mean of column j is the column sum divided by 20000; the inverse deviation is the inverse square root of the mean
  of squares minus the squared mean plus the small positive word.
-/
import proofs.«137780_j52690658787578_1_alg».proof.Proof.KHostDefs
import proofs.«137780_j52690658787578_1_alg».proof.Proof.GinConsts
import proofs.«137780_j52690658787578_1_alg».proof.Proof.LibRowBroadcast
import Idealize.ShloMosaic.Lib.ValueLayout

noncomputable section

namespace Cert.KernelIdeal.HostRead

open Cert.KernelIdeal Cert.KernelIdeal.Gen Cert.KernelIdeal.HostValue Idealize.ShloMosaic Idealize.ShloMosaic.ValueIdx
open Cert.LibRowBroadcast

/-- The mean of column j. -/
theorem meanRow128_apply (S : FVec Ideal S1x128 .f32) (j : Fin 128) :
    meanRow128 (F := Ideal) S (ix2 (0 : Fin 1) j) = Ideal.div (S (ix2 (0 : Fin 1) j)) ((20000 : ℝ) : EReal) := by
  unfold meanRow128 meanFlat128
  rw [shapeCast_a_1a_apply, shapeCast_1a_a_apply]
  unfold Host.divf
  beta_reduce
  rw [Ideal.hostDivf_def, scalar_apply, constant_apply, Cert.Gin.ofBits_20000]

/-- The inverse deviation of column j. -/
theorem invRow128_apply (S SS : FVec Ideal S1x128 .f32) (j : Fin 128) :
    invRow128 (F := Ideal) S SS (ix2 (0 : Fin 1) j)
      = Ideal.rsqrt (Ideal.div (SS (ix2 (0 : Fin 1) j)) ((20000 : ℝ) : EReal)
          - Ideal.div (S (ix2 (0 : Fin 1) j)) ((20000 : ℝ) : EReal) * Ideal.div (S (ix2 (0 : Fin 1) j)) ((20000 : ℝ) : EReal)
          + Ideal.ofBits .f32 0x3727C5AC#32) := by
  unfold invRow128 meanFlat128
  rw [shapeCast_a_1a_apply]
  unfold Host.rsqrt
  beta_reduce
  rw [Ideal.hostUnary_rsqrt_def, addf_apply, subf_apply, mulf_apply, shapeCast_1a_a_apply, shapeCast_1a_a_apply]
  unfold Host.divf
  beta_reduce
  rw [Ideal.hostDivf_def, Ideal.hostDivf_def, scalar_apply, scalar_apply, constant_apply, constant_apply,
    Cert.Gin.ofBits_20000]

/-- A bias vector recast as a [1, 128] row reads its entry k at (0, k). -/
theorem biasRow128_apply (b : FVec Ideal S128 .f32) (k : Fin 128) :
    shapeCast S1x128 b shapeCasts_S128_S1x128 (ix2 (0 : Fin 1) k) = b (ix1 k) :=
  shapeCast_a_1a_apply b _ _ k

end Cert.KernelIdeal.HostRead

end
-- ==== Proof.KLayer1.lean ====
import proofs.«137780_j52690658787578_1_alg».proof.Proof.Gen.KernelIdeal.Frame
import proofs.«137780_j52690658787578_1_alg».proof.Proof.KHost0
import proofs.«137780_j52690658787578_1_alg».proof.Proof.KHost1
import proofs.«137780_j52690658787578_1_alg».proof.Proof.GinSpec
import proofs.«137780_j52690658787578_1_alg».proof.Proof.Stats0
import proofs.«137780_j52690658787578_1_alg».proof.Proof.Norm1
import proofs.«137780_j52690658787578_1_alg».proof.Proof.KRead128

/-! Layer 1 of the kernel program, entry by entry: the array region 1 leaves is, at row r and column j, the
    normalised, scaled, shifted and clipped perceptron entry, where the perceptron is applied to the layer's input
    features plus their aggregation over the edge list, and the column's mean and inverse deviation are taken from the
    sums of the perceptron's entries and of their squares over the 20000 rows. -/

set_option maxRecDepth 16384

noncomputable section

namespace Cert.KernelIdeal.LayerValue

open Idealize.ShloMosaic Idealize.ShloMosaic.TcCoe Idealize.ShloMosaic.ValueIdx
open Cert.KernelIdeal Cert.KernelIdeal.Gen Cert.KernelIdeal.HostValue
open Cert.KernelIdeal.StatsValue Cert.KernelIdeal.NormValue Cert.KernelIdeal.HostRead

/-- The perceptron entry depends only on its six operands. -/
theorem pre_congr1 {n di dk : Nat} {X X' A A' : (⟨2, ![n, di]⟩ : Shape).Idx → EReal} {W1 W1' : (⟨2, ![di, dk]⟩ : Shape).Idx → EReal}
    {b1 b1' : Fin dk → EReal} {W2 W2' : (⟨2, ![dk, dk]⟩ : Shape).Idx → EReal} {b2 b2' : Fin dk → EReal}
    (hX : X = X') (hA : A = A') (hW1 : W1 = W1') (hb1 : b1 = b1') (hW2 : W2 = W2') (hb2 : b2 = b2') (r : Fin n) (j : Fin dk) :
    Cert.Gin.pre X A W1 b1 W2 b2 r j = Cert.Gin.pre X' A' W1' b1' W2' b2' r j := by
  subst hX hA hW1 hb1 hW2 hb2; rfl

/-- The normalised entry depends only on its five operands. -/
theorem bnrelu_congr1 {h h' μ μ' ι ι' g g' s s' : EReal} (e0 : h = h') (e1 : μ = μ') (e2 : ι = ι') (e3 : g = g') (e4 : s = s') :
    Cert.Gin.bnrelu h μ ι g s = Cert.Gin.bnrelu h' μ' ι' g' s' := by
  subst e0 e1 e2 e3 e4; rfl

/-- The inverse deviation depends only on the sum and the sum of squares. -/
theorem inv_congr1 {S S' Q Q' : EReal} (hS : S = S') (hQ : Q = Q') :
    Ideal.rsqrt (Ideal.div Q ((20000 : ℝ) : EReal) - Ideal.div S ((20000 : ℝ) : EReal) * Ideal.div S ((20000 : ℝ) : EReal) + Ideal.ofBits .f32 0x3727C5AC#32)
      = Ideal.rsqrt (Ideal.div Q' ((20000 : ℝ) : EReal) - Ideal.div S' ((20000 : ℝ) : EReal) * Ideal.div S' ((20000 : ℝ) : EReal) + Ideal.ofBits .f32 0x3727C5AC#32) := by
  subst hS hQ; rfl

variable (m : (ℓ : Loc nD τ sig) → Buf (Elt Ideal) ℓ) (ρ : Dev nD → PrngReg) (c : Dev nD)

/-- Entry (r, j) of layer 1's perceptron over the layer's input features and the launch arrays. -/
def PK1 (m : (ℓ : Loc nD τ sig) → Buf (Elt Ideal) ℓ) (ρ : Dev nD → PrngReg) (c : Dev nD) (r : Fin 20000) (j : Fin 128) : EReal :=
  Cert.Gin.pre (m ((c : Thread nD τ).loc main_arg0)) (Agg128 (F := Ideal) (m ((c : Thread nD τ).loc main_arg0)) (m ((c : Thread nD τ).loc main_arg1))) (m ((c : Thread nD τ).loc main_arg3))
    (fun k => (m ((c : Thread nD τ).loc main_arg4)) (ix1 k)) (m ((c : Thread nD τ).loc main_arg5)) (fun k => (m ((c : Thread nD τ).loc main_arg6)) (ix1 k)) r j

/-- Region 0's perceptron over the arrays it finds on entry is the layer's perceptron. -/
theorem P_eq1 (r : Fin 20000) (j : Fin 128) : P0 (V1 m ρ) c r j = PK1 m ρ c r j :=
  pre_congr1 (V1_win0 m ρ c) (V1_win1 m ρ c) (V1_win2 m ρ c)
    (funext fun k => (congrFun (V1_win3 m ρ c) (ix2 (0 : Fin 1) k)).trans (biasRow128_apply (m ((c : Thread nD τ).loc main_arg4)) k))
    (V1_win4 m ρ c)
    (funext fun k => (congrFun (V1_win5 m ρ c) (ix2 (0 : Fin 1) k)).trans (biasRow128_apply (m ((c : Thread nD τ).loc main_arg6)) k)) r j

/-- Region 0's output array at (r, j). -/
theorem h_eq1 (r : Fin 20000) (j : Fin 128) : V2 m ρ c (Pipeline.arrRef spec0 6) (ix2 r j) = PK1 m ρ c r j :=
  (congrFun (hF0 m ρ c 6).symm (ix2 r j)).trans ((h0 (V1 m ρ) c r j).trans (P_eq1 m ρ c r j))

/-- Region 0's row of column sums at column j. -/
theorem sum_eq1 (j : Fin 128) :
    (V2 m ρ c (Pipeline.arrRef spec0 7) (ix2 (0 : Fin 1) j) : EReal) = ∑ r : Fin 20000, PK1 m ρ c r j := by
  have e1 : (V2 m ρ c (Pipeline.arrRef spec0 7) (ix2 (0 : Fin 1) j) : EReal) = ∑ r : Fin 20000, P0 (V1 m ρ) c r j :=
    (congrFun (hF0 m ρ c 7).symm (ix2 (0 : Fin 1) j)).trans (sum0 (V1 m ρ) c j)
  have e2 : (∑ r : Fin 20000, P0 (V1 m ρ) c r j) = ∑ r : Fin 20000, PK1 m ρ c r j :=
    Finset.sum_congr rfl fun r _ => P_eq1 m ρ c r j
  exact e1.trans e2

/-- Region 0's row of column sums of squares at column j. -/
theorem sumsq_eq1 (j : Fin 128) :
    (V2 m ρ c (Pipeline.arrRef spec0 8) (ix2 (0 : Fin 1) j) : EReal) = ∑ r : Fin 20000, PK1 m ρ c r j * PK1 m ρ c r j := by
  have e1 : (V2 m ρ c (Pipeline.arrRef spec0 8) (ix2 (0 : Fin 1) j) : EReal)
      = ∑ r : Fin 20000, P0 (V1 m ρ) c r j * P0 (V1 m ρ) c r j :=
    (congrFun (hF0 m ρ c 8).symm (ix2 (0 : Fin 1) j)).trans (sumsq0 (V1 m ρ) c j)
  have e2 : (∑ r : Fin 20000, P0 (V1 m ρ) c r j * P0 (V1 m ρ) c r j)
      = ∑ r : Fin 20000, PK1 m ρ c r j * PK1 m ρ c r j :=
    Finset.sum_congr rfl fun r _ => by rw [P_eq1 m ρ c r j]
  exact e1.trans e2

/-- Layer 1's output at (r, j). -/
theorem k1_apply (r : Fin 20000) (j : Fin 128) :
    V4 m ρ c (Pipeline.arrRef spec1 5) (ix2 r j)
      = Cert.Gin.bnrelu (PK1 m ρ c r j) (Ideal.div (∑ r, PK1 m ρ c r j) ((20000 : ℝ) : EReal))
          (Ideal.rsqrt (Ideal.div (∑ r, PK1 m ρ c r j * PK1 m ρ c r j) ((20000 : ℝ) : EReal)
            - Ideal.div (∑ r, PK1 m ρ c r j) ((20000 : ℝ) : EReal) * Ideal.div (∑ r, PK1 m ρ c r j) ((20000 : ℝ) : EReal)
            + Ideal.ofBits .f32 0x3727C5AC#32))
          ((m ((c : Thread nD τ).loc main_arg7)) (ix1 j)) ((m ((c : Thread nD τ).loc main_arg8)) (ix1 j)) :=
  (congrFun (hF1 m ρ c 5).symm (ix2 r j)).trans ((out1 (V3 m ρ) c r j).trans (bnrelu_congr1
    ((congrFun (V3_win0 m ρ c) (ix2 r j)).trans (h_eq1 m ρ c r j))
    ((congrFun (V3_win1 m ρ c) (ix2 (0 : Fin 1) j)).trans ((meanRow128_apply _ j).trans
      (congrArg (fun s => Ideal.div s ((20000 : ℝ) : EReal)) (sum_eq1 m ρ c j))))
    ((congrFun (V3_win2 m ρ c) (ix2 (0 : Fin 1) j)).trans ((invRow128_apply _ _ j).trans
      (inv_congr1 (sum_eq1 m ρ c j) (sumsq_eq1 m ρ c j))))
    ((congrFun (V3_win3 m ρ c) (ix2 (0 : Fin 1) j)).trans (biasRow128_apply (m ((c : Thread nD τ).loc main_arg7)) j))
    ((congrFun (V3_win4 m ρ c) (ix2 (0 : Fin 1) j)).trans (biasRow128_apply (m ((c : Thread nD τ).loc main_arg8)) j))))

end Cert.KernelIdeal.LayerValue

end
-- ==== Proof.KHost2.lean ====
import proofs.«137780_j52690658787578_1_alg».proof.Proof.Gen.KernelIdeal.Frame
import proofs.«137780_j52690658787578_1_alg».proof.Proof.KHostKeep
import Idealize.ShloMosaic.PureOps.Ideal

/-! Stretch 2 of host operations (between region 1 and region 2), read at the buffers region 2's input windows are
    staged from: the features are region 1's output array, untouched; the neighbourhood sums are the aggregation of
    that array over the edge list (through the source and target vectors the first stretch cut out of it); the weight
    matrices are launch arrays and the bias rows are launch vectors recast to one row. -/

set_option maxRecDepth 16384

noncomputable section

namespace Cert.KernelIdeal.HostValue

open Idealize.ShloMosaic Idealize.ShloMosaic.TcCoe
open Cert.KernelIdeal.Gen

/-- The aggregation buffer, from the features, the source vector and the target vector. -/
theorem after2_agg {F : FTy → Type} [FloatOps F] (V : Valuation τ sig (Elt F)) :
    StableHlo.after (hostOps2 (F := F)) V (Proc.devRef .tc main_v42) = AggCore128 (V (Proc.devRef .tc main_v32)) (V (Proc.devRef .tc main_v1)) (V (Proc.devRef .tc main_v3)) := by
  after_results_simp
  rfl
/-- The first bias, recast to one row. -/
theorem after2_b1 {F : FTy → Type} [FloatOps F] (V : Valuation τ sig (Elt F)) :
    StableHlo.after (hostOps2 (F := F)) V (Proc.devRef .tc main_v43) = shapeCast S1x256 (V (Proc.devRef .tc main_arg10)) shapeCasts_S256_S1x256 := by
  after_results_simp
  rfl
/-- The second bias, recast to one row. -/
theorem after2_b2 {F : FTy → Type} [FloatOps F] (V : Valuation τ sig (Elt F)) :
    StableHlo.after (hostOps2 (F := F)) V (Proc.devRef .tc main_v44) = shapeCast S1x256 (V (Proc.devRef .tc main_arg12)) shapeCasts_S256_S1x256 := by
  after_results_simp
  rfl

variable (m : (ℓ : Loc nD τ sig) → Buf (Elt Ideal) ℓ) (ρ : Dev nD → PrngReg) (c : Dev nD)

/-- At boundary 4 the source vector is still the edge list's first row. -/
theorem W4_src : W4 m ρ c (Proc.devRef .tc main_v1) = srcRow (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := keep1 (W2 m ρ c) main_v1 (by decide)
    _ = W1 m ρ c (Proc.devRef .tc main_v1) := W2_of_ne m ρ c main_v1 (by decide)
    _ = srcRow (m ((c : Thread nD τ).loc main_arg1)) := after0_src (W0 m ρ c)
/-- At boundary 4 the target vector is still the edge list's second row. -/
theorem W4_dst : W4 m ρ c (Proc.devRef .tc main_v3) = dstRow (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := keep1 (W2 m ρ c) main_v3 (by decide)
    _ = W1 m ρ c (Proc.devRef .tc main_v3) := W2_of_ne m ρ c main_v3 (by decide)
    _ = dstRow (m ((c : Thread nD τ).loc main_arg1)) := after0_dst (W0 m ρ c)
/-- At boundary 5 the argument buffer `main_arg9` still holds its launch contents: no stretch and no region before it writes it. -/
theorem W5_main_arg9 : W5 m ρ c (Proc.devRef .tc main_arg9) = (m ((c : Thread nD τ).loc main_arg9)) :=
  calc W5 m ρ c (Proc.devRef .tc main_arg9)
    _ = W4 m ρ c (Proc.devRef .tc main_arg9) := keep2 (W4 m ρ c) main_arg9 (by decide)
    _ = W3 m ρ c (Proc.devRef .tc main_arg9) := W4_of_ne m ρ c main_arg9 (by decide)
    _ = W2 m ρ c (Proc.devRef .tc main_arg9) := keep1 (W2 m ρ c) main_arg9 (by decide)
    _ = W1 m ρ c (Proc.devRef .tc main_arg9) := W2_of_ne m ρ c main_arg9 (by decide)
    _ = W0 m ρ c (Proc.devRef .tc main_arg9) := keep0 (W0 m ρ c) main_arg9 (by decide)
    _ = (m ((c : Thread nD τ).loc main_arg9)) := rfl
/-- At boundary 5 the argument buffer `main_arg11` still holds its launch contents: no stretch and no region before it writes it. -/
theorem W5_main_arg11 : W5 m ρ c (Proc.devRef .tc main_arg11) = (m ((c : Thread nD τ).loc main_arg11)) :=
  calc W5 m ρ c (Proc.devRef .tc main_arg11)
    _ = W4 m ρ c (Proc.devRef .tc main_arg11) := keep2 (W4 m ρ c) main_arg11 (by decide)
    _ = W3 m ρ c (Proc.devRef .tc main_arg11) := W4_of_ne m ρ c main_arg11 (by decide)
    _ = W2 m ρ c (Proc.devRef .tc main_arg11) := keep1 (W2 m ρ c) main_arg11 (by decide)
    _ = W1 m ρ c (Proc.devRef .tc main_arg11) := W2_of_ne m ρ c main_arg11 (by decide)
    _ = W0 m ρ c (Proc.devRef .tc main_arg11) := keep0 (W0 m ρ c) main_arg11 (by decide)
    _ = (m ((c : Thread nD τ).loc main_arg11)) := rfl
/-- At boundary 4 the argument buffer `main_arg10` still holds its launch contents: no stretch and no region before it writes it. -/
theorem W4_main_arg10 : W4 m ρ c (Proc.devRef .tc main_arg10) = (m ((c : Thread nD τ).loc main_arg10)) :=
  calc W4 m ρ c (Proc.devRef .tc main_arg10)
    _ = W3 m ρ c (Proc.devRef .tc main_arg10) := W4_of_ne m ρ c main_arg10 (by decide)
    _ = W2 m ρ c (Proc.devRef .tc main_arg10) := keep1 (W2 m ρ c) main_arg10 (by decide)
    _ = W1 m ρ c (Proc.devRef .tc main_arg10) := W2_of_ne m ρ c main_arg10 (by decide)
    _ = W0 m ρ c (Proc.devRef .tc main_arg10) := keep0 (W0 m ρ c) main_arg10 (by decide)
    _ = (m ((c : Thread nD τ).loc main_arg10)) := rfl
/-- At boundary 4 the argument buffer `main_arg12` still holds its launch contents: no stretch and no region before it writes it. -/
theorem W4_main_arg12 : W4 m ρ c (Proc.devRef .tc main_arg12) = (m ((c : Thread nD τ).loc main_arg12)) :=
  calc W4 m ρ c (Proc.devRef .tc main_arg12)
    _ = W3 m ρ c (Proc.devRef .tc main_arg12) := W4_of_ne m ρ c main_arg12 (by decide)
    _ = W2 m ρ c (Proc.devRef .tc main_arg12) := keep1 (W2 m ρ c) main_arg12 (by decide)
    _ = W1 m ρ c (Proc.devRef .tc main_arg12) := W2_of_ne m ρ c main_arg12 (by decide)
    _ = W0 m ρ c (Proc.devRef .tc main_arg12) := keep0 (W0 m ρ c) main_arg12 (by decide)
    _ = (m ((c : Thread nD τ).loc main_arg12)) := rfl

/-- Region 2, window 0 (the features): region 1's output array, which this stretch does not write. -/
theorem V5_win0 : V5 m ρ c (Pipeline.arrRef spec2 0) = V4 m ρ c (Pipeline.arrRef spec1 5) :=
  keep2 (W4 m ρ c) main_v32 (by decide)
/-- Region 2, window 1 (the neighbourhood sums): the aggregation of region 1's output over the edge list. -/
theorem V5_win1 : V5 m ρ c (Pipeline.arrRef spec2 1)
    = Agg128 (F := Ideal) (V4 m ρ c (Pipeline.arrRef spec1 5)) (m ((c : Thread nD τ).loc main_arg1)) := by
  refine (after2_agg (W4 m ρ c)).trans ?_
  rw [W4_src m ρ c, W4_dst m ρ c]
  rfl
/-- Region 2, window 2 (the first weight matrix): the launch array. -/
theorem V5_win2 : V5 m ρ c (Pipeline.arrRef spec2 2) = (m ((c : Thread nD τ).loc main_arg9)) :=
  W5_main_arg9 m ρ c
/-- Region 2, window 3 (the first bias row). -/
theorem V5_win3 : V5 m ρ c (Pipeline.arrRef spec2 3) = shapeCast S1x256 (m ((c : Thread nD τ).loc main_arg10)) shapeCasts_S256_S1x256 :=
  (after2_b1 (W4 m ρ c)).trans (congrArg (fun v => shapeCast S1x256 v shapeCasts_S256_S1x256) (W4_main_arg10 m ρ c))
/-- Region 2, window 4 (the second weight matrix): the launch array. -/
theorem V5_win4 : V5 m ρ c (Pipeline.arrRef spec2 4) = (m ((c : Thread nD τ).loc main_arg11)) :=
  W5_main_arg11 m ρ c
/-- Region 2, window 5 (the second bias row). -/
theorem V5_win5 : V5 m ρ c (Pipeline.arrRef spec2 5) = shapeCast S1x256 (m ((c : Thread nD τ).loc main_arg12)) shapeCasts_S256_S1x256 :=
  (after2_b2 (W4 m ρ c)).trans (congrArg (fun v => shapeCast S1x256 v shapeCasts_S256_S1x256) (W4_main_arg12 m ρ c))

end Cert.KernelIdeal.HostValue

end
-- ==== Proof.KHost3.lean ====
import proofs.«137780_j52690658787578_1_alg».proof.Proof.Gen.KernelIdeal.Frame
import proofs.«137780_j52690658787578_1_alg».proof.Proof.KHostKeep
import Idealize.ShloMosaic.PureOps.Ideal

/-! Stretch 3 of host operations (between region 2 and region 3), read at the buffers region 3's input windows are
    staged from: the perceptron's output array is region 2's own output, untouched; the mean row and the
    inverse-deviation row are computed from region 2's row of column sums and row of column sums of squares; the
    scale and the shift are the launch vectors recast to one row. -/

set_option maxRecDepth 16384

noncomputable section

namespace Cert.KernelIdeal.HostValue

open Idealize.ShloMosaic Idealize.ShloMosaic.TcCoe
open Cert.KernelIdeal.Gen

/-- The mean row, from the row of column sums. -/
theorem after3_mean {F : FTy → Type} [FloatOps F] (V : Valuation τ sig (Elt F)) :
    StableHlo.after (hostOps3 (F := F)) V (Proc.devRef .tc main_v57) = meanRow256 (V (Proc.devRef .tc main_v45_1)) := by
  after_results_simp
  rfl
/-- The inverse-deviation row, from the row of column sums and the row of column sums of squares. -/
theorem after3_inv {F : FTy → Type} [FloatOps F] (V : Valuation τ sig (Elt F)) :
    StableHlo.after (hostOps3 (F := F)) V (Proc.devRef .tc main_v58) = invRow256 (V (Proc.devRef .tc main_v45_1)) (V (Proc.devRef .tc main_v45_2)) := by
  after_results_simp
  rfl
/-- The scale, recast to one row. -/
theorem after3_scale {F : FTy → Type} [FloatOps F] (V : Valuation τ sig (Elt F)) :
    StableHlo.after (hostOps3 (F := F)) V (Proc.devRef .tc main_v59) = shapeCast S1x256 (V (Proc.devRef .tc main_arg13)) shapeCasts_S256_S1x256 := by
  after_results_simp
  rfl
/-- The shift, recast to one row. -/
theorem after3_shift {F : FTy → Type} [FloatOps F] (V : Valuation τ sig (Elt F)) :
    StableHlo.after (hostOps3 (F := F)) V (Proc.devRef .tc main_v60) = shapeCast S1x256 (V (Proc.devRef .tc main_arg14)) shapeCasts_S256_S1x256 := by
  after_results_simp
  rfl

variable (m : (ℓ : Loc nD τ sig) → Buf (Elt Ideal) ℓ) (ρ : Dev nD → PrngReg) (c : Dev nD)

/-- At boundary 6 the argument buffer `main_arg13` still holds its launch contents: no stretch and no region before it writes it. -/
theorem W6_main_arg13 : W6 m ρ c (Proc.devRef .tc main_arg13) = (m ((c : Thread nD τ).loc main_arg13)) :=
  calc W6 m ρ c (Proc.devRef .tc main_arg13)
    _ = W5 m ρ c (Proc.devRef .tc main_arg13) := W6_of_ne m ρ c main_arg13 (by decide)
    _ = W4 m ρ c (Proc.devRef .tc main_arg13) := keep2 (W4 m ρ c) main_arg13 (by decide)
    _ = W3 m ρ c (Proc.devRef .tc main_arg13) := W4_of_ne m ρ c main_arg13 (by decide)
    _ = W2 m ρ c (Proc.devRef .tc main_arg13) := keep1 (W2 m ρ c) main_arg13 (by decide)
    _ = W1 m ρ c (Proc.devRef .tc main_arg13) := W2_of_ne m ρ c main_arg13 (by decide)
    _ = W0 m ρ c (Proc.devRef .tc main_arg13) := keep0 (W0 m ρ c) main_arg13 (by decide)
    _ = (m ((c : Thread nD τ).loc main_arg13)) := rfl
/-- At boundary 6 the argument buffer `main_arg14` still holds its launch contents: no stretch and no region before it writes it. -/
theorem W6_main_arg14 : W6 m ρ c (Proc.devRef .tc main_arg14) = (m ((c : Thread nD τ).loc main_arg14)) :=
  calc W6 m ρ c (Proc.devRef .tc main_arg14)
    _ = W5 m ρ c (Proc.devRef .tc main_arg14) := W6_of_ne m ρ c main_arg14 (by decide)
    _ = W4 m ρ c (Proc.devRef .tc main_arg14) := keep2 (W4 m ρ c) main_arg14 (by decide)
    _ = W3 m ρ c (Proc.devRef .tc main_arg14) := W4_of_ne m ρ c main_arg14 (by decide)
    _ = W2 m ρ c (Proc.devRef .tc main_arg14) := keep1 (W2 m ρ c) main_arg14 (by decide)
    _ = W1 m ρ c (Proc.devRef .tc main_arg14) := W2_of_ne m ρ c main_arg14 (by decide)
    _ = W0 m ρ c (Proc.devRef .tc main_arg14) := keep0 (W0 m ρ c) main_arg14 (by decide)
    _ = (m ((c : Thread nD τ).loc main_arg14)) := rfl

/-- Region 3, window 0 (the array to normalise): region 2's output array, which this stretch does not write. -/
theorem V7_win0 : V7 m ρ c (Pipeline.arrRef spec3 0) = V6 m ρ c (Pipeline.arrRef spec2 6) :=
  keep3 (W6 m ρ c) main_v45_0 (by decide)
/-- Region 3, window 1 (the mean row). -/
theorem V7_win1 : V7 m ρ c (Pipeline.arrRef spec3 1) = meanRow256 (F := Ideal) (V6 m ρ c (Pipeline.arrRef spec2 7)) :=
  after3_mean (W6 m ρ c)
/-- Region 3, window 2 (the inverse-deviation row). -/
theorem V7_win2 : V7 m ρ c (Pipeline.arrRef spec3 2)
    = invRow256 (F := Ideal) (V6 m ρ c (Pipeline.arrRef spec2 7)) (V6 m ρ c (Pipeline.arrRef spec2 8)) :=
  after3_inv (W6 m ρ c)
/-- Region 3, window 3 (the scale row). -/
theorem V7_win3 : V7 m ρ c (Pipeline.arrRef spec3 3) = shapeCast S1x256 (m ((c : Thread nD τ).loc main_arg13)) shapeCasts_S256_S1x256 :=
  (after3_scale (W6 m ρ c)).trans (congrArg (fun v => shapeCast S1x256 v shapeCasts_S256_S1x256) (W6_main_arg13 m ρ c))
/-- Region 3, window 4 (the shift row). -/
theorem V7_win4 : V7 m ρ c (Pipeline.arrRef spec3 4) = shapeCast S1x256 (m ((c : Thread nD τ).loc main_arg14)) shapeCasts_S256_S1x256 :=
  (after3_shift (W6 m ρ c)).trans (congrArg (fun v => shapeCast S1x256 v shapeCasts_S256_S1x256) (W6_main_arg14 m ρ c))

end Cert.KernelIdeal.HostValue

end
-- ==== Proof.Stats2Pieces.lean ====
/-
  Region 2 of the program (the perceptron-with-statistics kernel at widths 128 → 256): what one run of the body leaves
  in each of its three output blocks, as the body's arithmetic of the blocks it loaded.

  At the first grid point the two running rows are first set to zero and then read back, so the value added to is the
  zero row; at every later point it is what the point before left.  In both cases the block of h is the perceptron of
  the loaded blocks, the first running row grows by that block's column sums and the second by the column sums of its
  squares.  Stated for every float instance.
-/
import proofs.«137780_j52690658787578_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.StatsValue

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl

/-- A later point: the block of h is the perceptron of the loaded blocks. -/
theorem piece2_B_6 (c : Dev nD) (i : grid2.Coords) (a1 : Memref sig .tc .vmem S1000x128 .f32) (h1 : a1.IsWhole) (a2 : Memref sig .tc .vmem S1000x128 .f32) (h2 : a2.IsWhole) (a3 : Memref sig .tc .vmem S128x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S1000x256 .f32) (h7 : a7.IsWhole) (a8 : Memref sig .tc .vmem S1x256 .f32) (h8 : a8.IsWhole) (a9 : Memref sig .tc .vmem S1x256 .f32) (h9 : a9.IsWhole) (hc : ¬cond2_0 i) (x0 x1 : Vec F S1000x128 .f32) (x2 : Vec F S128x256 .f32) (x3 : Vec F S1x256 .f32) (x4 : Vec F S256x256 .f32) (x5 : Vec F S1x256 .f32) (xo7 xo8 : Vec F S1x256 .f32) :
    out2_B_6 c i a1 h1 a2 h2 a3 h3 a4 h4 a5 h5 a6 h6 a7 h7 a8 h8 a9 h9 hc x0 x1 x2 x3 x4 x5 xo7 xo8 = k2_pay4 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  (try sl_unfold_words)
  rw [View.canon_unit_zero hz2]
  simp only [View.readAt_eq_ld, h1.read_unread, h2.read_unread, h3.read_unread, h4.read_unread, h5.read_unread, h6.read_unread, h8.read_unread, h9.read_unread, View.ld_unit_zero (S := S1000x128) hz2, View.ld_unit_zero (S := S128x256) hz2, View.ld_unit_zero (S := S256x256) hz2, View.ld_unit_zero (S := S1x256) hz2]

/-- A later point: the first running row is what it held plus the block's column sums. -/
theorem piece2_B_7 (c : Dev nD) (i : grid2.Coords) (a1 : Memref sig .tc .vmem S1000x128 .f32) (h1 : a1.IsWhole) (a2 : Memref sig .tc .vmem S1000x128 .f32) (h2 : a2.IsWhole) (a3 : Memref sig .tc .vmem S128x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S1000x256 .f32) (h7 : a7.IsWhole) (a8 : Memref sig .tc .vmem S1x256 .f32) (h8 : a8.IsWhole) (a9 : Memref sig .tc .vmem S1x256 .f32) (h9 : a9.IsWhole) (hc : ¬cond2_0 i) (x0 x1 : Vec F S1000x128 .f32) (x2 : Vec F S128x256 .f32) (x3 : Vec F S1x256 .f32) (x4 : Vec F S256x256 .f32) (x5 : Vec F S1x256 .f32) (xo7 xo8 : Vec F S1x256 .f32) :
    out2_B_7 c i a1 h1 a2 h2 a3 h3 a4 h4 a5 h5 a6 h6 a7 h7 a8 h8 a9 h9 hc x0 x1 x2 x3 x4 x5 xo7 xo8 = k2_pay5 x0 x1 x2 x3 x4 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  (try sl_unfold_words)
  rw [View.canon_unit_zero hz2]
  simp only [View.readAt_eq_ld, h1.read_unread, h2.read_unread, h3.read_unread, h4.read_unread, h5.read_unread, h6.read_unread, h8.read_unread, h9.read_unread, View.ld_unit_zero (S := S1000x128) hz2, View.ld_unit_zero (S := S128x256) hz2, View.ld_unit_zero (S := S256x256) hz2, View.ld_unit_zero (S := S1x256) hz2]

/-- A later point: the second running row is what it held plus the column sums of the block's squares. -/
theorem piece2_B_8 (c : Dev nD) (i : grid2.Coords) (a1 : Memref sig .tc .vmem S1000x128 .f32) (h1 : a1.IsWhole) (a2 : Memref sig .tc .vmem S1000x128 .f32) (h2 : a2.IsWhole) (a3 : Memref sig .tc .vmem S128x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S1000x256 .f32) (h7 : a7.IsWhole) (a8 : Memref sig .tc .vmem S1x256 .f32) (h8 : a8.IsWhole) (a9 : Memref sig .tc .vmem S1x256 .f32) (h9 : a9.IsWhole) (hc : ¬cond2_0 i) (x0 x1 : Vec F S1000x128 .f32) (x2 : Vec F S128x256 .f32) (x3 : Vec F S1x256 .f32) (x4 : Vec F S256x256 .f32) (x5 : Vec F S1x256 .f32) (xo7 xo8 : Vec F S1x256 .f32) :
    out2_B_8 c i a1 h1 a2 h2 a3 h3 a4 h4 a5 h5 a6 h6 a7 h7 a8 h8 a9 h9 hc x0 x1 x2 x3 x4 x5 xo7 xo8 = k2_pay1 (k2_pay4 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  (try sl_unfold_words)
  rw [View.canon_unit_zero hz2]
  simp only [View.readAt_eq_ld, h1.read_unread, h2.read_unread, h3.read_unread, h4.read_unread, h5.read_unread, h6.read_unread, h8.read_unread, h9.read_unread, View.ld_unit_zero (S := S1000x128) hz2, View.ld_unit_zero (S := S128x256) hz2, View.ld_unit_zero (S := S256x256) hz2, View.ld_unit_zero (S := S1x256) hz2]

/-- The first point: the block of h is the perceptron of the loaded blocks. -/
theorem piece2_A_6 (c : Dev nD) (i : grid2.Coords) (a1 : Memref sig .tc .vmem S1000x128 .f32) (h1 : a1.IsWhole) (a2 : Memref sig .tc .vmem S1000x128 .f32) (h2 : a2.IsWhole) (a3 : Memref sig .tc .vmem S128x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S1000x256 .f32) (h7 : a7.IsWhole) (a8 : Memref sig .tc .vmem S1x256 .f32) (h8 : a8.IsWhole) (a9 : Memref sig .tc .vmem S1x256 .f32) (h9 : a9.IsWhole) (hc : cond2_0 i) (x0 x1 : Vec F S1000x128 .f32) (x2 : Vec F S128x256 .f32) (x3 : Vec F S1x256 .f32) (x4 : Vec F S256x256 .f32) (x5 : Vec F S1x256 .f32) :
    out2_A_6 c i a1 h1 a2 h2 a3 h3 a4 h4 a5 h5 a6 h6 a7 h7 a8 h8 a9 h9 hc x0 x1 x2 x3 x4 x5 = k2_pay4 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  (try sl_unfold_words)
  rw [View.canon_unit_zero hz2]
  simp only [View.readAt_eq_ld, h1.read_unread, h2.read_unread, h3.read_unread, h4.read_unread, h5.read_unread, h6.read_unread, View.ld_unit_zero (S := S1000x128) hz2, View.ld_unit_zero (S := S128x256) hz2, View.ld_unit_zero (S := S256x256) hz2, View.ld_unit_zero (S := S1x256) hz2]

/-- The first point: the first running row is the zero row plus the block's column sums. -/
theorem piece2_A_7 (c : Dev nD) (i : grid2.Coords) (a1 : Memref sig .tc .vmem S1000x128 .f32) (h1 : a1.IsWhole) (a2 : Memref sig .tc .vmem S1000x128 .f32) (h2 : a2.IsWhole) (a3 : Memref sig .tc .vmem S128x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S1000x256 .f32) (h7 : a7.IsWhole) (a8 : Memref sig .tc .vmem S1x256 .f32) (h8 : a8.IsWhole) (a9 : Memref sig .tc .vmem S1x256 .f32) (h9 : a9.IsWhole) (hc : cond2_0 i) (x0 x1 : Vec F S1000x128 .f32) (x2 : Vec F S128x256 .f32) (x3 : Vec F S1x256 .f32) (x4 : Vec F S256x256 .f32) (x5 : Vec F S1x256 .f32) :
    out2_A_7 c i a1 h1 a2 h2 a3 h3 a4 h4 a5 h5 a6 h6 a7 h7 a8 h8 a9 h9 hc x0 x1 x2 x3 x4 x5 = k2_pay5 x0 x1 x2 x3 x4 x5 k2_pay2 := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  (try sl_unfold_words)
  rw [View.canon_cons_unit_zero (S := S1x256) hz2, View.readCov_unit_zero (S := S1x256) _ hz2]
  simp only [View.readAt_eq_ld, h1.read_unread, h2.read_unread, h3.read_unread, h4.read_unread, h5.read_unread, h6.read_unread, View.ld_unit_zero (S := S1000x128) hz2, View.ld_unit_zero (S := S128x256) hz2, View.ld_unit_zero (S := S256x256) hz2, View.ld_unit_zero (S := S1x256) hz2]

/-- The first point: the second running row is the zero row plus the column sums of the block's squares. -/
theorem piece2_A_8 (c : Dev nD) (i : grid2.Coords) (a1 : Memref sig .tc .vmem S1000x128 .f32) (h1 : a1.IsWhole) (a2 : Memref sig .tc .vmem S1000x128 .f32) (h2 : a2.IsWhole) (a3 : Memref sig .tc .vmem S128x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S1000x256 .f32) (h7 : a7.IsWhole) (a8 : Memref sig .tc .vmem S1x256 .f32) (h8 : a8.IsWhole) (a9 : Memref sig .tc .vmem S1x256 .f32) (h9 : a9.IsWhole) (hc : cond2_0 i) (x0 x1 : Vec F S1000x128 .f32) (x2 : Vec F S128x256 .f32) (x3 : Vec F S1x256 .f32) (x4 : Vec F S256x256 .f32) (x5 : Vec F S1x256 .f32) :
    out2_A_8 c i a1 h1 a2 h2 a3 h3 a4 h4 a5 h5 a6 h6 a7 h7 a8 h8 a9 h9 hc x0 x1 x2 x3 x4 x5 = k2_pay1 (k2_pay4 x0 x1 x2 x3 x4 x5) k2_pay3 := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  (try sl_unfold_words)
  rw [View.canon_cons_unit_zero (S := S1x256) hz2, View.readCov_unit_zero (S := S1x256) _ hz2]
  simp only [View.readAt_eq_ld, h1.read_unread, h2.read_unread, h3.read_unread, h4.read_unread, h5.read_unread, h6.read_unread, View.ld_unit_zero (S := S1000x128) hz2, View.ld_unit_zero (S := S128x256) hz2, View.ld_unit_zero (S := S256x256) hz2, View.ld_unit_zero (S := S1x256) hz2]

end Cert.KernelIdeal.StatsValue

end
-- ==== Proof.Stats2Block.lean ====
/-
  Region 2 (widths 128 → 256): the blocks the body loads at a grid point, and the body's arithmetic of them, entry by entry.

  The grid has 20 points; at point t the windows of x and of the neighbourhood sums hold rows 1000·t … 1000·t + 999 of
  their arrays, the weights and bias rows are whole arrays, and so the block of h the body computes holds the rows
  1000·t + p of the perceptron  pre (r, j) = Σ_k max (Σ_c (X (r, c) + A (r, c)) · W1 (c, k) + b1 k, 0) · W2 (k, j) + b2 j.
  The two running rows grow by that block's column sums and by the column sums of its squares.
-/
import proofs.«137780_j52690658787578_1_alg».proof.Proof.Gen.KernelIdeal.Frame
import proofs.«137780_j52690658787578_1_alg».proof.Proof.GinSpec
import proofs.«137780_j52690658787578_1_alg».proof.Proof.LibMlpStats
import Idealize.ShloMosaic.Lib.Pipeline.Value
import Idealize.ShloMosaic.Lib.ValueIdx

set_option maxRecDepth 16384

noncomputable section

namespace Cert.KernelIdeal.StatsValue

open Idealize.ShloMosaic Idealize.ShloMosaic.TcCoe Idealize.ShloMosaic.ValueIdx Idealize.SL.Sem
open Idealize.ShloMosaic.Pipeline (Dat)
open Cert.KernelIdeal Cert.KernelIdeal.Gen
open Cert.LibMlpStats

variable (V : (c : Dev nD) → (b : Ref sig .tc) → Buf (Elt Ideal) ((c : Thread nD τ).loc b))

/-- Entry (r, j) of the perceptron of region 2, over the arrays the region finds on entry. -/
abbrev P2 (c : Dev nD) (r : Fin 20000) (j : Fin 256) : EReal :=
  Cert.Gin.pre (V c (Pipeline.arrRef spec2 0)) (V c (Pipeline.arrRef spec2 1)) (V c (Pipeline.arrRef spec2 2))
    (fun k => V c (Pipeline.arrRef spec2 3) (ix2 (0 : Fin 1) k)) (V c (Pipeline.arrRef spec2 4))
    (fun k => V c (Pipeline.arrRef spec2 5) (ix2 (0 : Fin 1) k)) r j

/-- The body's h block is the block perceptron of the library lemma, term for term. -/
theorem pay4_eq2 (x0 x1 : Vec Ideal S1000x128 .f32) (x2 : Vec Ideal S128x256 .f32) (x3 : Vec Ideal S1x256 .f32) (x4 : Vec Ideal S256x256 .f32) (x5 : Vec Ideal S1x256 .f32) :
    k2_pay4 (F := Ideal) x0 x1 x2 x3 x4 x5
      = mlp dot_S1000x128_S128x256_S1000x256_1_0_0_1_n_n_wf dot_S1000x256_S256x256_S1000x256_1_0_0_1_n_n_wf bitsLt_bf16_f32
          shapeCasts_S1000x128_S1000x128 shapeCasts_S1x256_S1x256 broadcasts_S1x256_S1000x256 x0 x1 x2 x3 x4 x5 := by
  show mlp _ _ _ _ _ _ (shapeCast S1000x128 x0 shapeCasts_S1000x128_S1000x128) x1 x2 x3 x4 x5 = _
  rw [shapeCast_self]

/-- The first running row's update is the library's column-sum update of the h block. -/
theorem pay5_eq2 (x0 x1 : Vec Ideal S1000x128 .f32) (x2 : Vec Ideal S128x256 .f32) (x3 : Vec Ideal S1x256 .f32) (x4 : Vec Ideal S256x256 .f32) (x5 : Vec Ideal S1x256 .f32) (acc : Vec Ideal S1x256 .f32) :
    k2_pay5 (F := Ideal) x0 x1 x2 x3 x4 x5 acc
      = accCols reduces_S1000x256_S256 (.inl rfl) rfl shapeCasts_S1x256_S1x256 shapeCasts_S256_S1x256 (k2_pay4 (F := Ideal) x0 x1 x2 x3 x4 x5) acc := rfl

/-- The second running row's update is the column-sum update of the squares. -/
theorem pay1_eq2 (v : FVec Ideal S1000x256 .f32) (acc : Vec Ideal S1x256 .f32) :
    k2_pay1 (F := Ideal) v acc
      = accCols reduces_S1000x256_S256 (.inl rfl) rfl shapeCasts_S1x256_S1x256 shapeCasts_S256_S1x256 (mulf v v) acc := rfl

/-- Row p of the block of point t, as a row of the whole array. -/
def row2 (t : Fin cfg2.N) (p : Fin 1000) : Fin 20000 :=
  ⟨1000 * t.val + p.val, by have hN : t.val < 20 := lt_of_lt_of_eq t.isLt (show cfg2.N = 20 from N_2); have := p.isLt; omega⟩

/-- The printed index maps, decided over the grid: the row-tiled windows sit at block (t, 0), the others at (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Entry (p, q) of window 0's block at point t of an array G is the array's entry at row 1000·t + p. -/
theorem rd2_0 (t : Fin cfg2.N) (G : S20000x128.Idx → EReal) (p : Fin 1000) (q : Fin 128) :
    (((cfg2.win 0).blk t).view.read (Elt Ideal) G : Vec Ideal S1000x128 .f32) (ix2 p q) = G (ix2 (row2 t p) q) := by
  rw [View.read_apply]
  show G _ = G _
  congr 1
  funext a
  apply Fin.ext
  obtain ⟨e0, e1, -⟩ := idx_facts2 t
  match a with
  | ⟨0, _⟩ => show win2_0.index t (0 : Fin 2) * 1000 + 1 * p.val = 1000 * t.val + p.val; rw [e0]; omega
  | ⟨1, _⟩ => show win2_0.index t (1 : Fin 2) * 128 + 1 * q.val = q.val; rw [e1]; omega

/-- Entry (p, q) of window 2's block at point t of an array G is the array's own entry (p, q): the block is the whole array. -/
theorem rd2_2 (t : Fin cfg2.N) (G : S128x256.Idx → EReal) (p : Fin 128) (q : Fin 256) :
    (((cfg2.win 2).blk t).view.read (Elt Ideal) G : Vec Ideal S128x256 .f32) (ix2 p q) = G (ix2 p q) := by
  rw [View.read_apply]
  show G _ = G _
  congr 1
  funext a
  apply Fin.ext
  obtain ⟨-, -, -, -, e0, e1, -⟩ := idx_facts2 t
  match a with
  | ⟨0, _⟩ => show win2_2.index t (0 : Fin 2) * 128 + 1 * p.val = p.val; rw [e0]; omega
  | ⟨1, _⟩ => show win2_2.index t (1 : Fin 2) * 256 + 1 * q.val = q.val; rw [e1]; omega

/-- Entry (p, q) of window 3's block at point t of an array G is the array's own entry (p, q): the block is the whole array. -/
theorem rd2_3 (t : Fin cfg2.N) (G : S1x256.Idx → EReal) (p : Fin 1) (q : Fin 256) :
    (((cfg2.win 3).blk t).view.read (Elt Ideal) G : Vec Ideal S1x256 .f32) (ix2 p q) = G (ix2 p q) := by
  rw [View.read_apply]
  show G _ = G _
  congr 1
  funext a
  apply Fin.ext
  obtain ⟨-, -, -, -, -, -, e0, e1, -⟩ := idx_facts2 t
  match a with
  | ⟨0, _⟩ => show win2_3.index t (0 : Fin 2) * 1 + 1 * p.val = p.val; rw [e0]; omega
  | ⟨1, _⟩ => show win2_3.index t (1 : Fin 2) * 256 + 1 * q.val = q.val; rw [e1]; omega

/-- Entry (p, q) of window 4's block at point t of an array G is the array's own entry (p, q): the block is the whole array. -/
theorem rd2_4 (t : Fin cfg2.N) (G : S256x256.Idx → EReal) (p : Fin 256) (q : Fin 256) :
    (((cfg2.win 4).blk t).view.read (Elt Ideal) G : Vec Ideal S256x256 .f32) (ix2 p q) = G (ix2 p q) := by
  rw [View.read_apply]
  show G _ = G _
  congr 1
  funext a
  apply Fin.ext
  obtain ⟨-, -, -, -, -, -, -, -, e0, e1, -⟩ := idx_facts2 t
  match a with
  | ⟨0, _⟩ => show win2_4.index t (0 : Fin 2) * 256 + 1 * p.val = p.val; rw [e0]; omega
  | ⟨1, _⟩ => show win2_4.index t (1 : Fin 2) * 256 + 1 * q.val = q.val; rw [e1]; omega

/-- Entry (p, q) of window 6's block at point t of an array G is the array's entry at row 1000·t + p. -/
theorem rd2_6 (t : Fin cfg2.N) (G : S20000x256.Idx → EReal) (p : Fin 1000) (q : Fin 256) :
    (((cfg2.win 6).blk t).view.read (Elt Ideal) G : Vec Ideal S1000x256 .f32) (ix2 p q) = G (ix2 (row2 t p) q) := by
  rw [View.read_apply]
  show G _ = G _
  congr 1
  funext a
  apply Fin.ext
  obtain ⟨-, -, -, -, -, -, -, -, -, -, -, -, e0, e1, -⟩ := idx_facts2 t
  match a with
  | ⟨0, _⟩ => show win2_6.index t (0 : Fin 2) * 1000 + 1 * p.val = 1000 * t.val + p.val; rw [e0]; omega
  | ⟨1, _⟩ => show win2_6.index t (1 : Fin 2) * 256 + 1 * q.val = q.val; rw [e1]; omega

/-- Entry (p, q) of window 7's block at point t of an array G is the array's own entry (p, q): the block is the whole array. -/
theorem rd2_7 (t : Fin cfg2.N) (G : S1x256.Idx → EReal) (p : Fin 1) (q : Fin 256) :
    (((cfg2.win 7).blk t).view.read (Elt Ideal) G : Vec Ideal S1x256 .f32) (ix2 p q) = G (ix2 p q) := by
  rw [View.read_apply]
  show G _ = G _
  congr 1
  funext a
  apply Fin.ext
  obtain ⟨-, -, -, -, -, -, -, -, -, -, -, -, -, -, e0, e1, -⟩ := idx_facts2 t
  match a with
  | ⟨0, _⟩ => show win2_7.index t (0 : Fin 2) * 1 + 1 * p.val = p.val; rw [e0]; omega
  | ⟨1, _⟩ => show win2_7.index t (1 : Fin 2) * 256 + 1 * q.val = q.val; rw [e1]; omega

/-- Entry (p, q) of window 1's block at point t of an array G is the array's entry at row 1000·t + p. -/
theorem rd2_1 (t : Fin cfg2.N) (G : S20000x128.Idx → EReal) (p : Fin 1000) (q : Fin 128) :
    (((cfg2.win 1).blk t).view.read (Elt Ideal) G : Vec Ideal S1000x128 .f32) (ix2 p q) = G (ix2 (row2 t p) q) := by
  rw [View.read_apply]
  show G _ = G _
  congr 1
  funext a
  apply Fin.ext
  obtain ⟨-, -, e0, e1, -⟩ := idx_facts2 t
  match a with
  | ⟨0, _⟩ => show win2_1.index t (0 : Fin 2) * 1000 + 1 * p.val = 1000 * t.val + p.val; rw [e0]; omega
  | ⟨1, _⟩ => show win2_1.index t (1 : Fin 2) * 128 + 1 * q.val = q.val; rw [e1]; omega

/-- Entry (p, q) of window 5's block at point t of an array G is the array's own entry (p, q): the block is the whole array. -/
theorem rd2_5 (t : Fin cfg2.N) (G : S1x256.Idx → EReal) (p : Fin 1) (q : Fin 256) :
    (((cfg2.win 5).blk t).view.read (Elt Ideal) G : Vec Ideal S1x256 .f32) (ix2 p q) = G (ix2 p q) := by
  rw [View.read_apply]
  show G _ = G _
  congr 1
  funext a
  apply Fin.ext
  obtain ⟨-, -, -, -, -, -, -, -, -, -, e0, e1, -⟩ := idx_facts2 t
  match a with
  | ⟨0, _⟩ => show win2_5.index t (0 : Fin 2) * 1 + 1 * p.val = p.val; rw [e0]; omega
  | ⟨1, _⟩ => show win2_5.index t (1 : Fin 2) * 256 + 1 * q.val = q.val; rw [e1]; omega

/-- Entry (p, q) of window 8's block at point t of an array G is the array's own entry (p, q): the block is the whole array. -/
theorem rd2_8 (t : Fin cfg2.N) (G : S1x256.Idx → EReal) (p : Fin 1) (q : Fin 256) :
    (((cfg2.win 8).blk t).view.read (Elt Ideal) G : Vec Ideal S1x256 .f32) (ix2 p q) = G (ix2 p q) := by
  rw [View.read_apply]
  show G _ = G _
  congr 1
  funext a
  apply Fin.ext
  obtain ⟨-, -, -, -, -, -, -, -, -, -, -, -, -, -, -, -, e0, e1⟩ := idx_facts2 t
  match a with
  | ⟨0, _⟩ => show win2_8.index t (0 : Fin 2) * 1 + 1 * p.val = p.val; rw [e0]; omega
  | ⟨1, _⟩ => show win2_8.index t (1 : Fin 2) * 256 + 1 * q.val = q.val; rw [e1]; omega

theorem blk2_0 (c : Dev nD) (t : Fin cfg2.N) (p : Fin 1000) (q : Fin 128) :
    (iblk2 V c 0 t : Vec Ideal S1000x128 .f32) (ix2 p q) = V c (Pipeline.arrRef spec2 0) (ix2 (row2 t p) q) :=
  rd2_0 t (V c (Pipeline.arrRef spec2 0)) p q

theorem blk2_1 (c : Dev nD) (t : Fin cfg2.N) (p : Fin 1000) (q : Fin 128) :
    (iblk2 V c 1 t : Vec Ideal S1000x128 .f32) (ix2 p q) = V c (Pipeline.arrRef spec2 1) (ix2 (row2 t p) q) :=
  rd2_1 t (V c (Pipeline.arrRef spec2 1)) p q

theorem blk2_2 (c : Dev nD) (t : Fin cfg2.N) (p : Fin 128) (q : Fin 256) :
    (iblk2 V c 2 t : Vec Ideal S128x256 .f32) (ix2 p q) = V c (Pipeline.arrRef spec2 2) (ix2 p q) :=
  rd2_2 t (V c (Pipeline.arrRef spec2 2)) p q

theorem blk2_3 (c : Dev nD) (t : Fin cfg2.N) (p : Fin 1) (q : Fin 256) :
    (iblk2 V c 3 t : Vec Ideal S1x256 .f32) (ix2 p q) = V c (Pipeline.arrRef spec2 3) (ix2 p q) :=
  rd2_3 t (V c (Pipeline.arrRef spec2 3)) p q

theorem blk2_4 (c : Dev nD) (t : Fin cfg2.N) (p : Fin 256) (q : Fin 256) :
    (iblk2 V c 4 t : Vec Ideal S256x256 .f32) (ix2 p q) = V c (Pipeline.arrRef spec2 4) (ix2 p q) :=
  rd2_4 t (V c (Pipeline.arrRef spec2 4)) p q

theorem blk2_5 (c : Dev nD) (t : Fin cfg2.N) (p : Fin 1) (q : Fin 256) :
    (iblk2 V c 5 t : Vec Ideal S1x256 .f32) (ix2 p q) = V c (Pipeline.arrRef spec2 5) (ix2 p q) :=
  rd2_5 t (V c (Pipeline.arrRef spec2 5)) p q

/-- The block of h the body computes at point t. -/
def Pblk2 (c : Dev nD) (t : Fin cfg2.N) : FVec Ideal S1000x256 .f32 :=
  k2_pay4 (F := Ideal) (iblk2 V c 0 t) (iblk2 V c 1 t) (iblk2 V c 2 t) (iblk2 V c 3 t) (iblk2 V c 4 t) (iblk2 V c 5 t)

/-- Its entry (p, q) is entry (1000·t + p, q) of the perceptron over the whole arrays. -/
theorem Pblk2_apply (c : Dev nD) (t : Fin cfg2.N) (p : Fin 1000) (q : Fin 256) :
    Pblk2 V c t (ix2 p q) = P2 V c (row2 t p) q := by
  refine (congrFun (pay4_eq2 (iblk2 V c 0 t) (iblk2 V c 1 t) (iblk2 V c 2 t) (iblk2 V c 3 t) (iblk2 V c 4 t) (iblk2 V c 5 t)) (ix2 p q)).trans ?_
  refine (mlp_apply _ _ _ _ _ _ (iblk2 V c 0 t) (iblk2 V c 1 t) (iblk2 V c 2 t) (iblk2 V c 3 t) (iblk2 V c 4 t) (iblk2 V c 5 t) p q).trans ?_
  show _ = Cert.Gin.pre _ _ _ _ _ _ _ _
  unfold Cert.Gin.pre
  simp only [blk2_0 V c t, blk2_1 V c t, blk2_2 V c t, blk2_3 V c t, blk2_4 V c t, blk2_5 V c t]

/-- The first running row after point t, entry q: what it held plus Σ_p pre (1000·t + p, q). -/
theorem pay5_apply2 (c : Dev nD) (t : Fin cfg2.N) (acc : Vec Ideal S1x256 .f32) (u : Fin 1) (q : Fin 256) :
    k2_pay5 (F := Ideal) (iblk2 V c 0 t) (iblk2 V c 1 t) (iblk2 V c 2 t) (iblk2 V c 3 t) (iblk2 V c 4 t) (iblk2 V c 5 t) acc (ix2 u q)
      = acc (ix2 u q) + ∑ p : Fin 1000, P2 V c (row2 t p) q := by
  refine (congrFun (pay5_eq2 (iblk2 V c 0 t) (iblk2 V c 1 t) (iblk2 V c 2 t) (iblk2 V c 3 t) (iblk2 V c 4 t) (iblk2 V c 5 t) acc) (ix2 u q)).trans ?_
  refine (accCols_apply _ _ _ _ _ (Pblk2 V c t) acc u q).trans ?_
  exact congrArg (acc (ix2 u q) + ·) (Finset.sum_congr rfl fun p _ => Pblk2_apply V c t p q)

/-- The second running row after point t, entry q: what it held plus Σ_p pre (1000·t + p, q)². -/
theorem pay1_apply2 (c : Dev nD) (t : Fin cfg2.N) (acc : Vec Ideal S1x256 .f32) (u : Fin 1) (q : Fin 256) :
    k2_pay1 (F := Ideal) (Pblk2 V c t) acc (ix2 u q)
      = acc (ix2 u q) + ∑ p : Fin 1000, P2 V c (row2 t p) q * P2 V c (row2 t p) q := by
  refine (congrFun (pay1_eq2 (Pblk2 V c t) acc) (ix2 u q)).trans ?_
  refine (accCols_apply _ _ _ _ _ (mulf (Pblk2 V c t) (Pblk2 V c t)) acc u q).trans ?_
  refine congrArg (acc (ix2 u q) + ·) (Finset.sum_congr rfl fun p _ => ?_)
  rw [mulf_apply, Pblk2_apply]

/-- The zero rows the first point stores read 0 at every entry. -/
theorem zero7_2 (u : Fin 1) (q : Fin 256) : k2_pay2 (F := Ideal) (ix2 u q) = 0 := Ideal.ofBits_zero_f32
theorem zero8_2 (u : Fin 1) (q : Fin 256) : k2_pay3 (F := Ideal) (ix2 u q) = 0 := Ideal.ofBits_zero_f32

end Cert.KernelIdeal.StatsValue

end
-- ==== Proof.Stats2.lean ====
/-
  Region 2 (widths 128 → 256) as whole arrays: after the 20 grid points the array of h holds the perceptron
  pre (r, j) at every row r < 20000, and the two one-row arrays hold, at column j,  Σ_r pre (r, j)  and  Σ_r pre (r, j)².

  The running rows start from zero at the first point and grow at point t by the sums over the rows 1000·t … 1000·t + 999;
  after point n they hold the sums over the rows below 1000·(n + 1) (induction on the point), and the sum over the
  20000 rows taken 1000 at a time is the one sum: on the extended reals addition is associative and commutative with
  unit 0, so no finiteness is needed.  The array of h is written back block by block and the blocks tile it; each
  running row is written back once, after the last point.
-/
import proofs.«137780_j52690658787578_1_alg».proof.Proof.Stats2Pieces
import proofs.«137780_j52690658787578_1_alg».proof.Proof.Stats2Block
import proofs.«137780_j52690658787578_1_alg».proof.Proof.LibBlockSum

set_option maxRecDepth 16384

noncomputable section

namespace Cert.KernelIdeal.StatsValue

open Idealize.ShloMosaic Idealize.ShloMosaic.TcCoe Idealize.ShloMosaic.ValueIdx Idealize.SL.Sem
open Idealize.ShloMosaic.Pipeline (Dat)
open Cert.KernelIdeal Cert.KernelIdeal.Gen
open Cert.LibMlpStats

variable (V : (c : Dev nD) → (b : Ref sig .tc) → Buf (Elt Ideal) ((c : Thread nD τ).loc b))

/-- What the three output blocks hold after the first point. -/
theorem step2_A (c : Dev nD) (t : Fin cfg2.N) (h0 : t.val % 20 = 0) :
    outsAt2 V c t.val t.isLt = (Pblk2 V c t, k2_pay5 (F := Ideal) (iblk2 V c 0 t) (iblk2 V c 1 t) (iblk2 V c 2 t) (iblk2 V c 3 t) (iblk2 V c 4 t) (iblk2 V c 5 t) (k2_pay2 (F := Ideal)),
      k2_pay1 (F := Ideal) (Pblk2 V c t) (k2_pay3 (F := Ideal))) := by
  rw [outsAt2_A V c t h0]
  exact congrArg₂ Prod.mk (piece2_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t))
    (congrArg₂ Prod.mk (piece2_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t))
      (piece2_A_8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)))

/-- What they hold after a later point, over what the point before left in the two running rows. -/
theorem step2_B (c : Dev nD) (t : Fin cfg2.N) (h0 : ¬t.val % 20 = 0) :
    outsAt2 V c t.val t.isLt = (Pblk2 V c t, k2_pay5 (F := Ideal) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1,
      k2_pay1 (F := Ideal) (Pblk2 V c t) (outsAt2 V c (t.val - 1) (Nat.lt_of_le_of_lt (Nat.sub_le _ _) t.isLt)).2.2) := by
  rw [outsAt2_B V c t h0]
  exact congrArg₂ Prod.mk (piece2_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk (piece2_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2)
      (piece2_B_8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2))

/-- The block of h after point n is block n of the perceptron. -/
theorem outs6_2 (c : Dev nD) (t : Fin cfg2.N) : (outsAt2 V c t.val t.isLt).1 = Pblk2 V c t := by
  by_cases h0 : t.val % 20 = 0
  · rw [step2_A V c t h0]
  · rw [step2_B V c t h0]

/-- Column q's sum over the rows of block k (zero past the grid). -/
def S2 (c : Dev nD) (q : Fin 256) (k : ℕ) : EReal :=
  if hk : k < 20 then ∑ p : Fin 1000, P2 V c ⟨1000 * k + p.val, by have := p.isLt; omega⟩ q else 0

/-- Column q's sum of squares over the rows of block k (zero past the grid). -/
def Q2 (c : Dev nD) (q : Fin 256) (k : ℕ) : EReal :=
  if hk : k < 20 then ∑ p : Fin 1000, P2 V c ⟨1000 * k + p.val, by have := p.isLt; omega⟩ q * P2 V c ⟨1000 * k + p.val, by have := p.isLt; omega⟩ q else 0

theorem S2_eq (c : Dev nD) (q : Fin 256) (t : Fin cfg2.N) :
    S2 V c q t.val = ∑ p : Fin 1000, P2 V c (row2 t p) q := by
  have hN : t.val < 20 := lt_of_lt_of_eq t.isLt (show cfg2.N = 20 from N_2)
  unfold S2; rw [dif_pos hN]; rfl

theorem Q2_eq (c : Dev nD) (q : Fin 256) (t : Fin cfg2.N) :
    Q2 V c q t.val = ∑ p : Fin 1000, P2 V c (row2 t p) q * P2 V c (row2 t p) q := by
  have hN : t.val < 20 := lt_of_lt_of_eq t.isLt (show cfg2.N = 20 from N_2)
  unfold Q2; rw [dif_pos hN]; rfl

/-- After point n the running rows hold the sums over the blocks 0 … n. -/
theorem inv2 (c : Dev nD) : ∀ (n : ℕ) (h : n < cfg2.N) (u : Fin 1) (q : Fin 256),
    (outsAt2 V c n h).2.1 (ix2 u q) = ∑ k ∈ Finset.range (n + 1), S2 V c q k
    ∧ (outsAt2 V c n h).2.2 (ix2 u q) = ∑ k ∈ Finset.range (n + 1), Q2 V c q k
  | 0, h, u, q => by
    have e : outsAt2 V c 0 h = _ := step2_A V c ⟨0, h⟩ rfl
    rw [e]
    refine ⟨?_, ?_⟩
    · refine (pay5_apply2 V c ⟨0, h⟩ _ u q).trans ?_
      rw [zero7_2, zero_add, Finset.sum_range_succ, Finset.sum_range_zero, zero_add]
      exact (S2_eq V c q ⟨0, h⟩).symm
    · refine (pay1_apply2 V c ⟨0, h⟩ _ u q).trans ?_
      rw [zero8_2, zero_add, Finset.sum_range_succ, Finset.sum_range_zero, zero_add]
      exact (Q2_eq V c q ⟨0, h⟩).symm
  | n + 1, h, u, q => by
    have hN : cfg2.N = 20 := N_2
    have hB : ¬(⟨n + 1, h⟩ : Fin cfg2.N).val % 20 = 0 := by dsimp only; omega
    have e : outsAt2 V c (n + 1) h = _ := step2_B V c ⟨n + 1, h⟩ hB
    obtain ⟨i1, i2⟩ := inv2 c n (Nat.lt_of_succ_lt h) u q
    rw [e]
    refine ⟨?_, ?_⟩
    · refine (pay5_apply2 V c ⟨n + 1, h⟩ _ u q).trans ?_
      rw [Finset.sum_range_succ _ (n + 1)]
      exact congrArg₂ (· + ·) i1 (S2_eq V c q ⟨n + 1, h⟩).symm
    · refine (pay1_apply2 V c ⟨n + 1, h⟩ _ u q).trans ?_
      rw [Finset.sum_range_succ _ (n + 1)]
      exact congrArg₂ (· + ·) i2 (Q2_eq V c q ⟨n + 1, h⟩).symm

/-- The sums over the 20 blocks are the sums over the 20000 rows. -/
theorem total2 (c : Dev nD) (q : Fin 256) :
    ∑ k ∈ Finset.range (19 + 1), S2 V c q k = ∑ r : Fin 20000, P2 V c r q :=
  (Cert.LibBlockSum.sum_blocks 20 1000 (fun r : Fin 20000 => P2 V c r q)).symm

theorem totalsq2 (c : Dev nD) (q : Fin 256) :
    ∑ k ∈ Finset.range (19 + 1), Q2 V c q k = ∑ r : Fin 20000, P2 V c r q * P2 V c r q :=
  (Cert.LibBlockSum.sum_blocks 20 1000 (fun r : Fin 20000 => P2 V c r q * P2 V c r q)).symm

/-! ## The array of h -/

/-- The perceptron as contents of the array of h. -/
def H2 (c : Dev nD) : S20000x256.Idx → EReal := fun i => P2 V c (i 0) (i 1)

/-- An index of output 6's array is in point t's block iff each coordinate is in the block's range on its axis. -/
theorem mem_blk2_6 (t : Fin cfg2.N) (i : S20000x256.Idx) :
    i ∈ ((cfg2.win 6).blk t).view.set ↔ ∀ a : Fin 2, win2_6.index t a * S1000x256.size a ≤ (i a).val ∧ (i a).val < win2_6.index t a * S1000x256.size a + S1000x256.size a := by
  show i ∈ ((View.whole main_v45_0).slice (win2_6.rect t)).set ↔ _
  rw [View.set_slice_whole, Rect.mem_set_unit]
  exact Iff.rfl

/-- What point t writes back is block t of the perceptron. -/
theorem flushed2_6 (c : Dev nD) (t : Fin cfg2.N) :
    (dat2 V c).flushed 6 t = ((cfg2.win 6).blk t).view.read (Elt Ideal) (H2 V c) := by
  show (cfg2.win 6).cut (grid2.coords t) ((dat2 V c).after 6 t) = _
  rw [after2_6, outs6_2]
  have key : ∀ (p : Fin 1000) (q : Fin 256), Pblk2 V c t (ix2 p q)
      = (((cfg2.win 6).blk t).view.read (Elt Ideal) (H2 V c) : Vec Ideal S1000x256 .f32) (ix2 p q) := fun p q => by
    rw [rd2_6 t (H2 V c) p q, Pblk2_apply]; rfl
  refine funext fun (y : S1000x256.Idx) => ?_
  obtain ⟨p, q, rfl⟩ : ∃ (p : Fin 1000) (q : Fin 256), y = ix2 p q := ⟨y 0, y 1, eq_ix2 y⟩
  exact key p q

/-- Every row r lies in the block of point r / 1000. -/
theorem covered2_6 (i : S20000x256.Idx) : ∃ t : Fin cfg2.N, (cfg2.win 6).flush t = true ∧ i ∈ ((cfg2.win 6).blk t).view.set := by
  have hi0 : (i 0).val < 20000 := (i 0).isLt
  have hi1 : (i 1).val < 256 := (i 1).isLt
  have hN : cfg2.N = 20 := N_2
  obtain ⟨t, ht⟩ : ∃ t : Fin cfg2.N, t.val = (i 0).val / 1000 := ⟨⟨(i 0).val / 1000, by rw [hN]; omega⟩, rfl⟩
  obtain ⟨-, -, -, -, -, -, -, -, -, -, -, -, e0, e1, -⟩ := idx_facts2 t
  refine ⟨t, flush2_6 t, ?_⟩
  rw [mem_blk2_6]
  intro a
  match a with
  | ⟨0, _⟩ => show win2_6.index t (0 : Fin 2) * 1000 ≤ (i 0).val ∧ (i 0).val < win2_6.index t (0 : Fin 2) * 1000 + 1000; rw [e0, ht]; omega
  | ⟨1, _⟩ => show win2_6.index t (1 : Fin 2) * 256 ≤ (i 1).val ∧ (i 1).val < win2_6.index t (1 : Fin 2) * 256 + 256; rw [e1]; omega

/-- So the array of h ends holding the perceptron. -/
theorem arr2_6 (c : Dev nD) : (dat2 V c).arrAt 6 cfg2.N = H2 V c :=
  (dat2 V c).arrAt_eq_of_cover 6 (H2 V c) (fun t _ => flushed2_6 V c t) covered2_6

/-! ## The two running rows -/

/-- The column sums, and the column sums of squares, as contents of the one-row arrays. -/
def Sum2 (c : Dev nD) : S1x256.Idx → EReal := fun i => ∑ r : Fin 20000, P2 V c r (i 1)
def SumSq2 (c : Dev nD) : S1x256.Idx → EReal := fun i => ∑ r : Fin 20000, P2 V c r (i 1) * P2 V c r (i 1)

/-- An index of output 7's array is in point t's block iff each coordinate is in the block's range on its axis. -/
theorem mem_blk2_7 (t : Fin cfg2.N) (i : S1x256.Idx) :
    i ∈ ((cfg2.win 7).blk t).view.set ↔ ∀ a : Fin 2, win2_7.index t a * S1x256.size a ≤ (i a).val ∧ (i a).val < win2_7.index t a * S1x256.size a + S1x256.size a := by
  show i ∈ ((View.whole main_v45_1).slice (win2_7.rect t)).set ↔ _
  rw [View.set_slice_whole, Rect.mem_set_unit]
  exact Iff.rfl

/-- An index of output 8's array is in point t's block iff each coordinate is in the block's range on its axis. -/
theorem mem_blk2_8 (t : Fin cfg2.N) (i : S1x256.Idx) :
    i ∈ ((cfg2.win 8).blk t).view.set ↔ ∀ a : Fin 2, win2_8.index t a * S1x256.size a ≤ (i a).val ∧ (i a).val < win2_8.index t a * S1x256.size a + S1x256.size a := by
  show i ∈ ((View.whole main_v45_2).slice (win2_8.rect t)).set ↔ _
  rw [View.set_slice_whole, Rect.mem_set_unit]
  exact Iff.rfl

/-- The one write-back of running row 7, at the last point, writes the column sums over all 20000 rows. -/
theorem flushed2_7 (c : Dev nD) (t : Fin cfg2.N) (hf : (cfg2.win 7).flush t = true) :
    (dat2 V c).flushed 7 t = ((cfg2.win 7).blk t).view.read (Elt Ideal) (Sum2 V c) := by
  have hN : cfg2.N = 20 := N_2
  have h19 : t.val = 19 := by have := (flush2_7 t).mp hf; have := t.isLt; omega
  show (cfg2.win 7).cut (grid2.coords t) ((dat2 V c).after 7 t) = _
  rw [after2_7]
  have key : ∀ (u : Fin 1) (q : Fin 256), ((outsAt2 V c t.val t.isLt).2.1 : Vec Ideal S1x256 .f32) (ix2 u q)
      = (((cfg2.win 7).blk t).view.read (Elt Ideal) (Sum2 V c) : Vec Ideal S1x256 .f32) (ix2 u q) := fun u q => by
    rw [rd2_7 t (Sum2 V c) u q, (inv2 V c t.val t.isLt u q).1]
    show _ = ∑ r : Fin 20000, P2 V c r q
    rw [h19]
    exact total2 V c q
  refine funext fun (y : S1x256.Idx) => ?_
  obtain ⟨p, q, rfl⟩ : ∃ (p : Fin 1) (q : Fin 256), y = ix2 p q := ⟨y 0, y 1, eq_ix2 y⟩
  exact key p q

/-- Every entry of running row 7's array is in the last point's block. -/
theorem covered2_7 (i : S1x256.Idx) : ∃ t : Fin cfg2.N, (cfg2.win 7).flush t = true ∧ i ∈ ((cfg2.win 7).blk t).view.set := by
  have hi0 : (i 0).val < 1 := (i 0).isLt
  have hi1 : (i 1).val < 256 := (i 1).isLt
  have hN : cfg2.N = 20 := N_2
  obtain ⟨t, ht⟩ : ∃ t : Fin cfg2.N, t.val = 19 := ⟨⟨19, by rw [hN]; omega⟩, rfl⟩
  obtain ⟨-, -, -, -, -, -, -, -, -, -, -, -, -, -, e0, e1, -⟩ := idx_facts2 t
  refine ⟨t, (flush2_7 t).mpr (by rw [ht]), ?_⟩
  rw [mem_blk2_7]
  intro a
  match a with
  | ⟨0, _⟩ => show win2_7.index t (0 : Fin 2) * 1 ≤ (i 0).val ∧ (i 0).val < win2_7.index t (0 : Fin 2) * 1 + 1; rw [e0]; omega
  | ⟨1, _⟩ => show win2_7.index t (1 : Fin 2) * 256 ≤ (i 1).val ∧ (i 1).val < win2_7.index t (1 : Fin 2) * 256 + 256; rw [e1]; omega

/-- So running row 7's array ends holding the column sums. -/
theorem arr2_7 (c : Dev nD) : (dat2 V c).arrAt 7 cfg2.N = Sum2 V c :=
  (dat2 V c).arrAt_eq_of_cover 7 (Sum2 V c) (flushed2_7 V c) covered2_7

/-- The one write-back of running row 8, at the last point, writes the column sums of squares over all 20000 rows. -/
theorem flushed2_8 (c : Dev nD) (t : Fin cfg2.N) (hf : (cfg2.win 8).flush t = true) :
    (dat2 V c).flushed 8 t = ((cfg2.win 8).blk t).view.read (Elt Ideal) (SumSq2 V c) := by
  have hN : cfg2.N = 20 := N_2
  have h19 : t.val = 19 := by have := (flush2_8 t).mp hf; have := t.isLt; omega
  show (cfg2.win 8).cut (grid2.coords t) ((dat2 V c).after 8 t) = _
  rw [after2_8]
  have key : ∀ (u : Fin 1) (q : Fin 256), ((outsAt2 V c t.val t.isLt).2.2 : Vec Ideal S1x256 .f32) (ix2 u q)
      = (((cfg2.win 8).blk t).view.read (Elt Ideal) (SumSq2 V c) : Vec Ideal S1x256 .f32) (ix2 u q) := fun u q => by
    rw [rd2_8 t (SumSq2 V c) u q, (inv2 V c t.val t.isLt u q).2]
    show _ = ∑ r : Fin 20000, P2 V c r q * P2 V c r q
    rw [h19]
    exact totalsq2 V c q
  refine funext fun (y : S1x256.Idx) => ?_
  obtain ⟨p, q, rfl⟩ : ∃ (p : Fin 1) (q : Fin 256), y = ix2 p q := ⟨y 0, y 1, eq_ix2 y⟩
  exact key p q

/-- Every entry of running row 8's array is in the last point's block. -/
theorem covered2_8 (i : S1x256.Idx) : ∃ t : Fin cfg2.N, (cfg2.win 8).flush t = true ∧ i ∈ ((cfg2.win 8).blk t).view.set := by
  have hi0 : (i 0).val < 1 := (i 0).isLt
  have hi1 : (i 1).val < 256 := (i 1).isLt
  have hN : cfg2.N = 20 := N_2
  obtain ⟨t, ht⟩ : ∃ t : Fin cfg2.N, t.val = 19 := ⟨⟨19, by rw [hN]; omega⟩, rfl⟩
  obtain ⟨-, -, -, -, -, -, -, -, -, -, -, -, -, -, -, -, e0, e1⟩ := idx_facts2 t
  refine ⟨t, (flush2_8 t).mpr (by rw [ht]), ?_⟩
  rw [mem_blk2_8]
  intro a
  match a with
  | ⟨0, _⟩ => show win2_8.index t (0 : Fin 2) * 1 ≤ (i 0).val ∧ (i 0).val < win2_8.index t (0 : Fin 2) * 1 + 1; rw [e0]; omega
  | ⟨1, _⟩ => show win2_8.index t (1 : Fin 2) * 256 ≤ (i 1).val ∧ (i 1).val < win2_8.index t (1 : Fin 2) * 256 + 256; rw [e1]; omega

/-- So running row 8's array ends holding the column sums of squares. -/
theorem arr2_8 (c : Dev nD) : (dat2 V c).arrAt 8 cfg2.N = SumSq2 V c :=
  (dat2 V c).arrAt_eq_of_cover 8 (SumSq2 V c) (flushed2_8 V c) covered2_8

/-! ## The three arrays, entry by entry -/

theorem h2 (c : Dev nD) (r : Fin 20000) (j : Fin 256) :
    (Gen.dat2 (F := Ideal) V c).arrAt 6 cfg2.N (ix2 r j) = P2 V c r j :=
  congrFun (arr2_6 V c) (ix2 r j)

theorem sum2 (c : Dev nD) (j : Fin 256) :
    (Gen.dat2 (F := Ideal) V c).arrAt 7 cfg2.N (ix2 (0 : Fin 1) j) = ∑ r : Fin 20000, P2 V c r j :=
  congrFun (arr2_7 V c) (ix2 (0 : Fin 1) j)

theorem sumsq2 (c : Dev nD) (j : Fin 256) :
    (Gen.dat2 (F := Ideal) V c).arrAt 8 cfg2.N (ix2 (0 : Fin 1) j) = ∑ r : Fin 20000, P2 V c r j * P2 V c r j :=
  congrFun (arr2_8 V c) (ix2 (0 : Fin 1) j)

end Cert.KernelIdeal.StatsValue

end
-- ==== Proof.Norm3.lean ====
/-
  The value of the normalise, scale, shift and clip kernel at column width 256, as a whole array.

  The kernel walks 20 blocks of 1000 rows. At block t it reads rows 1000·t … 1000·t + 999 of its first operand H and
  the whole of the four row vectors mean, inv, gamma, beta, and writes to the same rows of its output
      max ((H (r, j) − mean j) · inv j · gamma j + beta j, 0).
  The 20 blocks tile the 20000 rows, so the output array ends holding this function of the five operands at every
  entry (r, j), whatever the operands hold when the kernel is entered.
-/
import proofs.«137780_j52690658787578_1_alg».proof.Proof.Gen.KernelIdeal.Frame
import proofs.«137780_j52690658787578_1_alg».proof.Proof.GinSpec
import Idealize.ShloMosaic.Lib.ValueIdx
import Idealize.ShloMosaic.Lib.Pipeline.Value
import Idealize.ShloMosaic.PureOps.Ideal.Laws

set_option maxRecDepth 16384

noncomputable section

namespace Cert.KernelIdeal.NormValue

open Cert.KernelIdeal Cert.KernelIdeal.Gen Idealize.ShloMosaic Idealize.ShloMosaic.TcCoe Idealize.ShloMosaic.ValueIdx
open Idealize.ShloMosaic.Pipeline (Dat)

/-! ## One entry of the block the body computes -/

/-- A row vector repeated down 1000 rows reads, at row p and column q, its entry in column q. -/
theorem bcast_row256 (x : S1x256.Idx → EReal) (h : S1x256.Broadcasts S1000x256) (p : Fin 1000) (q : Fin 256) :
    broadcastTo S1000x256 x h (ix2 p q) = x (ix2 0 q) :=
  broadcastTo_apply x h (ix2 p q) (ix2 0 q) (fun a => by
    match a with
    | ⟨0, _⟩ => rfl
    | ⟨1, _⟩ => rfl)

/-- Entry (p, q) of the computed block: subtract the mean of column q, multiply by the inverse deviation and the scale
    of column q, add its shift, clip at zero. -/
theorem pay3_apply (x0 : Vec Ideal S1000x256 .f32) (x1 x2 x3 x4 : Vec Ideal S1x256 .f32) (p : Fin 1000) (q : Fin 256) :
    Gen.k3_pay1 (F := Ideal) x0 x1 x2 x3 x4 (ix2 p q)
      = Cert.Gin.bnrelu (x0 (ix2 p q)) (x1 (ix2 0 q)) (x2 (ix2 0 q)) (x3 (ix2 0 q)) (x4 (ix2 0 q)) := by
  unfold Gen.k3_pay1 Cert.Gin.bnrelu
  simp only [maximumf_apply, addf_apply, mulf_apply, subf_apply, broadcast_apply, shapeCast_self, bcast_row256]
  exact congrArg (max _) Ideal.ofBits_zero_f32

/-- The same at an index of the block not yet split into its coordinates. -/
theorem pay3_at (x0 : Vec Ideal S1000x256 .f32) (x1 x2 x3 x4 : Vec Ideal S1x256 .f32) (y : S1000x256.Idx) :
    Gen.k3_pay1 (F := Ideal) x0 x1 x2 x3 x4 y
      = Cert.Gin.bnrelu (x0 y) (x1 (ix2 0 (y 1))) (x2 (ix2 0 (y 1))) (x3 (ix2 0 (y 1))) (x4 (ix2 0 (y 1))) := by
  obtain ⟨p, q, rfl⟩ : ∃ (p : Fin 1000) (q : Fin 256), y = ix2 p q := ⟨y 0, y 1, eq_ix2 y⟩
  exact pay3_apply x0 x1 x2 x3 x4 p q

/-- Equal arguments give equal entries. -/
theorem bnrelu_congr3 {a a' b b' c c' d d' e e' : EReal} (h0 : a = a') (h1 : b = b') (h2 : c = c') (h3 : d = d')
    (h4 : e = e') : Cert.Gin.bnrelu a b c d e = Cert.Gin.bnrelu a' b' c' d' e' := by
  subst h0 h1 h2 h3 h4; rfl

/-! ## Where the blocks sit -/

/-- The output as one function of the five operands: entry (r, j) normalises H (r, j) with column j's entries of the
    four row vectors. -/
def G3 (H : S20000x256.Idx → EReal) (M I G B : S1x256.Idx → EReal) : S20000x256.Idx → EReal := fun i =>
  Cert.Gin.bnrelu (H i) (M (ix2 0 (i 1))) (I (ix2 0 (i 1))) (G (ix2 0 (i 1))) (B (ix2 0 (i 1)))

theorem hz3 : (![0, 0] : Fin 2 → Nat) = fun _ => 0 := funext fun a => by fin_cases a <;> rfl

/-- Where each operand's block sits at point t: the first operand's and the output's block is the t-th block of 1000
    rows; each row vector's block is the whole vector. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry y of the first operand's block and entry y of the output's block are the same entry of their arrays. -/
theorem emb3_0 (t : Fin cfg3.N) (y : S1000x256.Idx) :
    ((cfg3.win 0).blk t).view.emb y = ((cfg3.win 5).blk t).view.emb y := by
  obtain ⟨e00, e01, -, -, -, -, -, -, -, -, e50, e51⟩ := idx_facts3 t
  funext a; apply Fin.ext
  match a with
  | ⟨0, _⟩ => show win3_0.index t (0 : Fin 2) * 1000 + 1 * (y 0).val = win3_5.index t (0 : Fin 2) * 1000 + 1 * (y 0).val; omega
  | ⟨1, _⟩ => show win3_0.index t (1 : Fin 2) * 256 + 1 * (y 1).val = win3_5.index t (1 : Fin 2) * 256 + 1 * (y 1).val; omega

/-! Column (y 1) of each row vector's block is, in its array, the column of the output entry under y. -/

theorem emb3_1 (t : Fin cfg3.N) (y : S1000x256.Idx) :
    ((cfg3.win 1).blk t).view.emb (ix2 0 (y 1)) = ix2 0 ((((cfg3.win 5).blk t).view.emb y) 1) := by
  obtain ⟨-, -, e10, e11, e20, e21, e30, e31, e40, e41, -, e51⟩ := idx_facts3 t
  funext a; apply Fin.ext
  match a with
  | ⟨0, _⟩ => show win3_1.index t (0 : Fin 2) * 1 + 1 * 0 = 0; omega
  | ⟨1, _⟩ => show win3_1.index t (1 : Fin 2) * 256 + 1 * (y 1).val = win3_5.index t (1 : Fin 2) * 256 + 1 * (y 1).val; omega

theorem emb3_2 (t : Fin cfg3.N) (y : S1000x256.Idx) :
    ((cfg3.win 2).blk t).view.emb (ix2 0 (y 1)) = ix2 0 ((((cfg3.win 5).blk t).view.emb y) 1) := by
  obtain ⟨-, -, e10, e11, e20, e21, e30, e31, e40, e41, -, e51⟩ := idx_facts3 t
  funext a; apply Fin.ext
  match a with
  | ⟨0, _⟩ => show win3_2.index t (0 : Fin 2) * 1 + 1 * 0 = 0; omega
  | ⟨1, _⟩ => show win3_2.index t (1 : Fin 2) * 256 + 1 * (y 1).val = win3_5.index t (1 : Fin 2) * 256 + 1 * (y 1).val; omega

theorem emb3_3 (t : Fin cfg3.N) (y : S1000x256.Idx) :
    ((cfg3.win 3).blk t).view.emb (ix2 0 (y 1)) = ix2 0 ((((cfg3.win 5).blk t).view.emb y) 1) := by
  obtain ⟨-, -, e10, e11, e20, e21, e30, e31, e40, e41, -, e51⟩ := idx_facts3 t
  funext a; apply Fin.ext
  match a with
  | ⟨0, _⟩ => show win3_3.index t (0 : Fin 2) * 1 + 1 * 0 = 0; omega
  | ⟨1, _⟩ => show win3_3.index t (1 : Fin 2) * 256 + 1 * (y 1).val = win3_5.index t (1 : Fin 2) * 256 + 1 * (y 1).val; omega

theorem emb3_4 (t : Fin cfg3.N) (y : S1000x256.Idx) :
    ((cfg3.win 4).blk t).view.emb (ix2 0 (y 1)) = ix2 0 ((((cfg3.win 5).blk t).view.emb y) 1) := by
  obtain ⟨-, -, e10, e11, e20, e21, e30, e31, e40, e41, -, e51⟩ := idx_facts3 t
  funext a; apply Fin.ext
  match a with
  | ⟨0, _⟩ => show win3_4.index t (0 : Fin 2) * 1 + 1 * 0 = 0; omega
  | ⟨1, _⟩ => show win3_4.index t (1 : Fin 2) * 256 + 1 * (y 1).val = win3_5.index t (1 : Fin 2) * 256 + 1 * (y 1).val; omega

/-- An entry of the array lies in point t's block exactly when each of its coordinates lies in the block's range. -/
theorem mem_blk3 (t : Fin cfg3.N) (i : S20000x256.Idx) :
    i ∈ ((cfg3.win 5).blk t).view.set ↔ ∀ a : Fin 2, win3_5.index t a * S1000x256.size a ≤ (i a).val
      ∧ (i a).val < win3_5.index t a * S1000x256.size a + S1000x256.size a := by
  show i ∈ ((View.whole main_v61).slice (win3_5.rect t)).set ↔ _
  rw [View.set_slice_whole, Rect.mem_set_unit]
  exact Iff.rfl

/-- Every entry is written: row r lies in the block of point r / 1000. -/
theorem cover3 (i : S20000x256.Idx) :
    ∃ t : Fin cfg3.N, (cfg3.win 5).flush t = true ∧ i ∈ ((cfg3.win 5).blk t).view.set := by
  have hi0 : (i 0).val < 20000 := (i 0).isLt
  have hi1 : (i 1).val < 256 := (i 1).isLt
  obtain ⟨t, ht⟩ : ∃ t : Fin cfg3.N, t.val = (i 0).val / 1000 :=
    ⟨⟨(i 0).val / 1000, Nat.lt_of_lt_of_eq (by omega : (i 0).val / 1000 < 20) N_3.symm⟩, rfl⟩
  obtain ⟨-, -, -, -, -, -, -, -, -, -, e50, e51⟩ := idx_facts3 t
  refine ⟨t, flush3_5 t, ?_⟩
  rw [mem_blk3]
  intro a
  match a with
  | ⟨0, _⟩ =>
    show win3_5.index t (0 : Fin 2) * 1000 ≤ (i 0).val ∧ (i 0).val < win3_5.index t (0 : Fin 2) * 1000 + 1000
    omega
  | ⟨1, _⟩ =>
    show win3_5.index t (1 : Fin 2) * 256 ≤ (i 1).val ∧ (i 1).val < win3_5.index t (1 : Fin 2) * 256 + 256
    omega

/-! ## The whole array -/

variable (V : (c : Dev nD) → (b : Ref sig .tc) → Buf (Elt Ideal) ((c : Thread nD τ).loc b))

/-- An operand's block at point t, read at z, is the operand's array at the image of z. -/
theorem iblk3_apply0 (c : Dev nD) (t : Fin cfg3.N) (z : S1000x256.Idx) :
    iblk3 V c 0 t z = V c (Pipeline.arrRef spec3 0) (((cfg3.win 0).blk t).view.emb z) := rfl
theorem iblk3_apply1 (c : Dev nD) (t : Fin cfg3.N) (z : S1x256.Idx) :
    iblk3 V c 1 t z = V c (Pipeline.arrRef spec3 1) (((cfg3.win 1).blk t).view.emb z) := rfl
theorem iblk3_apply2 (c : Dev nD) (t : Fin cfg3.N) (z : S1x256.Idx) :
    iblk3 V c 2 t z = V c (Pipeline.arrRef spec3 2) (((cfg3.win 2).blk t).view.emb z) := rfl
theorem iblk3_apply3 (c : Dev nD) (t : Fin cfg3.N) (z : S1x256.Idx) :
    iblk3 V c 3 t z = V c (Pipeline.arrRef spec3 3) (((cfg3.win 3).blk t).view.emb z) := rfl
theorem iblk3_apply4 (c : Dev nD) (t : Fin cfg3.N) (z : S1x256.Idx) :
    iblk3 V c 4 t z = V c (Pipeline.arrRef spec3 4) (((cfg3.win 4).blk t).view.emb z) := rfl

/-- The t-th block of rows of `G3`, read at y, is `G3` at the image of y. -/
theorem read3_apply (c : Dev nD) (t : Fin cfg3.N) (y : S1000x256.Idx) :
    View.read (Elt Ideal) ((cfg3.win 5).blk t).view (G3 (V c (Pipeline.arrRef spec3 0)) (V c (Pipeline.arrRef spec3 1)) (V c (Pipeline.arrRef spec3 2)) (V c (Pipeline.arrRef spec3 3)) (V c (Pipeline.arrRef spec3 4))) y
      = G3 (V c (Pipeline.arrRef spec3 0)) (V c (Pipeline.arrRef spec3 1)) (V c (Pipeline.arrRef spec3 2)) (V c (Pipeline.arrRef spec3 3)) (V c (Pipeline.arrRef spec3 4)) (((cfg3.win 5).blk t).view.emb y) := rfl

/-- What point t writes back is the t-th block of rows of `G3` of the operands as the kernel finds them. -/
theorem flushed3_eq (c : Dev nD) (t : Fin cfg3.N) :
    (dat3 (F := Ideal) V c).flushed 5 t = ((cfg3.win 5).blk t).view.read (Elt Ideal)
      (G3 (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz3]
  simp only [View.ld_unit_zero (S := S1000x256) hz3, View.ld_unit_zero (S := S1x256) hz3]
  funext y
  refine (pay3_at _ _ _ _ _ y).trans ?_
  exact (bnrelu_congr3
    ((iblk3_apply0 V c t y).trans (congrArg (V c (Pipeline.arrRef spec3 0)) (emb3_0 t y)))
    ((iblk3_apply1 V c t (ix2 0 (y 1))).trans (congrArg (V c (Pipeline.arrRef spec3 1)) (emb3_1 t y)))
    ((iblk3_apply2 V c t (ix2 0 (y 1))).trans (congrArg (V c (Pipeline.arrRef spec3 2)) (emb3_2 t y)))
    ((iblk3_apply3 V c t (ix2 0 (y 1))).trans (congrArg (V c (Pipeline.arrRef spec3 3)) (emb3_3 t y)))
    ((iblk3_apply4 V c t (ix2 0 (y 1))).trans (congrArg (V c (Pipeline.arrRef spec3 4)) (emb3_4 t y)))).trans (read3_apply V c t y).symm

/-- The output array after the kernel: `G3` of the operands as the kernel finds them. -/
theorem final3 (c : Dev nD) :
    (dat3 (F := Ideal) V c).arrAt 5 cfg3.N = G3 (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 5 _ (fun t _ => flushed3_eq V c t) cover3

/-- Entry (r, j) of the output array after the kernel. -/
theorem out3 (c : Dev nD) (r : Fin 20000) (j : Fin 256) :
    (dat3 (F := Ideal) V c).arrAt 5 cfg3.N (ix2 r j)
      = Cert.Gin.bnrelu (V c (Pipeline.arrRef spec3 0) (ix2 r j)) (V c (Pipeline.arrRef spec3 1) (ix2 0 j))
          (V c (Pipeline.arrRef spec3 2) (ix2 0 j)) (V c (Pipeline.arrRef spec3 3) (ix2 0 j))
          (V c (Pipeline.arrRef spec3 4) (ix2 0 j)) := by
  rw [final3 V c]
  rfl

end Cert.KernelIdeal.NormValue

end
-- ==== Proof.KRead256.lean ====
/-
  The kernel program's rows of column means and inverse standard deviations at width 256, read entry by entry: the
  mean of column j is the column sum divided by 20000; the inverse deviation is the inverse square root of the mean
  of squares minus the squared mean plus the small positive word.
-/
import proofs.«137780_j52690658787578_1_alg».proof.Proof.KHostDefs
import proofs.«137780_j52690658787578_1_alg».proof.Proof.GinConsts
import proofs.«137780_j52690658787578_1_alg».proof.Proof.LibRowBroadcast
import Idealize.ShloMosaic.Lib.ValueLayout

noncomputable section

namespace Cert.KernelIdeal.HostRead

open Cert.KernelIdeal Cert.KernelIdeal.Gen Cert.KernelIdeal.HostValue Idealize.ShloMosaic Idealize.ShloMosaic.ValueIdx
open Cert.LibRowBroadcast

/-- The mean of column j. -/
theorem meanRow256_apply (S : FVec Ideal S1x256 .f32) (j : Fin 256) :
    meanRow256 (F := Ideal) S (ix2 (0 : Fin 1) j) = Ideal.div (S (ix2 (0 : Fin 1) j)) ((20000 : ℝ) : EReal) := by
  unfold meanRow256 meanFlat256
  rw [shapeCast_a_1a_apply, shapeCast_1a_a_apply]
  unfold Host.divf
  beta_reduce
  rw [Ideal.hostDivf_def, scalar_apply, constant_apply, Cert.Gin.ofBits_20000]

/-- The inverse deviation of column j. -/
theorem invRow256_apply (S SS : FVec Ideal S1x256 .f32) (j : Fin 256) :
    invRow256 (F := Ideal) S SS (ix2 (0 : Fin 1) j)
      = Ideal.rsqrt (Ideal.div (SS (ix2 (0 : Fin 1) j)) ((20000 : ℝ) : EReal)
          - Ideal.div (S (ix2 (0 : Fin 1) j)) ((20000 : ℝ) : EReal) * Ideal.div (S (ix2 (0 : Fin 1) j)) ((20000 : ℝ) : EReal)
          + Ideal.ofBits .f32 0x3727C5AC#32) := by
  unfold invRow256 meanFlat256
  rw [shapeCast_a_1a_apply]
  unfold Host.rsqrt
  beta_reduce
  rw [Ideal.hostUnary_rsqrt_def, addf_apply, subf_apply, mulf_apply, shapeCast_1a_a_apply, shapeCast_1a_a_apply]
  unfold Host.divf
  beta_reduce
  rw [Ideal.hostDivf_def, Ideal.hostDivf_def, scalar_apply, scalar_apply, constant_apply, constant_apply,
    Cert.Gin.ofBits_20000]

/-- A bias vector recast as a [1, 256] row reads its entry k at (0, k). -/
theorem biasRow256_apply (b : FVec Ideal S256 .f32) (k : Fin 256) :
    shapeCast S1x256 b shapeCasts_S256_S1x256 (ix2 (0 : Fin 1) k) = b (ix1 k) :=
  shapeCast_a_1a_apply b _ _ k

end Cert.KernelIdeal.HostRead

end
-- ==== Proof.KLayer2.lean ====
import proofs.«137780_j52690658787578_1_alg».proof.Proof.Gen.KernelIdeal.Frame
import proofs.«137780_j52690658787578_1_alg».proof.Proof.KHost2
import proofs.«137780_j52690658787578_1_alg».proof.Proof.KHost3
import proofs.«137780_j52690658787578_1_alg».proof.Proof.GinSpec
import proofs.«137780_j52690658787578_1_alg».proof.Proof.Stats2
import proofs.«137780_j52690658787578_1_alg».proof.Proof.Norm3
import proofs.«137780_j52690658787578_1_alg».proof.Proof.KRead256

/-! Layer 2 of the kernel program, entry by entry: the array region 3 leaves is, at row r and column j, the
    normalised, scaled, shifted and clipped perceptron entry, where the perceptron is applied to the layer's input
    features plus their aggregation over the edge list, and the column's mean and inverse deviation are taken from the
    sums of the perceptron's entries and of their squares over the 20000 rows. -/

set_option maxRecDepth 16384

noncomputable section

namespace Cert.KernelIdeal.LayerValue

open Idealize.ShloMosaic Idealize.ShloMosaic.TcCoe Idealize.ShloMosaic.ValueIdx
open Cert.KernelIdeal Cert.KernelIdeal.Gen Cert.KernelIdeal.HostValue
open Cert.KernelIdeal.StatsValue Cert.KernelIdeal.NormValue Cert.KernelIdeal.HostRead

/-- The perceptron entry depends only on its six operands. -/
theorem pre_congr2 {n di dk : Nat} {X X' A A' : (⟨2, ![n, di]⟩ : Shape).Idx → EReal} {W1 W1' : (⟨2, ![di, dk]⟩ : Shape).Idx → EReal}
    {b1 b1' : Fin dk → EReal} {W2 W2' : (⟨2, ![dk, dk]⟩ : Shape).Idx → EReal} {b2 b2' : Fin dk → EReal}
    (hX : X = X') (hA : A = A') (hW1 : W1 = W1') (hb1 : b1 = b1') (hW2 : W2 = W2') (hb2 : b2 = b2') (r : Fin n) (j : Fin dk) :
    Cert.Gin.pre X A W1 b1 W2 b2 r j = Cert.Gin.pre X' A' W1' b1' W2' b2' r j := by
  subst hX hA hW1 hb1 hW2 hb2; rfl

/-- The normalised entry depends only on its five operands. -/
theorem bnrelu_congr2 {h h' μ μ' ι ι' g g' s s' : EReal} (e0 : h = h') (e1 : μ = μ') (e2 : ι = ι') (e3 : g = g') (e4 : s = s') :
    Cert.Gin.bnrelu h μ ι g s = Cert.Gin.bnrelu h' μ' ι' g' s' := by
  subst e0 e1 e2 e3 e4; rfl

/-- The inverse deviation depends only on the sum and the sum of squares. -/
theorem inv_congr2 {S S' Q Q' : EReal} (hS : S = S') (hQ : Q = Q') :
    Ideal.rsqrt (Ideal.div Q ((20000 : ℝ) : EReal) - Ideal.div S ((20000 : ℝ) : EReal) * Ideal.div S ((20000 : ℝ) : EReal) + Ideal.ofBits .f32 0x3727C5AC#32)
      = Ideal.rsqrt (Ideal.div Q' ((20000 : ℝ) : EReal) - Ideal.div S' ((20000 : ℝ) : EReal) * Ideal.div S' ((20000 : ℝ) : EReal) + Ideal.ofBits .f32 0x3727C5AC#32) := by
  subst hS hQ; rfl

variable (m : (ℓ : Loc nD τ sig) → Buf (Elt Ideal) ℓ) (ρ : Dev nD → PrngReg) (c : Dev nD)

/-- Entry (r, j) of layer 2's perceptron over the layer's input features and the launch arrays. -/
def PK2 (m : (ℓ : Loc nD τ sig) → Buf (Elt Ideal) ℓ) (ρ : Dev nD → PrngReg) (c : Dev nD) (r : Fin 20000) (j : Fin 256) : EReal :=
  Cert.Gin.pre (V4 m ρ c (Pipeline.arrRef spec1 5)) (Agg128 (F := Ideal) (V4 m ρ c (Pipeline.arrRef spec1 5)) (m ((c : Thread nD τ).loc main_arg1))) (m ((c : Thread nD τ).loc main_arg9))
    (fun k => (m ((c : Thread nD τ).loc main_arg10)) (ix1 k)) (m ((c : Thread nD τ).loc main_arg11)) (fun k => (m ((c : Thread nD τ).loc main_arg12)) (ix1 k)) r j

/-- Region 2's perceptron over the arrays it finds on entry is the layer's perceptron. -/
theorem P_eq2 (r : Fin 20000) (j : Fin 256) : P2 (V5 m ρ) c r j = PK2 m ρ c r j :=
  pre_congr2 (V5_win0 m ρ c) (V5_win1 m ρ c) (V5_win2 m ρ c)
    (funext fun k => (congrFun (V5_win3 m ρ c) (ix2 (0 : Fin 1) k)).trans (biasRow256_apply (m ((c : Thread nD τ).loc main_arg10)) k))
    (V5_win4 m ρ c)
    (funext fun k => (congrFun (V5_win5 m ρ c) (ix2 (0 : Fin 1) k)).trans (biasRow256_apply (m ((c : Thread nD τ).loc main_arg12)) k)) r j

/-- Region 2's output array at (r, j). -/
theorem h_eq2 (r : Fin 20000) (j : Fin 256) : V6 m ρ c (Pipeline.arrRef spec2 6) (ix2 r j) = PK2 m ρ c r j :=
  (congrFun (hF2 m ρ c 6).symm (ix2 r j)).trans ((h2 (V5 m ρ) c r j).trans (P_eq2 m ρ c r j))

/-- Region 2's row of column sums at column j. -/
theorem sum_eq2 (j : Fin 256) :
    (V6 m ρ c (Pipeline.arrRef spec2 7) (ix2 (0 : Fin 1) j) : EReal) = ∑ r : Fin 20000, PK2 m ρ c r j := by
  have e1 : (V6 m ρ c (Pipeline.arrRef spec2 7) (ix2 (0 : Fin 1) j) : EReal) = ∑ r : Fin 20000, P2 (V5 m ρ) c r j :=
    (congrFun (hF2 m ρ c 7).symm (ix2 (0 : Fin 1) j)).trans (sum2 (V5 m ρ) c j)
  have e2 : (∑ r : Fin 20000, P2 (V5 m ρ) c r j) = ∑ r : Fin 20000, PK2 m ρ c r j :=
    Finset.sum_congr rfl fun r _ => P_eq2 m ρ c r j
  exact e1.trans e2

/-- Region 2's row of column sums of squares at column j. -/
theorem sumsq_eq2 (j : Fin 256) :
    (V6 m ρ c (Pipeline.arrRef spec2 8) (ix2 (0 : Fin 1) j) : EReal) = ∑ r : Fin 20000, PK2 m ρ c r j * PK2 m ρ c r j := by
  have e1 : (V6 m ρ c (Pipeline.arrRef spec2 8) (ix2 (0 : Fin 1) j) : EReal)
      = ∑ r : Fin 20000, P2 (V5 m ρ) c r j * P2 (V5 m ρ) c r j :=
    (congrFun (hF2 m ρ c 8).symm (ix2 (0 : Fin 1) j)).trans (sumsq2 (V5 m ρ) c j)
  have e2 : (∑ r : Fin 20000, P2 (V5 m ρ) c r j * P2 (V5 m ρ) c r j)
      = ∑ r : Fin 20000, PK2 m ρ c r j * PK2 m ρ c r j :=
    Finset.sum_congr rfl fun r _ => by rw [P_eq2 m ρ c r j]
  exact e1.trans e2

/-- Layer 2's output at (r, j). -/
theorem k2_apply (r : Fin 20000) (j : Fin 256) :
    V8 m ρ c (Pipeline.arrRef spec3 5) (ix2 r j)
      = Cert.Gin.bnrelu (PK2 m ρ c r j) (Ideal.div (∑ r, PK2 m ρ c r j) ((20000 : ℝ) : EReal))
          (Ideal.rsqrt (Ideal.div (∑ r, PK2 m ρ c r j * PK2 m ρ c r j) ((20000 : ℝ) : EReal)
            - Ideal.div (∑ r, PK2 m ρ c r j) ((20000 : ℝ) : EReal) * Ideal.div (∑ r, PK2 m ρ c r j) ((20000 : ℝ) : EReal)
            + Ideal.ofBits .f32 0x3727C5AC#32))
          ((m ((c : Thread nD τ).loc main_arg13)) (ix1 j)) ((m ((c : Thread nD τ).loc main_arg14)) (ix1 j)) :=
  (congrFun (hF3 m ρ c 5).symm (ix2 r j)).trans ((out3 (V7 m ρ) c r j).trans (bnrelu_congr2
    ((congrFun (V7_win0 m ρ c) (ix2 r j)).trans (h_eq2 m ρ c r j))
    ((congrFun (V7_win1 m ρ c) (ix2 (0 : Fin 1) j)).trans ((meanRow256_apply _ j).trans
      (congrArg (fun s => Ideal.div s ((20000 : ℝ) : EReal)) (sum_eq2 m ρ c j))))
    ((congrFun (V7_win2 m ρ c) (ix2 (0 : Fin 1) j)).trans ((invRow256_apply _ _ j).trans
      (inv_congr2 (sum_eq2 m ρ c j) (sumsq_eq2 m ρ c j))))
    ((congrFun (V7_win3 m ρ c) (ix2 (0 : Fin 1) j)).trans (biasRow256_apply (m ((c : Thread nD τ).loc main_arg13)) j))
    ((congrFun (V7_win4 m ρ c) (ix2 (0 : Fin 1) j)).trans (biasRow256_apply (m ((c : Thread nD τ).loc main_arg14)) j))))

end Cert.KernelIdeal.LayerValue

end
-- ==== Proof.KHost4.lean ====
import proofs.«137780_j52690658787578_1_alg».proof.Proof.Gen.KernelIdeal.Frame
import proofs.«137780_j52690658787578_1_alg».proof.Proof.KHostKeep
import Idealize.ShloMosaic.PureOps.Ideal

/-! Stretch 4 of host operations (between region 3 and region 4), read at the buffers region 4's input windows are
    staged from: the features are region 3's output array, untouched; the neighbourhood sums are the aggregation of
    that array over the edge list (through the source and target vectors the first stretch cut out of it); the weight
    matrices are launch arrays and the bias rows are launch vectors recast to one row. -/

set_option maxRecDepth 16384

noncomputable section

namespace Cert.KernelIdeal.HostValue

open Idealize.ShloMosaic Idealize.ShloMosaic.TcCoe
open Cert.KernelIdeal.Gen

/-- The aggregation buffer, from the features, the source vector and the target vector. -/
theorem after4_agg {F : FTy → Type} [FloatOps F] (V : Valuation τ sig (Elt F)) :
    StableHlo.after (hostOps4 (F := F)) V (Proc.devRef .tc main_v71) = AggCore256 (V (Proc.devRef .tc main_v61)) (V (Proc.devRef .tc main_v1)) (V (Proc.devRef .tc main_v3)) := by
  after_results_simp
  rfl
/-- The first bias, recast to one row. -/
theorem after4_b1 {F : FTy → Type} [FloatOps F] (V : Valuation τ sig (Elt F)) :
    StableHlo.after (hostOps4 (F := F)) V (Proc.devRef .tc main_v72) = shapeCast S1x512 (V (Proc.devRef .tc main_arg16)) shapeCasts_S512_S1x512 := by
  after_results_simp
  rfl
/-- The second bias, recast to one row. -/
theorem after4_b2 {F : FTy → Type} [FloatOps F] (V : Valuation τ sig (Elt F)) :
    StableHlo.after (hostOps4 (F := F)) V (Proc.devRef .tc main_v73) = shapeCast S1x512 (V (Proc.devRef .tc main_arg18)) shapeCasts_S512_S1x512 := by
  after_results_simp
  rfl

variable (m : (ℓ : Loc nD τ sig) → Buf (Elt Ideal) ℓ) (ρ : Dev nD → PrngReg) (c : Dev nD)

/-- At boundary 8 the source vector is still the edge list's first row. -/
theorem W8_src : W8 m ρ c (Proc.devRef .tc main_v1) = srcRow (m ((c : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := keep3 (W6 m ρ c) main_v1 (by decide)
    _ = W5 m ρ c (Proc.devRef .tc main_v1) := W6_of_ne m ρ c main_v1 (by decide)
    _ = W4 m ρ c (Proc.devRef .tc main_v1) := keep2 (W4 m ρ c) main_v1 (by decide)
    _ = W3 m ρ c (Proc.devRef .tc main_v1) := W4_of_ne m ρ c main_v1 (by decide)
    _ = W2 m ρ c (Proc.devRef .tc main_v1) := keep1 (W2 m ρ c) main_v1 (by decide)
    _ = W1 m ρ c (Proc.devRef .tc main_v1) := W2_of_ne m ρ c main_v1 (by decide)
    _ = srcRow (m ((c : Thread nD τ).loc main_arg1)) := after0_src (W0 m ρ c)
/-- At boundary 8 the target vector is still the edge list's second row. -/
theorem W8_dst : W8 m ρ c (Proc.devRef .tc main_v3) = dstRow (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := keep3 (W6 m ρ c) main_v3 (by decide)
    _ = W5 m ρ c (Proc.devRef .tc main_v3) := W6_of_ne m ρ c main_v3 (by decide)
    _ = W4 m ρ c (Proc.devRef .tc main_v3) := keep2 (W4 m ρ c) main_v3 (by decide)
    _ = W3 m ρ c (Proc.devRef .tc main_v3) := W4_of_ne m ρ c main_v3 (by decide)
    _ = W2 m ρ c (Proc.devRef .tc main_v3) := keep1 (W2 m ρ c) main_v3 (by decide)
    _ = W1 m ρ c (Proc.devRef .tc main_v3) := W2_of_ne m ρ c main_v3 (by decide)
    _ = dstRow (m ((c : Thread nD τ).loc main_arg1)) := after0_dst (W0 m ρ c)
/-- At boundary 9 the argument buffer `main_arg15` still holds its launch contents: no stretch and no region before it writes it. -/
theorem W9_main_arg15 : W9 m ρ c (Proc.devRef .tc main_arg15) = (m ((c : Thread nD τ).loc main_arg15)) :=
  calc W9 m ρ c (Proc.devRef .tc main_arg15)
    _ = W8 m ρ c (Proc.devRef .tc main_arg15) := keep4 (W8 m ρ c) main_arg15 (by decide)
    _ = W7 m ρ c (Proc.devRef .tc main_arg15) := W8_of_ne m ρ c main_arg15 (by decide)
    _ = W6 m ρ c (Proc.devRef .tc main_arg15) := keep3 (W6 m ρ c) main_arg15 (by decide)
    _ = W5 m ρ c (Proc.devRef .tc main_arg15) := W6_of_ne m ρ c main_arg15 (by decide)
    _ = W4 m ρ c (Proc.devRef .tc main_arg15) := keep2 (W4 m ρ c) main_arg15 (by decide)
    _ = W3 m ρ c (Proc.devRef .tc main_arg15) := W4_of_ne m ρ c main_arg15 (by decide)
    _ = W2 m ρ c (Proc.devRef .tc main_arg15) := keep1 (W2 m ρ c) main_arg15 (by decide)
    _ = W1 m ρ c (Proc.devRef .tc main_arg15) := W2_of_ne m ρ c main_arg15 (by decide)
    _ = W0 m ρ c (Proc.devRef .tc main_arg15) := keep0 (W0 m ρ c) main_arg15 (by decide)
    _ = (m ((c : Thread nD τ).loc main_arg15)) := rfl
/-- At boundary 9 the argument buffer `main_arg17` still holds its launch contents: no stretch and no region before it writes it. -/
theorem W9_main_arg17 : W9 m ρ c (Proc.devRef .tc main_arg17) = (m ((c : Thread nD τ).loc main_arg17)) :=
  calc W9 m ρ c (Proc.devRef .tc main_arg17)
    _ = W8 m ρ c (Proc.devRef .tc main_arg17) := keep4 (W8 m ρ c) main_arg17 (by decide)
    _ = W7 m ρ c (Proc.devRef .tc main_arg17) := W8_of_ne m ρ c main_arg17 (by decide)
    _ = W6 m ρ c (Proc.devRef .tc main_arg17) := keep3 (W6 m ρ c) main_arg17 (by decide)
    _ = W5 m ρ c (Proc.devRef .tc main_arg17) := W6_of_ne m ρ c main_arg17 (by decide)
    _ = W4 m ρ c (Proc.devRef .tc main_arg17) := keep2 (W4 m ρ c) main_arg17 (by decide)
    _ = W3 m ρ c (Proc.devRef .tc main_arg17) := W4_of_ne m ρ c main_arg17 (by decide)
    _ = W2 m ρ c (Proc.devRef .tc main_arg17) := keep1 (W2 m ρ c) main_arg17 (by decide)
    _ = W1 m ρ c (Proc.devRef .tc main_arg17) := W2_of_ne m ρ c main_arg17 (by decide)
    _ = W0 m ρ c (Proc.devRef .tc main_arg17) := keep0 (W0 m ρ c) main_arg17 (by decide)
    _ = (m ((c : Thread nD τ).loc main_arg17)) := rfl
/-- At boundary 8 the argument buffer `main_arg16` still holds its launch contents: no stretch and no region before it writes it. -/
theorem W8_main_arg16 : W8 m ρ c (Proc.devRef .tc main_arg16) = (m ((c : Thread nD τ).loc main_arg16)) :=
  calc W8 m ρ c (Proc.devRef .tc main_arg16)
    _ = W7 m ρ c (Proc.devRef .tc main_arg16) := W8_of_ne m ρ c main_arg16 (by decide)
    _ = W6 m ρ c (Proc.devRef .tc main_arg16) := keep3 (W6 m ρ c) main_arg16 (by decide)
    _ = W5 m ρ c (Proc.devRef .tc main_arg16) := W6_of_ne m ρ c main_arg16 (by decide)
    _ = W4 m ρ c (Proc.devRef .tc main_arg16) := keep2 (W4 m ρ c) main_arg16 (by decide)
    _ = W3 m ρ c (Proc.devRef .tc main_arg16) := W4_of_ne m ρ c main_arg16 (by decide)
    _ = W2 m ρ c (Proc.devRef .tc main_arg16) := keep1 (W2 m ρ c) main_arg16 (by decide)
    _ = W1 m ρ c (Proc.devRef .tc main_arg16) := W2_of_ne m ρ c main_arg16 (by decide)
    _ = W0 m ρ c (Proc.devRef .tc main_arg16) := keep0 (W0 m ρ c) main_arg16 (by decide)
    _ = (m ((c : Thread nD τ).loc main_arg16)) := rfl
/-- At boundary 8 the argument buffer `main_arg18` still holds its launch contents: no stretch and no region before it writes it. -/
theorem W8_main_arg18 : W8 m ρ c (Proc.devRef .tc main_arg18) = (m ((c : Thread nD τ).loc main_arg18)) :=
  calc W8 m ρ c (Proc.devRef .tc main_arg18)
    _ = W7 m ρ c (Proc.devRef .tc main_arg18) := W8_of_ne m ρ c main_arg18 (by decide)
    _ = W6 m ρ c (Proc.devRef .tc main_arg18) := keep3 (W6 m ρ c) main_arg18 (by decide)
    _ = W5 m ρ c (Proc.devRef .tc main_arg18) := W6_of_ne m ρ c main_arg18 (by decide)
    _ = W4 m ρ c (Proc.devRef .tc main_arg18) := keep2 (W4 m ρ c) main_arg18 (by decide)
    _ = W3 m ρ c (Proc.devRef .tc main_arg18) := W4_of_ne m ρ c main_arg18 (by decide)
    _ = W2 m ρ c (Proc.devRef .tc main_arg18) := keep1 (W2 m ρ c) main_arg18 (by decide)
    _ = W1 m ρ c (Proc.devRef .tc main_arg18) := W2_of_ne m ρ c main_arg18 (by decide)
    _ = W0 m ρ c (Proc.devRef .tc main_arg18) := keep0 (W0 m ρ c) main_arg18 (by decide)
    _ = (m ((c : Thread nD τ).loc main_arg18)) := rfl

/-- Region 4, window 0 (the features): region 3's output array, which this stretch does not write. -/
theorem V9_win0 : V9 m ρ c (Pipeline.arrRef spec4 0) = V8 m ρ c (Pipeline.arrRef spec3 5) :=
  keep4 (W8 m ρ c) main_v61 (by decide)
/-- Region 4, window 1 (the neighbourhood sums): the aggregation of region 3's output over the edge list. -/
theorem V9_win1 : V9 m ρ c (Pipeline.arrRef spec4 1)
    = Agg256 (F := Ideal) (V8 m ρ c (Pipeline.arrRef spec3 5)) (m ((c : Thread nD τ).loc main_arg1)) := by
  refine (after4_agg (W8 m ρ c)).trans ?_
  rw [W8_src m ρ c, W8_dst m ρ c]
  rfl
/-- Region 4, window 2 (the first weight matrix): the launch array. -/
theorem V9_win2 : V9 m ρ c (Pipeline.arrRef spec4 2) = (m ((c : Thread nD τ).loc main_arg15)) :=
  W9_main_arg15 m ρ c
/-- Region 4, window 3 (the first bias row). -/
theorem V9_win3 : V9 m ρ c (Pipeline.arrRef spec4 3) = shapeCast S1x512 (m ((c : Thread nD τ).loc main_arg16)) shapeCasts_S512_S1x512 :=
  (after4_b1 (W8 m ρ c)).trans (congrArg (fun v => shapeCast S1x512 v shapeCasts_S512_S1x512) (W8_main_arg16 m ρ c))
/-- Region 4, window 4 (the second weight matrix): the launch array. -/
theorem V9_win4 : V9 m ρ c (Pipeline.arrRef spec4 4) = (m ((c : Thread nD τ).loc main_arg17)) :=
  W9_main_arg17 m ρ c
/-- Region 4, window 5 (the second bias row). -/
theorem V9_win5 : V9 m ρ c (Pipeline.arrRef spec4 5) = shapeCast S1x512 (m ((c : Thread nD τ).loc main_arg18)) shapeCasts_S512_S1x512 :=
  (after4_b2 (W8 m ρ c)).trans (congrArg (fun v => shapeCast S1x512 v shapeCasts_S512_S1x512) (W8_main_arg18 m ρ c))

end Cert.KernelIdeal.HostValue

end
-- ==== Proof.KHost5.lean ====
import proofs.«137780_j52690658787578_1_alg».proof.Proof.Gen.KernelIdeal.Frame
import proofs.«137780_j52690658787578_1_alg».proof.Proof.KHostKeep
import Idealize.ShloMosaic.PureOps.Ideal

/-! Stretch 5 of host operations (between region 4 and region 5), read at the buffers region 5's input windows are
    staged from: the perceptron's output array is region 4's own output, untouched; the mean row and the
    inverse-deviation row are computed from region 4's row of column sums and row of column sums of squares; the
    scale and the shift are the launch vectors recast to one row. -/

set_option maxRecDepth 16384

noncomputable section

namespace Cert.KernelIdeal.HostValue

open Idealize.ShloMosaic Idealize.ShloMosaic.TcCoe
open Cert.KernelIdeal.Gen

/-- The mean row, from the row of column sums. -/
theorem after5_mean {F : FTy → Type} [FloatOps F] (V : Valuation τ sig (Elt F)) :
    StableHlo.after (hostOps5 (F := F)) V (Proc.devRef .tc main_v86) = meanRow512 (V (Proc.devRef .tc main_v74_1)) := by
  after_results_simp
  rfl
/-- The inverse-deviation row, from the row of column sums and the row of column sums of squares. -/
theorem after5_inv {F : FTy → Type} [FloatOps F] (V : Valuation τ sig (Elt F)) :
    StableHlo.after (hostOps5 (F := F)) V (Proc.devRef .tc main_v87) = invRow512 (V (Proc.devRef .tc main_v74_1)) (V (Proc.devRef .tc main_v74_2)) := by
  after_results_simp
  rfl
/-- The scale, recast to one row. -/
theorem after5_scale {F : FTy → Type} [FloatOps F] (V : Valuation τ sig (Elt F)) :
    StableHlo.after (hostOps5 (F := F)) V (Proc.devRef .tc main_v88) = shapeCast S1x512 (V (Proc.devRef .tc main_arg19)) shapeCasts_S512_S1x512 := by
  after_results_simp
  rfl
/-- The shift, recast to one row. -/
theorem after5_shift {F : FTy → Type} [FloatOps F] (V : Valuation τ sig (Elt F)) :
    StableHlo.after (hostOps5 (F := F)) V (Proc.devRef .tc main_v89) = shapeCast S1x512 (V (Proc.devRef .tc main_arg20)) shapeCasts_S512_S1x512 := by
  after_results_simp
  rfl

variable (m : (ℓ : Loc nD τ sig) → Buf (Elt Ideal) ℓ) (ρ : Dev nD → PrngReg) (c : Dev nD)

/-- At boundary 10 the argument buffer `main_arg19` still holds its launch contents: no stretch and no region before it writes it. -/
theorem W10_main_arg19 : W10 m ρ c (Proc.devRef .tc main_arg19) = (m ((c : Thread nD τ).loc main_arg19)) :=
  calc W10 m ρ c (Proc.devRef .tc main_arg19)
    _ = W9 m ρ c (Proc.devRef .tc main_arg19) := W10_of_ne m ρ c main_arg19 (by decide)
    _ = W8 m ρ c (Proc.devRef .tc main_arg19) := keep4 (W8 m ρ c) main_arg19 (by decide)
    _ = W7 m ρ c (Proc.devRef .tc main_arg19) := W8_of_ne m ρ c main_arg19 (by decide)
    _ = W6 m ρ c (Proc.devRef .tc main_arg19) := keep3 (W6 m ρ c) main_arg19 (by decide)
    _ = W5 m ρ c (Proc.devRef .tc main_arg19) := W6_of_ne m ρ c main_arg19 (by decide)
    _ = W4 m ρ c (Proc.devRef .tc main_arg19) := keep2 (W4 m ρ c) main_arg19 (by decide)
    _ = W3 m ρ c (Proc.devRef .tc main_arg19) := W4_of_ne m ρ c main_arg19 (by decide)
    _ = W2 m ρ c (Proc.devRef .tc main_arg19) := keep1 (W2 m ρ c) main_arg19 (by decide)
    _ = W1 m ρ c (Proc.devRef .tc main_arg19) := W2_of_ne m ρ c main_arg19 (by decide)
    _ = W0 m ρ c (Proc.devRef .tc main_arg19) := keep0 (W0 m ρ c) main_arg19 (by decide)
    _ = (m ((c : Thread nD τ).loc main_arg19)) := rfl
/-- At boundary 10 the argument buffer `main_arg20` still holds its launch contents: no stretch and no region before it writes it. -/
theorem W10_main_arg20 : W10 m ρ c (Proc.devRef .tc main_arg20) = (m ((c : Thread nD τ).loc main_arg20)) :=
  calc W10 m ρ c (Proc.devRef .tc main_arg20)
    _ = W9 m ρ c (Proc.devRef .tc main_arg20) := W10_of_ne m ρ c main_arg20 (by decide)
    _ = W8 m ρ c (Proc.devRef .tc main_arg20) := keep4 (W8 m ρ c) main_arg20 (by decide)
    _ = W7 m ρ c (Proc.devRef .tc main_arg20) := W8_of_ne m ρ c main_arg20 (by decide)
    _ = W6 m ρ c (Proc.devRef .tc main_arg20) := keep3 (W6 m ρ c) main_arg20 (by decide)
    _ = W5 m ρ c (Proc.devRef .tc main_arg20) := W6_of_ne m ρ c main_arg20 (by decide)
    _ = W4 m ρ c (Proc.devRef .tc main_arg20) := keep2 (W4 m ρ c) main_arg20 (by decide)
    _ = W3 m ρ c (Proc.devRef .tc main_arg20) := W4_of_ne m ρ c main_arg20 (by decide)
    _ = W2 m ρ c (Proc.devRef .tc main_arg20) := keep1 (W2 m ρ c) main_arg20 (by decide)
    _ = W1 m ρ c (Proc.devRef .tc main_arg20) := W2_of_ne m ρ c main_arg20 (by decide)
    _ = W0 m ρ c (Proc.devRef .tc main_arg20) := keep0 (W0 m ρ c) main_arg20 (by decide)
    _ = (m ((c : Thread nD τ).loc main_arg20)) := rfl

/-- Region 5, window 0 (the array to normalise): region 4's output array, which this stretch does not write. -/
theorem V11_win0 : V11 m ρ c (Pipeline.arrRef spec5 0) = V10 m ρ c (Pipeline.arrRef spec4 6) :=
  keep5 (W10 m ρ c) main_v74_0 (by decide)
/-- Region 5, window 1 (the mean row). -/
theorem V11_win1 : V11 m ρ c (Pipeline.arrRef spec5 1) = meanRow512 (F := Ideal) (V10 m ρ c (Pipeline.arrRef spec4 7)) :=
  after5_mean (W10 m ρ c)
/-- Region 5, window 2 (the inverse-deviation row). -/
theorem V11_win2 : V11 m ρ c (Pipeline.arrRef spec5 2)
    = invRow512 (F := Ideal) (V10 m ρ c (Pipeline.arrRef spec4 7)) (V10 m ρ c (Pipeline.arrRef spec4 8)) :=
  after5_inv (W10 m ρ c)
/-- Region 5, window 3 (the scale row). -/
theorem V11_win3 : V11 m ρ c (Pipeline.arrRef spec5 3) = shapeCast S1x512 (m ((c : Thread nD τ).loc main_arg19)) shapeCasts_S512_S1x512 :=
  (after5_scale (W10 m ρ c)).trans (congrArg (fun v => shapeCast S1x512 v shapeCasts_S512_S1x512) (W10_main_arg19 m ρ c))
/-- Region 5, window 4 (the shift row). -/
theorem V11_win4 : V11 m ρ c (Pipeline.arrRef spec5 4) = shapeCast S1x512 (m ((c : Thread nD τ).loc main_arg20)) shapeCasts_S512_S1x512 :=
  (after5_shift (W10 m ρ c)).trans (congrArg (fun v => shapeCast S1x512 v shapeCasts_S512_S1x512) (W10_main_arg20 m ρ c))

end Cert.KernelIdeal.HostValue

end
-- ==== Proof.Stats4Pieces.lean ====
/-
  Region 4 of the program (the perceptron-with-statistics kernel at widths 256 → 512): what one run of the body leaves
  in each of its three output blocks, as the body's arithmetic of the blocks it loaded.

  At the first grid point the two running rows are first set to zero and then read back, so the value added to is the
  zero row; at every later point it is what the point before left.  In both cases the block of h is the perceptron of
  the loaded blocks, the first running row grows by that block's column sums and the second by the column sums of its
  squares.  Stated for every float instance.
-/
import proofs.«137780_j52690658787578_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.StatsValue

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

theorem hz4 : (![0, 0] : Fin 2 → Nat) = fun _ => 0 := funext fun a => by fin_cases a <;> rfl

/-- A later point: the block of h is the perceptron of the loaded blocks. -/
theorem piece4_B_6 (c : Dev nD) (i : grid4.Coords) (a1 : Memref sig .tc .vmem S1000x256 .f32) (h1 : a1.IsWhole) (a2 : Memref sig .tc .vmem S1000x256 .f32) (h2 : a2.IsWhole) (a3 : Memref sig .tc .vmem S256x512 .f32) (h3 : a3.IsWhole) (a4 : Memref sig .tc .vmem S1x512 .f32) (h4 : a4.IsWhole) (a5 : Memref sig .tc .vmem S512x512 .f32) (h5 : a5.IsWhole) (a6 : Memref sig .tc .vmem S1x512 .f32) (h6 : a6.IsWhole) (a7 : Memref sig .tc .vmem S1000x512 .f32) (h7 : a7.IsWhole) (a8 : Memref sig .tc .vmem S1x512 .f32) (h8 : a8.IsWhole) (a9 : Memref sig .tc .vmem S1x512 .f32) (h9 : a9.IsWhole) (hc : ¬cond4_0 i) (x0 x1 : Vec F S1000x256 .f32) (x2 : Vec F S256x512 .f32) (x3 : Vec F S1x512 .f32) (x4 : Vec F S512x512 .f32) (x5 : Vec F S1x512 .f32) (xo7 xo8 : Vec F S1x512 .f32) :
    out4_B_6 c i a1 h1 a2 h2 a3 h3 a4 h4 a5 h5 a6 h6 a7 h7 a8 h8 a9 h9 hc x0 x1 x2 x3 x4 x5 xo7 xo8 = k4_pay4 x0 x1 x2 x3 x4 x5 := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  (try sl_unfold_words)
  rw [View.canon_unit_zero hz4]
  simp only [View.readAt_eq_ld, h1.read_unread, h2.read_unread, h3.read_unread, h4.read_unread, h5.read_unread, h6.read_unread, h8.read_unread, h9.read_unread, View.ld_unit_zero (S := S1000x256) hz4, View.ld_unit_zero (S := S256x512) hz4, View.ld_unit_zero (S := S512x512) hz4, View.ld_unit_zero (S := S1x512) hz4]

/-- A later point: the first running row is what it held plus the block's column sums. -/
theorem piece4_B_7 (c : Dev nD) (i : grid4.Coords) (a1 : Memref sig .tc .vmem S1000x256 .f32) (h1 : a1.IsWhole) (a2 : Memref sig .tc .vmem S1000x256 .f32) (h2 : a2.IsWhole) (a3 : Memref sig .tc .vmem S256x512 .f32) (h3 : a3.IsWhole) (a4 : Memref sig .tc .vmem S1x512 .f32) (h4 : a4.IsWhole) (a5 : Memref sig .tc .vmem S512x512 .f32) (h5 : a5.IsWhole) (a6 : Memref sig .tc .vmem S1x512 .f32) (h6 : a6.IsWhole) (a7 : Memref sig .tc .vmem S1000x512 .f32) (h7 : a7.IsWhole) (a8 : Memref sig .tc .vmem S1x512 .f32) (h8 : a8.IsWhole) (a9 : Memref sig .tc .vmem S1x512 .f32) (h9 : a9.IsWhole) (hc : ¬cond4_0 i) (x0 x1 : Vec F S1000x256 .f32) (x2 : Vec F S256x512 .f32) (x3 : Vec F S1x512 .f32) (x4 : Vec F S512x512 .f32) (x5 : Vec F S1x512 .f32) (xo7 xo8 : Vec F S1x512 .f32) :
    out4_B_7 c i a1 h1 a2 h2 a3 h3 a4 h4 a5 h5 a6 h6 a7 h7 a8 h8 a9 h9 hc x0 x1 x2 x3 x4 x5 xo7 xo8 = k4_pay5 x0 x1 x2 x3 x4 x5 xo7 := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  (try sl_unfold_words)
  rw [View.canon_unit_zero hz4]
  simp only [View.readAt_eq_ld, h1.read_unread, h2.read_unread, h3.read_unread, h4.read_unread, h5.read_unread, h6.read_unread, h8.read_unread, h9.read_unread, View.ld_unit_zero (S := S1000x256) hz4, View.ld_unit_zero (S := S256x512) hz4, View.ld_unit_zero (S := S512x512) hz4, View.ld_unit_zero (S := S1x512) hz4]

/-- A later point: the second running row is what it held plus the column sums of the block's squares. -/
theorem piece4_B_8 (c : Dev nD) (i : grid4.Coords) (a1 : Memref sig .tc .vmem S1000x256 .f32) (h1 : a1.IsWhole) (a2 : Memref sig .tc .vmem S1000x256 .f32) (h2 : a2.IsWhole) (a3 : Memref sig .tc .vmem S256x512 .f32) (h3 : a3.IsWhole) (a4 : Memref sig .tc .vmem S1x512 .f32) (h4 : a4.IsWhole) (a5 : Memref sig .tc .vmem S512x512 .f32) (h5 : a5.IsWhole) (a6 : Memref sig .tc .vmem S1x512 .f32) (h6 : a6.IsWhole) (a7 : Memref sig .tc .vmem S1000x512 .f32) (h7 : a7.IsWhole) (a8 : Memref sig .tc .vmem S1x512 .f32) (h8 : a8.IsWhole) (a9 : Memref sig .tc .vmem S1x512 .f32) (h9 : a9.IsWhole) (hc : ¬cond4_0 i) (x0 x1 : Vec F S1000x256 .f32) (x2 : Vec F S256x512 .f32) (x3 : Vec F S1x512 .f32) (x4 : Vec F S512x512 .f32) (x5 : Vec F S1x512 .f32) (xo7 xo8 : Vec F S1x512 .f32) :
    out4_B_8 c i a1 h1 a2 h2 a3 h3 a4 h4 a5 h5 a6 h6 a7 h7 a8 h8 a9 h9 hc x0 x1 x2 x3 x4 x5 xo7 xo8 = k4_pay1 (k4_pay4 x0 x1 x2 x3 x4 x5) xo8 := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  (try sl_unfold_words)
  rw [View.canon_unit_zero hz4]
  simp only [View.readAt_eq_ld, h1.read_unread, h2.read_unread, h3.read_unread, h4.read_unread, h5.read_unread, h6.read_unread, h8.read_unread, h9.read_unread, View.ld_unit_zero (S := S1000x256) hz4, View.ld_unit_zero (S := S256x512) hz4, View.ld_unit_zero (S := S512x512) hz4, View.ld_unit_zero (S := S1x512) hz4]

/-- The first point: the block of h is the perceptron of the loaded blocks. -/
theorem piece4_A_6 (c : Dev nD) (i : grid4.Coords) (a1 : Memref sig .tc .vmem S1000x256 .f32) (h1 : a1.IsWhole) (a2 : Memref sig .tc .vmem S1000x256 .f32) (h2 : a2.IsWhole) (a3 : Memref sig .tc .vmem S256x512 .f32) (h3 : a3.IsWhole) (a4 : Memref sig .tc .vmem S1x512 .f32) (h4 : a4.IsWhole) (a5 : Memref sig .tc .vmem S512x512 .f32) (h5 : a5.IsWhole) (a6 : Memref sig .tc .vmem S1x512 .f32) (h6 : a6.IsWhole) (a7 : Memref sig .tc .vmem S1000x512 .f32) (h7 : a7.IsWhole) (a8 : Memref sig .tc .vmem S1x512 .f32) (h8 : a8.IsWhole) (a9 : Memref sig .tc .vmem S1x512 .f32) (h9 : a9.IsWhole) (hc : cond4_0 i) (x0 x1 : Vec F S1000x256 .f32) (x2 : Vec F S256x512 .f32) (x3 : Vec F S1x512 .f32) (x4 : Vec F S512x512 .f32) (x5 : Vec F S1x512 .f32) :
    out4_A_6 c i a1 h1 a2 h2 a3 h3 a4 h4 a5 h5 a6 h6 a7 h7 a8 h8 a9 h9 hc x0 x1 x2 x3 x4 x5 = k4_pay4 x0 x1 x2 x3 x4 x5 := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  (try sl_unfold_words)
  rw [View.canon_unit_zero hz4]
  simp only [View.readAt_eq_ld, h1.read_unread, h2.read_unread, h3.read_unread, h4.read_unread, h5.read_unread, h6.read_unread, View.ld_unit_zero (S := S1000x256) hz4, View.ld_unit_zero (S := S256x512) hz4, View.ld_unit_zero (S := S512x512) hz4, View.ld_unit_zero (S := S1x512) hz4]

/-- The first point: the first running row is the zero row plus the block's column sums. -/
theorem piece4_A_7 (c : Dev nD) (i : grid4.Coords) (a1 : Memref sig .tc .vmem S1000x256 .f32) (h1 : a1.IsWhole) (a2 : Memref sig .tc .vmem S1000x256 .f32) (h2 : a2.IsWhole) (a3 : Memref sig .tc .vmem S256x512 .f32) (h3 : a3.IsWhole) (a4 : Memref sig .tc .vmem S1x512 .f32) (h4 : a4.IsWhole) (a5 : Memref sig .tc .vmem S512x512 .f32) (h5 : a5.IsWhole) (a6 : Memref sig .tc .vmem S1x512 .f32) (h6 : a6.IsWhole) (a7 : Memref sig .tc .vmem S1000x512 .f32) (h7 : a7.IsWhole) (a8 : Memref sig .tc .vmem S1x512 .f32) (h8 : a8.IsWhole) (a9 : Memref sig .tc .vmem S1x512 .f32) (h9 : a9.IsWhole) (hc : cond4_0 i) (x0 x1 : Vec F S1000x256 .f32) (x2 : Vec F S256x512 .f32) (x3 : Vec F S1x512 .f32) (x4 : Vec F S512x512 .f32) (x5 : Vec F S1x512 .f32) :
    out4_A_7 c i a1 h1 a2 h2 a3 h3 a4 h4 a5 h5 a6 h6 a7 h7 a8 h8 a9 h9 hc x0 x1 x2 x3 x4 x5 = k4_pay5 x0 x1 x2 x3 x4 x5 k4_pay2 := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  (try sl_unfold_words)
  rw [View.canon_cons_unit_zero (S := S1x512) hz4, View.readCov_unit_zero (S := S1x512) _ hz4]
  simp only [View.readAt_eq_ld, h1.read_unread, h2.read_unread, h3.read_unread, h4.read_unread, h5.read_unread, h6.read_unread, View.ld_unit_zero (S := S1000x256) hz4, View.ld_unit_zero (S := S256x512) hz4, View.ld_unit_zero (S := S512x512) hz4, View.ld_unit_zero (S := S1x512) hz4]

/-- The first point: the second running row is the zero row plus the column sums of the block's squares. -/
theorem piece4_A_8 (c : Dev nD) (i : grid4.Coords) (a1 : Memref sig .tc .vmem S1000x256 .f32) (h1 : a1.IsWhole) (a2 : Memref sig .tc .vmem S1000x256 .f32) (h2 : a2.IsWhole) (a3 : Memref sig .tc .vmem S256x512 .f32) (h3 : a3.IsWhole) (a4 : Memref sig .tc .vmem S1x512 .f32) (h4 : a4.IsWhole) (a5 : Memref sig .tc .vmem S512x512 .f32) (h5 : a5.IsWhole) (a6 : Memref sig .tc .vmem S1x512 .f32) (h6 : a6.IsWhole) (a7 : Memref sig .tc .vmem S1000x512 .f32) (h7 : a7.IsWhole) (a8 : Memref sig .tc .vmem S1x512 .f32) (h8 : a8.IsWhole) (a9 : Memref sig .tc .vmem S1x512 .f32) (h9 : a9.IsWhole) (hc : cond4_0 i) (x0 x1 : Vec F S1000x256 .f32) (x2 : Vec F S256x512 .f32) (x3 : Vec F S1x512 .f32) (x4 : Vec F S512x512 .f32) (x5 : Vec F S1x512 .f32) :
    out4_A_8 c i a1 h1 a2 h2 a3 h3 a4 h4 a5 h5 a6 h6 a7 h7 a8 h8 a9 h9 hc x0 x1 x2 x3 x4 x5 = k4_pay1 (k4_pay4 x0 x1 x2 x3 x4 x5) k4_pay3 := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  (try sl_unfold_words)
  rw [View.canon_cons_unit_zero (S := S1x512) hz4, View.readCov_unit_zero (S := S1x512) _ hz4]
  simp only [View.readAt_eq_ld, h1.read_unread, h2.read_unread, h3.read_unread, h4.read_unread, h5.read_unread, h6.read_unread, View.ld_unit_zero (S := S1000x256) hz4, View.ld_unit_zero (S := S256x512) hz4, View.ld_unit_zero (S := S512x512) hz4, View.ld_unit_zero (S := S1x512) hz4]

end Cert.KernelIdeal.StatsValue

end
-- ==== Proof.Stats4Block.lean ====
/-
  Region 4 (widths 256 → 512): the blocks the body loads at a grid point, and the body's arithmetic of them, entry by entry.

  The grid has 20 points; at point t the windows of x and of the neighbourhood sums hold rows 1000·t … 1000·t + 999 of
  their arrays, the weights and bias rows are whole arrays, and so the block of h the body computes holds the rows
  1000·t + p of the perceptron  pre (r, j) = Σ_k max (Σ_c (X (r, c) + A (r, c)) · W1 (c, k) + b1 k, 0) · W2 (k, j) + b2 j.
  The two running rows grow by that block's column sums and by the column sums of its squares.
-/
import proofs.«137780_j52690658787578_1_alg».proof.Proof.Gen.KernelIdeal.Frame
import proofs.«137780_j52690658787578_1_alg».proof.Proof.GinSpec
import proofs.«137780_j52690658787578_1_alg».proof.Proof.LibMlpStats
import Idealize.ShloMosaic.Lib.Pipeline.Value
import Idealize.ShloMosaic.Lib.ValueIdx

set_option maxRecDepth 16384

noncomputable section

namespace Cert.KernelIdeal.StatsValue

open Idealize.ShloMosaic Idealize.ShloMosaic.TcCoe Idealize.ShloMosaic.ValueIdx Idealize.SL.Sem
open Idealize.ShloMosaic.Pipeline (Dat)
open Cert.KernelIdeal Cert.KernelIdeal.Gen
open Cert.LibMlpStats

variable (V : (c : Dev nD) → (b : Ref sig .tc) → Buf (Elt Ideal) ((c : Thread nD τ).loc b))

/-- Entry (r, j) of the perceptron of region 4, over the arrays the region finds on entry. -/
abbrev P4 (c : Dev nD) (r : Fin 20000) (j : Fin 512) : EReal :=
  Cert.Gin.pre (V c (Pipeline.arrRef spec4 0)) (V c (Pipeline.arrRef spec4 1)) (V c (Pipeline.arrRef spec4 2))
    (fun k => V c (Pipeline.arrRef spec4 3) (ix2 (0 : Fin 1) k)) (V c (Pipeline.arrRef spec4 4))
    (fun k => V c (Pipeline.arrRef spec4 5) (ix2 (0 : Fin 1) k)) r j

/-- The body's h block is the block perceptron of the library lemma, term for term. -/
theorem pay4_eq4 (x0 x1 : Vec Ideal S1000x256 .f32) (x2 : Vec Ideal S256x512 .f32) (x3 : Vec Ideal S1x512 .f32) (x4 : Vec Ideal S512x512 .f32) (x5 : Vec Ideal S1x512 .f32) :
    k4_pay4 (F := Ideal) x0 x1 x2 x3 x4 x5
      = mlp dot_S1000x256_S256x512_S1000x512_1_0_0_1_n_n_wf dot_S1000x512_S512x512_S1000x512_1_0_0_1_n_n_wf bitsLt_bf16_f32
          shapeCasts_S1000x256_S1000x256 shapeCasts_S1x512_S1x512 broadcasts_S1x512_S1000x512 x0 x1 x2 x3 x4 x5 := by
  show mlp _ _ _ _ _ _ (shapeCast S1000x256 x0 shapeCasts_S1000x256_S1000x256) x1 x2 x3 x4 x5 = _
  rw [shapeCast_self]

/-- The first running row's update is the library's column-sum update of the h block. -/
theorem pay5_eq4 (x0 x1 : Vec Ideal S1000x256 .f32) (x2 : Vec Ideal S256x512 .f32) (x3 : Vec Ideal S1x512 .f32) (x4 : Vec Ideal S512x512 .f32) (x5 : Vec Ideal S1x512 .f32) (acc : Vec Ideal S1x512 .f32) :
    k4_pay5 (F := Ideal) x0 x1 x2 x3 x4 x5 acc
      = accCols reduces_S1000x512_S512 (.inl rfl) rfl shapeCasts_S1x512_S1x512 shapeCasts_S512_S1x512 (k4_pay4 (F := Ideal) x0 x1 x2 x3 x4 x5) acc := rfl

/-- The second running row's update is the column-sum update of the squares. -/
theorem pay1_eq4 (v : FVec Ideal S1000x512 .f32) (acc : Vec Ideal S1x512 .f32) :
    k4_pay1 (F := Ideal) v acc
      = accCols reduces_S1000x512_S512 (.inl rfl) rfl shapeCasts_S1x512_S1x512 shapeCasts_S512_S1x512 (mulf v v) acc := rfl

/-- Row p of the block of point t, as a row of the whole array. -/
def row4 (t : Fin cfg4.N) (p : Fin 1000) : Fin 20000 :=
  ⟨1000 * t.val + p.val, by have hN : t.val < 20 := lt_of_lt_of_eq t.isLt (show cfg4.N = 20 from N_4); have := p.isLt; omega⟩

/-- The printed index maps, decided over the grid: the row-tiled windows sit at block (t, 0), the others at (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Entry (p, q) of window 0's block at point t of an array G is the array's entry at row 1000·t + p. -/
theorem rd4_0 (t : Fin cfg4.N) (G : S20000x256.Idx → EReal) (p : Fin 1000) (q : Fin 256) :
    (((cfg4.win 0).blk t).view.read (Elt Ideal) G : Vec Ideal S1000x256 .f32) (ix2 p q) = G (ix2 (row4 t p) q) := by
  rw [View.read_apply]
  show G _ = G _
  congr 1
  funext a
  apply Fin.ext
  obtain ⟨e0, e1, -⟩ := idx_facts4 t
  match a with
  | ⟨0, _⟩ => show win4_0.index t (0 : Fin 2) * 1000 + 1 * p.val = 1000 * t.val + p.val; rw [e0]; omega
  | ⟨1, _⟩ => show win4_0.index t (1 : Fin 2) * 256 + 1 * q.val = q.val; rw [e1]; omega

/-- Entry (p, q) of window 2's block at point t of an array G is the array's own entry (p, q): the block is the whole array. -/
theorem rd4_2 (t : Fin cfg4.N) (G : S256x512.Idx → EReal) (p : Fin 256) (q : Fin 512) :
    (((cfg4.win 2).blk t).view.read (Elt Ideal) G : Vec Ideal S256x512 .f32) (ix2 p q) = G (ix2 p q) := by
  rw [View.read_apply]
  show G _ = G _
  congr 1
  funext a
  apply Fin.ext
  obtain ⟨-, -, -, -, e0, e1, -⟩ := idx_facts4 t
  match a with
  | ⟨0, _⟩ => show win4_2.index t (0 : Fin 2) * 256 + 1 * p.val = p.val; rw [e0]; omega
  | ⟨1, _⟩ => show win4_2.index t (1 : Fin 2) * 512 + 1 * q.val = q.val; rw [e1]; omega

/-- Entry (p, q) of window 3's block at point t of an array G is the array's own entry (p, q): the block is the whole array. -/
theorem rd4_3 (t : Fin cfg4.N) (G : S1x512.Idx → EReal) (p : Fin 1) (q : Fin 512) :
    (((cfg4.win 3).blk t).view.read (Elt Ideal) G : Vec Ideal S1x512 .f32) (ix2 p q) = G (ix2 p q) := by
  rw [View.read_apply]
  show G _ = G _
  congr 1
  funext a
  apply Fin.ext
  obtain ⟨-, -, -, -, -, -, e0, e1, -⟩ := idx_facts4 t
  match a with
  | ⟨0, _⟩ => show win4_3.index t (0 : Fin 2) * 1 + 1 * p.val = p.val; rw [e0]; omega
  | ⟨1, _⟩ => show win4_3.index t (1 : Fin 2) * 512 + 1 * q.val = q.val; rw [e1]; omega

/-- Entry (p, q) of window 4's block at point t of an array G is the array's own entry (p, q): the block is the whole array. -/
theorem rd4_4 (t : Fin cfg4.N) (G : S512x512.Idx → EReal) (p : Fin 512) (q : Fin 512) :
    (((cfg4.win 4).blk t).view.read (Elt Ideal) G : Vec Ideal S512x512 .f32) (ix2 p q) = G (ix2 p q) := by
  rw [View.read_apply]
  show G _ = G _
  congr 1
  funext a
  apply Fin.ext
  obtain ⟨-, -, -, -, -, -, -, -, e0, e1, -⟩ := idx_facts4 t
  match a with
  | ⟨0, _⟩ => show win4_4.index t (0 : Fin 2) * 512 + 1 * p.val = p.val; rw [e0]; omega
  | ⟨1, _⟩ => show win4_4.index t (1 : Fin 2) * 512 + 1 * q.val = q.val; rw [e1]; omega

/-- Entry (p, q) of window 6's block at point t of an array G is the array's entry at row 1000·t + p. -/
theorem rd4_6 (t : Fin cfg4.N) (G : S20000x512.Idx → EReal) (p : Fin 1000) (q : Fin 512) :
    (((cfg4.win 6).blk t).view.read (Elt Ideal) G : Vec Ideal S1000x512 .f32) (ix2 p q) = G (ix2 (row4 t p) q) := by
  rw [View.read_apply]
  show G _ = G _
  congr 1
  funext a
  apply Fin.ext
  obtain ⟨-, -, -, -, -, -, -, -, -, -, -, -, e0, e1, -⟩ := idx_facts4 t
  match a with
  | ⟨0, _⟩ => show win4_6.index t (0 : Fin 2) * 1000 + 1 * p.val = 1000 * t.val + p.val; rw [e0]; omega
  | ⟨1, _⟩ => show win4_6.index t (1 : Fin 2) * 512 + 1 * q.val = q.val; rw [e1]; omega

/-- Entry (p, q) of window 7's block at point t of an array G is the array's own entry (p, q): the block is the whole array. -/
theorem rd4_7 (t : Fin cfg4.N) (G : S1x512.Idx → EReal) (p : Fin 1) (q : Fin 512) :
    (((cfg4.win 7).blk t).view.read (Elt Ideal) G : Vec Ideal S1x512 .f32) (ix2 p q) = G (ix2 p q) := by
  rw [View.read_apply]
  show G _ = G _
  congr 1
  funext a
  apply Fin.ext
  obtain ⟨-, -, -, -, -, -, -, -, -, -, -, -, -, -, e0, e1, -⟩ := idx_facts4 t
  match a with
  | ⟨0, _⟩ => show win4_7.index t (0 : Fin 2) * 1 + 1 * p.val = p.val; rw [e0]; omega
  | ⟨1, _⟩ => show win4_7.index t (1 : Fin 2) * 512 + 1 * q.val = q.val; rw [e1]; omega

/-- Entry (p, q) of window 1's block at point t of an array G is the array's entry at row 1000·t + p. -/
theorem rd4_1 (t : Fin cfg4.N) (G : S20000x256.Idx → EReal) (p : Fin 1000) (q : Fin 256) :
    (((cfg4.win 1).blk t).view.read (Elt Ideal) G : Vec Ideal S1000x256 .f32) (ix2 p q) = G (ix2 (row4 t p) q) := by
  rw [View.read_apply]
  show G _ = G _
  congr 1
  funext a
  apply Fin.ext
  obtain ⟨-, -, e0, e1, -⟩ := idx_facts4 t
  match a with
  | ⟨0, _⟩ => show win4_1.index t (0 : Fin 2) * 1000 + 1 * p.val = 1000 * t.val + p.val; rw [e0]; omega
  | ⟨1, _⟩ => show win4_1.index t (1 : Fin 2) * 256 + 1 * q.val = q.val; rw [e1]; omega

/-- Entry (p, q) of window 5's block at point t of an array G is the array's own entry (p, q): the block is the whole array. -/
theorem rd4_5 (t : Fin cfg4.N) (G : S1x512.Idx → EReal) (p : Fin 1) (q : Fin 512) :
    (((cfg4.win 5).blk t).view.read (Elt Ideal) G : Vec Ideal S1x512 .f32) (ix2 p q) = G (ix2 p q) := by
  rw [View.read_apply]
  show G _ = G _
  congr 1
  funext a
  apply Fin.ext
  obtain ⟨-, -, -, -, -, -, -, -, -, -, e0, e1, -⟩ := idx_facts4 t
  match a with
  | ⟨0, _⟩ => show win4_5.index t (0 : Fin 2) * 1 + 1 * p.val = p.val; rw [e0]; omega
  | ⟨1, _⟩ => show win4_5.index t (1 : Fin 2) * 512 + 1 * q.val = q.val; rw [e1]; omega

/-- Entry (p, q) of window 8's block at point t of an array G is the array's own entry (p, q): the block is the whole array. -/
theorem rd4_8 (t : Fin cfg4.N) (G : S1x512.Idx → EReal) (p : Fin 1) (q : Fin 512) :
    (((cfg4.win 8).blk t).view.read (Elt Ideal) G : Vec Ideal S1x512 .f32) (ix2 p q) = G (ix2 p q) := by
  rw [View.read_apply]
  show G _ = G _
  congr 1
  funext a
  apply Fin.ext
  obtain ⟨-, -, -, -, -, -, -, -, -, -, -, -, -, -, -, -, e0, e1⟩ := idx_facts4 t
  match a with
  | ⟨0, _⟩ => show win4_8.index t (0 : Fin 2) * 1 + 1 * p.val = p.val; rw [e0]; omega
  | ⟨1, _⟩ => show win4_8.index t (1 : Fin 2) * 512 + 1 * q.val = q.val; rw [e1]; omega

theorem blk4_0 (c : Dev nD) (t : Fin cfg4.N) (p : Fin 1000) (q : Fin 256) :
    (iblk4 V c 0 t : Vec Ideal S1000x256 .f32) (ix2 p q) = V c (Pipeline.arrRef spec4 0) (ix2 (row4 t p) q) :=
  rd4_0 t (V c (Pipeline.arrRef spec4 0)) p q

theorem blk4_1 (c : Dev nD) (t : Fin cfg4.N) (p : Fin 1000) (q : Fin 256) :
    (iblk4 V c 1 t : Vec Ideal S1000x256 .f32) (ix2 p q) = V c (Pipeline.arrRef spec4 1) (ix2 (row4 t p) q) :=
  rd4_1 t (V c (Pipeline.arrRef spec4 1)) p q

theorem blk4_2 (c : Dev nD) (t : Fin cfg4.N) (p : Fin 256) (q : Fin 512) :
    (iblk4 V c 2 t : Vec Ideal S256x512 .f32) (ix2 p q) = V c (Pipeline.arrRef spec4 2) (ix2 p q) :=
  rd4_2 t (V c (Pipeline.arrRef spec4 2)) p q

theorem blk4_3 (c : Dev nD) (t : Fin cfg4.N) (p : Fin 1) (q : Fin 512) :
    (iblk4 V c 3 t : Vec Ideal S1x512 .f32) (ix2 p q) = V c (Pipeline.arrRef spec4 3) (ix2 p q) :=
  rd4_3 t (V c (Pipeline.arrRef spec4 3)) p q

theorem blk4_4 (c : Dev nD) (t : Fin cfg4.N) (p : Fin 512) (q : Fin 512) :
    (iblk4 V c 4 t : Vec Ideal S512x512 .f32) (ix2 p q) = V c (Pipeline.arrRef spec4 4) (ix2 p q) :=
  rd4_4 t (V c (Pipeline.arrRef spec4 4)) p q

theorem blk4_5 (c : Dev nD) (t : Fin cfg4.N) (p : Fin 1) (q : Fin 512) :
    (iblk4 V c 5 t : Vec Ideal S1x512 .f32) (ix2 p q) = V c (Pipeline.arrRef spec4 5) (ix2 p q) :=
  rd4_5 t (V c (Pipeline.arrRef spec4 5)) p q

/-- The block of h the body computes at point t. -/
def Pblk4 (c : Dev nD) (t : Fin cfg4.N) : FVec Ideal S1000x512 .f32 :=
  k4_pay4 (F := Ideal) (iblk4 V c 0 t) (iblk4 V c 1 t) (iblk4 V c 2 t) (iblk4 V c 3 t) (iblk4 V c 4 t) (iblk4 V c 5 t)

/-- Its entry (p, q) is entry (1000·t + p, q) of the perceptron over the whole arrays. -/
theorem Pblk4_apply (c : Dev nD) (t : Fin cfg4.N) (p : Fin 1000) (q : Fin 512) :
    Pblk4 V c t (ix2 p q) = P4 V c (row4 t p) q := by
  refine (congrFun (pay4_eq4 (iblk4 V c 0 t) (iblk4 V c 1 t) (iblk4 V c 2 t) (iblk4 V c 3 t) (iblk4 V c 4 t) (iblk4 V c 5 t)) (ix2 p q)).trans ?_
  refine (mlp_apply _ _ _ _ _ _ (iblk4 V c 0 t) (iblk4 V c 1 t) (iblk4 V c 2 t) (iblk4 V c 3 t) (iblk4 V c 4 t) (iblk4 V c 5 t) p q).trans ?_
  show _ = Cert.Gin.pre _ _ _ _ _ _ _ _
  unfold Cert.Gin.pre
  simp only [blk4_0 V c t, blk4_1 V c t, blk4_2 V c t, blk4_3 V c t, blk4_4 V c t, blk4_5 V c t]

/-- The first running row after point t, entry q: what it held plus Σ_p pre (1000·t + p, q). -/
theorem pay5_apply4 (c : Dev nD) (t : Fin cfg4.N) (acc : Vec Ideal S1x512 .f32) (u : Fin 1) (q : Fin 512) :
    k4_pay5 (F := Ideal) (iblk4 V c 0 t) (iblk4 V c 1 t) (iblk4 V c 2 t) (iblk4 V c 3 t) (iblk4 V c 4 t) (iblk4 V c 5 t) acc (ix2 u q)
      = acc (ix2 u q) + ∑ p : Fin 1000, P4 V c (row4 t p) q := by
  refine (congrFun (pay5_eq4 (iblk4 V c 0 t) (iblk4 V c 1 t) (iblk4 V c 2 t) (iblk4 V c 3 t) (iblk4 V c 4 t) (iblk4 V c 5 t) acc) (ix2 u q)).trans ?_
  refine (accCols_apply _ _ _ _ _ (Pblk4 V c t) acc u q).trans ?_
  exact congrArg (acc (ix2 u q) + ·) (Finset.sum_congr rfl fun p _ => Pblk4_apply V c t p q)

/-- The second running row after point t, entry q: what it held plus Σ_p pre (1000·t + p, q)². -/
theorem pay1_apply4 (c : Dev nD) (t : Fin cfg4.N) (acc : Vec Ideal S1x512 .f32) (u : Fin 1) (q : Fin 512) :
    k4_pay1 (F := Ideal) (Pblk4 V c t) acc (ix2 u q)
      = acc (ix2 u q) + ∑ p : Fin 1000, P4 V c (row4 t p) q * P4 V c (row4 t p) q := by
  refine (congrFun (pay1_eq4 (Pblk4 V c t) acc) (ix2 u q)).trans ?_
  refine (accCols_apply _ _ _ _ _ (mulf (Pblk4 V c t) (Pblk4 V c t)) acc u q).trans ?_
  refine congrArg (acc (ix2 u q) + ·) (Finset.sum_congr rfl fun p _ => ?_)
  rw [mulf_apply, Pblk4_apply]

/-- The zero rows the first point stores read 0 at every entry. -/
theorem zero7_4 (u : Fin 1) (q : Fin 512) : k4_pay2 (F := Ideal) (ix2 u q) = 0 := Ideal.ofBits_zero_f32
theorem zero8_4 (u : Fin 1) (q : Fin 512) : k4_pay3 (F := Ideal) (ix2 u q) = 0 := Ideal.ofBits_zero_f32

end Cert.KernelIdeal.StatsValue

end
-- ==== Proof.Stats4.lean ====
/-
  Region 4 (widths 256 → 512) as whole arrays: after the 20 grid points the array of h holds the perceptron
  pre (r, j) at every row r < 20000, and the two one-row arrays hold, at column j,  Σ_r pre (r, j)  and  Σ_r pre (r, j)².

  The running rows start from zero at the first point and grow at point t by the sums over the rows 1000·t … 1000·t + 999;
  after point n they hold the sums over the rows below 1000·(n + 1) (induction on the point), and the sum over the
  20000 rows taken 1000 at a time is the one sum: on the extended reals addition is associative and commutative with
  unit 0, so no finiteness is needed.  The array of h is written back block by block and the blocks tile it; each
  running row is written back once, after the last point.
-/
import proofs.«137780_j52690658787578_1_alg».proof.Proof.Stats4Pieces
import proofs.«137780_j52690658787578_1_alg».proof.Proof.Stats4Block
import proofs.«137780_j52690658787578_1_alg».proof.Proof.LibBlockSum

set_option maxRecDepth 16384

noncomputable section

namespace Cert.KernelIdeal.StatsValue

open Idealize.ShloMosaic Idealize.ShloMosaic.TcCoe Idealize.ShloMosaic.ValueIdx Idealize.SL.Sem
open Idealize.ShloMosaic.Pipeline (Dat)
open Cert.KernelIdeal Cert.KernelIdeal.Gen
open Cert.LibMlpStats

variable (V : (c : Dev nD) → (b : Ref sig .tc) → Buf (Elt Ideal) ((c : Thread nD τ).loc b))

/-- What the three output blocks hold after the first point. -/
theorem step4_A (c : Dev nD) (t : Fin cfg4.N) (h0 : t.val % 20 = 0) :
    outsAt4 V c t.val t.isLt = (Pblk4 V c t, k4_pay5 (F := Ideal) (iblk4 V c 0 t) (iblk4 V c 1 t) (iblk4 V c 2 t) (iblk4 V c 3 t) (iblk4 V c 4 t) (iblk4 V c 5 t) (k4_pay2 (F := Ideal)),
      k4_pay1 (F := Ideal) (Pblk4 V c t) (k4_pay3 (F := Ideal))) := by
  rw [outsAt4_A V c t h0]
  exact congrArg₂ Prod.mk (piece4_A_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t))
    (congrArg₂ Prod.mk (piece4_A_7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t))
      (piece4_A_8 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)))

/-- What they hold after a later point, over what the point before left in the two running rows. -/
theorem step4_B (c : Dev nD) (t : Fin cfg4.N) (h0 : ¬t.val % 20 = 0) :
    outsAt4 V c t.val t.isLt = (Pblk4 V c t, k4_pay5 (F := Ideal) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1,
      k4_pay1 (F := Ideal) (Pblk4 V c t) (outsAt4 V c (t.val - 1) (Nat.lt_of_le_of_lt (Nat.sub_le _ _) t.isLt)).2.2) := by
  rw [outsAt4_B V c t h0]
  exact congrArg₂ Prod.mk (piece4_B_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2)
    (congrArg₂ Prod.mk (piece4_B_7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2)
      (piece4_B_8 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2))

/-- The block of h after point n is block n of the perceptron. -/
theorem outs6_4 (c : Dev nD) (t : Fin cfg4.N) : (outsAt4 V c t.val t.isLt).1 = Pblk4 V c t := by
  by_cases h0 : t.val % 20 = 0
  · rw [step4_A V c t h0]
  · rw [step4_B V c t h0]

/-- Column q's sum over the rows of block k (zero past the grid). -/
def S4 (c : Dev nD) (q : Fin 512) (k : ℕ) : EReal :=
  if hk : k < 20 then ∑ p : Fin 1000, P4 V c ⟨1000 * k + p.val, by have := p.isLt; omega⟩ q else 0

/-- Column q's sum of squares over the rows of block k (zero past the grid). -/
def Q4 (c : Dev nD) (q : Fin 512) (k : ℕ) : EReal :=
  if hk : k < 20 then ∑ p : Fin 1000, P4 V c ⟨1000 * k + p.val, by have := p.isLt; omega⟩ q * P4 V c ⟨1000 * k + p.val, by have := p.isLt; omega⟩ q else 0

theorem S4_eq (c : Dev nD) (q : Fin 512) (t : Fin cfg4.N) :
    S4 V c q t.val = ∑ p : Fin 1000, P4 V c (row4 t p) q := by
  have hN : t.val < 20 := lt_of_lt_of_eq t.isLt (show cfg4.N = 20 from N_4)
  unfold S4; rw [dif_pos hN]; rfl

theorem Q4_eq (c : Dev nD) (q : Fin 512) (t : Fin cfg4.N) :
    Q4 V c q t.val = ∑ p : Fin 1000, P4 V c (row4 t p) q * P4 V c (row4 t p) q := by
  have hN : t.val < 20 := lt_of_lt_of_eq t.isLt (show cfg4.N = 20 from N_4)
  unfold Q4; rw [dif_pos hN]; rfl

/-- After point n the running rows hold the sums over the blocks 0 … n. -/
theorem inv4 (c : Dev nD) : ∀ (n : ℕ) (h : n < cfg4.N) (u : Fin 1) (q : Fin 512),
    (outsAt4 V c n h).2.1 (ix2 u q) = ∑ k ∈ Finset.range (n + 1), S4 V c q k
    ∧ (outsAt4 V c n h).2.2 (ix2 u q) = ∑ k ∈ Finset.range (n + 1), Q4 V c q k
  | 0, h, u, q => by
    have e : outsAt4 V c 0 h = _ := step4_A V c ⟨0, h⟩ rfl
    rw [e]
    refine ⟨?_, ?_⟩
    · refine (pay5_apply4 V c ⟨0, h⟩ _ u q).trans ?_
      rw [zero7_4, zero_add, Finset.sum_range_succ, Finset.sum_range_zero, zero_add]
      exact (S4_eq V c q ⟨0, h⟩).symm
    · refine (pay1_apply4 V c ⟨0, h⟩ _ u q).trans ?_
      rw [zero8_4, zero_add, Finset.sum_range_succ, Finset.sum_range_zero, zero_add]
      exact (Q4_eq V c q ⟨0, h⟩).symm
  | n + 1, h, u, q => by
    have hN : cfg4.N = 20 := N_4
    have hB : ¬(⟨n + 1, h⟩ : Fin cfg4.N).val % 20 = 0 := by dsimp only; omega
    have e : outsAt4 V c (n + 1) h = _ := step4_B V c ⟨n + 1, h⟩ hB
    obtain ⟨i1, i2⟩ := inv4 c n (Nat.lt_of_succ_lt h) u q
    rw [e]
    refine ⟨?_, ?_⟩
    · refine (pay5_apply4 V c ⟨n + 1, h⟩ _ u q).trans ?_
      rw [Finset.sum_range_succ _ (n + 1)]
      exact congrArg₂ (· + ·) i1 (S4_eq V c q ⟨n + 1, h⟩).symm
    · refine (pay1_apply4 V c ⟨n + 1, h⟩ _ u q).trans ?_
      rw [Finset.sum_range_succ _ (n + 1)]
      exact congrArg₂ (· + ·) i2 (Q4_eq V c q ⟨n + 1, h⟩).symm

/-- The sums over the 20 blocks are the sums over the 20000 rows. -/
theorem total4 (c : Dev nD) (q : Fin 512) :
    ∑ k ∈ Finset.range (19 + 1), S4 V c q k = ∑ r : Fin 20000, P4 V c r q :=
  (Cert.LibBlockSum.sum_blocks 20 1000 (fun r : Fin 20000 => P4 V c r q)).symm

theorem totalsq4 (c : Dev nD) (q : Fin 512) :
    ∑ k ∈ Finset.range (19 + 1), Q4 V c q k = ∑ r : Fin 20000, P4 V c r q * P4 V c r q :=
  (Cert.LibBlockSum.sum_blocks 20 1000 (fun r : Fin 20000 => P4 V c r q * P4 V c r q)).symm

/-! ## The array of h -/

/-- The perceptron as contents of the array of h. -/
def H4 (c : Dev nD) : S20000x512.Idx → EReal := fun i => P4 V c (i 0) (i 1)

/-- An index of output 6's array is in point t's block iff each coordinate is in the block's range on its axis. -/
theorem mem_blk4_6 (t : Fin cfg4.N) (i : S20000x512.Idx) :
    i ∈ ((cfg4.win 6).blk t).view.set ↔ ∀ a : Fin 2, win4_6.index t a * S1000x512.size a ≤ (i a).val ∧ (i a).val < win4_6.index t a * S1000x512.size a + S1000x512.size a := by
  show i ∈ ((View.whole main_v74_0).slice (win4_6.rect t)).set ↔ _
  rw [View.set_slice_whole, Rect.mem_set_unit]
  exact Iff.rfl

/-- What point t writes back is block t of the perceptron. -/
theorem flushed4_6 (c : Dev nD) (t : Fin cfg4.N) :
    (dat4 V c).flushed 6 t = ((cfg4.win 6).blk t).view.read (Elt Ideal) (H4 V c) := by
  show (cfg4.win 6).cut (grid4.coords t) ((dat4 V c).after 6 t) = _
  rw [after4_6, outs6_4]
  have key : ∀ (p : Fin 1000) (q : Fin 512), Pblk4 V c t (ix2 p q)
      = (((cfg4.win 6).blk t).view.read (Elt Ideal) (H4 V c) : Vec Ideal S1000x512 .f32) (ix2 p q) := fun p q => by
    rw [rd4_6 t (H4 V c) p q, Pblk4_apply]; rfl
  refine funext fun (y : S1000x512.Idx) => ?_
  obtain ⟨p, q, rfl⟩ : ∃ (p : Fin 1000) (q : Fin 512), y = ix2 p q := ⟨y 0, y 1, eq_ix2 y⟩
  exact key p q

/-- Every row r lies in the block of point r / 1000. -/
theorem covered4_6 (i : S20000x512.Idx) : ∃ t : Fin cfg4.N, (cfg4.win 6).flush t = true ∧ i ∈ ((cfg4.win 6).blk t).view.set := by
  have hi0 : (i 0).val < 20000 := (i 0).isLt
  have hi1 : (i 1).val < 512 := (i 1).isLt
  have hN : cfg4.N = 20 := N_4
  obtain ⟨t, ht⟩ : ∃ t : Fin cfg4.N, t.val = (i 0).val / 1000 := ⟨⟨(i 0).val / 1000, by rw [hN]; omega⟩, rfl⟩
  obtain ⟨-, -, -, -, -, -, -, -, -, -, -, -, e0, e1, -⟩ := idx_facts4 t
  refine ⟨t, flush4_6 t, ?_⟩
  rw [mem_blk4_6]
  intro a
  match a with
  | ⟨0, _⟩ => show win4_6.index t (0 : Fin 2) * 1000 ≤ (i 0).val ∧ (i 0).val < win4_6.index t (0 : Fin 2) * 1000 + 1000; rw [e0, ht]; omega
  | ⟨1, _⟩ => show win4_6.index t (1 : Fin 2) * 512 ≤ (i 1).val ∧ (i 1).val < win4_6.index t (1 : Fin 2) * 512 + 512; rw [e1]; omega

/-- So the array of h ends holding the perceptron. -/
theorem arr4_6 (c : Dev nD) : (dat4 V c).arrAt 6 cfg4.N = H4 V c :=
  (dat4 V c).arrAt_eq_of_cover 6 (H4 V c) (fun t _ => flushed4_6 V c t) covered4_6

/-! ## The two running rows -/

/-- The column sums, and the column sums of squares, as contents of the one-row arrays. -/
def Sum4 (c : Dev nD) : S1x512.Idx → EReal := fun i => ∑ r : Fin 20000, P4 V c r (i 1)
def SumSq4 (c : Dev nD) : S1x512.Idx → EReal := fun i => ∑ r : Fin 20000, P4 V c r (i 1) * P4 V c r (i 1)

/-- An index of output 7's array is in point t's block iff each coordinate is in the block's range on its axis. -/
theorem mem_blk4_7 (t : Fin cfg4.N) (i : S1x512.Idx) :
    i ∈ ((cfg4.win 7).blk t).view.set ↔ ∀ a : Fin 2, win4_7.index t a * S1x512.size a ≤ (i a).val ∧ (i a).val < win4_7.index t a * S1x512.size a + S1x512.size a := by
  show i ∈ ((View.whole main_v74_1).slice (win4_7.rect t)).set ↔ _
  rw [View.set_slice_whole, Rect.mem_set_unit]
  exact Iff.rfl

/-- An index of output 8's array is in point t's block iff each coordinate is in the block's range on its axis. -/
theorem mem_blk4_8 (t : Fin cfg4.N) (i : S1x512.Idx) :
    i ∈ ((cfg4.win 8).blk t).view.set ↔ ∀ a : Fin 2, win4_8.index t a * S1x512.size a ≤ (i a).val ∧ (i a).val < win4_8.index t a * S1x512.size a + S1x512.size a := by
  show i ∈ ((View.whole main_v74_2).slice (win4_8.rect t)).set ↔ _
  rw [View.set_slice_whole, Rect.mem_set_unit]
  exact Iff.rfl

/-- The one write-back of running row 7, at the last point, writes the column sums over all 20000 rows. -/
theorem flushed4_7 (c : Dev nD) (t : Fin cfg4.N) (hf : (cfg4.win 7).flush t = true) :
    (dat4 V c).flushed 7 t = ((cfg4.win 7).blk t).view.read (Elt Ideal) (Sum4 V c) := by
  have hN : cfg4.N = 20 := N_4
  have h19 : t.val = 19 := by have := (flush4_7 t).mp hf; have := t.isLt; omega
  show (cfg4.win 7).cut (grid4.coords t) ((dat4 V c).after 7 t) = _
  rw [after4_7]
  have key : ∀ (u : Fin 1) (q : Fin 512), ((outsAt4 V c t.val t.isLt).2.1 : Vec Ideal S1x512 .f32) (ix2 u q)
      = (((cfg4.win 7).blk t).view.read (Elt Ideal) (Sum4 V c) : Vec Ideal S1x512 .f32) (ix2 u q) := fun u q => by
    rw [rd4_7 t (Sum4 V c) u q, (inv4 V c t.val t.isLt u q).1]
    show _ = ∑ r : Fin 20000, P4 V c r q
    rw [h19]
    exact total4 V c q
  refine funext fun (y : S1x512.Idx) => ?_
  obtain ⟨p, q, rfl⟩ : ∃ (p : Fin 1) (q : Fin 512), y = ix2 p q := ⟨y 0, y 1, eq_ix2 y⟩
  exact key p q

/-- Every entry of running row 7's array is in the last point's block. -/
theorem covered4_7 (i : S1x512.Idx) : ∃ t : Fin cfg4.N, (cfg4.win 7).flush t = true ∧ i ∈ ((cfg4.win 7).blk t).view.set := by
  have hi0 : (i 0).val < 1 := (i 0).isLt
  have hi1 : (i 1).val < 512 := (i 1).isLt
  have hN : cfg4.N = 20 := N_4
  obtain ⟨t, ht⟩ : ∃ t : Fin cfg4.N, t.val = 19 := ⟨⟨19, by rw [hN]; omega⟩, rfl⟩
  obtain ⟨-, -, -, -, -, -, -, -, -, -, -, -, -, -, e0, e1, -⟩ := idx_facts4 t
  refine ⟨t, (flush4_7 t).mpr (by rw [ht]), ?_⟩
  rw [mem_blk4_7]
  intro a
  match a with
  | ⟨0, _⟩ => show win4_7.index t (0 : Fin 2) * 1 ≤ (i 0).val ∧ (i 0).val < win4_7.index t (0 : Fin 2) * 1 + 1; rw [e0]; omega
  | ⟨1, _⟩ => show win4_7.index t (1 : Fin 2) * 512 ≤ (i 1).val ∧ (i 1).val < win4_7.index t (1 : Fin 2) * 512 + 512; rw [e1]; omega

/-- So running row 7's array ends holding the column sums. -/
theorem arr4_7 (c : Dev nD) : (dat4 V c).arrAt 7 cfg4.N = Sum4 V c :=
  (dat4 V c).arrAt_eq_of_cover 7 (Sum4 V c) (flushed4_7 V c) covered4_7

/-- The one write-back of running row 8, at the last point, writes the column sums of squares over all 20000 rows. -/
theorem flushed4_8 (c : Dev nD) (t : Fin cfg4.N) (hf : (cfg4.win 8).flush t = true) :
    (dat4 V c).flushed 8 t = ((cfg4.win 8).blk t).view.read (Elt Ideal) (SumSq4 V c) := by
  have hN : cfg4.N = 20 := N_4
  have h19 : t.val = 19 := by have := (flush4_8 t).mp hf; have := t.isLt; omega
  show (cfg4.win 8).cut (grid4.coords t) ((dat4 V c).after 8 t) = _
  rw [after4_8]
  have key : ∀ (u : Fin 1) (q : Fin 512), ((outsAt4 V c t.val t.isLt).2.2 : Vec Ideal S1x512 .f32) (ix2 u q)
      = (((cfg4.win 8).blk t).view.read (Elt Ideal) (SumSq4 V c) : Vec Ideal S1x512 .f32) (ix2 u q) := fun u q => by
    rw [rd4_8 t (SumSq4 V c) u q, (inv4 V c t.val t.isLt u q).2]
    show _ = ∑ r : Fin 20000, P4 V c r q * P4 V c r q
    rw [h19]
    exact totalsq4 V c q
  refine funext fun (y : S1x512.Idx) => ?_
  obtain ⟨p, q, rfl⟩ : ∃ (p : Fin 1) (q : Fin 512), y = ix2 p q := ⟨y 0, y 1, eq_ix2 y⟩
  exact key p q

/-- Every entry of running row 8's array is in the last point's block. -/
theorem covered4_8 (i : S1x512.Idx) : ∃ t : Fin cfg4.N, (cfg4.win 8).flush t = true ∧ i ∈ ((cfg4.win 8).blk t).view.set := by
  have hi0 : (i 0).val < 1 := (i 0).isLt
  have hi1 : (i 1).val < 512 := (i 1).isLt
  have hN : cfg4.N = 20 := N_4
  obtain ⟨t, ht⟩ : ∃ t : Fin cfg4.N, t.val = 19 := ⟨⟨19, by rw [hN]; omega⟩, rfl⟩
  obtain ⟨-, -, -, -, -, -, -, -, -, -, -, -, -, -, -, -, e0, e1⟩ := idx_facts4 t
  refine ⟨t, (flush4_8 t).mpr (by rw [ht]), ?_⟩
  rw [mem_blk4_8]
  intro a
  match a with
  | ⟨0, _⟩ => show win4_8.index t (0 : Fin 2) * 1 ≤ (i 0).val ∧ (i 0).val < win4_8.index t (0 : Fin 2) * 1 + 1; rw [e0]; omega
  | ⟨1, _⟩ => show win4_8.index t (1 : Fin 2) * 512 ≤ (i 1).val ∧ (i 1).val < win4_8.index t (1 : Fin 2) * 512 + 512; rw [e1]; omega

/-- So running row 8's array ends holding the column sums of squares. -/
theorem arr4_8 (c : Dev nD) : (dat4 V c).arrAt 8 cfg4.N = SumSq4 V c :=
  (dat4 V c).arrAt_eq_of_cover 8 (SumSq4 V c) (flushed4_8 V c) covered4_8

/-! ## The three arrays, entry by entry -/

theorem h4 (c : Dev nD) (r : Fin 20000) (j : Fin 512) :
    (Gen.dat4 (F := Ideal) V c).arrAt 6 cfg4.N (ix2 r j) = P4 V c r j :=
  congrFun (arr4_6 V c) (ix2 r j)

theorem sum4 (c : Dev nD) (j : Fin 512) :
    (Gen.dat4 (F := Ideal) V c).arrAt 7 cfg4.N (ix2 (0 : Fin 1) j) = ∑ r : Fin 20000, P4 V c r j :=
  congrFun (arr4_7 V c) (ix2 (0 : Fin 1) j)

theorem sumsq4 (c : Dev nD) (j : Fin 512) :
    (Gen.dat4 (F := Ideal) V c).arrAt 8 cfg4.N (ix2 (0 : Fin 1) j) = ∑ r : Fin 20000, P4 V c r j * P4 V c r j :=
  congrFun (arr4_8 V c) (ix2 (0 : Fin 1) j)

end Cert.KernelIdeal.StatsValue

end
-- ==== Proof.Norm5.lean ====
/-
  The value of the normalise, scale, shift and clip kernel at column width 512, as a whole array.

  The kernel walks 20 blocks of 1000 rows. At block t it reads rows 1000·t … 1000·t + 999 of its first operand H and
  the whole of the four row vectors mean, inv, gamma, beta, and writes to the same rows of its output
      max ((H (r, j) − mean j) · inv j · gamma j + beta j, 0).
  The 20 blocks tile the 20000 rows, so the output array ends holding this function of the five operands at every
  entry (r, j), whatever the operands hold when the kernel is entered.
-/
import proofs.«137780_j52690658787578_1_alg».proof.Proof.Gen.KernelIdeal.Frame
import proofs.«137780_j52690658787578_1_alg».proof.Proof.GinSpec
import Idealize.ShloMosaic.Lib.ValueIdx
import Idealize.ShloMosaic.Lib.Pipeline.Value
import Idealize.ShloMosaic.PureOps.Ideal.Laws

set_option maxRecDepth 16384

noncomputable section

namespace Cert.KernelIdeal.NormValue

open Cert.KernelIdeal Cert.KernelIdeal.Gen Idealize.ShloMosaic Idealize.ShloMosaic.TcCoe Idealize.ShloMosaic.ValueIdx
open Idealize.ShloMosaic.Pipeline (Dat)

/-! ## One entry of the block the body computes -/

/-- A row vector repeated down 1000 rows reads, at row p and column q, its entry in column q. -/
theorem bcast_row512 (x : S1x512.Idx → EReal) (h : S1x512.Broadcasts S1000x512) (p : Fin 1000) (q : Fin 512) :
    broadcastTo S1000x512 x h (ix2 p q) = x (ix2 0 q) :=
  broadcastTo_apply x h (ix2 p q) (ix2 0 q) (fun a => by
    match a with
    | ⟨0, _⟩ => rfl
    | ⟨1, _⟩ => rfl)

/-- Entry (p, q) of the computed block: subtract the mean of column q, multiply by the inverse deviation and the scale
    of column q, add its shift, clip at zero. -/
theorem pay5_apply (x0 : Vec Ideal S1000x512 .f32) (x1 x2 x3 x4 : Vec Ideal S1x512 .f32) (p : Fin 1000) (q : Fin 512) :
    Gen.k5_pay1 (F := Ideal) x0 x1 x2 x3 x4 (ix2 p q)
      = Cert.Gin.bnrelu (x0 (ix2 p q)) (x1 (ix2 0 q)) (x2 (ix2 0 q)) (x3 (ix2 0 q)) (x4 (ix2 0 q)) := by
  unfold Gen.k5_pay1 Cert.Gin.bnrelu
  simp only [maximumf_apply, addf_apply, mulf_apply, subf_apply, broadcast_apply, shapeCast_self, bcast_row512]
  exact congrArg (max _) Ideal.ofBits_zero_f32

/-- The same at an index of the block not yet split into its coordinates. -/
theorem pay5_at (x0 : Vec Ideal S1000x512 .f32) (x1 x2 x3 x4 : Vec Ideal S1x512 .f32) (y : S1000x512.Idx) :
    Gen.k5_pay1 (F := Ideal) x0 x1 x2 x3 x4 y
      = Cert.Gin.bnrelu (x0 y) (x1 (ix2 0 (y 1))) (x2 (ix2 0 (y 1))) (x3 (ix2 0 (y 1))) (x4 (ix2 0 (y 1))) := by
  obtain ⟨p, q, rfl⟩ : ∃ (p : Fin 1000) (q : Fin 512), y = ix2 p q := ⟨y 0, y 1, eq_ix2 y⟩
  exact pay5_apply x0 x1 x2 x3 x4 p q

/-- Equal arguments give equal entries. -/
theorem bnrelu_congr5 {a a' b b' c c' d d' e e' : EReal} (h0 : a = a') (h1 : b = b') (h2 : c = c') (h3 : d = d')
    (h4 : e = e') : Cert.Gin.bnrelu a b c d e = Cert.Gin.bnrelu a' b' c' d' e' := by
  subst h0 h1 h2 h3 h4; rfl

/-! ## Where the blocks sit -/

/-- The output as one function of the five operands: entry (r, j) normalises H (r, j) with column j's entries of the
    four row vectors. -/
def G5 (H : S20000x512.Idx → EReal) (M I G B : S1x512.Idx → EReal) : S20000x512.Idx → EReal := fun i =>
  Cert.Gin.bnrelu (H i) (M (ix2 0 (i 1))) (I (ix2 0 (i 1))) (G (ix2 0 (i 1))) (B (ix2 0 (i 1)))

theorem hz5 : (![0, 0] : Fin 2 → Nat) = fun _ => 0 := funext fun a => by fin_cases a <;> rfl

/-- Where each operand's block sits at point t: the first operand's and the output's block is the t-th block of 1000
    rows; each row vector's block is the whole vector. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry y of the first operand's block and entry y of the output's block are the same entry of their arrays. -/
theorem emb5_0 (t : Fin cfg5.N) (y : S1000x512.Idx) :
    ((cfg5.win 0).blk t).view.emb y = ((cfg5.win 5).blk t).view.emb y := by
  obtain ⟨e00, e01, -, -, -, -, -, -, -, -, e50, e51⟩ := idx_facts5 t
  funext a; apply Fin.ext
  match a with
  | ⟨0, _⟩ => show win5_0.index t (0 : Fin 2) * 1000 + 1 * (y 0).val = win5_5.index t (0 : Fin 2) * 1000 + 1 * (y 0).val; omega
  | ⟨1, _⟩ => show win5_0.index t (1 : Fin 2) * 512 + 1 * (y 1).val = win5_5.index t (1 : Fin 2) * 512 + 1 * (y 1).val; omega

/-! Column (y 1) of each row vector's block is, in its array, the column of the output entry under y. -/

theorem emb5_1 (t : Fin cfg5.N) (y : S1000x512.Idx) :
    ((cfg5.win 1).blk t).view.emb (ix2 0 (y 1)) = ix2 0 ((((cfg5.win 5).blk t).view.emb y) 1) := by
  obtain ⟨-, -, e10, e11, e20, e21, e30, e31, e40, e41, -, e51⟩ := idx_facts5 t
  funext a; apply Fin.ext
  match a with
  | ⟨0, _⟩ => show win5_1.index t (0 : Fin 2) * 1 + 1 * 0 = 0; omega
  | ⟨1, _⟩ => show win5_1.index t (1 : Fin 2) * 512 + 1 * (y 1).val = win5_5.index t (1 : Fin 2) * 512 + 1 * (y 1).val; omega

theorem emb5_2 (t : Fin cfg5.N) (y : S1000x512.Idx) :
    ((cfg5.win 2).blk t).view.emb (ix2 0 (y 1)) = ix2 0 ((((cfg5.win 5).blk t).view.emb y) 1) := by
  obtain ⟨-, -, e10, e11, e20, e21, e30, e31, e40, e41, -, e51⟩ := idx_facts5 t
  funext a; apply Fin.ext
  match a with
  | ⟨0, _⟩ => show win5_2.index t (0 : Fin 2) * 1 + 1 * 0 = 0; omega
  | ⟨1, _⟩ => show win5_2.index t (1 : Fin 2) * 512 + 1 * (y 1).val = win5_5.index t (1 : Fin 2) * 512 + 1 * (y 1).val; omega

theorem emb5_3 (t : Fin cfg5.N) (y : S1000x512.Idx) :
    ((cfg5.win 3).blk t).view.emb (ix2 0 (y 1)) = ix2 0 ((((cfg5.win 5).blk t).view.emb y) 1) := by
  obtain ⟨-, -, e10, e11, e20, e21, e30, e31, e40, e41, -, e51⟩ := idx_facts5 t
  funext a; apply Fin.ext
  match a with
  | ⟨0, _⟩ => show win5_3.index t (0 : Fin 2) * 1 + 1 * 0 = 0; omega
  | ⟨1, _⟩ => show win5_3.index t (1 : Fin 2) * 512 + 1 * (y 1).val = win5_5.index t (1 : Fin 2) * 512 + 1 * (y 1).val; omega

theorem emb5_4 (t : Fin cfg5.N) (y : S1000x512.Idx) :
    ((cfg5.win 4).blk t).view.emb (ix2 0 (y 1)) = ix2 0 ((((cfg5.win 5).blk t).view.emb y) 1) := by
  obtain ⟨-, -, e10, e11, e20, e21, e30, e31, e40, e41, -, e51⟩ := idx_facts5 t
  funext a; apply Fin.ext
  match a with
  | ⟨0, _⟩ => show win5_4.index t (0 : Fin 2) * 1 + 1 * 0 = 0; omega
  | ⟨1, _⟩ => show win5_4.index t (1 : Fin 2) * 512 + 1 * (y 1).val = win5_5.index t (1 : Fin 2) * 512 + 1 * (y 1).val; omega

/-- An entry of the array lies in point t's block exactly when each of its coordinates lies in the block's range. -/
theorem mem_blk5 (t : Fin cfg5.N) (i : S20000x512.Idx) :
    i ∈ ((cfg5.win 5).blk t).view.set ↔ ∀ a : Fin 2, win5_5.index t a * S1000x512.size a ≤ (i a).val
      ∧ (i a).val < win5_5.index t a * S1000x512.size a + S1000x512.size a := by
  show i ∈ ((View.whole main_v90).slice (win5_5.rect t)).set ↔ _
  rw [View.set_slice_whole, Rect.mem_set_unit]
  exact Iff.rfl

/-- Every entry is written: row r lies in the block of point r / 1000. -/
theorem cover5 (i : S20000x512.Idx) :
    ∃ t : Fin cfg5.N, (cfg5.win 5).flush t = true ∧ i ∈ ((cfg5.win 5).blk t).view.set := by
  have hi0 : (i 0).val < 20000 := (i 0).isLt
  have hi1 : (i 1).val < 512 := (i 1).isLt
  obtain ⟨t, ht⟩ : ∃ t : Fin cfg5.N, t.val = (i 0).val / 1000 :=
    ⟨⟨(i 0).val / 1000, Nat.lt_of_lt_of_eq (by omega : (i 0).val / 1000 < 20) N_5.symm⟩, rfl⟩
  obtain ⟨-, -, -, -, -, -, -, -, -, -, e50, e51⟩ := idx_facts5 t
  refine ⟨t, flush5_5 t, ?_⟩
  rw [mem_blk5]
  intro a
  match a with
  | ⟨0, _⟩ =>
    show win5_5.index t (0 : Fin 2) * 1000 ≤ (i 0).val ∧ (i 0).val < win5_5.index t (0 : Fin 2) * 1000 + 1000
    omega
  | ⟨1, _⟩ =>
    show win5_5.index t (1 : Fin 2) * 512 ≤ (i 1).val ∧ (i 1).val < win5_5.index t (1 : Fin 2) * 512 + 512
    omega

/-! ## The whole array -/

variable (V : (c : Dev nD) → (b : Ref sig .tc) → Buf (Elt Ideal) ((c : Thread nD τ).loc b))

/-- An operand's block at point t, read at z, is the operand's array at the image of z. -/
theorem iblk5_apply0 (c : Dev nD) (t : Fin cfg5.N) (z : S1000x512.Idx) :
    iblk5 V c 0 t z = V c (Pipeline.arrRef spec5 0) (((cfg5.win 0).blk t).view.emb z) := rfl
theorem iblk5_apply1 (c : Dev nD) (t : Fin cfg5.N) (z : S1x512.Idx) :
    iblk5 V c 1 t z = V c (Pipeline.arrRef spec5 1) (((cfg5.win 1).blk t).view.emb z) := rfl
theorem iblk5_apply2 (c : Dev nD) (t : Fin cfg5.N) (z : S1x512.Idx) :
    iblk5 V c 2 t z = V c (Pipeline.arrRef spec5 2) (((cfg5.win 2).blk t).view.emb z) := rfl
theorem iblk5_apply3 (c : Dev nD) (t : Fin cfg5.N) (z : S1x512.Idx) :
    iblk5 V c 3 t z = V c (Pipeline.arrRef spec5 3) (((cfg5.win 3).blk t).view.emb z) := rfl
theorem iblk5_apply4 (c : Dev nD) (t : Fin cfg5.N) (z : S1x512.Idx) :
    iblk5 V c 4 t z = V c (Pipeline.arrRef spec5 4) (((cfg5.win 4).blk t).view.emb z) := rfl

/-- The t-th block of rows of `G5`, read at y, is `G5` at the image of y. -/
theorem read5_apply (c : Dev nD) (t : Fin cfg5.N) (y : S1000x512.Idx) :
    View.read (Elt Ideal) ((cfg5.win 5).blk t).view (G5 (V c (Pipeline.arrRef spec5 0)) (V c (Pipeline.arrRef spec5 1)) (V c (Pipeline.arrRef spec5 2)) (V c (Pipeline.arrRef spec5 3)) (V c (Pipeline.arrRef spec5 4))) y
      = G5 (V c (Pipeline.arrRef spec5 0)) (V c (Pipeline.arrRef spec5 1)) (V c (Pipeline.arrRef spec5 2)) (V c (Pipeline.arrRef spec5 3)) (V c (Pipeline.arrRef spec5 4)) (((cfg5.win 5).blk t).view.emb y) := rfl

/-- What point t writes back is the t-th block of rows of `G5` of the operands as the kernel finds them. -/
theorem flushed5_eq (c : Dev nD) (t : Fin cfg5.N) :
    (dat5 (F := Ideal) V c).flushed 5 t = ((cfg5.win 5).blk t).view.read (Elt Ideal)
      (G5 (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero hz5]
  simp only [View.ld_unit_zero (S := S1000x512) hz5, View.ld_unit_zero (S := S1x512) hz5]
  funext y
  refine (pay5_at _ _ _ _ _ y).trans ?_
  exact (bnrelu_congr5
    ((iblk5_apply0 V c t y).trans (congrArg (V c (Pipeline.arrRef spec5 0)) (emb5_0 t y)))
    ((iblk5_apply1 V c t (ix2 0 (y 1))).trans (congrArg (V c (Pipeline.arrRef spec5 1)) (emb5_1 t y)))
    ((iblk5_apply2 V c t (ix2 0 (y 1))).trans (congrArg (V c (Pipeline.arrRef spec5 2)) (emb5_2 t y)))
    ((iblk5_apply3 V c t (ix2 0 (y 1))).trans (congrArg (V c (Pipeline.arrRef spec5 3)) (emb5_3 t y)))
    ((iblk5_apply4 V c t (ix2 0 (y 1))).trans (congrArg (V c (Pipeline.arrRef spec5 4)) (emb5_4 t y)))).trans (read5_apply V c t y).symm

/-- The output array after the kernel: `G5` of the operands as the kernel finds them. -/
theorem final5 (c : Dev nD) :
    (dat5 (F := Ideal) V c).arrAt 5 cfg5.N = G5 (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5 _ (fun t _ => flushed5_eq V c t) cover5

/-- Entry (r, j) of the output array after the kernel. -/
theorem out5 (c : Dev nD) (r : Fin 20000) (j : Fin 512) :
    (dat5 (F := Ideal) V c).arrAt 5 cfg5.N (ix2 r j)
      = Cert.Gin.bnrelu (V c (Pipeline.arrRef spec5 0) (ix2 r j)) (V c (Pipeline.arrRef spec5 1) (ix2 0 j))
          (V c (Pipeline.arrRef spec5 2) (ix2 0 j)) (V c (Pipeline.arrRef spec5 3) (ix2 0 j))
          (V c (Pipeline.arrRef spec5 4) (ix2 0 j)) := by
  rw [final5 V c]
  rfl

end Cert.KernelIdeal.NormValue

end
-- ==== Proof.KRead512.lean ====
/-
  The kernel program's rows of column means and inverse standard deviations at width 512, read entry by entry: the
  mean of column j is the column sum divided by 20000; the inverse deviation is the inverse square root of the mean
  of squares minus the squared mean plus the small positive word.
-/
import proofs.«137780_j52690658787578_1_alg».proof.Proof.KHostDefs
import proofs.«137780_j52690658787578_1_alg».proof.Proof.GinConsts
import proofs.«137780_j52690658787578_1_alg».proof.Proof.LibRowBroadcast
import Idealize.ShloMosaic.Lib.ValueLayout

noncomputable section

namespace Cert.KernelIdeal.HostRead

open Cert.KernelIdeal Cert.KernelIdeal.Gen Cert.KernelIdeal.HostValue Idealize.ShloMosaic Idealize.ShloMosaic.ValueIdx
open Cert.LibRowBroadcast

/-- The mean of column j. -/
theorem meanRow512_apply (S : FVec Ideal S1x512 .f32) (j : Fin 512) :
    meanRow512 (F := Ideal) S (ix2 (0 : Fin 1) j) = Ideal.div (S (ix2 (0 : Fin 1) j)) ((20000 : ℝ) : EReal) := by
  unfold meanRow512 meanFlat512
  rw [shapeCast_a_1a_apply, shapeCast_1a_a_apply]
  unfold Host.divf
  beta_reduce
  rw [Ideal.hostDivf_def, scalar_apply, constant_apply, Cert.Gin.ofBits_20000]

/-- The inverse deviation of column j. -/
theorem invRow512_apply (S SS : FVec Ideal S1x512 .f32) (j : Fin 512) :
    invRow512 (F := Ideal) S SS (ix2 (0 : Fin 1) j)
      = Ideal.rsqrt (Ideal.div (SS (ix2 (0 : Fin 1) j)) ((20000 : ℝ) : EReal)
          - Ideal.div (S (ix2 (0 : Fin 1) j)) ((20000 : ℝ) : EReal) * Ideal.div (S (ix2 (0 : Fin 1) j)) ((20000 : ℝ) : EReal)
          + Ideal.ofBits .f32 0x3727C5AC#32) := by
  unfold invRow512 meanFlat512
  rw [shapeCast_a_1a_apply]
  unfold Host.rsqrt
  beta_reduce
  rw [Ideal.hostUnary_rsqrt_def, addf_apply, subf_apply, mulf_apply, shapeCast_1a_a_apply, shapeCast_1a_a_apply]
  unfold Host.divf
  beta_reduce
  rw [Ideal.hostDivf_def, Ideal.hostDivf_def, scalar_apply, scalar_apply, constant_apply, constant_apply,
    Cert.Gin.ofBits_20000]

/-- A bias vector recast as a [1, 512] row reads its entry k at (0, k). -/
theorem biasRow512_apply (b : FVec Ideal S512 .f32) (k : Fin 512) :
    shapeCast S1x512 b shapeCasts_S512_S1x512 (ix2 (0 : Fin 1) k) = b (ix1 k) :=
  shapeCast_a_1a_apply b _ _ k

end Cert.KernelIdeal.HostRead

end
-- ==== Proof.KLayer3.lean ====
import proofs.«137780_j52690658787578_1_alg».proof.Proof.Gen.KernelIdeal.Frame
import proofs.«137780_j52690658787578_1_alg».proof.Proof.KHost4
import proofs.«137780_j52690658787578_1_alg».proof.Proof.KHost5
import proofs.«137780_j52690658787578_1_alg».proof.Proof.GinSpec
import proofs.«137780_j52690658787578_1_alg».proof.Proof.Stats4
import proofs.«137780_j52690658787578_1_alg».proof.Proof.Norm5
import proofs.«137780_j52690658787578_1_alg».proof.Proof.KRead512

/-! Layer 3 of the kernel program, entry by entry: the array region 5 leaves is, at row r and column j, the
    normalised, scaled, shifted and clipped perceptron entry, where the perceptron is applied to the layer's input
    features plus their aggregation over the edge list, and the column's mean and inverse deviation are taken from the
    sums of the perceptron's entries and of their squares over the 20000 rows. -/

set_option maxRecDepth 16384

noncomputable section

namespace Cert.KernelIdeal.LayerValue

open Idealize.ShloMosaic Idealize.ShloMosaic.TcCoe Idealize.ShloMosaic.ValueIdx
open Cert.KernelIdeal Cert.KernelIdeal.Gen Cert.KernelIdeal.HostValue
open Cert.KernelIdeal.StatsValue Cert.KernelIdeal.NormValue Cert.KernelIdeal.HostRead

/-- The perceptron entry depends only on its six operands. -/
theorem pre_congr3 {n di dk : Nat} {X X' A A' : (⟨2, ![n, di]⟩ : Shape).Idx → EReal} {W1 W1' : (⟨2, ![di, dk]⟩ : Shape).Idx → EReal}
    {b1 b1' : Fin dk → EReal} {W2 W2' : (⟨2, ![dk, dk]⟩ : Shape).Idx → EReal} {b2 b2' : Fin dk → EReal}
    (hX : X = X') (hA : A = A') (hW1 : W1 = W1') (hb1 : b1 = b1') (hW2 : W2 = W2') (hb2 : b2 = b2') (r : Fin n) (j : Fin dk) :
    Cert.Gin.pre X A W1 b1 W2 b2 r j = Cert.Gin.pre X' A' W1' b1' W2' b2' r j := by
  subst hX hA hW1 hb1 hW2 hb2; rfl

/-- The normalised entry depends only on its five operands. -/
theorem bnrelu_congr3 {h h' μ μ' ι ι' g g' s s' : EReal} (e0 : h = h') (e1 : μ = μ') (e2 : ι = ι') (e3 : g = g') (e4 : s = s') :
    Cert.Gin.bnrelu h μ ι g s = Cert.Gin.bnrelu h' μ' ι' g' s' := by
  subst e0 e1 e2 e3 e4; rfl

/-- The inverse deviation depends only on the sum and the sum of squares. -/
theorem inv_congr3 {S S' Q Q' : EReal} (hS : S = S') (hQ : Q = Q') :
    Ideal.rsqrt (Ideal.div Q ((20000 : ℝ) : EReal) - Ideal.div S ((20000 : ℝ) : EReal) * Ideal.div S ((20000 : ℝ) : EReal) + Ideal.ofBits .f32 0x3727C5AC#32)
      = Ideal.rsqrt (Ideal.div Q' ((20000 : ℝ) : EReal) - Ideal.div S' ((20000 : ℝ) : EReal) * Ideal.div S' ((20000 : ℝ) : EReal) + Ideal.ofBits .f32 0x3727C5AC#32) := by
  subst hS hQ; rfl

variable (m : (ℓ : Loc nD τ sig) → Buf (Elt Ideal) ℓ) (ρ : Dev nD → PrngReg) (c : Dev nD)

/-- Entry (r, j) of layer 3's perceptron over the layer's input features and the launch arrays. -/
def PK3 (m : (ℓ : Loc nD τ sig) → Buf (Elt Ideal) ℓ) (ρ : Dev nD → PrngReg) (c : Dev nD) (r : Fin 20000) (j : Fin 512) : EReal :=
  Cert.Gin.pre (V8 m ρ c (Pipeline.arrRef spec3 5)) (Agg256 (F := Ideal) (V8 m ρ c (Pipeline.arrRef spec3 5)) (m ((c : Thread nD τ).loc main_arg1))) (m ((c : Thread nD τ).loc main_arg15))
    (fun k => (m ((c : Thread nD τ).loc main_arg16)) (ix1 k)) (m ((c : Thread nD τ).loc main_arg17)) (fun k => (m ((c : Thread nD τ).loc main_arg18)) (ix1 k)) r j

/-- Region 4's perceptron over the arrays it finds on entry is the layer's perceptron. -/
theorem P_eq3 (r : Fin 20000) (j : Fin 512) : P4 (V9 m ρ) c r j = PK3 m ρ c r j :=
  pre_congr3 (V9_win0 m ρ c) (V9_win1 m ρ c) (V9_win2 m ρ c)
    (funext fun k => (congrFun (V9_win3 m ρ c) (ix2 (0 : Fin 1) k)).trans (biasRow512_apply (m ((c : Thread nD τ).loc main_arg16)) k))
    (V9_win4 m ρ c)
    (funext fun k => (congrFun (V9_win5 m ρ c) (ix2 (0 : Fin 1) k)).trans (biasRow512_apply (m ((c : Thread nD τ).loc main_arg18)) k)) r j

/-- Region 4's output array at (r, j). -/
theorem h_eq3 (r : Fin 20000) (j : Fin 512) : V10 m ρ c (Pipeline.arrRef spec4 6) (ix2 r j) = PK3 m ρ c r j :=
  (congrFun (hF4 m ρ c 6).symm (ix2 r j)).trans ((h4 (V9 m ρ) c r j).trans (P_eq3 m ρ c r j))

/-- Region 4's row of column sums at column j. -/
theorem sum_eq3 (j : Fin 512) :
    (V10 m ρ c (Pipeline.arrRef spec4 7) (ix2 (0 : Fin 1) j) : EReal) = ∑ r : Fin 20000, PK3 m ρ c r j := by
  have e1 : (V10 m ρ c (Pipeline.arrRef spec4 7) (ix2 (0 : Fin 1) j) : EReal) = ∑ r : Fin 20000, P4 (V9 m ρ) c r j :=
    (congrFun (hF4 m ρ c 7).symm (ix2 (0 : Fin 1) j)).trans (sum4 (V9 m ρ) c j)
  have e2 : (∑ r : Fin 20000, P4 (V9 m ρ) c r j) = ∑ r : Fin 20000, PK3 m ρ c r j :=
    Finset.sum_congr rfl fun r _ => P_eq3 m ρ c r j
  exact e1.trans e2

/-- Region 4's row of column sums of squares at column j. -/
theorem sumsq_eq3 (j : Fin 512) :
    (V10 m ρ c (Pipeline.arrRef spec4 8) (ix2 (0 : Fin 1) j) : EReal) = ∑ r : Fin 20000, PK3 m ρ c r j * PK3 m ρ c r j := by
  have e1 : (V10 m ρ c (Pipeline.arrRef spec4 8) (ix2 (0 : Fin 1) j) : EReal)
      = ∑ r : Fin 20000, P4 (V9 m ρ) c r j * P4 (V9 m ρ) c r j :=
    (congrFun (hF4 m ρ c 8).symm (ix2 (0 : Fin 1) j)).trans (sumsq4 (V9 m ρ) c j)
  have e2 : (∑ r : Fin 20000, P4 (V9 m ρ) c r j * P4 (V9 m ρ) c r j)
      = ∑ r : Fin 20000, PK3 m ρ c r j * PK3 m ρ c r j :=
    Finset.sum_congr rfl fun r _ => by rw [P_eq3 m ρ c r j]
  exact e1.trans e2

/-- Layer 3's output at (r, j). -/
theorem k3_apply (r : Fin 20000) (j : Fin 512) :
    V12 m ρ c (Pipeline.arrRef spec5 5) (ix2 r j)
      = Cert.Gin.bnrelu (PK3 m ρ c r j) (Ideal.div (∑ r, PK3 m ρ c r j) ((20000 : ℝ) : EReal))
          (Ideal.rsqrt (Ideal.div (∑ r, PK3 m ρ c r j * PK3 m ρ c r j) ((20000 : ℝ) : EReal)
            - Ideal.div (∑ r, PK3 m ρ c r j) ((20000 : ℝ) : EReal) * Ideal.div (∑ r, PK3 m ρ c r j) ((20000 : ℝ) : EReal)
            + Ideal.ofBits .f32 0x3727C5AC#32))
          ((m ((c : Thread nD τ).loc main_arg19)) (ix1 j)) ((m ((c : Thread nD τ).loc main_arg20)) (ix1 j)) :=
  (congrFun (hF5 m ρ c 5).symm (ix2 r j)).trans ((out5 (V11 m ρ) c r j).trans (bnrelu_congr3
    ((congrFun (V11_win0 m ρ c) (ix2 r j)).trans (h_eq3 m ρ c r j))
    ((congrFun (V11_win1 m ρ c) (ix2 (0 : Fin 1) j)).trans ((meanRow512_apply _ j).trans
      (congrArg (fun s => Ideal.div s ((20000 : ℝ) : EReal)) (sum_eq3 m ρ c j))))
    ((congrFun (V11_win2 m ρ c) (ix2 (0 : Fin 1) j)).trans ((invRow512_apply _ _ j).trans
      (inv_congr3 (sum_eq3 m ρ c j) (sumsq_eq3 m ρ c j))))
    ((congrFun (V11_win3 m ρ c) (ix2 (0 : Fin 1) j)).trans (biasRow512_apply (m ((c : Thread nD τ).loc main_arg19)) j))
    ((congrFun (V11_win4 m ρ c) (ix2 (0 : Fin 1) j)).trans (biasRow512_apply (m ((c : Thread nD τ).loc main_arg20)) j))))

end Cert.KernelIdeal.LayerValue

end
-- ==== Proof.KHost6.lean ====
import proofs.«137780_j52690658787578_1_alg».proof.Proof.Gen.KernelIdeal.Frame
import proofs.«137780_j52690658787578_1_alg».proof.Proof.KHostKeep
import Idealize.ShloMosaic.PureOps.Ideal

/-! The closing stretch of host operations: the program's result buffer holds the closing function (segment mean, linear
    layer, clip at zero) of region 5's output array, the nodes' graph ids, the last weight matrix and the last bias. -/

set_option maxRecDepth 16384

noncomputable section

namespace Cert.KernelIdeal.HostValue

open Idealize.ShloMosaic Idealize.ShloMosaic.TcCoe
open Cert.KernelIdeal.Gen

/-- After the closing stretch the result buffer holds the closing function of its four operands. -/
theorem after6_result {F : FTy → Type} [FloatOps F] (V : Valuation τ sig (Elt F)) :
    StableHlo.after (hostOps6 (F := F)) V (Proc.devRef .tc main_v108) = Tail (V (Proc.devRef .tc main_v90)) (V (Proc.devRef .tc main_arg2)) (V (Proc.devRef .tc main_arg21)) (V (Proc.devRef .tc main_arg22)) := by
  after_results_simp
  rfl

variable (m : (ℓ : Loc nD τ sig) → Buf (Elt Ideal) ℓ) (ρ : Dev nD → PrngReg) (c : Dev nD)

/-- At boundary 12 the argument buffer `main_arg2` still holds its launch contents: no stretch and no region before it writes it. -/
theorem W12_main_arg2 : W12 m ρ c (Proc.devRef .tc main_arg2) = (m ((c : Thread nD τ).loc main_arg2)) :=
  calc W12 m ρ c (Proc.devRef .tc main_arg2)
    _ = W11 m ρ c (Proc.devRef .tc main_arg2) := W12_of_ne m ρ c main_arg2 (by decide)
    _ = W10 m ρ c (Proc.devRef .tc main_arg2) := keep5 (W10 m ρ c) main_arg2 (by decide)
    _ = W9 m ρ c (Proc.devRef .tc main_arg2) := W10_of_ne m ρ c main_arg2 (by decide)
    _ = W8 m ρ c (Proc.devRef .tc main_arg2) := keep4 (W8 m ρ c) main_arg2 (by decide)
    _ = W7 m ρ c (Proc.devRef .tc main_arg2) := W8_of_ne m ρ c main_arg2 (by decide)
    _ = W6 m ρ c (Proc.devRef .tc main_arg2) := keep3 (W6 m ρ c) main_arg2 (by decide)
    _ = W5 m ρ c (Proc.devRef .tc main_arg2) := W6_of_ne m ρ c main_arg2 (by decide)
    _ = W4 m ρ c (Proc.devRef .tc main_arg2) := keep2 (W4 m ρ c) main_arg2 (by decide)
    _ = W3 m ρ c (Proc.devRef .tc main_arg2) := W4_of_ne m ρ c main_arg2 (by decide)
    _ = W2 m ρ c (Proc.devRef .tc main_arg2) := keep1 (W2 m ρ c) main_arg2 (by decide)
    _ = W1 m ρ c (Proc.devRef .tc main_arg2) := W2_of_ne m ρ c main_arg2 (by decide)
    _ = W0 m ρ c (Proc.devRef .tc main_arg2) := keep0 (W0 m ρ c) main_arg2 (by decide)
    _ = (m ((c : Thread nD τ).loc main_arg2)) := rfl
/-- At boundary 12 the argument buffer `main_arg21` still holds its launch contents: no stretch and no region before it writes it. -/
theorem W12_main_arg21 : W12 m ρ c (Proc.devRef .tc main_arg21) = (m ((c : Thread nD τ).loc main_arg21)) :=
  calc W12 m ρ c (Proc.devRef .tc main_arg21)
    _ = W11 m ρ c (Proc.devRef .tc main_arg21) := W12_of_ne m ρ c main_arg21 (by decide)
    _ = W10 m ρ c (Proc.devRef .tc main_arg21) := keep5 (W10 m ρ c) main_arg21 (by decide)
    _ = W9 m ρ c (Proc.devRef .tc main_arg21) := W10_of_ne m ρ c main_arg21 (by decide)
    _ = W8 m ρ c (Proc.devRef .tc main_arg21) := keep4 (W8 m ρ c) main_arg21 (by decide)
    _ = W7 m ρ c (Proc.devRef .tc main_arg21) := W8_of_ne m ρ c main_arg21 (by decide)
    _ = W6 m ρ c (Proc.devRef .tc main_arg21) := keep3 (W6 m ρ c) main_arg21 (by decide)
    _ = W5 m ρ c (Proc.devRef .tc main_arg21) := W6_of_ne m ρ c main_arg21 (by decide)
    _ = W4 m ρ c (Proc.devRef .tc main_arg21) := keep2 (W4 m ρ c) main_arg21 (by decide)
    _ = W3 m ρ c (Proc.devRef .tc main_arg21) := W4_of_ne m ρ c main_arg21 (by decide)
    _ = W2 m ρ c (Proc.devRef .tc main_arg21) := keep1 (W2 m ρ c) main_arg21 (by decide)
    _ = W1 m ρ c (Proc.devRef .tc main_arg21) := W2_of_ne m ρ c main_arg21 (by decide)
    _ = W0 m ρ c (Proc.devRef .tc main_arg21) := keep0 (W0 m ρ c) main_arg21 (by decide)
    _ = (m ((c : Thread nD τ).loc main_arg21)) := rfl
/-- At boundary 12 the argument buffer `main_arg22` still holds its launch contents: no stretch and no region before it writes it. -/
theorem W12_main_arg22 : W12 m ρ c (Proc.devRef .tc main_arg22) = (m ((c : Thread nD τ).loc main_arg22)) :=
  calc W12 m ρ c (Proc.devRef .tc main_arg22)
    _ = W11 m ρ c (Proc.devRef .tc main_arg22) := W12_of_ne m ρ c main_arg22 (by decide)
    _ = W10 m ρ c (Proc.devRef .tc main_arg22) := keep5 (W10 m ρ c) main_arg22 (by decide)
    _ = W9 m ρ c (Proc.devRef .tc main_arg22) := W10_of_ne m ρ c main_arg22 (by decide)
    _ = W8 m ρ c (Proc.devRef .tc main_arg22) := keep4 (W8 m ρ c) main_arg22 (by decide)
    _ = W7 m ρ c (Proc.devRef .tc main_arg22) := W8_of_ne m ρ c main_arg22 (by decide)
    _ = W6 m ρ c (Proc.devRef .tc main_arg22) := keep3 (W6 m ρ c) main_arg22 (by decide)
    _ = W5 m ρ c (Proc.devRef .tc main_arg22) := W6_of_ne m ρ c main_arg22 (by decide)
    _ = W4 m ρ c (Proc.devRef .tc main_arg22) := keep2 (W4 m ρ c) main_arg22 (by decide)
    _ = W3 m ρ c (Proc.devRef .tc main_arg22) := W4_of_ne m ρ c main_arg22 (by decide)
    _ = W2 m ρ c (Proc.devRef .tc main_arg22) := keep1 (W2 m ρ c) main_arg22 (by decide)
    _ = W1 m ρ c (Proc.devRef .tc main_arg22) := W2_of_ne m ρ c main_arg22 (by decide)
    _ = W0 m ρ c (Proc.devRef .tc main_arg22) := keep0 (W0 m ρ c) main_arg22 (by decide)
    _ = (m ((c : Thread nD τ).loc main_arg22)) := rfl

/-- The program's result: the closing function of region 5's output array and the three launch arrays it reads. -/
theorem W13_result : W13 m ρ c (Proc.devRef .tc main_v108)
    = Tail (F := Ideal) (V12 m ρ c (Pipeline.arrRef spec5 5)) (m ((c : Thread nD τ).loc main_arg2)) (m ((c : Thread nD τ).loc main_arg21)) (m ((c : Thread nD τ).loc main_arg22)) := by
  refine (after6_result (W12 m ρ c)).trans ?_
  rw [W12_main_arg2 m ρ c, W12_main_arg21 m ρ c, W12_main_arg22 m ρ c]

end Cert.KernelIdeal.HostValue

end
-- ==== Proof.GinMath.lean ====
/-
  The arithmetic of one normalisation on the extended reals.

  Over the reals, for n values h_1 … h_n with mean μ = (Σ h) / n, the mean of the squared deviations equals the mean
  of the squares minus the squared mean:

    (Σ (h − μ)²) / n = (Σ h²) / n − μ².

  On the extended reals the two sides differ as soon as one value is infinite, so the identity is stated for values
  that are reals; the division by the count, a nonzero real, is the product with its reciprocal. Real-valuedness is
  closed under sums, products, differences, maxima, such divisions and the inverse square root of a positive real,
  which carries it from one layer of the network to the next.
-/
import Mathlib.Data.EReal.Operations
import Mathlib.Algebra.BigOperators.Group.Finset.Basic
import Mathlib.Algebra.BigOperators.Ring.Finset
import Mathlib.Algebra.Order.BigOperators.Ring.Finset
import Mathlib.Tactic.FieldSimp
import Mathlib.Tactic.Ring
import Mathlib.Tactic.Positivity
import Idealize.ShloMosaic.PureOps.Ideal

noncomputable section

namespace Cert.Gin

open Idealize.ShloMosaic

/-- An extended real that is a real. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (EReal.coe_strictMono.monotone.map_max (a := a) (b := b)).symm⟩

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The quotient of a real by a nonzero real. -/
theorem IsReal.div_coe {x : EReal} (hx : IsReal x) {y : ℝ} (hy : y ≠ 0) : IsReal (Ideal.div x (y : EReal)) := by
  rw [Ideal.div_coe hy]; exact hx.mul ⟨1 / y, rfl⟩

/-- The inverse square root of a positive real. -/
theorem IsReal.rsqrt_pos {r : ℝ} (h : 0 < r) : IsReal (Ideal.rsqrt (r : EReal)) := by
  rw [Ideal.rsqrt_coe, if_neg (not_lt.mpr h.le), if_neg h.ne']
  exact ⟨_, rfl⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Mean of squared deviations = mean of squares − squared mean, over the reals. -/
theorem var_identity {n : ℕ} (h : Fin n → ℝ) (N : ℝ) (hn : (n : ℝ) = N) (hN : N ≠ 0) :
    (∑ r, (h r - (∑ r, h r) / N) * (h r - (∑ r, h r) / N)) / N
      = (∑ r, h r * h r) / N - ((∑ r, h r) / N) * ((∑ r, h r) / N) := by
  have e1 : ∀ μ : ℝ, ∑ r, (h r - μ) * (h r - μ) = (∑ r, h r * h r) - 2 * μ * (∑ r, h r) + N * (μ * μ) := by
    intro μ
    have hr : ∀ r, (h r - μ) * (h r - μ) = h r * h r - 2 * μ * h r + μ * μ := fun r => by ring
    simp only [hr, Finset.sum_add_distrib, Finset.sum_sub_distrib, ← Finset.mul_sum, Finset.sum_const,
      Finset.card_univ, Fintype.card_fin, nsmul_eq_mul, hn]
    ring
  rw [e1]
  field_simp
  ring

/-- The mean of squared deviations of reals is not negative. -/
theorem var_nonneg {n : ℕ} (h : Fin n → ℝ) (μ N : ℝ) (hN : 0 < N) :
    0 ≤ (∑ r, (h r - μ) * (h r - μ)) / N :=
  div_nonneg (Finset.sum_nonneg fun r _ => mul_self_nonneg _) hN.le

end Cert.Gin

end
-- ==== Proof.Shared.lean ====
/-
  The two programs apply the same array operations outside the kernel calls.

  Both programs gather, for every edge, the row of the node array at the edge's source, and add the gathered rows,
  from zero, into the rows named by the edges' targets; both close with the same per-graph mean, linear layer and
  clip at zero. The two chains are spelt with each program's own names for the shapes and for the records of the
  gather, scatter and product dimensions; the shapes are the same literals and the records carry the same numbers
  (they differ only in the proofs of their side conditions), so the chains are equal by unfolding their definitions.

  A neighbourhood sum of real rows is real: at the extended reals the accumulating scatter returns, at each entry,
  the starting entry plus the sum of the update entries that land there; the starting array is zero everywhere, and
  every update entry is an entry of the gathered array, which is an entry of the node array. So each entry of the
  result is zero plus a finite sum of reals.
-/
import proofs.«137780_j52690658787578_1_alg».proof.Proof.KHostDefs
import proofs.«137780_j52690658787578_1_alg».proof.Proof.RefStages
import proofs.«137780_j52690658787578_1_alg».proof.Proof.GinMath
import Idealize.ShloMosaic.PureOps.Ideal.Laws

noncomputable section

namespace Cert.Shared

open Idealize.ShloMosaic Cert.Gin

/-- The edges' sources are read the same way by both programs. -/
theorem srcRow_eq (e : IVec Cert.ReferenceIdeal.S2x320000 32) : Cert.KernelIdeal.HostValue.srcRow (F := Ideal) e = Cert.ReferenceIdeal.RefRun.src e := rfl

/-- The edges' targets are read the same way by both programs. -/
theorem dstRow_eq (e : IVec Cert.ReferenceIdeal.S2x320000 32) : Cert.KernelIdeal.HostValue.dstRow (F := Ideal) e = Cert.ReferenceIdeal.RefRun.dst e := rfl

/-- The closing stretch (per-graph mean, linear layer, clip at zero) is the same chain in both programs. -/
theorem tail_eq (h : FVec Ideal Cert.ReferenceIdeal.S20000x512 .f32) (seg : IVec Cert.ReferenceIdeal.S20000 32)
    (W : FVec Ideal Cert.ReferenceIdeal.S512x64 .f32) (b : FVec Ideal Cert.ReferenceIdeal.S64 .f32) :
    Cert.KernelIdeal.HostValue.Tail (F := Ideal) h seg W b = Cert.ReferenceIdeal.RefRun.out h seg W b := rfl

/-- The neighbourhood sums at width 128 are the same chain in both programs (the reference's first layer). -/
theorem agg128_eq (x : FVec Ideal Cert.ReferenceIdeal.S20000x128 .f32) (e : IVec Cert.ReferenceIdeal.S2x320000 32) :
    Cert.KernelIdeal.HostValue.Agg128 (F := Ideal) x e = Cert.ReferenceIdeal.RefRun.agg1 x (Cert.ReferenceIdeal.RefRun.src e) (Cert.ReferenceIdeal.RefRun.dst e) := rfl

/-- The same against the reference's second layer, whose neighbourhood sums are the same chain again. -/
theorem agg128_eq2 (x : FVec Ideal Cert.ReferenceIdeal.S20000x128 .f32) (e : IVec Cert.ReferenceIdeal.S2x320000 32) :
    Cert.KernelIdeal.HostValue.Agg128 (F := Ideal) x e = Cert.ReferenceIdeal.RefRun.agg2 x (Cert.ReferenceIdeal.RefRun.src e) (Cert.ReferenceIdeal.RefRun.dst e) := rfl

/-- The neighbourhood sums at width 256 are the same chain in both programs (the reference's third layer). -/
theorem agg256_eq (x : FVec Ideal Cert.ReferenceIdeal.S20000x256 .f32) (e : IVec Cert.ReferenceIdeal.S2x320000 32) :
    Cert.KernelIdeal.HostValue.Agg256 (F := Ideal) x e = Cert.ReferenceIdeal.RefRun.agg3 x (Cert.ReferenceIdeal.RefRun.src e) (Cert.ReferenceIdeal.RefRun.dst e) := rfl

/-- An accumulating scatter of real updates into a real array is real: each entry is the starting entry plus a
    finite sum of update entries. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := fun i =>
  (hx i).add (IsReal.sum _ _ fun j _ => hu j)

/-- The zero word broadcast to any shape is the real 0 at every entry. -/
theorem zeros_real {t : Shape} (hb : (⟨0, ![]⟩ : Shape).BroadcastsInDim t ![]) :
    ∀ i, IsReal (broadcastInDim t ![] hb (constant (F := Ideal) (⟨0, ![]⟩ : Shape) .f32 0x00000000#32) i) := fun i => by
  show IsReal (Ideal.ofBits .f32 0x00000000#32)
  rw [Ideal.ofBits_zero_f32]; exact IsReal.zero

/-- The first layer's neighbourhood sums of a real array are real. -/
theorem agg1_real (x : FVec Ideal Cert.ReferenceIdeal.S20000x128 .f32) (s d : IVec Cert.ReferenceIdeal.S320000 32) (hx : ∀ i, IsReal (x i)) :
    ∀ i, IsReal (Cert.ReferenceIdeal.RefRun.agg1 x s d i) := by
  unfold Cert.ReferenceIdeal.RefRun.agg1
  exact scatterAdd_real _ _ _ _ (zeros_real _) (fun j => hx _)

/-- The second layer's neighbourhood sums of a real array are real. -/
theorem agg2_real (x : FVec Ideal Cert.ReferenceIdeal.S20000x128 .f32) (s d : IVec Cert.ReferenceIdeal.S320000 32) (hx : ∀ i, IsReal (x i)) :
    ∀ i, IsReal (Cert.ReferenceIdeal.RefRun.agg2 x s d i) := by
  unfold Cert.ReferenceIdeal.RefRun.agg2
  exact scatterAdd_real _ _ _ _ (zeros_real _) (fun j => hx _)

/-- The third layer's neighbourhood sums of a real array are real. -/
theorem agg3_real (x : FVec Ideal Cert.ReferenceIdeal.S20000x256 .f32) (s d : IVec Cert.ReferenceIdeal.S320000 32) (hx : ∀ i, IsReal (x i)) :
    ∀ i, IsReal (Cert.ReferenceIdeal.RefRun.agg3 x s d i) := by
  unfold Cert.ReferenceIdeal.RefRun.agg3
  exact scatterAdd_real _ _ _ _ (zeros_real _) (fun j => hx _)

end Cert.Shared

end
-- ==== Proof.GinLayer.lean ====
/-
  One normalisation of the network, column by column, on the extended reals: the two ways of taking the variance agree
  on real values.

  For a column of n real values P_1 … P_n and the count N = n as a real, write S = Σ P and Q = Σ P². One program
  takes the variance as Q / N − (S / N)², the other as (Σ (P − S / N)²) / N, each sum started from zero. They are the
  same real, and it is not negative; so the inverse square root of the variance plus a positive real is a real too,
  and the normalised, scaled, shifted and clipped entries agree and are reals.
-/
import proofs.«137780_j52690658787578_1_alg».proof.Proof.GinSpec
import proofs.«137780_j52690658787578_1_alg».proof.Proof.GinMath

noncomputable section

namespace Cert.Gin

open Idealize.ShloMosaic

/-- The variance as the mean of squared deviations (sums started from zero) is the mean of squares minus the squared
    mean, for a column of reals; and it is a real that is not negative. -/
theorem var_agree {n : ℕ} (P : Fin n → EReal) (hP : ∀ r, IsReal (P r)) (N : ℝ) (hn : (n : ℝ) = N) (hN : 0 < N) :
    Ideal.div (0 + ∑ r, (P r - Ideal.div (0 + ∑ r, P r) (N : EReal)) * (P r - Ideal.div (0 + ∑ r, P r) (N : EReal))) (N : EReal)
        = Ideal.div (∑ r, P r * P r) (N : EReal) - Ideal.div (∑ r, P r) (N : EReal) * Ideal.div (∑ r, P r) (N : EReal)
      ∧ ∃ v : ℝ, 0 ≤ v ∧
        Ideal.div (∑ r, P r * P r) (N : EReal) - Ideal.div (∑ r, P r) (N : EReal) * Ideal.div (∑ r, P r) (N : EReal) = (v : EReal) := by
  choose h hh using hP
  have hP' : P = fun r => ((h r : ℝ) : EReal) := funext hh
  subst hP'
  have hN' : N ≠ 0 := hN.ne'
  have key := var_identity h N hn hN'
  have e1 : (∑ r, ((h r : ℝ) : EReal)) = ((∑ r, h r : ℝ) : EReal) := (coe_sum _ _).symm
  have e2 : (∑ r, ((h r : ℝ) : EReal) * ((h r : ℝ) : EReal)) = ((∑ r, h r * h r : ℝ) : EReal) := by
    rw [coe_sum]; exact Finset.sum_congr rfl fun r _ => (EReal.coe_mul _ _).symm
  have e3 : ∀ μ : ℝ, (∑ r, (((h r : ℝ) : EReal) - (μ : EReal)) * (((h r : ℝ) : EReal) - (μ : EReal)))
      = ((∑ r, (h r - μ) * (h r - μ) : ℝ) : EReal) := by
    intro μ
    rw [coe_sum]; refine Finset.sum_congr rfl fun r _ => ?_
    rw [← EReal.coe_sub, ← EReal.coe_mul]
  have d : ∀ x : ℝ, Ideal.div (x : EReal) (N : EReal) = ((x / N : ℝ) : EReal) := by
    intro x; rw [Ideal.div_coe hN', ← EReal.coe_mul]; congr 1; field_simp
  have lhs : Ideal.div (0 + ∑ r, (((h r : ℝ) : EReal) - Ideal.div (0 + ∑ r, ((h r : ℝ) : EReal)) (N : EReal))
        * (((h r : ℝ) : EReal) - Ideal.div (0 + ∑ r, ((h r : ℝ) : EReal)) (N : EReal))) (N : EReal)
      = (((∑ r, (h r - (∑ r, h r) / N) * (h r - (∑ r, h r) / N)) / N : ℝ) : EReal) := by
    rw [zero_add, zero_add, e1, d, e3, d]
  have rhs : Ideal.div (∑ r, ((h r : ℝ) : EReal) * ((h r : ℝ) : EReal)) (N : EReal)
        - Ideal.div (∑ r, ((h r : ℝ) : EReal)) (N : EReal) * Ideal.div (∑ r, ((h r : ℝ) : EReal)) (N : EReal)
      = (((∑ r, h r * h r) / N - ((∑ r, h r) / N) * ((∑ r, h r) / N) : ℝ) : EReal) := by
    rw [e1, e2, d, d, ← EReal.coe_mul, ← EReal.coe_sub]
  refine ⟨by rw [lhs, rhs, key], ?_⟩
  refine ⟨_, ?_, rhs⟩
  rw [← key]
  exact var_nonneg h _ N hN

/-- Adding a positive real to a real that is not negative and taking the inverse square root gives a real. -/
theorem inv_real {v e : ℝ} (hv : 0 ≤ v) (he : 0 < e) : IsReal (Ideal.rsqrt ((v : EReal) + (e : EReal))) := by
  rw [← EReal.coe_add]; exact IsReal.rsqrt_pos (by positivity)

/-- The perceptron's entries are reals when its inputs are. -/
theorem pre_real {n di dk : Nat} (X A : (⟨2, ![n, di]⟩ : Shape).Idx → EReal) (W1 : (⟨2, ![di, dk]⟩ : Shape).Idx → EReal)
    (b1 : Fin dk → EReal) (W2 : (⟨2, ![dk, dk]⟩ : Shape).Idx → EReal) (b2 : Fin dk → EReal)
    (hX : ∀ i, IsReal (X i)) (hA : ∀ i, IsReal (A i)) (hW1 : ∀ i, IsReal (W1 i)) (hb1 : ∀ k, IsReal (b1 k))
    (hW2 : ∀ i, IsReal (W2 i)) (hb2 : ∀ k, IsReal (b2 k)) (r : Fin n) (j : Fin dk) : IsReal (pre X A W1 b1 W2 b2 r j) := by
  unfold pre
  refine IsReal.add (IsReal.sum _ _ fun k _ => IsReal.mul (IsReal.max (IsReal.add (IsReal.sum _ _ fun c _ =>
    IsReal.mul (IsReal.add (hX _) (hA _)) (hW1 _)) (hb1 k)) IsReal.zero) (hW2 _)) (hb2 j)

/-- A normalised entry is a real when its five ingredients are. -/
theorem bnrelu_real {h mean inv g b : EReal} (hh : IsReal h) (hm : IsReal mean) (hi : IsReal inv) (hg : IsReal g)
    (hb : IsReal b) : IsReal (bnrelu h mean inv g b) :=
  IsReal.max (IsReal.add (IsReal.mul (IsReal.mul (IsReal.sub hh hm) hi) hg) hb) IsReal.zero

/-- One column of one layer: the normalised entry taken with the variance as mean of squares minus squared mean equals
    the one taken with the variance as mean of squared deviations (sums started from zero), when the column's values,
    the scale and the shift are reals; and it is a real. -/
theorem bn_agree {n : ℕ} (P : Fin n → EReal) (hP : ∀ r, IsReal (P r)) (N : ℝ) (hn : (n : ℝ) = N) (hN : 0 < N)
    (eps : EReal) (heps : ∃ e : ℝ, 0 < e ∧ eps = (e : EReal)) (g b : EReal) (hg : IsReal g) (hb : IsReal b) (r0 : Fin n) :
    bnrelu (P r0) (Ideal.div (∑ r, P r) (N : EReal))
        (Ideal.rsqrt (Ideal.div (∑ r, P r * P r) (N : EReal) - Ideal.div (∑ r, P r) (N : EReal) * Ideal.div (∑ r, P r) (N : EReal) + eps)) g b
      = bnrelu (P r0) (Ideal.div (0 + ∑ r, P r) (N : EReal))
        (Ideal.rsqrt (Ideal.div (0 + ∑ r, (P r - Ideal.div (0 + ∑ r, P r) (N : EReal)) * (P r - Ideal.div (0 + ∑ r, P r) (N : EReal))) (N : EReal) + eps)) g b
    ∧ IsReal (bnrelu (P r0) (Ideal.div (∑ r, P r) (N : EReal))
        (Ideal.rsqrt (Ideal.div (∑ r, P r * P r) (N : EReal) - Ideal.div (∑ r, P r) (N : EReal) * Ideal.div (∑ r, P r) (N : EReal) + eps)) g b) := by
  obtain ⟨hva, v, hv0, hv⟩ := var_agree P hP N hn hN
  obtain ⟨e, he, rfl⟩ := heps
  refine ⟨by rw [hva, zero_add], ?_⟩
  rw [hv]
  exact bnrelu_real (hP r0) ((IsReal.sum _ _ fun r _ => hP r).div_coe hN.ne') (inv_real hv0 he) hg hb

end Cert.Gin

end
-- ==== Proof.LibHostDot.lean ====
/-
  A host matrix product read at an index.

  The host's `dot_general` of an m×k matrix by a k×n matrix, contracting the first operand's second axis with the
  second operand's first axis and with no batch axis, read at row `a` and column `b` at the exact instance, is the sum
  over the contracted coordinate `c` of the products of the entries `(a, c)` and `(c, b)`.  Stated for the record
  spelt out with its well-formedness evidence as a variable, which is the shape a printed program's product records
  take once unfolded.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- The host product of an m×k by a k×n matrix at `(a, b)` is `∑ c, A (a, c) * B (c, b)`. -/
theorem hostDot_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.RefRead1.lean ====
/-
  Layer 1 of the reference read entry by entry: the perceptron's entry (r, j) as the double sum, a column's mean as its
  sum over the 20000 rows divided by 20000, its variance as the mean of the squared deviations from that mean (the
  guard "20000 − 0 > 0" holds), and a normalised entry from its five ingredients.
-/
import proofs.«137780_j52690658787578_1_alg».proof.Proof.RefStages
import proofs.«137780_j52690658787578_1_alg».proof.Proof.GinLayer
import proofs.«137780_j52690658787578_1_alg».proof.Proof.GinConsts
import proofs.«137780_j52690658787578_1_alg».proof.Proof.LibHostDot
import proofs.«137780_j52690658787578_1_alg».proof.Proof.LibRowBroadcast
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open Cert.LibHostDot Cert.LibRowBroadcast

/-- The perceptron of layer 1 at (r, j). -/
theorem pre1_apply (x a : FVec Ideal S20000x128 .f32) (w1 : FVec Ideal S128x128 .f32) (b1 : FVec Ideal S128 .f32)
    (w2 : FVec Ideal S128x128 .f32) (b2 : FVec Ideal S128 .f32) (r : Fin 20000) (j : Fin 128) :
    pre1 x a w1 b1 w2 b2 (ix2 r j) = Cert.Gin.pre x a w1 (fun k => b1 (ix1 k)) w2 (fun k => b2 (ix1 k)) r j := by
  unfold pre1 Cert.Gin.pre dot_S20000x128_S128x128_S20000x128_1_0_0_1_n_n
  rw [addf_apply, vec_down_apply, hostDot_nn_apply]
  congr 1
  refine Finset.sum_congr rfl fun k _ => ?_
  rw [maximumf_apply, addf_apply, hostDot_nn_apply, vec_down_apply, scalar_apply, constant_apply, Ideal.ofBits_zero_f32]
  rfl

/-- A column sum of the host's reduction over the rows: the start value plus the sum over the 20000 rows. -/
theorem colsum1_apply (p : FVec Ideal S20000x128 .f32) (j : Fin 128) :
    Host.reduceAdd p (constant (F := Ideal) S_ .f32 0x00000000#32) reducesTo_S20000x128_S128_d0 h_S_ (ix1 j)
      = 0 + ∑ r : Fin 20000, p (ix2 r j) := by
  have hred : S20000x128.Reduces [0] S128 := by
    obtain ⟨h1, h2⟩ := reducesTo_S20000x128_S128_d0
    exact ⟨h1, by decide, h2⟩
  unfold Host.reduceAdd
  rw [Ideal.hostReduceAdd_def, Ideal.hostReduceAdd_single _ hred, constant_apply, Ideal.ofBits_zero_f32]
  refine congrArg (fun z => (0 : EReal) + z) (Finset.sum_congr rfl fun k _ => congrArg p ?_)
  funext ax; apply Fin.ext
  match ax with
  | ⟨0, _⟩ => rfl
  | ⟨1, _⟩ => rfl

/-- The mean of column j. -/
theorem mean1_apply (p : FVec Ideal S20000x128 .f32) (j : Fin 128) :
    mean1 p (ix1 j) = Ideal.div (0 + ∑ r : Fin 20000, p (ix2 r j)) ((20000 : ℝ) : EReal) := by
  unfold mean1 Host.divf
  dsimp only
  rw [Ideal.hostDivf_def, colsum1_apply, scalar_apply, constant_apply, Cert.Gin.ofBits_20000]

/-- The variance of column j: the guard holds, so it is the mean of the squared deviations. -/
theorem var1_apply (p : FVec Ideal S20000x128 .f32) (j : Fin 128) :
    var1 p (ix1 j) = Ideal.div (0 + ∑ r : Fin 20000,
        (p (ix2 r j) - Ideal.div (0 + ∑ r : Fin 20000, p (ix2 r j)) ((20000 : ℝ) : EReal))
          * (p (ix2 r j) - Ideal.div (0 + ∑ r : Fin 20000, p (ix2 r j)) ((20000 : ℝ) : EReal))) ((20000 : ℝ) : EReal) := by
  unfold var1
  rw [select_apply, scalar_apply]
  have hg : (cmpf (F := Ideal) .ogt (subf (constant (F := Ideal) S_ .f32 0x469C4000#32) (sitofp (F := Ideal) .f32 (constantI S_ 32 0#32)))
      (constant (F := Ideal) S_ .f32 0x00000000#32)) ix0 = 1#1 := Cert.Gin.guard_20000
  rw [hg, select_one]
  unfold Host.divf
  beta_reduce
  rw [Ideal.hostDivf_def, colsum1_apply, scalar_apply, Cert.Gin.count_20000 bcast_S_S128]
  refine congrArg (fun z => Ideal.div ((0 : EReal) + z) ((20000 : ℝ) : EReal)) (Finset.sum_congr rfl fun r _ => ?_)
  rw [mulf_apply, subf_apply, row_down_apply, Ideal.hostDivf_def, vec_to_row_apply, colsum1_apply, scalar_apply, constant_apply,
    Cert.Gin.ofBits_20000]

/-- A normalised entry of layer 1 at (r, j). -/
theorem h1_apply (p : FVec Ideal S20000x128 .f32) (mu v g b : FVec Ideal S128 .f32) (r : Fin 20000) (j : Fin 128) :
    h1 p mu v g b (ix2 r j) = Cert.Gin.bnrelu (p (ix2 r j)) (mu (ix1 j))
      (Ideal.rsqrt (v (ix1 j) + Ideal.ofBits .f32 0x3727C5AC#32)) (g (ix1 j)) (b (ix1 j)) := by
  unfold h1 Cert.Gin.bnrelu
  rw [maximumf_apply, addf_apply, mulf_apply, mulf_apply, subf_apply, vec_down_apply, vec_down_apply, vec_down_apply,
    vec_down_apply, scalar_apply, constant_apply, Ideal.ofBits_zero_f32]
  unfold Host.rsqrt
  dsimp only
  rw [Ideal.hostUnary_rsqrt_def, addf_apply, scalar_apply, constant_apply]

end Cert.ReferenceIdeal.RefRead

end
-- ==== Proof.RefLayer1.lean ====
/-
  Layer 1 of the reference, entry by entry, as one normalised entry of the perceptron's column: with P r the
  perceptron's entry (r, j), entry (r, j) of the layer is the normalised P r against the column's mean and its variance
  taken as the mean of squared deviations.
-/
import proofs.«137780_j52690658787578_1_alg».proof.Proof.RefRead1

noncomputable section

namespace Cert.ReferenceIdeal.RefRead

open Cert.ReferenceIdeal Cert.ReferenceIdeal.Gen Cert.ReferenceIdeal.RefRun Idealize.ShloMosaic Idealize.ShloMosaic.ValueIdx

/-- Column j of the perceptron of layer 1, as a function of the row. -/
def col1 (x : FVec Ideal S20000x128 .f32) (s d : IVec S320000 32) (w1 : FVec Ideal S128x128 .f32) (b1 : FVec Ideal S128 .f32)
    (w2 : FVec Ideal S128x128 .f32) (b2 : FVec Ideal S128 .f32) (j : Fin 128) (r : Fin 20000) : EReal :=
  Cert.Gin.pre x (agg1 x s d) w1 (fun k => b1 (ix1 k)) w2 (fun k => b2 (ix1 k)) r j

/-- Entry (r, j) of layer 1. -/
theorem layer1_apply (x : FVec Ideal S20000x128 .f32) (s d : IVec S320000 32) (w1 : FVec Ideal S128x128 .f32) (b1 : FVec Ideal S128 .f32)
    (w2 : FVec Ideal S128x128 .f32) (b2 : FVec Ideal S128 .f32) (g b : FVec Ideal S128 .f32) (r : Fin 20000) (j : Fin 128) :
    layer1 x s d w1 b1 w2 b2 g b (ix2 r j)
      = Cert.Gin.bnrelu (col1 x s d w1 b1 w2 b2 j r)
          (Ideal.div (0 + ∑ r : Fin 20000, col1 x s d w1 b1 w2 b2 j r) ((20000 : ℝ) : EReal))
          (Ideal.rsqrt (Ideal.div (0 + ∑ r : Fin 20000,
              (col1 x s d w1 b1 w2 b2 j r - Ideal.div (0 + ∑ r : Fin 20000, col1 x s d w1 b1 w2 b2 j r) ((20000 : ℝ) : EReal))
                * (col1 x s d w1 b1 w2 b2 j r - Ideal.div (0 + ∑ r : Fin 20000, col1 x s d w1 b1 w2 b2 j r) ((20000 : ℝ) : EReal)))
              ((20000 : ℝ) : EReal) + Ideal.ofBits .f32 0x3727C5AC#32))
          (g (ix1 j)) (b (ix1 j)) := by
  have hcol : ∀ r' : Fin 20000, pre1 x (agg1 x s d) w1 b1 w2 b2 (ix2 r' j) = col1 x s d w1 b1 w2 b2 j r' :=
    fun r' => pre1_apply x (agg1 x s d) w1 b1 w2 b2 r' j
  unfold layer1
  rw [h1_apply, mean1_apply, var1_apply]
  simp only [hcol]

end Cert.ReferenceIdeal.RefRead

end
-- ==== Proof.RefRead2.lean ====
/-
  Layer 2 of the reference read entry by entry: the perceptron's entry (r, j) as the double sum, a column's mean as its
  sum over the 20000 rows divided by 20000, its variance as the mean of the squared deviations from that mean (the
  guard "20000 − 0 > 0" holds), and a normalised entry from its five ingredients.
-/
import proofs.«137780_j52690658787578_1_alg».proof.Proof.RefStages
import proofs.«137780_j52690658787578_1_alg».proof.Proof.GinLayer
import proofs.«137780_j52690658787578_1_alg».proof.Proof.GinConsts
import proofs.«137780_j52690658787578_1_alg».proof.Proof.LibHostDot
import proofs.«137780_j52690658787578_1_alg».proof.Proof.LibRowBroadcast
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open Cert.LibHostDot Cert.LibRowBroadcast

/-- The perceptron of layer 2 at (r, j). -/
theorem pre2_apply (x a : FVec Ideal S20000x128 .f32) (w1 : FVec Ideal S128x256 .f32) (b1 : FVec Ideal S256 .f32)
    (w2 : FVec Ideal S256x256 .f32) (b2 : FVec Ideal S256 .f32) (r : Fin 20000) (j : Fin 256) :
    pre2 x a w1 b1 w2 b2 (ix2 r j) = Cert.Gin.pre x a w1 (fun k => b1 (ix1 k)) w2 (fun k => b2 (ix1 k)) r j := by
  unfold pre2 Cert.Gin.pre dot_S20000x128_S128x256_S20000x256_1_0_0_1_n_n dot_S20000x256_S256x256_S20000x256_1_0_0_1_n_n
  rw [addf_apply, vec_down_apply, hostDot_nn_apply]
  congr 1
  refine Finset.sum_congr rfl fun k _ => ?_
  rw [maximumf_apply, addf_apply, hostDot_nn_apply, vec_down_apply, scalar_apply, constant_apply, Ideal.ofBits_zero_f32]
  rfl

/-- A column sum of the host's reduction over the rows: the start value plus the sum over the 20000 rows. -/
theorem colsum2_apply (p : FVec Ideal S20000x256 .f32) (j : Fin 256) :
    Host.reduceAdd p (constant (F := Ideal) S_ .f32 0x00000000#32) reducesTo_S20000x256_S256_d0 h_S_ (ix1 j)
      = 0 + ∑ r : Fin 20000, p (ix2 r j) := by
  have hred : S20000x256.Reduces [0] S256 := by
    obtain ⟨h1, h2⟩ := reducesTo_S20000x256_S256_d0
    exact ⟨h1, by decide, h2⟩
  unfold Host.reduceAdd
  rw [Ideal.hostReduceAdd_def, Ideal.hostReduceAdd_single _ hred, constant_apply, Ideal.ofBits_zero_f32]
  refine congrArg (fun z => (0 : EReal) + z) (Finset.sum_congr rfl fun k _ => congrArg p ?_)
  funext ax; apply Fin.ext
  match ax with
  | ⟨0, _⟩ => rfl
  | ⟨1, _⟩ => rfl

/-- The mean of column j. -/
theorem mean2_apply (p : FVec Ideal S20000x256 .f32) (j : Fin 256) :
    mean2 p (ix1 j) = Ideal.div (0 + ∑ r : Fin 20000, p (ix2 r j)) ((20000 : ℝ) : EReal) := by
  unfold mean2 Host.divf
  dsimp only
  rw [Ideal.hostDivf_def, colsum2_apply, scalar_apply, constant_apply, Cert.Gin.ofBits_20000]

/-- The variance of column j: the guard holds, so it is the mean of the squared deviations. -/
theorem var2_apply (p : FVec Ideal S20000x256 .f32) (j : Fin 256) :
    var2 p (ix1 j) = Ideal.div (0 + ∑ r : Fin 20000,
        (p (ix2 r j) - Ideal.div (0 + ∑ r : Fin 20000, p (ix2 r j)) ((20000 : ℝ) : EReal))
          * (p (ix2 r j) - Ideal.div (0 + ∑ r : Fin 20000, p (ix2 r j)) ((20000 : ℝ) : EReal))) ((20000 : ℝ) : EReal) := by
  unfold var2
  rw [select_apply, scalar_apply]
  have hg : (cmpf (F := Ideal) .ogt (subf (constant (F := Ideal) S_ .f32 0x469C4000#32) (sitofp (F := Ideal) .f32 (constantI S_ 32 0#32)))
      (constant (F := Ideal) S_ .f32 0x00000000#32)) ix0 = 1#1 := Cert.Gin.guard_20000
  rw [hg, select_one]
  unfold Host.divf
  beta_reduce
  rw [Ideal.hostDivf_def, colsum2_apply, scalar_apply, Cert.Gin.count_20000 bcast_S_S256]
  refine congrArg (fun z => Ideal.div ((0 : EReal) + z) ((20000 : ℝ) : EReal)) (Finset.sum_congr rfl fun r _ => ?_)
  rw [mulf_apply, subf_apply, row_down_apply, Ideal.hostDivf_def, vec_to_row_apply, colsum2_apply, scalar_apply, constant_apply,
    Cert.Gin.ofBits_20000]

/-- A normalised entry of layer 2 at (r, j). -/
theorem h2_apply (p : FVec Ideal S20000x256 .f32) (mu v g b : FVec Ideal S256 .f32) (r : Fin 20000) (j : Fin 256) :
    h2 p mu v g b (ix2 r j) = Cert.Gin.bnrelu (p (ix2 r j)) (mu (ix1 j))
      (Ideal.rsqrt (v (ix1 j) + Ideal.ofBits .f32 0x3727C5AC#32)) (g (ix1 j)) (b (ix1 j)) := by
  unfold h2 Cert.Gin.bnrelu
  rw [maximumf_apply, addf_apply, mulf_apply, mulf_apply, subf_apply, vec_down_apply, vec_down_apply, vec_down_apply,
    vec_down_apply, scalar_apply, constant_apply, Ideal.ofBits_zero_f32]
  unfold Host.rsqrt
  dsimp only
  rw [Ideal.hostUnary_rsqrt_def, addf_apply, scalar_apply, constant_apply]

end Cert.ReferenceIdeal.RefRead

end
-- ==== Proof.RefLayer2.lean ====
/-
  Layer 2 of the reference, entry by entry, as one normalised entry of the perceptron's column: with P r the
  perceptron's entry (r, j), entry (r, j) of the layer is the normalised P r against the column's mean and its variance
  taken as the mean of squared deviations.
-/
import proofs.«137780_j52690658787578_1_alg».proof.Proof.RefRead2

noncomputable section

namespace Cert.ReferenceIdeal.RefRead

open Cert.ReferenceIdeal Cert.ReferenceIdeal.Gen Cert.ReferenceIdeal.RefRun Idealize.ShloMosaic Idealize.ShloMosaic.ValueIdx

/-- Column j of the perceptron of layer 2, as a function of the row. -/
def col2 (x : FVec Ideal S20000x128 .f32) (s d : IVec S320000 32) (w1 : FVec Ideal S128x256 .f32) (b1 : FVec Ideal S256 .f32)
    (w2 : FVec Ideal S256x256 .f32) (b2 : FVec Ideal S256 .f32) (j : Fin 256) (r : Fin 20000) : EReal :=
  Cert.Gin.pre x (agg2 x s d) w1 (fun k => b1 (ix1 k)) w2 (fun k => b2 (ix1 k)) r j

/-- Entry (r, j) of layer 2. -/
theorem layer2_apply (x : FVec Ideal S20000x128 .f32) (s d : IVec S320000 32) (w1 : FVec Ideal S128x256 .f32) (b1 : FVec Ideal S256 .f32)
    (w2 : FVec Ideal S256x256 .f32) (b2 : FVec Ideal S256 .f32) (g b : FVec Ideal S256 .f32) (r : Fin 20000) (j : Fin 256) :
    layer2 x s d w1 b1 w2 b2 g b (ix2 r j)
      = Cert.Gin.bnrelu (col2 x s d w1 b1 w2 b2 j r)
          (Ideal.div (0 + ∑ r : Fin 20000, col2 x s d w1 b1 w2 b2 j r) ((20000 : ℝ) : EReal))
          (Ideal.rsqrt (Ideal.div (0 + ∑ r : Fin 20000,
              (col2 x s d w1 b1 w2 b2 j r - Ideal.div (0 + ∑ r : Fin 20000, col2 x s d w1 b1 w2 b2 j r) ((20000 : ℝ) : EReal))
                * (col2 x s d w1 b1 w2 b2 j r - Ideal.div (0 + ∑ r : Fin 20000, col2 x s d w1 b1 w2 b2 j r) ((20000 : ℝ) : EReal)))
              ((20000 : ℝ) : EReal) + Ideal.ofBits .f32 0x3727C5AC#32))
          (g (ix1 j)) (b (ix1 j)) := by
  have hcol : ∀ r' : Fin 20000, pre2 x (agg2 x s d) w1 b1 w2 b2 (ix2 r' j) = col2 x s d w1 b1 w2 b2 j r' :=
    fun r' => pre2_apply x (agg2 x s d) w1 b1 w2 b2 r' j
  unfold layer2
  rw [h2_apply, mean2_apply, var2_apply]
  simp only [hcol]

end Cert.ReferenceIdeal.RefRead

end
-- ==== Proof.RefRead3.lean ====
/-
  Layer 3 of the reference read entry by entry: the perceptron's entry (r, j) as the double sum, a column's mean as its
  sum over the 20000 rows divided by 20000, its variance as the mean of the squared deviations from that mean (the
  guard "20000 − 0 > 0" holds), and a normalised entry from its five ingredients.
-/
import proofs.«137780_j52690658787578_1_alg».proof.Proof.RefStages
import proofs.«137780_j52690658787578_1_alg».proof.Proof.GinLayer
import proofs.«137780_j52690658787578_1_alg».proof.Proof.GinConsts
import proofs.«137780_j52690658787578_1_alg».proof.Proof.LibHostDot
import proofs.«137780_j52690658787578_1_alg».proof.Proof.LibRowBroadcast
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open Cert.LibHostDot Cert.LibRowBroadcast

/-- The perceptron of layer 3 at (r, j). -/
theorem pre3_apply (x a : FVec Ideal S20000x256 .f32) (w1 : FVec Ideal S256x512 .f32) (b1 : FVec Ideal S512 .f32)
    (w2 : FVec Ideal S512x512 .f32) (b2 : FVec Ideal S512 .f32) (r : Fin 20000) (j : Fin 512) :
    pre3 x a w1 b1 w2 b2 (ix2 r j) = Cert.Gin.pre x a w1 (fun k => b1 (ix1 k)) w2 (fun k => b2 (ix1 k)) r j := by
  unfold pre3 Cert.Gin.pre dot_S20000x256_S256x512_S20000x512_1_0_0_1_n_n dot_S20000x512_S512x512_S20000x512_1_0_0_1_n_n
  rw [addf_apply, vec_down_apply, hostDot_nn_apply]
  congr 1
  refine Finset.sum_congr rfl fun k _ => ?_
  rw [maximumf_apply, addf_apply, hostDot_nn_apply, vec_down_apply, scalar_apply, constant_apply, Ideal.ofBits_zero_f32]
  rfl

/-- A column sum of the host's reduction over the rows: the start value plus the sum over the 20000 rows. -/
theorem colsum3_apply (p : FVec Ideal S20000x512 .f32) (j : Fin 512) :
    Host.reduceAdd p (constant (F := Ideal) S_ .f32 0x00000000#32) reducesTo_S20000x512_S512_d0 h_S_ (ix1 j)
      = 0 + ∑ r : Fin 20000, p (ix2 r j) := by
  have hred : S20000x512.Reduces [0] S512 := by
    obtain ⟨h1, h2⟩ := reducesTo_S20000x512_S512_d0
    exact ⟨h1, by decide, h2⟩
  unfold Host.reduceAdd
  rw [Ideal.hostReduceAdd_def, Ideal.hostReduceAdd_single _ hred, constant_apply, Ideal.ofBits_zero_f32]
  refine congrArg (fun z => (0 : EReal) + z) (Finset.sum_congr rfl fun k _ => congrArg p ?_)
  funext ax; apply Fin.ext
  match ax with
  | ⟨0, _⟩ => rfl
  | ⟨1, _⟩ => rfl

/-- The mean of column j. -/
theorem mean3_apply (p : FVec Ideal S20000x512 .f32) (j : Fin 512) :
    mean3 p (ix1 j) = Ideal.div (0 + ∑ r : Fin 20000, p (ix2 r j)) ((20000 : ℝ) : EReal) := by
  unfold mean3 Host.divf
  dsimp only
  rw [Ideal.hostDivf_def, colsum3_apply, scalar_apply, constant_apply, Cert.Gin.ofBits_20000]

/-- The variance of column j: the guard holds, so it is the mean of the squared deviations. -/
theorem var3_apply (p : FVec Ideal S20000x512 .f32) (j : Fin 512) :
    var3 p (ix1 j) = Ideal.div (0 + ∑ r : Fin 20000,
        (p (ix2 r j) - Ideal.div (0 + ∑ r : Fin 20000, p (ix2 r j)) ((20000 : ℝ) : EReal))
          * (p (ix2 r j) - Ideal.div (0 + ∑ r : Fin 20000, p (ix2 r j)) ((20000 : ℝ) : EReal))) ((20000 : ℝ) : EReal) := by
  unfold var3
  rw [select_apply, scalar_apply]
  have hg : (cmpf (F := Ideal) .ogt (subf (constant (F := Ideal) S_ .f32 0x469C4000#32) (sitofp (F := Ideal) .f32 (constantI S_ 32 0#32)))
      (constant (F := Ideal) S_ .f32 0x00000000#32)) ix0 = 1#1 := Cert.Gin.guard_20000
  rw [hg, select_one]
  unfold Host.divf
  beta_reduce
  rw [Ideal.hostDivf_def, colsum3_apply, scalar_apply, Cert.Gin.count_20000 bcast_S_S512]
  refine congrArg (fun z => Ideal.div ((0 : EReal) + z) ((20000 : ℝ) : EReal)) (Finset.sum_congr rfl fun r _ => ?_)
  rw [mulf_apply, subf_apply, row_down_apply, Ideal.hostDivf_def, vec_to_row_apply, colsum3_apply, scalar_apply, constant_apply,
    Cert.Gin.ofBits_20000]

/-- A normalised entry of layer 3 at (r, j). -/
theorem h3_apply (p : FVec Ideal S20000x512 .f32) (mu v g b : FVec Ideal S512 .f32) (r : Fin 20000) (j : Fin 512) :
    h3 p mu v g b (ix2 r j) = Cert.Gin.bnrelu (p (ix2 r j)) (mu (ix1 j))
      (Ideal.rsqrt (v (ix1 j) + Ideal.ofBits .f32 0x3727C5AC#32)) (g (ix1 j)) (b (ix1 j)) := by
  unfold h3 Cert.Gin.bnrelu
  rw [maximumf_apply, addf_apply, mulf_apply, mulf_apply, subf_apply, vec_down_apply, vec_down_apply, vec_down_apply,
    vec_down_apply, scalar_apply, constant_apply, Ideal.ofBits_zero_f32]
  unfold Host.rsqrt
  dsimp only
  rw [Ideal.hostUnary_rsqrt_def, addf_apply, scalar_apply, constant_apply]

end Cert.ReferenceIdeal.RefRead

end
-- ==== Proof.RefLayer3.lean ====
/-
  Layer 3 of the reference, entry by entry, as one normalised entry of the perceptron's column: with P r the
  perceptron's entry (r, j), entry (r, j) of the layer is the normalised P r against the column's mean and its variance
  taken as the mean of squared deviations.
-/
import proofs.«137780_j52690658787578_1_alg».proof.Proof.RefRead3

noncomputable section

namespace Cert.ReferenceIdeal.RefRead

open Cert.ReferenceIdeal Cert.ReferenceIdeal.Gen Cert.ReferenceIdeal.RefRun Idealize.ShloMosaic Idealize.ShloMosaic.ValueIdx

/-- Column j of the perceptron of layer 3, as a function of the row. -/
def col3 (x : FVec Ideal S20000x256 .f32) (s d : IVec S320000 32) (w1 : FVec Ideal S256x512 .f32) (b1 : FVec Ideal S512 .f32)
    (w2 : FVec Ideal S512x512 .f32) (b2 : FVec Ideal S512 .f32) (j : Fin 512) (r : Fin 20000) : EReal :=
  Cert.Gin.pre x (agg3 x s d) w1 (fun k => b1 (ix1 k)) w2 (fun k => b2 (ix1 k)) r j

/-- Entry (r, j) of layer 3. -/
theorem layer3_apply (x : FVec Ideal S20000x256 .f32) (s d : IVec S320000 32) (w1 : FVec Ideal S256x512 .f32) (b1 : FVec Ideal S512 .f32)
    (w2 : FVec Ideal S512x512 .f32) (b2 : FVec Ideal S512 .f32) (g b : FVec Ideal S512 .f32) (r : Fin 20000) (j : Fin 512) :
    layer3 x s d w1 b1 w2 b2 g b (ix2 r j)
      = Cert.Gin.bnrelu (col3 x s d w1 b1 w2 b2 j r)
          (Ideal.div (0 + ∑ r : Fin 20000, col3 x s d w1 b1 w2 b2 j r) ((20000 : ℝ) : EReal))
          (Ideal.rsqrt (Ideal.div (0 + ∑ r : Fin 20000,
              (col3 x s d w1 b1 w2 b2 j r - Ideal.div (0 + ∑ r : Fin 20000, col3 x s d w1 b1 w2 b2 j r) ((20000 : ℝ) : EReal))
                * (col3 x s d w1 b1 w2 b2 j r - Ideal.div (0 + ∑ r : Fin 20000, col3 x s d w1 b1 w2 b2 j r) ((20000 : ℝ) : EReal)))
              ((20000 : ℝ) : EReal) + Ideal.ofBits .f32 0x3727C5AC#32))
          (g (ix1 j)) (b (ix1 j)) := by
  have hcol : ∀ r' : Fin 20000, pre3 x (agg3 x s d) w1 b1 w2 b2 (ix2 r' j) = col3 x s d w1 b1 w2 b2 j r' :=
    fun r' => pre3_apply x (agg3 x s d) w1 b1 w2 b2 r' j
  unfold layer3
  rw [h3_apply, mean3_apply, var3_apply]
  simp only [hcol]

end Cert.ReferenceIdeal.RefRead

end
-- ==== Proof.Bridge.lean ====
/-
  The bridge: the value the kernel program returns is the reference's result of the same arguments, when every float
  argument is real-valued.

  Layer by layer. Both programs form the same neighbourhood sums and the same perceptron of each row; the kernel
  program then normalises a column with the variance "mean of squares minus squared mean", from sums accumulated block
  by block, the reference with the variance "mean of squared deviations". On real values the two agree, the normalised
  entries are reals again, and so the next layer starts from equal real-valued arrays. The closing stretch (pooling by
  graph, a linear layer and a clip) is the same chain of operations in both programs, applied to equal arrays.
-/
import proofs.«137780_j52690658787578_1_alg».proof.Proof.KLayer1
import proofs.«137780_j52690658787578_1_alg».proof.Proof.KLayer2
import proofs.«137780_j52690658787578_1_alg».proof.Proof.KLayer3
import proofs.«137780_j52690658787578_1_alg».proof.Proof.KHost6
import proofs.«137780_j52690658787578_1_alg».proof.Proof.Shared
import proofs.«137780_j52690658787578_1_alg».proof.Proof.RefLayer1
import proofs.«137780_j52690658787578_1_alg».proof.Proof.RefLayer2
import proofs.«137780_j52690658787578_1_alg».proof.Proof.RefLayer3
import proofs.«137780_j52690658787578_1_alg».proof.Proof.GinLayer
import proofs.«137780_j52690658787578_1_alg».proof.Proof.GinConsts

noncomputable section

namespace Cert.Bridge

open Cert.KernelIdeal Cert.KernelIdeal.Gen Cert.KernelIdeal.HostValue Cert.KernelIdeal.LayerValue
open Idealize.ShloMosaic Idealize.ShloMosaic.TcCoe Idealize.ShloMosaic.ValueIdx Idealize.SL.Sem Cert.Gin

variable (m : (ℓ : Loc nD τ sig) → Buf (Elt Ideal) ℓ) (ρ : Dev nD → PrngReg) (c : Dev nD)

/-- Layer 1: the array the kernel program leaves is the reference's layer of the same operands, and it is real-valued. -/
theorem layer1_eq (h0 : ∀ i, IsReal ((m ((c : Thread nD τ).loc main_arg0)) i)) (h3 : ∀ i, IsReal ((m ((c : Thread nD τ).loc main_arg3)) i)) (h4 : ∀ i, IsReal ((m ((c : Thread nD τ).loc main_arg4)) i)) (h5 : ∀ i, IsReal ((m ((c : Thread nD τ).loc main_arg5)) i)) (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)) :
    (V4 m ρ c (Pipeline.arrRef spec1 5) : Cert.ReferenceIdeal.S20000x128.Idx → EReal)
        = Cert.ReferenceIdeal.RefRun.layer1 (m ((c : Thread nD τ).loc main_arg0)) (Cert.ReferenceIdeal.RefRun.src (m ((c : Thread nD τ).loc main_arg1))) (Cert.ReferenceIdeal.RefRun.dst (m ((c : Thread nD τ).loc main_arg1)))
            (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ ∀ i, IsReal (V4 m ρ c (Pipeline.arrRef spec1 5) i) := by
  have key : ∀ (r : Fin 20000) (j : Fin 128),
      V4 m ρ c (Pipeline.arrRef spec1 5) (ix2 r j)
          = Cert.ReferenceIdeal.RefRun.layer1 (m ((c : Thread nD τ).loc main_arg0)) (Cert.ReferenceIdeal.RefRun.src (m ((c : Thread nD τ).loc main_arg1))) (Cert.ReferenceIdeal.RefRun.dst (m ((c : Thread nD τ).loc main_arg1)))
              (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r j)
        ∧ IsReal (V4 m ρ c (Pipeline.arrRef spec1 5) (ix2 r j)) := by
    intro r j
    have hcol : ∀ r' : Fin 20000, Cert.ReferenceIdeal.RefRead.col1 (m ((c : Thread nD τ).loc main_arg0)) (Cert.ReferenceIdeal.RefRun.src (m ((c : Thread nD τ).loc main_arg1))) (Cert.ReferenceIdeal.RefRun.dst (m ((c : Thread nD τ).loc main_arg1)))
        (m ((c : Thread nD τ).loc main_arg3)) (m ((c : Thread nD τ).loc main_arg4)) (m ((c : Thread nD τ).loc main_arg5)) (m ((c : Thread nD τ).loc main_arg6)) j r' = PK1 m ρ c r' j := fun r' => by
      unfold Cert.ReferenceIdeal.RefRead.col1 PK1
      rw [Cert.Shared.agg128_eq]
    have hP : ∀ r' : Fin 20000, IsReal (PK1 m ρ c r' j) := fun r' => by
      rw [← hcol r']
      exact pre_real _ _ _ _ _ _ h0 (Cert.Shared.agg1_real _ _ _ h0) h3 (fun k => h4 _) h5 (fun k => h6 _) r' j
    rw [k1_apply m ρ c r j, Cert.ReferenceIdeal.RefRead.layer1_apply]
    simp only [hcol]
    exact bn_agree (fun r' => PK1 m ρ c r' j) hP 20000 (by norm_num) (by norm_num) _ ofBits_eps _ _ (h7 _) (h8 _) r
  refine ⟨funext fun i => ?_, fun i => ?_⟩
  · obtain ⟨r, j, rfl⟩ : ∃ (r : Fin 20000) (j : Fin 128), i = ix2 r j := ⟨i 0, i 1, eq_ix2 i⟩
    exact (key r j).1
  · obtain ⟨r, j, rfl⟩ : ∃ (r : Fin 20000) (j : Fin 128), i = ix2 r j := ⟨i 0, i 1, eq_ix2 i⟩
    exact (key r j).2

/-- Layer 2: the array the kernel program leaves is the reference's layer of the same operands, and it is real-valued. -/
theorem layer2_eq (hx : ∀ i, IsReal ((V4 m ρ c (Pipeline.arrRef spec1 5)) i)) (h9 : ∀ i, IsReal ((m ((c : Thread nD τ).loc main_arg9)) i)) (h10 : ∀ i, IsReal ((m ((c : Thread nD τ).loc main_arg10)) i)) (h11 : ∀ i, IsReal ((m ((c : Thread nD τ).loc main_arg11)) i)) (h12 : ∀ i, IsReal ((m ((c : Thread nD τ).loc main_arg12)) i)) (h13 : ∀ i, IsReal ((m ((c : Thread nD τ).loc main_arg13)) i)) (h14 : ∀ i, IsReal ((m ((c : Thread nD τ).loc main_arg14)) i)) :
    (V8 m ρ c (Pipeline.arrRef spec3 5) : Cert.ReferenceIdeal.S20000x256.Idx → EReal)
        = Cert.ReferenceIdeal.RefRun.layer2 (V4 m ρ c (Pipeline.arrRef spec1 5)) (Cert.ReferenceIdeal.RefRun.src (m ((c : Thread nD τ).loc main_arg1))) (Cert.ReferenceIdeal.RefRun.dst (m ((c : Thread nD τ).loc main_arg1)))
            (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ ∀ i, IsReal (V8 m ρ c (Pipeline.arrRef spec3 5) i) := by
  have key : ∀ (r : Fin 20000) (j : Fin 256),
      V8 m ρ c (Pipeline.arrRef spec3 5) (ix2 r j)
          = Cert.ReferenceIdeal.RefRun.layer2 (V4 m ρ c (Pipeline.arrRef spec1 5)) (Cert.ReferenceIdeal.RefRun.src (m ((c : Thread nD τ).loc main_arg1))) (Cert.ReferenceIdeal.RefRun.dst (m ((c : Thread nD τ).loc main_arg1)))
              (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 r j)
        ∧ IsReal (V8 m ρ c (Pipeline.arrRef spec3 5) (ix2 r j)) := by
    intro r j
    have hcol : ∀ r' : Fin 20000, Cert.ReferenceIdeal.RefRead.col2 (V4 m ρ c (Pipeline.arrRef spec1 5)) (Cert.ReferenceIdeal.RefRun.src (m ((c : Thread nD τ).loc main_arg1))) (Cert.ReferenceIdeal.RefRun.dst (m ((c : Thread nD τ).loc main_arg1)))
        (m ((c : Thread nD τ).loc main_arg9)) (m ((c : Thread nD τ).loc main_arg10)) (m ((c : Thread nD τ).loc main_arg11)) (m ((c : Thread nD τ).loc main_arg12)) j r' = PK2 m ρ c r' j := fun r' => by
      unfold Cert.ReferenceIdeal.RefRead.col2 PK2
      rw [Cert.Shared.agg128_eq2]
    have hP : ∀ r' : Fin 20000, IsReal (PK2 m ρ c r' j) := fun r' => by
      rw [← hcol r']
      exact pre_real _ _ _ _ _ _ hx (Cert.Shared.agg2_real _ _ _ hx) h9 (fun k => h10 _) h11 (fun k => h12 _) r' j
    rw [k2_apply m ρ c r j, Cert.ReferenceIdeal.RefRead.layer2_apply]
    simp only [hcol]
    exact bn_agree (fun r' => PK2 m ρ c r' j) hP 20000 (by norm_num) (by norm_num) _ ofBits_eps _ _ (h13 _) (h14 _) r
  refine ⟨funext fun i => ?_, fun i => ?_⟩
  · obtain ⟨r, j, rfl⟩ : ∃ (r : Fin 20000) (j : Fin 256), i = ix2 r j := ⟨i 0, i 1, eq_ix2 i⟩
    exact (key r j).1
  · obtain ⟨r, j, rfl⟩ : ∃ (r : Fin 20000) (j : Fin 256), i = ix2 r j := ⟨i 0, i 1, eq_ix2 i⟩
    exact (key r j).2

/-- Layer 3: the array the kernel program leaves is the reference's layer of the same operands, and it is real-valued. -/
theorem layer3_eq (hx : ∀ i, IsReal ((V8 m ρ c (Pipeline.arrRef spec3 5)) i)) (h15 : ∀ i, IsReal ((m ((c : Thread nD τ).loc main_arg15)) i)) (h16 : ∀ i, IsReal ((m ((c : Thread nD τ).loc main_arg16)) i)) (h17 : ∀ i, IsReal ((m ((c : Thread nD τ).loc main_arg17)) i)) (h18 : ∀ i, IsReal ((m ((c : Thread nD τ).loc main_arg18)) i)) (h19 : ∀ i, IsReal ((m ((c : Thread nD τ).loc main_arg19)) i)) (h20 : ∀ i, IsReal ((m ((c : Thread nD τ).loc main_arg20)) i)) :
    (V12 m ρ c (Pipeline.arrRef spec5 5) : Cert.ReferenceIdeal.S20000x512.Idx → EReal)
        = Cert.ReferenceIdeal.RefRun.layer3 (V8 m ρ c (Pipeline.arrRef spec3 5)) (Cert.ReferenceIdeal.RefRun.src (m ((c : Thread nD τ).loc main_arg1))) (Cert.ReferenceIdeal.RefRun.dst (m ((c : Thread nD τ).loc main_arg1)))
            (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
      ∧ ∀ i, IsReal (V12 m ρ c (Pipeline.arrRef spec5 5) i) := by
  have key : ∀ (r : Fin 20000) (j : Fin 512),
      V12 m ρ c (Pipeline.arrRef spec5 5) (ix2 r j)
          = Cert.ReferenceIdeal.RefRun.layer3 (V8 m ρ c (Pipeline.arrRef spec3 5)) (Cert.ReferenceIdeal.RefRun.src (m ((c : Thread nD τ).loc main_arg1))) (Cert.ReferenceIdeal.RefRun.dst (m ((c : Thread nD τ).loc main_arg1)))
              (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (ix2 r j)
        ∧ IsReal (V12 m ρ c (Pipeline.arrRef spec5 5) (ix2 r j)) := by
    intro r j
    have hcol : ∀ r' : Fin 20000, Cert.ReferenceIdeal.RefRead.col3 (V8 m ρ c (Pipeline.arrRef spec3 5)) (Cert.ReferenceIdeal.RefRun.src (m ((c : Thread nD τ).loc main_arg1))) (Cert.ReferenceIdeal.RefRun.dst (m ((c : Thread nD τ).loc main_arg1)))
        (m ((c : Thread nD τ).loc main_arg15)) (m ((c : Thread nD τ).loc main_arg16)) (m ((c : Thread nD τ).loc main_arg17)) (m ((c : Thread nD τ).loc main_arg18)) j r' = PK3 m ρ c r' j := fun r' => by
      unfold Cert.ReferenceIdeal.RefRead.col3 PK3
      rw [Cert.Shared.agg256_eq]
    have hP : ∀ r' : Fin 20000, IsReal (PK3 m ρ c r' j) := fun r' => by
      rw [← hcol r']
      exact pre_real _ _ _ _ _ _ hx (Cert.Shared.agg3_real _ _ _ hx) h15 (fun k => h16 _) h17 (fun k => h18 _) r' j
    rw [k3_apply m ρ c r j, Cert.ReferenceIdeal.RefRead.layer3_apply]
    simp only [hcol]
    exact bn_agree (fun r' => PK3 m ρ c r' j) hP 20000 (by norm_num) (by norm_num) _ ofBits_eps _ _ (h19 _) (h20 _) r
  refine ⟨funext fun i => ?_, fun i => ?_⟩
  · obtain ⟨r, j, rfl⟩ : ∃ (r : Fin 20000) (j : Fin 512), i = ix2 r j := ⟨i 0, i 1, eq_ix2 i⟩
    exact (key r j).1
  · obtain ⟨r, j, rfl⟩ : ∃ (r : Fin 20000) (j : Fin 512), i = ix2 r j := ⟨i 0, i 1, eq_ix2 i⟩
    exact (key r j).2

/-- The kernel program's result is the reference's result of the same arguments. -/
theorem result_eq
    (hreal : (∀ i, ∃ r : ℝ, m ((c.tc : Thread nD τ).loc main_arg0) i = (r : EReal)) ∧
      (∀ i, ∃ r : ℝ, m ((c.tc : Thread nD τ).loc main_arg3) i = (r : EReal)) ∧
      (∀ i, ∃ r : ℝ, m ((c.tc : Thread nD τ).loc main_arg4) i = (r : EReal)) ∧
      (∀ i, ∃ r : ℝ, m ((c.tc : Thread nD τ).loc main_arg5) i = (r : EReal)) ∧
      (∀ i, ∃ r : ℝ, m ((c.tc : Thread nD τ).loc main_arg6) i = (r : EReal)) ∧
      (∀ i, ∃ r : ℝ, m ((c.tc : Thread nD τ).loc main_arg7) i = (r : EReal)) ∧
      (∀ i, ∃ r : ℝ, m ((c.tc : Thread nD τ).loc main_arg8) i = (r : EReal)) ∧
      (∀ i, ∃ r : ℝ, m ((c.tc : Thread nD τ).loc main_arg9) i = (r : EReal)) ∧
      (∀ i, ∃ r : ℝ, m ((c.tc : Thread nD τ).loc main_arg10) i = (r : EReal)) ∧
      (∀ i, ∃ r : ℝ, m ((c.tc : Thread nD τ).loc main_arg11) i = (r : EReal)) ∧
      (∀ i, ∃ r : ℝ, m ((c.tc : Thread nD τ).loc main_arg12) i = (r : EReal)) ∧
      (∀ i, ∃ r : ℝ, m ((c.tc : Thread nD τ).loc main_arg13) i = (r : EReal)) ∧
      (∀ i, ∃ r : ℝ, m ((c.tc : Thread nD τ).loc main_arg14) i = (r : EReal)) ∧
      (∀ i, ∃ r : ℝ, m ((c.tc : Thread nD τ).loc main_arg15) i = (r : EReal)) ∧
      (∀ i, ∃ r : ℝ, m ((c.tc : Thread nD τ).loc main_arg16) i = (r : EReal)) ∧
      (∀ i, ∃ r : ℝ, m ((c.tc : Thread nD τ).loc main_arg17) i = (r : EReal)) ∧
      (∀ i, ∃ r : ℝ, m ((c.tc : Thread nD τ).loc main_arg18) i = (r : EReal)) ∧
      (∀ i, ∃ r : ℝ, m ((c.tc : Thread nD τ).loc main_arg19) i = (r : EReal)) ∧
      (∀ i, ∃ r : ℝ, m ((c.tc : Thread nD τ).loc main_arg20) i = (r : EReal)) ∧
      (∀ i, ∃ r : ℝ, m ((c.tc : Thread nD τ).loc main_arg21) i = (r : EReal)) ∧
      (∀ i, ∃ r : ℝ, m ((c.tc : Thread nD τ).loc main_arg22) i = (r : EReal))) :
    W13 m ρ c (Proc.devRef .tc main_v108)
      = Cert.ReferenceIdeal.RefRun.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  obtain ⟨h0, h3, h4, h5, h6, h7, h8, h9, h10, h11, h12, h13, h14, h15, h16, h17, h18, h19, h20, _, _⟩ := hreal
  obtain ⟨e1, r1⟩ := layer1_eq m ρ c h0 h3 h4 h5 h6 h7 h8
  obtain ⟨e2, r2⟩ := layer2_eq m ρ c r1 h9 h10 h11 h12 h13 h14
  obtain ⟨e3, _⟩ := layer3_eq m ρ c r2 h15 h16 h17 h18 h19 h20
  rw [W13_result m ρ c, Cert.Shared.tail_eq]
  unfold Cert.ReferenceIdeal.RefRun.result
  refine congrArg (fun z => Cert.ReferenceIdeal.RefRun.out z _ _ _) ?_
  rw [e3, e2, e1]

end Cert.Bridge

end
-- ==== Proof.Assemble.lean ====
/-
  The five claims, assembled.

  The kernel program and its idealization run, nothing faulting, and leave their argument arrays as launched; so
  does the idealized reference (its run with the result named, the result forgotten). The idealization rewrote no
  operation, so there is nothing to preserve. For the last claim: the idealized kernel program ends with its result
  buffer holding a fixed function of its launch memory; the idealized reference ends with its result holding the
  three-layer network and pooled read-out applied to its twenty-three arguments. The two memories agree on the
  arguments, the precondition makes every floating-point argument an array of reals, and on real arguments the kernel
  program's function is that same network (the bridge: per layer, the mean of squared deviations equals the mean of
  squares minus the squared mean, which holds for reals). Hence the two results are equal, element by element.
-/
import proofs.«137780_j52690658787578_1_alg».proof.Defs
import proofs.«137780_j52690658787578_1_alg».proof.Proof.Gen.Kernel
import proofs.«137780_j52690658787578_1_alg».proof.Proof.Gen.Kernel.Frame
import proofs.«137780_j52690658787578_1_alg».proof.Proof.Gen.KernelIdeal
import proofs.«137780_j52690658787578_1_alg».proof.Proof.Gen.KernelIdeal.Frame
import proofs.«137780_j52690658787578_1_alg».proof.Proof.Gen.ReferenceIdeal
import proofs.«137780_j52690658787578_1_alg».proof.Proof.Gen.Pre_finite_inputs
import proofs.«137780_j52690658787578_1_alg».proof.Proof.KRun
import proofs.«137780_j52690658787578_1_alg».proof.Proof.RefStages
import proofs.«137780_j52690658787578_1_alg».proof.Proof.PreReal
import proofs.«137780_j52690658787578_1_alg».proof.Proof.RefRun
import proofs.«137780_j52690658787578_1_alg».proof.Proof.Bridge

noncomputable section

open Idealize.ShloMosaic Idealize.ShloMosaic.TcCoe Idealize.SL.Sem

namespace Cert.Proof.GinClaims

/-- The kernel program runs, nothing faulting, and leaves its argument arrays as launched. -/
theorem frame_p : Cert.frame_Kernel := fun m ρ _ => Cert.Kernel.Gen.frame m ρ

/-- The idealized kernel program runs, nothing faulting, and leaves its argument arrays as launched. -/
theorem frame_pi : Cert.frame_KernelIdeal := fun m ρ _ => Cert.KernelIdeal.Gen.frame m ρ

/-- The idealized reference runs, nothing faulting, and leaves its argument arrays as launched: its run with the
    result named, the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation: there is nothing to preserve. -/
theorem preserves : Cert.preserves_Kernel_KernelIdeal := trivial

/-- From memories that agree on the twenty-three arguments both idealized programs run and end with the same
    result: the kernel program's result is the reference's network applied to its own arguments (finite by the
    precondition, hence real), and the reference's arguments are the kernel program's. -/
theorem algebraic : Cert.algebraic_KernelIdeal_ReferenceIdeal := by
  intro m ρ m' ρ' hpre hagree
  refine ⟨fun c => Cert.KernelIdeal.Gen.W13 m ρ c (Proc.devRef .tc Cert.KernelIdeal.main_v108),
    Cert.KernelIdeal.HostValue.run_named m ρ, ?_⟩
  refine (θ_run Cert.ReferenceIdeal.defs _ _).mono (fun _ h c => ⟨(h c).1.trans ?_, (h c).2⟩)
    (Cert.ReferenceIdeal.RefRun.run m' ρ')
  rw [(hagree c).1,
    (hagree c).2.1,
    (hagree c).2.2.1,
    (hagree c).2.2.2.1,
    (hagree c).2.2.2.2.1,
    (hagree c).2.2.2.2.2.1,
    (hagree c).2.2.2.2.2.2.1,
    (hagree c).2.2.2.2.2.2.2.1,
    (hagree c).2.2.2.2.2.2.2.2.1,
    (hagree c).2.2.2.2.2.2.2.2.2.1,
    (hagree c).2.2.2.2.2.2.2.2.2.2.1,
    (hagree c).2.2.2.2.2.2.2.2.2.2.2.1,
    (hagree c).2.2.2.2.2.2.2.2.2.2.2.2.1,
    (hagree c).2.2.2.2.2.2.2.2.2.2.2.2.2.1,
    (hagree c).2.2.2.2.2.2.2.2.2.2.2.2.2.2.1,
    (hagree c).2.2.2.2.2.2.2.2.2.2.2.2.2.2.2.1,
    (hagree c).2.2.2.2.2.2.2.2.2.2.2.2.2.2.2.2.1,
    (hagree c).2.2.2.2.2.2.2.2.2.2.2.2.2.2.2.2.2.1,
    (hagree c).2.2.2.2.2.2.2.2.2.2.2.2.2.2.2.2.2.2.1,
    (hagree c).2.2.2.2.2.2.2.2.2.2.2.2.2.2.2.2.2.2.2.1,
    (hagree c).2.2.2.2.2.2.2.2.2.2.2.2.2.2.2.2.2.2.2.2.1,
    (hagree c).2.2.2.2.2.2.2.2.2.2.2.2.2.2.2.2.2.2.2.2.2.1,
    (hagree c).2.2.2.2.2.2.2.2.2.2.2.2.2.2.2.2.2.2.2.2.2.2]
  exact (Cert.Bridge.result_eq m ρ c
    (Cert.Pre_finite_inputs.Decode.real_of_pre _ _ _ _ _ _ _ _ _ _ _ _ _ _ _ _ _ _ _ _ _ _ _ (hpre c))).symm

end Cert.Proof.GinClaims

end
-- ==== Proof.lean ====
/-
  The certificate of a three-layer graph network with batch normalisation.

  Each layer adds to every node's features the sum of its in-neighbours' features, applies a two-layer perceptron with a
  clip at zero, normalises every column over the 20000 nodes by its mean and variance, scales, shifts and clips at zero;
  the last layer's features are averaged per graph and passed through a linear layer and a clip.

  The kernel program computes the perceptron block by block (1000 rows per block) and accumulates, across the blocks,
  each column's sum and sum of squares; it takes the variance as (mean of squares) − (mean)². The reference takes it
  as the mean of the squared deviations from the mean. On the extended reals the two differ at infinite values, and
  agree on real ones: with μ = (Σ h) / n, Σ (h − μ)² = Σ h² − n μ². The inputs being finite, every intermediate value
  is a real (sums, products, maxima of reals; the variance is not negative, so the inverse square root of the variance
  plus a positive constant is a real), and so the two programs return the same array. Everything else — the
  neighbourhood sums, the pooling and the last linear layer — is the same chain of operations in both programs; the
  block-by-block sums are regrouped by associativity and commutativity of addition alone.

  The three frames: the kernel program's two readings by their generated frames; the reference's by its run, read
  operation by operation. The idealization rewrote nothing, so it is preserved trivially.
-/
import proofs.«137780_j52690658787578_1_alg».proof.Defs
import proofs.«137780_j52690658787578_1_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.GinClaims.frame_p, Cert.Proof.GinClaims.frame_pi, Cert.Proof.GinClaims.frame_ri,
    Cert.Proof.GinClaims.preserves, Cert.Proof.GinClaims.algebraic⟩

end Cert.Proof

end
